-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v29)) (v2 : (c : Dev Cert.KernelIdeal.nD) → Buf (Elt Ideal) ((c.tc : Thread Cert.KernelIdeal.nD Cert.KernelIdeal.τ).loc Cert.KernelIdeal.main_v59)) (v3 : (c : Dev Cert.KernelIdeal.nD) → Buf (Elt Ideal) ((c.tc : Thread Cert.KernelIdeal.nD Cert.KernelIdeal.τ).loc Cert.KernelIdeal.main_v89)) (v4 : (c : Dev Cert.KernelIdeal.nD) → Buf (Elt Ideal) ((c.tc : Thread Cert.KernelIdeal.nD Cert.KernelIdeal.τ).loc Cert.KernelIdeal.main_v119)) (v5 : (c : Dev Cert.KernelIdeal.nD) → Buf (Elt Ideal) ((c.tc : Thread Cert.KernelIdeal.nD Cert.KernelIdeal.τ).loc Cert.KernelIdeal.main_v149)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_v59) = v2 c
          ∧ r.2.mem ((c.tc : Thread Cert.KernelIdeal.nD Cert.KernelIdeal.τ).loc Cert.KernelIdeal.main_v89) = v3 c
          ∧ r.2.mem ((c.tc : Thread Cert.KernelIdeal.nD Cert.KernelIdeal.τ).loc Cert.KernelIdeal.main_v119) = v4 c
          ∧ r.2.mem ((c.tc : Thread Cert.KernelIdeal.nD Cert.KernelIdeal.τ).loc Cert.KernelIdeal.main_v149) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v101) = v2 c
          ∧ r.2.mem ((c.tc : Thread Cert.ReferenceIdeal.nD Cert.ReferenceIdeal.τ).loc Cert.ReferenceIdeal.main_v152) = v3 c
          ∧ r.2.mem ((c.tc : Thread Cert.ReferenceIdeal.nD Cert.ReferenceIdeal.τ).loc Cert.ReferenceIdeal.main_v203) = v4 c
          ∧ r.2.mem ((c.tc : Thread Cert.ReferenceIdeal.nD Cert.ReferenceIdeal.τ).loc Cert.ReferenceIdeal.main_v254) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S5 : Shape := ⟨1, ![5]⟩
abbrev S5x128x128 : Shape := ⟨3, ![5, 128, 128]⟩
abbrev S5x128 : Shape := ⟨2, ![5, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S5 : S_.BroadcastsInDim S5 (![] : Fin 0 → Fin S5.rank)
  reducesTo_S5_S_d0 : S5.ReducesTo [0] S_
  bcast_S_S5x128x128 : S_.BroadcastsInDim S5x128x128 (![] : Fin 0 → Fin S5x128x128.rank)
  reducesTo_S5x128x128_S_d0_1_2 : S5x128x128.ReducesTo [0, 1, 2] S_
  bcast_S_S5x128 : S_.BroadcastsInDim S5x128 (![] : Fin 0 → Fin S5x128.rank)
  reducesTo_S5x128_S_d0_1 : S5x128.ReducesTo [0, 1] S_

variable [Facts]

def fn_part2 {F : FTy → Type} [FloatOps F] (main_arg9 : FVec F S5x128 .f32) (main_arg10 : FVec F S5x128 .f32) (main_arg11 : FVec F S5x128 .f32) (main_v33 : IVec S_ 1) : IVec S_ 1 :=
  let main_v34 : FVec F S5x128 .f32 := Host.absf main_arg9
  let main_cst_12 : FVec F S_ .f32 := constant S_ .f32 0x7F800000#32
  let main_v35 : FVec F S5x128 .f32 := broadcastInDim S5x128 ![] bcast_S_S5x128 main_cst_12
  let main_v36 : IVec S5x128 1 := cmpf .olt main_v34 main_v35
  let main_c_13 : IVec S_ 1 := constantI S_ 1 1#1
  let main_v37 : IVec S_ 1 := (fun x v => Host.reduce IntOp.andi x v reducesTo_S5x128_S_d0_1 h_S_) main_v36 main_c_13
  let main_v38 : IVec S_ 1 := andi main_v33 main_v37
  let main_v39 : FVec F S5x128 .f32 := Host.absf main_arg10
  let main_cst_14 : FVec F S_ .f32 := constant S_ .f32 0x7F800000#32
  let main_v40 : FVec F S5x128 .f32 := broadcastInDim S5x128 ![] bcast_S_S5x128 main_cst_14
  let main_v41 : IVec S5x128 1 := cmpf .olt main_v39 main_v40
  let main_c_15 : IVec S_ 1 := constantI S_ 1 1#1
  let main_v42 : IVec S_ 1 := (fun x v => Host.reduce IntOp.andi x v reducesTo_S5x128_S_d0_1 h_S_) main_v41 main_c_15
  let main_v43 : IVec S_ 1 := andi main_v38 main_v42
  let main_v44 : FVec F S5x128 .f32 := Host.absf main_arg11
  let main_cst_16 : FVec F S_ .f32 := constant S_ .f32 0x7F800000#32
  let main_v45 : FVec F S5x128 .f32 := broadcastInDim S5x128 ![] bcast_S_S5x128 main_cst_16
  let main_v46 : IVec S5x128 1 := cmpf .olt main_v44 main_v45
  let main_c_17 : IVec S_ 1 := constantI S_ 1 1#1
  let main_v47 : IVec S_ 1 := (fun x v => Host.reduce IntOp.andi x v reducesTo_S5x128_S_d0_1 h_S_) main_v46 main_c_17
  let main_v48 : IVec S_ 1 := andi main_v43 main_v47
  main_v48

def fn_part1 {F : FTy → Type} [FloatOps F] (main_arg6 : FVec F S5x128x128 .f32) (main_arg7 : FVec F S5x128 .f32) (main_arg8 : FVec F S5x128 .f32) (main_arg9 : FVec F S5x128 .f32) (main_arg10 : FVec F S5x128 .f32) (main_arg11 : FVec F S5x128 .f32) (main_v13 : IVec S_ 1) (main_v16 : IVec S5x128 1) : IVec S_ 1 :=
  let main_c_5 : IVec S_ 1 := constantI S_ 1 1#1
  let main_v17 : IVec S_ 1 := (fun x v => Host.reduce IntOp.andi x v reducesTo_S5x128_S_d0_1 h_S_) main_v16 main_c_5
  let main_v18 : IVec S_ 1 := andi main_v13 main_v17
  let main_v19 : FVec F S5x128x128 .f32 := Host.absf main_arg6
  let main_cst_6 : FVec F S_ .f32 := constant S_ .f32 0x7F800000#32
  let main_v20 : FVec F S5x128x128 .f32 := broadcastInDim S5x128x128 ![] bcast_S_S5x128x128 main_cst_6
  let main_v21 : IVec S5x128x128 1 := cmpf .olt main_v19 main_v20
  let main_c_7 : IVec S_ 1 := constantI S_ 1 1#1
  let main_v22 : IVec S_ 1 := (fun x v => Host.reduce IntOp.andi x v reducesTo_S5x128x128_S_d0_1_2 h_S_) main_v21 main_c_7
  let main_v23 : IVec S_ 1 := andi main_v18 main_v22
  let main_v24 : FVec F S5x128 .f32 := Host.absf main_arg7
  let main_cst_8 : FVec F S_ .f32 := constant S_ .f32 0x7F800000#32
  let main_v25 : FVec F S5x128 .f32 := broadcastInDim S5x128 ![] bcast_S_S5x128 main_cst_8
  let main_v26 : IVec S5x128 1 := cmpf .olt main_v24 main_v25
  let main_c_9 : IVec S_ 1 := constantI S_ 1 1#1
  let main_v27 : IVec S_ 1 := (fun x v => Host.reduce IntOp.andi x v reducesTo_S5x128_S_d0_1 h_S_) main_v26 main_c_9
  let main_v28 : IVec S_ 1 := andi main_v23 main_v27
  let main_v29 : FVec F S5x128 .f32 := Host.absf main_arg8
  let main_cst_10 : FVec F S_ .f32 := constant S_ .f32 0x7F800000#32
  let main_v30 : FVec F S5x128 .f32 := broadcastInDim S5x128 ![] bcast_S_S5x128 main_cst_10
  let main_v31 : IVec S5x128 1 := cmpf .olt main_v29 main_v30
  let main_c_11 : IVec S_ 1 := constantI S_ 1 1#1
  let main_v32 : IVec S_ 1 := (fun x v => Host.reduce IntOp.andi x v reducesTo_S5x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S800000 32) (main_arg2 : IVec S800000 32) (main_arg3 : FVec F S5 .f32) (main_arg4 : FVec F S5x128x128 .f32) (main_arg5 : FVec F S5x128 .f32) (main_arg6 : FVec F S5x128x128 .f32) (main_arg7 : FVec F S5x128 .f32) (main_arg8 : FVec F S5x128 .f32) (main_arg9 : FVec F S5x128 .f32) (main_arg10 : FVec F S5x128 .f32) (main_arg11 : FVec F S5x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S5 .f32 := Host.absf main_arg3
  let main_cst_0 : FVec F S_ .f32 := constant S_ .f32 0x7F800000#32
  let main_v5 : FVec F S5 .f32 := broadcastInDim S5 ![] bcast_S_S5 main_cst_0
  let main_v6 : IVec S5 1 := cmpf .olt main_v4 main_v5
  let main_c_1 : IVec S_ 1 := constantI S_ 1 1#1
  let main_v7 : IVec S_ 1 := (fun x v => Host.reduce IntOp.andi x v reducesTo_S5_S_d0 h_S_) main_v6 main_c_1
  let main_v8 : IVec S_ 1 := andi main_v3 main_v7
  let main_v9 : FVec F S5x128x128 .f32 := Host.absf main_arg4
  let main_cst_2 : FVec F S_ .f32 := constant S_ .f32 0x7F800000#32
  let main_v10 : FVec F S5x128x128 .f32 := broadcastInDim S5x128x128 ![] bcast_S_S5x128x128 main_cst_2
  let main_v11 : IVec S5x128x128 1 := cmpf .olt main_v9 main_v10
  let main_c_3 : IVec S_ 1 := constantI S_ 1 1#1
  let main_v12 : IVec S_ 1 := (fun x v => Host.reduce IntOp.andi x v reducesTo_S5x128x128_S_d0_1_2 h_S_) main_v11 main_c_3
  let main_v13 : IVec S_ 1 := andi main_v8 main_v12
  let main_v14 : FVec F S5x128 .f32 := Host.absf main_arg5
  let main_cst_4 : FVec F S_ .f32 := constant S_ .f32 0x7F800000#32
  let main_v15 : FVec F S5x128 .f32 := broadcastInDim S5x128 ![] bcast_S_S5x128 main_cst_4
  let main_v16 : IVec S5x128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S800000 : Shape := ⟨1, ![800000]⟩
abbrev S5 : Shape := ⟨1, ![5]⟩
abbrev S5x128x128 : Shape := ⟨3, ![5, 128, 128]⟩
abbrev S5x128 : Shape := ⟨2, ![5, 128]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩

abbrev nBuf : Space → Nat
  | .hbm => 277
  | .vmem => 75
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S5, .f32⟩
  | 4 => ⟨S5x128x128, .f32⟩
  | 5 => ⟨S5x128, .f32⟩
  | 6 => ⟨S5x128x128, .f32⟩
  | 7 => ⟨S5x128, .f32⟩
  | 8 => ⟨S5x128, .f32⟩
  | 9 => ⟨S5x128, .f32⟩
  | 10 => ⟨S5x128, .f32⟩
  | 11 => ⟨S5x128, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S1, .i32⟩
  | 21 => ⟨S_, .i32⟩
  | 22 => ⟨S800000x1, .i32⟩
  | 23 => ⟨S800000x1, .i1⟩
  | 24 => ⟨S1x1, .i32⟩
  | 25 => ⟨S800000x1, .i32⟩
  | 26 => ⟨S800000x1, .i1⟩
  | 27 => ⟨S800000x1, .i1⟩
  | 28 => ⟨S_, .i1⟩
  | 29 => ⟨S800000, .i1⟩
  | 30 => ⟨S800000x128, .f32⟩
  | 31 => ⟨S800000x128, .i1⟩
  | 32 => ⟨S_, .f32⟩
  | 33 => ⟨S800000x128, .f32⟩
  | 34 => ⟨S800000x128, .f32⟩
  | 35 => ⟨S_, .f32⟩
  | 36 => ⟨S50000x128, .f32⟩
  | 37 => ⟨S800000x1, .i32⟩
  | 38 => ⟨S50000x128, .f32⟩
  | 39 => ⟨S1, .f32⟩
  | 40 => ⟨S_, .f32⟩
  | 41 => ⟨S1x128x128, .f32⟩
  | 42 => ⟨S128x128, .f32⟩
  | 43 => ⟨S1x128, .f32⟩
  | 44 => ⟨S128, .f32⟩
  | 45 => ⟨S1x128x128, .f32⟩
  | 46 => ⟨S128x128, .f32⟩
  | 47 => ⟨S1x128, .f32⟩
  | 48 => ⟨S128, .f32⟩
  | 49 => ⟨S1x128, .f32⟩
  | 50 => ⟨S128, .f32⟩
  | 51 => ⟨S1x128, .f32⟩
  | 52 => ⟨S128, .f32⟩
  | 53 => ⟨S1x128, .f32⟩
  | 54 => ⟨S128, .f32⟩
  | 55 => ⟨S1x128, .f32⟩
  | 56 => ⟨S128, .f32⟩
  | 57 => ⟨S1x1, .f32⟩
  | 58 => ⟨S1x128, .f32⟩
  | 59 => ⟨S1x128, .f32⟩
  | 60 => ⟨S1x128, .f32⟩
  | 61 => ⟨S1x128, .f32⟩
  | 62 => ⟨S1x128, .f32⟩
  | 63 => ⟨S1x128, .f32⟩
  | 64 => ⟨S50000x128, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S1, .i32⟩
  | 74 => ⟨S_, .i32⟩
  | 75 => ⟨S800000x1, .i32⟩
  | 76 => ⟨S800000x1, .i1⟩
  | 77 => ⟨S1x1, .i32⟩
  | 78 => ⟨S800000x1, .i32⟩
  | 79 => ⟨S800000x1, .i1⟩
  | 80 => ⟨S800000x1, .i1⟩
  | 81 => ⟨S_, .i1⟩
  | 82 => ⟨S800000, .i1⟩
  | 83 => ⟨S800000x128, .f32⟩
  | 84 => ⟨S800000x128, .i1⟩
  | 85 => ⟨S_, .f32⟩
  | 86 => ⟨S800000x128, .f32⟩
  | 87 => ⟨S800000x128, .f32⟩
  | 88 => ⟨S_, .f32⟩
  | 89 => ⟨S50000x128, .f32⟩
  | 90 => ⟨S800000x1, .i32⟩
  | 91 => ⟨S50000x128, .f32⟩
  | 92 => ⟨S1, .f32⟩
  | 93 => ⟨S_, .f32⟩
  | 94 => ⟨S1x128x128, .f32⟩
  | 95 => ⟨S128x128, .f32⟩
  | 96 => ⟨S1x128, .f32⟩
  | 97 => ⟨S128, .f32⟩
  | 98 => ⟨S1x128x128, .f32⟩
  | 99 => ⟨S128x128, .f32⟩
  | 100 => ⟨S1x128, .f32⟩
  | 101 => ⟨S128, .f32⟩
  | 102 => ⟨S1x128, .f32⟩
  | 103 => ⟨S128, .f32⟩
  | 104 => ⟨S1x128, .f32⟩
  | 105 => ⟨S128, .f32⟩
  | 106 => ⟨S1x128, .f32⟩
  | 107 => ⟨S128, .f32⟩
  | 108 => ⟨S1x128, .f32⟩
  | 109 => ⟨S128, .f32⟩
  | 110 => ⟨S1x1, .f32⟩
  | 111 => ⟨S1x128, .f32⟩
  | 112 => ⟨S1x128, .f32⟩
  | 113 => ⟨S1x128, .f32⟩
  | 114 => ⟨S1x128, .f32⟩
  | 115 => ⟨S1x128, .f32⟩
  | 116 => ⟨S1x128, .f32⟩
  | 117 => ⟨S50000x128, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S1, .i32⟩
  | 127 => ⟨S_, .i32⟩
  | _ => ⟨S50000x128, .f32⟩

abbrev hbmTy0_1 (i : Nat) : BufTy := match i % 128 with
  | 0 => ⟨S800000x1, .i32⟩
  | 1 => ⟨S800000x1, .i1⟩
  | 2 => ⟨S1x1, .i32⟩
  | 3 => ⟨S800000x1, .i32⟩
  | 4 => ⟨S800000x1, .i1⟩
  | 5 => ⟨S800000x1, .i1⟩
  | 6 => ⟨S_, .i1⟩
  | 7 => ⟨S800000, .i1⟩
  | 8 => ⟨S800000x128, .f32⟩
  | 9 => ⟨S800000x128, .i1⟩
  | 10 => ⟨S_, .f32⟩
  | 11 => ⟨S800000x128, .f32⟩
  | 12 => ⟨S800000x128, .f32⟩
  | 13 => ⟨S_, .f32⟩
  | 14 => ⟨S50000x128, .f32⟩
  | 15 => ⟨S800000x1, .i32⟩
  | 16 => ⟨S50000x128, .f32⟩
  | 17 => ⟨S1, .f32⟩
  | 18 => ⟨S_, .f32⟩
  | 19 => ⟨S1x128x128, .f32⟩
  | 20 => ⟨S128x128, .f32⟩
  | 21 => ⟨S1x128, .f32⟩
  | 22 => ⟨S128, .f32⟩
  | 23 => ⟨S1x128x128, .f32⟩
  | 24 => ⟨S128x128, .f32⟩
  | 25 => ⟨S1x128, .f32⟩
  | 26 => ⟨S128, .f32⟩
  | 27 => ⟨S1x128, .f32⟩
  | 28 => ⟨S128, .f32⟩
  | 29 => ⟨S1x128, .f32⟩
  | 30 => ⟨S128, .f32⟩
  | 31 => ⟨S1x128, .f32⟩
  | 32 => ⟨S128, .f32⟩
  | 33 => ⟨S1x128, .f32⟩
  | 34 => ⟨S128, .f32⟩
  | 35 => ⟨S1x1, .f32⟩
  | 36 => ⟨S1x128, .f32⟩
  | 37 => ⟨S1x128, .f32⟩
  | 38 => ⟨S1x128, .f32⟩
  | 39 => ⟨S1x128, .f32⟩
  | 40 => ⟨S1x128, .f32⟩
  | 41 => ⟨S1x128, .f32⟩
  | 42 => ⟨S50000x128, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S1, .i32⟩
  | 52 => ⟨S_, .i32⟩
  | 53 => ⟨S800000x1, .i32⟩
  | 54 => ⟨S800000x1, .i1⟩
  | 55 => ⟨S1x1, .i32⟩
  | 56 => ⟨S800000x1, .i32⟩
  | 57 => ⟨S800000x1, .i1⟩
  | 58 => ⟨S800000x1, .i1⟩
  | 59 => ⟨S_, .i1⟩
  | 60 => ⟨S800000, .i1⟩
  | 61 => ⟨S800000x128, .f32⟩
  | 62 => ⟨S800000x128, .i1⟩
  | 63 => ⟨S_, .f32⟩
  | 64 => ⟨S800000x128, .f32⟩
  | 65 => ⟨S800000x128, .f32⟩
  | 66 => ⟨S_, .f32⟩
  | 67 => ⟨S50000x128, .f32⟩
  | 68 => ⟨S800000x1, .i32⟩
  | 69 => ⟨S50000x128, .f32⟩
  | 70 => ⟨S1, .f32⟩
  | 71 => ⟨S_, .f32⟩
  | 72 => ⟨S1x128x128, .f32⟩
  | 73 => ⟨S128x128, .f32⟩
  | 74 => ⟨S1x128, .f32⟩
  | 75 => ⟨S128, .f32⟩
  | 76 => ⟨S1x128x128, .f32⟩
  | 77 => ⟨S128x128, .f32⟩
  | 78 => ⟨S1x128, .f32⟩
  | 79 => ⟨S128, .f32⟩
  | 80 => ⟨S1x128, .f32⟩
  | 81 => ⟨S128, .f32⟩
  | 82 => ⟨S1x128, .f32⟩
  | 83 => ⟨S128, .f32⟩
  | 84 => ⟨S1x128, .f32⟩
  | 85 => ⟨S128, .f32⟩
  | 86 => ⟨S1x128, .f32⟩
  | 87 => ⟨S128, .f32⟩
  | 88 => ⟨S1x1, .f32⟩
  | 89 => ⟨S1x128, .f32⟩
  | 90 => ⟨S1x128, .f32⟩
  | 91 => ⟨S1x128, .f32⟩
  | 92 => ⟨S1x128, .f32⟩
  | 93 => ⟨S1x128, .f32⟩
  | 94 => ⟨S1x128, .f32⟩
  | 95 => ⟨S50000x128, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S1, .i32⟩
  | 105 => ⟨S_, .i32⟩
  | 106 => ⟨S800000x1, .i32⟩
  | 107 => ⟨S800000x1, .i1⟩
  | 108 => ⟨S1x1, .i32⟩
  | 109 => ⟨S800000x1, .i32⟩
  | 110 => ⟨S800000x1, .i1⟩
  | 111 => ⟨S800000x1, .i1⟩
  | 112 => ⟨S_, .i1⟩
  | 113 => ⟨S800000, .i1⟩
  | 114 => ⟨S800000x128, .f32⟩
  | 115 => ⟨S800000x128, .i1⟩
  | 116 => ⟨S_, .f32⟩
  | 117 => ⟨S800000x128, .f32⟩
  | 118 => ⟨S800000x128, .f32⟩
  | 119 => ⟨S_, .f32⟩
  | 120 => ⟨S50000x128, .f32⟩
  | 121 => ⟨S800000x1, .i32⟩
  | 122 => ⟨S50000x128, .f32⟩
  | 123 => ⟨S1, .f32⟩
  | 124 => ⟨S_, .f32⟩
  | 125 => ⟨S1x128x128, .f32⟩
  | 126 => ⟨S128x128, .f32⟩
  | 127 => ⟨S1x128, .f32⟩
  | _ => ⟨S50000x128, .f32⟩

abbrev hbmTy0_2 (i : Nat) : BufTy := match i % 128 with
  | 0 => ⟨S128, .f32⟩
  | 1 => ⟨S1x128x128, .f32⟩
  | 2 => ⟨S128x128, .f32⟩
  | 3 => ⟨S1x128, .f32⟩
  | 4 => ⟨S128, .f32⟩
  | 5 => ⟨S1x128, .f32⟩
  | 6 => ⟨S128, .f32⟩
  | 7 => ⟨S1x128, .f32⟩
  | 8 => ⟨S128, .f32⟩
  | 9 => ⟨S1x128, .f32⟩
  | 10 => ⟨S128, .f32⟩
  | 11 => ⟨S1x128, .f32⟩
  | 12 => ⟨S128, .f32⟩
  | 13 => ⟨S1x1, .f32⟩
  | 14 => ⟨S1x128, .f32⟩
  | 15 => ⟨S1x128, .f32⟩
  | 16 => ⟨S1x128, .f32⟩
  | 17 => ⟨S1x128, .f32⟩
  | 18 => ⟨S1x128, .f32⟩
  | 19 => ⟨S1x128, .f32⟩
  | 20 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S1x1, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x1, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S1x1, .f32⟩
  | .local _ .vmem, ⟨35, _⟩ => ⟨S128x128, .f32⟩
  | .local _ .vmem, ⟨36, _⟩ => ⟨S1x128, .f32⟩
  | .local _ .vmem, ⟨37, _⟩ => ⟨S128x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S1x1, .f32⟩
  | .local _ .vmem, ⟨50, _⟩ => ⟨S128x128, .f32⟩
  | .local _ .vmem, ⟨51, _⟩ => ⟨S1x128, .f32⟩
  | .local _ .vmem, ⟨52, _⟩ => ⟨S128x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S1x1, .f32⟩
  | .local _ .vmem, ⟨65, _⟩ => ⟨S128x128, .f32⟩
  | .local _ .vmem, ⟨66, _⟩ => ⟨S1x128, .f32⟩
  | .local _ .vmem, ⟨67, _⟩ => ⟨S128x128, .f32⟩
  | .local _ .vmem, ⟨68, _⟩ => ⟨S1x128, .f32⟩
  | .local _ .vmem, ⟨69, _⟩ => ⟨S1x128, .f32⟩
  | .local _ .vmem, ⟨70, _⟩ => ⟨S1x128, .f32⟩
  | .local _ .vmem, ⟨71, _⟩ => ⟨S1x128, .f32⟩
  | .local _ .vmem, ⟨72, _⟩ => ⟨S1x128, .f32⟩
  | .local _ .vmem, ⟨73, _⟩ => ⟨S5000x128, .f32⟩
  | .local _ .vmem, ⟨74, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_cst : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_call1_c : Ref sig .tc := ⟨.hbm, 65, rfl⟩
abbrev main_call1_v0 : Ref sig .tc := ⟨.hbm, 66, rfl⟩
abbrev main_call1_v1 : Ref sig .tc := ⟨.hbm, 67, rfl⟩
abbrev main_call1_c_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_c_1 : Ref sig .tc := ⟨.hbm, 73, rfl⟩
abbrev main_call1_c_2 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_c_3 : Ref sig .tc := ⟨.hbm, 81, rfl⟩
abbrev main_call1_v12 : Ref sig .tc := ⟨.hbm, 82, rfl⟩
abbrev main_call1_v13 : Ref sig .tc := ⟨.hbm, 83, rfl⟩
abbrev main_call1_v14 : Ref sig .tc := ⟨.hbm, 84, rfl⟩
abbrev main_call1_cst : Ref sig .tc := ⟨.hbm, 85, rfl⟩
abbrev main_call1_v15 : Ref sig .tc := ⟨.hbm, 86, rfl⟩
abbrev main_v30 : Ref sig .tc := ⟨.hbm, 87, rfl⟩
abbrev main_cst_0 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_call2_c : Ref sig .tc := ⟨.hbm, 118, rfl⟩
abbrev main_call2_v0 : Ref sig .tc := ⟨.hbm, 119, rfl⟩
abbrev main_call2_v1 : Ref sig .tc := ⟨.hbm, 120, rfl⟩
abbrev main_call2_c_0 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_call2_v5 : Ref sig .tc := ⟨.hbm, 125, rfl⟩
abbrev main_call2_c_1 : Ref sig .tc := ⟨.hbm, 126, rfl⟩
abbrev main_call2_c_2 : Ref sig .tc := ⟨.hbm, 127, rfl⟩
abbrev main_call2_v6 : Ref sig .tc := ⟨.hbm, 128, rfl⟩
abbrev main_call2_v7 : Ref sig .tc := ⟨.hbm, 129, rfl⟩
abbrev main_call2_v8 : Ref sig .tc := ⟨.hbm, 130, rfl⟩
abbrev main_call2_v9 : Ref sig .tc := ⟨.hbm, 131, rfl⟩
abbrev main_call2_v10 : Ref sig .tc := ⟨.hbm, 132, rfl⟩
abbrev main_call2_v11 : Ref sig .tc := ⟨.hbm, 133, rfl⟩
abbrev main_call2_c_3 : Ref sig .tc := ⟨.hbm, 134, rfl⟩
abbrev main_call2_v12 : Ref sig .tc := ⟨.hbm, 135, rfl⟩
abbrev main_call2_v13 : Ref sig .tc := ⟨.hbm, 136, rfl⟩
abbrev main_call2_v14 : Ref sig .tc := ⟨.hbm, 137, rfl⟩
abbrev main_call2_cst : Ref sig .tc := ⟨.hbm, 138, rfl⟩
abbrev main_call2_v15 : Ref sig .tc := ⟨.hbm, 139, rfl⟩
abbrev main_v60 : Ref sig .tc := ⟨.hbm, 140, rfl⟩
abbrev main_cst_1 : Ref sig .tc := ⟨.hbm, 141, rfl⟩
abbrev main_v61 : Ref sig .tc := ⟨.hbm, 142, rfl⟩
abbrev main_v62 : Ref sig .tc := ⟨.hbm, 143, rfl⟩
abbrev main_v63 : Ref sig .tc := ⟨.hbm, 144, rfl⟩
abbrev main_v64 : Ref sig .tc := ⟨.hbm, 145, rfl⟩
abbrev main_v65 : Ref sig .tc := ⟨.hbm, 146, rfl⟩
abbrev main_v66 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_call3_c : Ref sig .tc := ⟨.hbm, 171, rfl⟩
abbrev main_call3_v0 : Ref sig .tc := ⟨.hbm, 172, rfl⟩
abbrev main_call3_v1 : Ref sig .tc := ⟨.hbm, 173, rfl⟩
abbrev main_call3_c_0 : Ref sig .tc := ⟨.hbm, 174, rfl⟩
abbrev main_call3_v2 : Ref sig .tc := ⟨.hbm, 175, rfl⟩
abbrev main_call3_v3 : Ref sig .tc := ⟨.hbm, 176, rfl⟩
abbrev main_call3_v4 : Ref sig .tc := ⟨.hbm, 177, rfl⟩
abbrev main_call3_v5 : Ref sig .tc := ⟨.hbm, 178, rfl⟩
abbrev main_call3_c_1 : Ref sig .tc := ⟨.hbm, 179, rfl⟩
abbrev main_call3_c_2 : Ref sig .tc := ⟨.hbm, 180, rfl⟩
abbrev main_call3_v6 : Ref sig .tc := ⟨.hbm, 181, rfl⟩
abbrev main_call3_v7 : Ref sig .tc := ⟨.hbm, 182, rfl⟩
abbrev main_call3_v8 : Ref sig .tc := ⟨.hbm, 183, rfl⟩
abbrev main_call3_v9 : Ref sig .tc := ⟨.hbm, 184, rfl⟩
abbrev main_call3_v10 : Ref sig .tc := ⟨.hbm, 185, rfl⟩
abbrev main_call3_v11 : Ref sig .tc := ⟨.hbm, 186, rfl⟩
abbrev main_call3_c_3 : Ref sig .tc := ⟨.hbm, 187, rfl⟩
abbrev main_call3_v12 : Ref sig .tc := ⟨.hbm, 188, rfl⟩
abbrev main_call3_v13 : Ref sig .tc := ⟨.hbm, 189, rfl⟩
abbrev main_call3_v14 : Ref sig .tc := ⟨.hbm, 190, rfl⟩
abbrev main_call3_cst : Ref sig .tc := ⟨.hbm, 191, rfl⟩
abbrev main_call3_v15 : Ref sig .tc := ⟨.hbm, 192, rfl⟩
abbrev main_v90 : Ref sig .tc := ⟨.hbm, 193, rfl⟩
abbrev main_cst_2 : Ref sig .tc := ⟨.hbm, 194, rfl⟩
abbrev main_v91 : Ref sig .tc := ⟨.hbm, 195, rfl⟩
abbrev main_v92 : Ref sig .tc := ⟨.hbm, 196, rfl⟩
abbrev main_v93 : Ref sig .tc := ⟨.hbm, 197, rfl⟩
abbrev main_v94 : Ref sig .tc := ⟨.hbm, 198, rfl⟩
abbrev main_v95 : Ref sig .tc := ⟨.hbm, 199, rfl⟩
abbrev main_v96 : Ref sig .tc := ⟨.hbm, 200, rfl⟩
abbrev main_v97 : Ref sig .tc := ⟨.hbm, 201, rfl⟩
abbrev main_v98 : Ref sig .tc := ⟨.hbm, 202, rfl⟩
abbrev main_v99 : Ref sig .tc := ⟨.hbm, 203, rfl⟩
abbrev main_v100 : Ref sig .tc := ⟨.hbm, 204, rfl⟩
abbrev main_v101 : Ref sig .tc := ⟨.hbm, 205, rfl⟩
abbrev main_v102 : Ref sig .tc := ⟨.hbm, 206, rfl⟩
abbrev main_v103 : Ref sig .tc := ⟨.hbm, 207, rfl⟩
abbrev main_v104 : Ref sig .tc := ⟨.hbm, 208, rfl⟩
abbrev main_v105 : Ref sig .tc := ⟨.hbm, 209, rfl⟩
abbrev main_v106 : Ref sig .tc := ⟨.hbm, 210, rfl⟩
abbrev main_v107 : Ref sig .tc := ⟨.hbm, 211, rfl⟩
abbrev main_v108 : Ref sig .tc := ⟨.hbm, 212, rfl⟩
abbrev main_v109 : Ref sig .tc := ⟨.hbm, 213, rfl⟩
abbrev main_v110 : Ref sig .tc := ⟨.hbm, 214, rfl⟩
abbrev main_v111 : Ref sig .tc := ⟨.hbm, 215, rfl⟩
abbrev main_v112 : Ref sig .tc := ⟨.hbm, 216, rfl⟩
abbrev main_v113 : Ref sig .tc := ⟨.hbm, 217, rfl⟩
abbrev main_v114 : Ref sig .tc := ⟨.hbm, 218, rfl⟩
abbrev main_v115 : Ref sig .tc := ⟨.hbm, 219, rfl⟩
abbrev main_v116 : Ref sig .tc := ⟨.hbm, 220, rfl⟩
abbrev main_v117 : Ref sig .tc := ⟨.hbm, 221, rfl⟩
abbrev main_v118 : Ref sig .tc := ⟨.hbm, 222, rfl⟩
abbrev main_v119 : Ref sig .tc := ⟨.hbm, 223, rfl⟩
abbrev main_call4_c : Ref sig .tc := ⟨.hbm, 224, rfl⟩
abbrev main_call4_v0 : Ref sig .tc := ⟨.hbm, 225, rfl⟩
abbrev main_call4_v1 : Ref sig .tc := ⟨.hbm, 226, rfl⟩
abbrev main_call4_c_0 : Ref sig .tc := ⟨.hbm, 227, rfl⟩
abbrev main_call4_v2 : Ref sig .tc := ⟨.hbm, 228, rfl⟩
abbrev main_call4_v3 : Ref sig .tc := ⟨.hbm, 229, rfl⟩
abbrev main_call4_v4 : Ref sig .tc := ⟨.hbm, 230, rfl⟩
abbrev main_call4_v5 : Ref sig .tc := ⟨.hbm, 231, rfl⟩
abbrev main_call4_c_1 : Ref sig .tc := ⟨.hbm, 232, rfl⟩
abbrev main_call4_c_2 : Ref sig .tc := ⟨.hbm, 233, rfl⟩
abbrev main_call4_v6 : Ref sig .tc := ⟨.hbm, 234, rfl⟩
abbrev main_call4_v7 : Ref sig .tc := ⟨.hbm, 235, rfl⟩
abbrev main_call4_v8 : Ref sig .tc := ⟨.hbm, 236, rfl⟩
abbrev main_call4_v9 : Ref sig .tc := ⟨.hbm, 237, rfl⟩
abbrev main_call4_v10 : Ref sig .tc := ⟨.hbm, 238, rfl⟩
abbrev main_call4_v11 : Ref sig .tc := ⟨.hbm, 239, rfl⟩
abbrev main_call4_c_3 : Ref sig .tc := ⟨.hbm, 240, rfl⟩
abbrev main_call4_v12 : Ref sig .tc := ⟨.hbm, 241, rfl⟩
abbrev main_call4_v13 : Ref sig .tc := ⟨.hbm, 242, rfl⟩
abbrev main_call4_v14 : Ref sig .tc := ⟨.hbm, 243, rfl⟩
abbrev main_call4_cst : Ref sig .tc := ⟨.hbm, 244, rfl⟩
abbrev main_call4_v15 : Ref sig .tc := ⟨.hbm, 245, rfl⟩
abbrev main_v120 : Ref sig .tc := ⟨.hbm, 246, rfl⟩
abbrev main_cst_3 : Ref sig .tc := ⟨.hbm, 247, rfl⟩
abbrev main_v121 : Ref sig .tc := ⟨.hbm, 248, rfl⟩
abbrev main_v122 : Ref sig .tc := ⟨.hbm, 249, rfl⟩
abbrev main_v123 : Ref sig .tc := ⟨.hbm, 250, rfl⟩
abbrev main_v124 : Ref sig .tc := ⟨.hbm, 251, rfl⟩
abbrev main_v125 : Ref sig .tc := ⟨.hbm, 252, rfl⟩
abbrev main_v126 : Ref sig .tc := ⟨.hbm, 253, rfl⟩
abbrev main_v127 : Ref sig .tc := ⟨.hbm, 254, rfl⟩
abbrev main_v128 : Ref sig .tc := ⟨.hbm, 255, rfl⟩
abbrev main_v129 : Ref sig .tc := ⟨.hbm, 256, rfl⟩
abbrev main_v130 : Ref sig .tc := ⟨.hbm, 257, rfl⟩
abbrev main_v131 : Ref sig .tc := ⟨.hbm, 258, rfl⟩
abbrev main_v132 : Ref sig .tc := ⟨.hbm, 259, rfl⟩
abbrev main_v133 : Ref sig .tc := ⟨.hbm, 260, rfl⟩
abbrev main_v134 : Ref sig .tc := ⟨.hbm, 261, rfl⟩
abbrev main_v135 : Ref sig .tc := ⟨.hbm, 262, rfl⟩
abbrev main_v136 : Ref sig .tc := ⟨.hbm, 263, rfl⟩
abbrev main_v137 : Ref sig .tc := ⟨.hbm, 264, rfl⟩
abbrev main_v138 : Ref sig .tc := ⟨.hbm, 265, rfl⟩
abbrev main_v139 : Ref sig .tc := ⟨.hbm, 266, rfl⟩
abbrev main_v140 : Ref sig .tc := ⟨.hbm, 267, rfl⟩
abbrev main_v141 : Ref sig .tc := ⟨.hbm, 268, rfl⟩
abbrev main_v142 : Ref sig .tc := ⟨.hbm, 269, rfl⟩
abbrev main_v143 : Ref sig .tc := ⟨.hbm, 270, rfl⟩
abbrev main_v144 : Ref sig .tc := ⟨.hbm, 271, rfl⟩
abbrev main_v145 : Ref sig .tc := ⟨.hbm, 272, rfl⟩
abbrev main_v146 : Ref sig .tc := ⟨.hbm, 273, rfl⟩
abbrev main_v147 : Ref sig .tc := ⟨.hbm, 274, rfl⟩
abbrev main_v148 : Ref sig .tc := ⟨.hbm, 275, rfl⟩
abbrev main_v149 : Ref sig .tc := ⟨.hbm, 276, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg11_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg7_0 : Ref sig .tc := ⟨.vmem, 39, rfl⟩
abbrev cc2_stg8_0 : Ref sig .tc := ⟨.vmem, 40, rfl⟩
abbrev cc2_stg9_0 : Ref sig .tc := ⟨.vmem, 41, rfl⟩
abbrev cc2_stg10_0 : Ref sig .tc := ⟨.vmem, 42, rfl⟩
abbrev cc2_stg11_0 : Ref sig .tc := ⟨.vmem, 43, rfl⟩
abbrev cc2_stg11_1 : Ref sig .tc := ⟨.vmem, 44, rfl⟩
abbrev cc3_stg0_0 : Ref sig .tc := ⟨.vmem, 45, rfl⟩
abbrev cc3_stg0_1 : Ref sig .tc := ⟨.vmem, 46, rfl⟩
abbrev cc3_stg1_0 : Ref sig .tc := ⟨.vmem, 47, rfl⟩
abbrev cc3_stg1_1 : Ref sig .tc := ⟨.vmem, 48, rfl⟩
abbrev cc3_stg2_0 : Ref sig .tc := ⟨.vmem, 49, rfl⟩
abbrev cc3_stg3_0 : Ref sig .tc := ⟨.vmem, 50, rfl⟩
abbrev cc3_stg4_0 : Ref sig .tc := ⟨.vmem, 51, rfl⟩
abbrev cc3_stg5_0 : Ref sig .tc := ⟨.vmem, 52, rfl⟩
abbrev cc3_stg6_0 : Ref sig .tc := ⟨.vmem, 53, rfl⟩
abbrev cc3_stg7_0 : Ref sig .tc := ⟨.vmem, 54, rfl⟩
abbrev cc3_stg8_0 : Ref sig .tc := ⟨.vmem, 55, rfl⟩
abbrev cc3_stg9_0 : Ref sig .tc := ⟨.vmem, 56, rfl⟩
abbrev cc3_stg10_0 : Ref sig .tc := ⟨.vmem, 57, rfl⟩
abbrev cc3_stg11_0 : Ref sig .tc := ⟨.vmem, 58, rfl⟩
abbrev cc3_stg11_1 : Ref sig .tc := ⟨.vmem, 59, rfl⟩
abbrev cc4_stg0_0 : Ref sig .tc := ⟨.vmem, 60, rfl⟩
abbrev cc4_stg0_1 : Ref sig .tc := ⟨.vmem, 61, rfl⟩
abbrev cc4_stg1_0 : Ref sig .tc := ⟨.vmem, 62, rfl⟩
abbrev cc4_stg1_1 : Ref sig .tc := ⟨.vmem, 63, rfl⟩
abbrev cc4_stg2_0 : Ref sig .tc := ⟨.vmem, 64, rfl⟩
abbrev cc4_stg3_0 : Ref sig .tc := ⟨.vmem, 65, rfl⟩
abbrev cc4_stg4_0 : Ref sig .tc := ⟨.vmem, 66, rfl⟩
abbrev cc4_stg5_0 : Ref sig .tc := ⟨.vmem, 67, rfl⟩
abbrev cc4_stg6_0 : Ref sig .tc := ⟨.vmem, 68, rfl⟩
abbrev cc4_stg7_0 : Ref sig .tc := ⟨.vmem, 69, rfl⟩
abbrev cc4_stg8_0 : Ref sig .tc := ⟨.vmem, 70, rfl⟩
abbrev cc4_stg9_0 : Ref sig .tc := ⟨.vmem, 71, rfl⟩
abbrev cc4_stg10_0 : Ref sig .tc := ⟨.vmem, 72, rfl⟩
abbrev cc4_stg11_0 : Ref sig .tc := ⟨.vmem, 73, rfl⟩
abbrev cc4_stg11_1 : Ref sig .tc := ⟨.vmem, 74, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem11_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem3_0 : DmaSem sig := 35
abbrev cc2_sem4_0 : DmaSem sig := 36
abbrev cc2_sem5_0 : DmaSem sig := 37
abbrev cc2_sem6_0 : DmaSem sig := 38
abbrev cc2_sem7_0 : DmaSem sig := 39
abbrev cc2_sem8_0 : DmaSem sig := 40
abbrev cc2_sem9_0 : DmaSem sig := 41
abbrev cc2_sem10_0 : DmaSem sig := 42
abbrev cc2_sem11_0 : DmaSem sig := 43
abbrev cc2_sem11_1 : DmaSem sig := 44
abbrev cc3_sem0_0 : DmaSem sig := 45
abbrev cc3_sem0_1 : DmaSem sig := 46
abbrev cc3_sem1_0 : DmaSem sig := 47
abbrev cc3_sem1_1 : DmaSem sig := 48
abbrev cc3_sem2_0 : DmaSem sig := 49
abbrev cc3_sem3_0 : DmaSem sig := 50
abbrev cc3_sem4_0 : DmaSem sig := 51
abbrev cc3_sem5_0 : DmaSem sig := 52
abbrev cc3_sem6_0 : DmaSem sig := 53
abbrev cc3_sem7_0 : DmaSem sig := 54
abbrev cc3_sem8_0 : DmaSem sig := 55
abbrev cc3_sem9_0 : DmaSem sig := 56
abbrev cc3_sem10_0 : DmaSem sig := 57
abbrev cc3_sem11_0 : DmaSem sig := 58
abbrev cc3_sem11_1 : DmaSem sig := 59
abbrev cc4_sem0_0 : DmaSem sig := 60
abbrev cc4_sem0_1 : DmaSem sig := 61
abbrev cc4_sem1_0 : DmaSem sig := 62
abbrev cc4_sem1_1 : DmaSem sig := 63
abbrev cc4_sem2_0 : DmaSem sig := 64
abbrev cc4_sem3_0 : DmaSem sig := 65
abbrev cc4_sem4_0 : DmaSem sig := 66
abbrev cc4_sem5_0 : DmaSem sig := 67
abbrev cc4_sem6_0 : DmaSem sig := 68
abbrev cc4_sem7_0 : DmaSem sig := 69
abbrev cc4_sem8_0 : DmaSem sig := 70
abbrev cc4_sem9_0 : DmaSem sig := 71
abbrev cc4_sem10_0 : DmaSem sig := 72
abbrev cc4_sem11_0 : DmaSem sig := 73
abbrev cc4_sem11_1 : DmaSem sig := 74

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S5000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S5000x128 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S5000x128 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x128 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 2 → Memref sig .tc .vmem S5000x128 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  slices_S5_S1_0 : S5.Slices ![0] S1
  shapeCasts_S1_S_ : S1.ShapeCasts S_
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  shapeCasts_S_S1x1 : S_.ShapeCasts S1x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x128 : S1x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S5_S1_1 : S5.Slices ![1] S1
  slices_S5x128x128_S1x128x128_1_0_0 : S5x128x128.Slices ![1, 0, 0] S1x128x128
  slices_S5x128_S1x128_1_0 : S5x128.Slices ![1, 0] S1x128
  slices_S5_S1_2 : S5.Slices ![2] S1
  slices_S5x128x128_S1x128x128_2_0_0 : S5x128x128.Slices ![2, 0, 0] S1x128x128
  slices_S5x128_S1x128_2_0 : S5x128.Slices ![2, 0] S1x128
  slices_S5_S1_3 : S5.Slices ![3] S1
  slices_S5x128x128_S1x128x128_3_0_0 : S5x128x128.Slices ![3, 0, 0] S1x128x128
  slices_S5x128_S1x128_3_0 : S5x128.Slices ![3, 0] S1x128
  slices_S5_S1_4 : S5.Slices ![4] S1
  slices_S5x128x128_S1x128x128_4_0_0 : S5x128x128.Slices ![4, 0, 0] S1x128x128
  slices_S5x128_S1x128_4_0 : S5x128.Slices ![4, 0] S1x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x128.size a ≤ S50000x128.size a
  hwx0_11 : ∀ i : grid0.Coords, EltTy.bits .f32 = 32 ∨ (Rect.block (s := S50000x128) S5000x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S5000x128.size a ≤ S50000x128.size a
  hwx1_11 : ∀ i : grid1.Coords, EltTy.bits .f32 = 32 ∨ (Rect.block (s := S50000x128) S5000x128.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S5000x128.size a ≤ S50000x128.size a
  hwx2_11 : ∀ i : grid2.Coords, EltTy.bits .f32 = 32 ∨ (Rect.block (s := S50000x128) S5000x128.size (cc2_transform_11 i) (hinb2_11 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x128.size a ≤ S1x128.size a
  hwx3_10 : ∀ i : grid3.Coords, EltTy.bits .f32 = 32 ∨ (Rect.block (s := S1x128) S1x128.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S5000x128.size a ≤ S50000x128.size a
  hwx3_11 : ∀ i : grid3.Coords, EltTy.bits .f32 = 32 ∨ (Rect.block (s := S50000x128) S5000x128.size (cc3_transform_11 i) (hinb3_11 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x128.size a ≤ S1x128.size a
  hwx4_9 : ∀ i : grid4.Coords, EltTy.bits .f32 = 32 ∨ (Rect.block (s := S1x128) S1x128.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x128.size a ≤ S1x128.size a
  hwx4_10 : ∀ i : grid4.Coords, EltTy.bits .f32 = 32 ∨ (Rect.block (s := S1x128) S1x128.size (cc4_transform_10 i) (hinb4_10 i)).WholeWords (EltTy.packing .f32)
  hstage4_11 : ∀ j, (stage4_11 j).IsWhole
  nbuf4_11 : grid4.bufCount reads4_11 false = 2
  hreads4_11 : ∀ i i' : grid4.Coords, (∀ a, reads4_11 a = true → i a = i' a) → cc4_transform_11 i = cc4_transform_11 i'
  hinb4_11 : ∀ (i : grid4.Coords) a, (cc4_transform_11 i a + 1) * S5000x128.size a ≤ S50000x128.size a
  hwx4_11 : ∀ i : grid4.Coords, EltTy.bits .f32 = 32 ∨ (Rect.block (s := S50000x128) S5000x128.size (cc4_transform_11 i) (hinb4_11 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v3) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v28) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v29) S5000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v54) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v55) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v56) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v57) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v58) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v59) S5000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v63) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v82) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v83) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v71) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v84) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v85) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v86) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v87) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v88) S1x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v89) S5000x128.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

abbrev win3_0 : Pipeline.Window sig grid3 :=
  Pipeline.Window.ofSpec (Memref.whole main_v93) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v89) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v112) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v97) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v113) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v101) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v114) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v115) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v116) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v117) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v118) S1x128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v119) S5000x128.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

abbrev win4_0 : Pipeline.Window sig grid4 :=
  Pipeline.Window.ofSpec (Memref.whole main_v123) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v119) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v142) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v127) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v143) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v131) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v144) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v145) S1x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v146) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v147) S1x128.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v148) S1x128.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v149) S5000x128.size cc4_transform_11 reads4_11 true false 2 stage4_11 sem4_11
    hrank4 hreads4_11 hinb4_11 nbuf4_11 (Memref.isWhole_whole _) hwx4_11 hstage4_11

abbrev win4 : Fin 12 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | ⟨_ + 12, h⟩ => absurd h (Nat.not_lt.2 (Nat.le_add_left _ _))
abbrev spec4 : Fin 12 → Pipeline.WinSpec sig grid4.rank := fun w => (win4 w).toWinSpec

class Facts : Prop extends Facts₀ where

variable [Facts]
-- ==== ReferenceIdeal.lean ====
abbrev S50000x128 : Shape := ⟨2, ![50000, 128]⟩
abbrev S800000 : Shape := ⟨1, ![800000]⟩
abbrev S5 : Shape := ⟨1, ![5]⟩
abbrev S5x128x128 : Shape := ⟨3, ![5, 128, 128]⟩
abbrev S5x128 : Shape := ⟨2, ![5, 128]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 412
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S5, .f32⟩
  | 4 => ⟨S5x128x128, .f32⟩
  | 5 => ⟨S5x128, .f32⟩
  | 6 => ⟨S5x128x128, .f32⟩
  | 7 => ⟨S5x128, .f32⟩
  | 8 => ⟨S5x128, .f32⟩
  | 9 => ⟨S5x128, .f32⟩
  | 10 => ⟨S5x128, .f32⟩
  | 11 => ⟨S5x128, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S1, .i32⟩
  | 21 => ⟨S_, .i32⟩
  | 22 => ⟨S800000x1, .i32⟩
  | 23 => ⟨S800000x1, .i1⟩
  | 24 => ⟨S1x1, .i32⟩
  | 25 => ⟨S800000x1, .i32⟩
  | 26 => ⟨S800000x1, .i1⟩
  | 27 => ⟨S800000x1, .i1⟩
  | 28 => ⟨S_, .i1⟩
  | 29 => ⟨S800000, .i1⟩
  | 30 => ⟨S800000x128, .f32⟩
  | 31 => ⟨S800000x128, .i1⟩
  | 32 => ⟨S_, .f32⟩
  | 33 => ⟨S800000x128, .f32⟩
  | 34 => ⟨S800000x128, .f32⟩
  | 35 => ⟨S_, .f32⟩
  | 36 => ⟨S50000x128, .f32⟩
  | 37 => ⟨S800000x1, .i32⟩
  | 38 => ⟨S50000x128, .f32⟩
  | 39 => ⟨S1, .f32⟩
  | 40 => ⟨S_, .f32⟩
  | 41 => ⟨S_, .f32⟩
  | 42 => ⟨S_, .f32⟩
  | 43 => ⟨S50000x128, .f32⟩
  | 44 => ⟨S50000x128, .f32⟩
  | 45 => ⟨S50000x128, .f32⟩
  | 46 => ⟨S1x128x128, .f32⟩
  | 47 => ⟨S128x128, .f32⟩
  | 48 => ⟨S50000x128, .f32⟩
  | 49 => ⟨S1x128, .f32⟩
  | 50 => ⟨S128, .f32⟩
  | 51 => ⟨S1x128, .f32⟩
  | 52 => ⟨S50000x128, .f32⟩
  | 53 => ⟨S50000x128, .f32⟩
  | 54 => ⟨S_, .f32⟩
  | 55 => ⟨S50000x128, .f32⟩
  | 56 => ⟨S50000x128, .f32⟩
  | 57 => ⟨S1x128x128, .f32⟩
  | 58 => ⟨S128x128, .f32⟩
  | 59 => ⟨S50000x128, .f32⟩
  | 60 => ⟨S1x128, .f32⟩
  | 61 => ⟨S128, .f32⟩
  | 62 => ⟨S1x128, .f32⟩
  | 63 => ⟨S50000x128, .f32⟩
  | 64 => ⟨S50000x128, .f32⟩
  | 65 => ⟨S1x128, .f32⟩
  | 66 => ⟨S128, .f32⟩
  | 67 => ⟨S1x128, .f32⟩
  | 68 => ⟨S128, .f32⟩
  | 69 => ⟨S1x128, .f32⟩
  | 70 => ⟨S50000x128, .f32⟩
  | 71 => ⟨S50000x128, .f32⟩
  | 72 => ⟨S1x128, .f32⟩
  | 73 => ⟨S50000x128, .f32⟩
  | 74 => ⟨S50000x128, .f32⟩
  | 75 => ⟨S1x128, .f32⟩
  | 76 => ⟨S128, .f32⟩
  | 77 => ⟨S_, .f32⟩
  | 78 => ⟨S128, .f32⟩
  | 79 => ⟨S128, .f32⟩
  | 80 => ⟨S128, .f32⟩
  | 81 => ⟨S1x128, .f32⟩
  | 82 => ⟨S50000x128, .f32⟩
  | 83 => ⟨S50000x128, .f32⟩
  | 84 => ⟨S1x128, .f32⟩
  | 85 => ⟨S128, .f32⟩
  | 86 => ⟨S1x128, .f32⟩
  | 87 => ⟨S50000x128, .f32⟩
  | 88 => ⟨S50000x128, .f32⟩
  | 89 => ⟨S_, .f32⟩
  | 90 => ⟨S50000x128, .f32⟩
  | 91 => ⟨S50000x128, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S1, .i32⟩
  | 101 => ⟨S_, .i32⟩
  | 102 => ⟨S800000x1, .i32⟩
  | 103 => ⟨S800000x1, .i1⟩
  | 104 => ⟨S1x1, .i32⟩
  | 105 => ⟨S800000x1, .i32⟩
  | 106 => ⟨S800000x1, .i1⟩
  | 107 => ⟨S800000x1, .i1⟩
  | 108 => ⟨S_, .i1⟩
  | 109 => ⟨S800000, .i1⟩
  | 110 => ⟨S800000x128, .f32⟩
  | 111 => ⟨S800000x128, .i1⟩
  | 112 => ⟨S_, .f32⟩
  | 113 => ⟨S800000x128, .f32⟩
  | 114 => ⟨S800000x128, .f32⟩
  | 115 => ⟨S_, .f32⟩
  | 116 => ⟨S50000x128, .f32⟩
  | 117 => ⟨S800000x1, .i32⟩
  | 118 => ⟨S50000x128, .f32⟩
  | 119 => ⟨S1, .f32⟩
  | 120 => ⟨S_, .f32⟩
  | 121 => ⟨S_, .f32⟩
  | 122 => ⟨S_, .f32⟩
  | 123 => ⟨S50000x128, .f32⟩
  | 124 => ⟨S50000x128, .f32⟩
  | 125 => ⟨S50000x128, .f32⟩
  | 126 => ⟨S1x128x128, .f32⟩
  | 127 => ⟨S128x128, .f32⟩
  | _ => ⟨S50000x128, .f32⟩

abbrev hbmTy0_1 (i : Nat) : BufTy := match i % 128 with
  | 0 => ⟨S50000x128, .f32⟩
  | 1 => ⟨S1x128, .f32⟩
  | 2 => ⟨S128, .f32⟩
  | 3 => ⟨S1x128, .f32⟩
  | 4 => ⟨S50000x128, .f32⟩
  | 5 => ⟨S50000x128, .f32⟩
  | 6 => ⟨S_, .f32⟩
  | 7 => ⟨S50000x128, .f32⟩
  | 8 => ⟨S50000x128, .f32⟩
  | 9 => ⟨S1x128x128, .f32⟩
  | 10 => ⟨S128x128, .f32⟩
  | 11 => ⟨S50000x128, .f32⟩
  | 12 => ⟨S1x128, .f32⟩
  | 13 => ⟨S128, .f32⟩
  | 14 => ⟨S1x128, .f32⟩
  | 15 => ⟨S50000x128, .f32⟩
  | 16 => ⟨S50000x128, .f32⟩
  | 17 => ⟨S1x128, .f32⟩
  | 18 => ⟨S128, .f32⟩
  | 19 => ⟨S1x128, .f32⟩
  | 20 => ⟨S128, .f32⟩
  | 21 => ⟨S1x128, .f32⟩
  | 22 => ⟨S50000x128, .f32⟩
  | 23 => ⟨S50000x128, .f32⟩
  | 24 => ⟨S1x128, .f32⟩
  | 25 => ⟨S50000x128, .f32⟩
  | 26 => ⟨S50000x128, .f32⟩
  | 27 => ⟨S1x128, .f32⟩
  | 28 => ⟨S128, .f32⟩
  | 29 => ⟨S_, .f32⟩
  | 30 => ⟨S128, .f32⟩
  | 31 => ⟨S128, .f32⟩
  | 32 => ⟨S128, .f32⟩
  | 33 => ⟨S1x128, .f32⟩
  | 34 => ⟨S50000x128, .f32⟩
  | 35 => ⟨S50000x128, .f32⟩
  | 36 => ⟨S1x128, .f32⟩
  | 37 => ⟨S128, .f32⟩
  | 38 => ⟨S1x128, .f32⟩
  | 39 => ⟨S50000x128, .f32⟩
  | 40 => ⟨S50000x128, .f32⟩
  | 41 => ⟨S_, .f32⟩
  | 42 => ⟨S50000x128, .f32⟩
  | 43 => ⟨S50000x128, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S1, .i32⟩
  | 53 => ⟨S_, .i32⟩
  | 54 => ⟨S800000x1, .i32⟩
  | 55 => ⟨S800000x1, .i1⟩
  | 56 => ⟨S1x1, .i32⟩
  | 57 => ⟨S800000x1, .i32⟩
  | 58 => ⟨S800000x1, .i1⟩
  | 59 => ⟨S800000x1, .i1⟩
  | 60 => ⟨S_, .i1⟩
  | 61 => ⟨S800000, .i1⟩
  | 62 => ⟨S800000x128, .f32⟩
  | 63 => ⟨S800000x128, .i1⟩
  | 64 => ⟨S_, .f32⟩
  | 65 => ⟨S800000x128, .f32⟩
  | 66 => ⟨S800000x128, .f32⟩
  | 67 => ⟨S_, .f32⟩
  | 68 => ⟨S50000x128, .f32⟩
  | 69 => ⟨S800000x1, .i32⟩
  | 70 => ⟨S50000x128, .f32⟩
  | 71 => ⟨S1, .f32⟩
  | 72 => ⟨S_, .f32⟩
  | 73 => ⟨S_, .f32⟩
  | 74 => ⟨S_, .f32⟩
  | 75 => ⟨S50000x128, .f32⟩
  | 76 => ⟨S50000x128, .f32⟩
  | 77 => ⟨S50000x128, .f32⟩
  | 78 => ⟨S1x128x128, .f32⟩
  | 79 => ⟨S128x128, .f32⟩
  | 80 => ⟨S50000x128, .f32⟩
  | 81 => ⟨S1x128, .f32⟩
  | 82 => ⟨S128, .f32⟩
  | 83 => ⟨S1x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S1x128x128, .f32⟩
  | 90 => ⟨S128x128, .f32⟩
  | 91 => ⟨S50000x128, .f32⟩
  | 92 => ⟨S1x128, .f32⟩
  | 93 => ⟨S128, .f32⟩
  | 94 => ⟨S1x128, .f32⟩
  | 95 => ⟨S50000x128, .f32⟩
  | 96 => ⟨S50000x128, .f32⟩
  | 97 => ⟨S1x128, .f32⟩
  | 98 => ⟨S128, .f32⟩
  | 99 => ⟨S1x128, .f32⟩
  | 100 => ⟨S128, .f32⟩
  | 101 => ⟨S1x128, .f32⟩
  | 102 => ⟨S50000x128, .f32⟩
  | 103 => ⟨S50000x128, .f32⟩
  | 104 => ⟨S1x128, .f32⟩
  | 105 => ⟨S50000x128, .f32⟩
  | 106 => ⟨S50000x128, .f32⟩
  | 107 => ⟨S1x128, .f32⟩
  | 108 => ⟨S128, .f32⟩
  | 109 => ⟨S_, .f32⟩
  | 110 => ⟨S128, .f32⟩
  | 111 => ⟨S128, .f32⟩
  | 112 => ⟨S128, .f32⟩
  | 113 => ⟨S1x128, .f32⟩
  | 114 => ⟨S50000x128, .f32⟩
  | 115 => ⟨S50000x128, .f32⟩
  | 116 => ⟨S1x128, .f32⟩
  | 117 => ⟨S128, .f32⟩
  | 118 => ⟨S1x128, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S_, .i32⟩
  | 125 => ⟨S800000, .i32⟩
  | 126 => ⟨S800000, .i1⟩
  | 127 => ⟨S_, .i32⟩
  | _ => ⟨S50000x128, .f32⟩

abbrev hbmTy0_2 (i : Nat) : BufTy := match i % 128 with
  | 0 => ⟨S800000, .i32⟩
  | 1 => ⟨S800000, .i32⟩
  | 2 => ⟨S800000, .i32⟩
  | 3 => ⟨S800000x1, .i32⟩
  | 4 => ⟨S1, .i32⟩
  | 5 => ⟨S_, .i32⟩
  | 6 => ⟨S800000x1, .i32⟩
  | 7 => ⟨S800000x1, .i1⟩
  | 8 => ⟨S1x1, .i32⟩
  | 9 => ⟨S800000x1, .i32⟩
  | 10 => ⟨S800000x1, .i1⟩
  | 11 => ⟨S800000x1, .i1⟩
  | 12 => ⟨S_, .i1⟩
  | 13 => ⟨S800000, .i1⟩
  | 14 => ⟨S800000x128, .f32⟩
  | 15 => ⟨S800000x128, .i1⟩
  | 16 => ⟨S_, .f32⟩
  | 17 => ⟨S800000x128, .f32⟩
  | 18 => ⟨S800000x128, .f32⟩
  | 19 => ⟨S_, .f32⟩
  | 20 => ⟨S50000x128, .f32⟩
  | 21 => ⟨S800000x1, .i32⟩
  | 22 => ⟨S50000x128, .f32⟩
  | 23 => ⟨S1, .f32⟩
  | 24 => ⟨S_, .f32⟩
  | 25 => ⟨S_, .f32⟩
  | 26 => ⟨S_, .f32⟩
  | 27 => ⟨S50000x128, .f32⟩
  | 28 => ⟨S50000x128, .f32⟩
  | 29 => ⟨S50000x128, .f32⟩
  | 30 => ⟨S1x128x128, .f32⟩
  | 31 => ⟨S128x128, .f32⟩
  | 32 => ⟨S50000x128, .f32⟩
  | 33 => ⟨S1x128, .f32⟩
  | 34 => ⟨S128, .f32⟩
  | 35 => ⟨S1x128, .f32⟩
  | 36 => ⟨S50000x128, .f32⟩
  | 37 => ⟨S50000x128, .f32⟩
  | 38 => ⟨S_, .f32⟩
  | 39 => ⟨S50000x128, .f32⟩
  | 40 => ⟨S50000x128, .f32⟩
  | 41 => ⟨S1x128x128, .f32⟩
  | 42 => ⟨S128x128, .f32⟩
  | 43 => ⟨S50000x128, .f32⟩
  | 44 => ⟨S1x128, .f32⟩
  | 45 => ⟨S128, .f32⟩
  | 46 => ⟨S1x128, .f32⟩
  | 47 => ⟨S50000x128, .f32⟩
  | 48 => ⟨S50000x128, .f32⟩
  | 49 => ⟨S1x128, .f32⟩
  | 50 => ⟨S128, .f32⟩
  | 51 => ⟨S1x128, .f32⟩
  | 52 => ⟨S128, .f32⟩
  | 53 => ⟨S1x128, .f32⟩
  | 54 => ⟨S50000x128, .f32⟩
  | 55 => ⟨S50000x128, .f32⟩
  | 56 => ⟨S1x128, .f32⟩
  | 57 => ⟨S50000x128, .f32⟩
  | 58 => ⟨S50000x128, .f32⟩
  | 59 => ⟨S1x128, .f32⟩
  | 60 => ⟨S128, .f32⟩
  | 61 => ⟨S_, .f32⟩
  | 62 => ⟨S128, .f32⟩
  | 63 => ⟨S128, .f32⟩
  | 64 => ⟨S128, .f32⟩
  | 65 => ⟨S1x128, .f32⟩
  | 66 => ⟨S50000x128, .f32⟩
  | 67 => ⟨S50000x128, .f32⟩
  | 68 => ⟨S1x128, .f32⟩
  | 69 => ⟨S128, .f32⟩
  | 70 => ⟨S1x128, .f32⟩
  | 71 => ⟨S50000x128, .f32⟩
  | 72 => ⟨S50000x128, .f32⟩
  | 73 => ⟨S_, .f32⟩
  | 74 => ⟨S50000x128, .f32⟩
  | 75 => ⟨S50000x128, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S1, .i32⟩
  | 85 => ⟨S_, .i32⟩
  | 86 => ⟨S800000x1, .i32⟩
  | 87 => ⟨S800000x1, .i1⟩
  | 88 => ⟨S1x1, .i32⟩
  | 89 => ⟨S800000x1, .i32⟩
  | 90 => ⟨S800000x1, .i1⟩
  | 91 => ⟨S800000x1, .i1⟩
  | 92 => ⟨S_, .i1⟩
  | 93 => ⟨S800000, .i1⟩
  | 94 => ⟨S800000x128, .f32⟩
  | 95 => ⟨S800000x128, .i1⟩
  | 96 => ⟨S_, .f32⟩
  | 97 => ⟨S800000x128, .f32⟩
  | 98 => ⟨S800000x128, .f32⟩
  | 99 => ⟨S_, .f32⟩
  | 100 => ⟨S50000x128, .f32⟩
  | 101 => ⟨S800000x1, .i32⟩
  | 102 => ⟨S50000x128, .f32⟩
  | 103 => ⟨S1, .f32⟩
  | 104 => ⟨S_, .f32⟩
  | 105 => ⟨S_, .f32⟩
  | 106 => ⟨S_, .f32⟩
  | 107 => ⟨S50000x128, .f32⟩
  | 108 => ⟨S50000x128, .f32⟩
  | 109 => ⟨S50000x128, .f32⟩
  | 110 => ⟨S1x128x128, .f32⟩
  | 111 => ⟨S128x128, .f32⟩
  | 112 => ⟨S50000x128, .f32⟩
  | 113 => ⟨S1x128, .f32⟩
  | 114 => ⟨S128, .f32⟩
  | 115 => ⟨S1x128, .f32⟩
  | 116 => ⟨S50000x128, .f32⟩
  | 117 => ⟨S50000x128, .f32⟩
  | 118 => ⟨S_, .f32⟩
  | 119 => ⟨S50000x128, .f32⟩
  | 120 => ⟨S50000x128, .f32⟩
  | 121 => ⟨S1x128x128, .f32⟩
  | 122 => ⟨S128x128, .f32⟩
  | 123 => ⟨S50000x128, .f32⟩
  | 124 => ⟨S1x128, .f32⟩
  | 125 => ⟨S128, .f32⟩
  | 126 => ⟨S1x128, .f32⟩
  | 127 => ⟨S50000x128, .f32⟩
  | _ => ⟨S50000x128, .f32⟩

abbrev hbmTy0_3 (i : Nat) : BufTy := match i % 128 with
  | 0 => ⟨S50000x128, .f32⟩
  | 1 => ⟨S1x128, .f32⟩
  | 2 => ⟨S128, .f32⟩
  | 3 => ⟨S1x128, .f32⟩
  | 4 => ⟨S128, .f32⟩
  | 5 => ⟨S1x128, .f32⟩
  | 6 => ⟨S50000x128, .f32⟩
  | 7 => ⟨S50000x128, .f32⟩
  | 8 => ⟨S1x128, .f32⟩
  | 9 => ⟨S50000x128, .f32⟩
  | 10 => ⟨S50000x128, .f32⟩
  | 11 => ⟨S1x128, .f32⟩
  | 12 => ⟨S128, .f32⟩
  | 13 => ⟨S_, .f32⟩
  | 14 => ⟨S128, .f32⟩
  | 15 => ⟨S128, .f32⟩
  | 16 => ⟨S128, .f32⟩
  | 17 => ⟨S1x128, .f32⟩
  | 18 => ⟨S50000x128, .f32⟩
  | 19 => ⟨S50000x128, .f32⟩
  | 20 => ⟨S1x128, .f32⟩
  | 21 => ⟨S128, .f32⟩
  | 22 => ⟨S1x128, .f32⟩
  | 23 => ⟨S50000x128, .f32⟩
  | 24 => ⟨S50000x128, .f32⟩
  | 25 => ⟨S_, .f32⟩
  | 26 => ⟨S50000x128, .f32⟩
  | 27 => ⟨S50000x128, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_cst : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_cst_0 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_call1_cst : Ref sig .tc := ⟨.hbm, 54, rfl⟩
abbrev main_call1_v0 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_cst_1 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_call2_cst : Ref sig .tc := ⟨.hbm, 89, rfl⟩
abbrev main_call2_v0 : Ref sig .tc := ⟨.hbm, 90, rfl⟩
abbrev main_v50 : Ref sig .tc := ⟨.hbm, 91, rfl⟩
abbrev main_call3_c : Ref sig .tc := ⟨.hbm, 92, rfl⟩
abbrev main_call3_v0 : Ref sig .tc := ⟨.hbm, 93, rfl⟩
abbrev main_call3_v1 : Ref sig .tc := ⟨.hbm, 94, rfl⟩
abbrev main_call3_c_0 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_c_1 : Ref sig .tc := ⟨.hbm, 100, rfl⟩
abbrev main_call3_c_2 : Ref sig .tc := ⟨.hbm, 101, rfl⟩
abbrev main_call3_v6 : Ref sig .tc := ⟨.hbm, 102, rfl⟩
abbrev main_call3_v7 : Ref sig .tc := ⟨.hbm, 103, rfl⟩
abbrev main_call3_v8 : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_c_3 : Ref sig .tc := ⟨.hbm, 108, rfl⟩
abbrev main_call3_v12 : Ref sig .tc := ⟨.hbm, 109, rfl⟩
abbrev main_call3_v13 : Ref sig .tc := ⟨.hbm, 110, rfl⟩
abbrev main_call3_v14 : Ref sig .tc := ⟨.hbm, 111, rfl⟩
abbrev main_call3_cst : Ref sig .tc := ⟨.hbm, 112, rfl⟩
abbrev main_call3_v15 : Ref sig .tc := ⟨.hbm, 113, rfl⟩
abbrev main_v51 : Ref sig .tc := ⟨.hbm, 114, rfl⟩
abbrev main_cst_2 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_cst_3 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_call4_cst : Ref sig .tc := ⟨.hbm, 134, rfl⟩
abbrev main_call4_v0 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_cst_4 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_call5_cst : Ref sig .tc := ⟨.hbm, 169, rfl⟩
abbrev main_call5_v0 : Ref sig .tc := ⟨.hbm, 170, rfl⟩
abbrev main_v101 : Ref sig .tc := ⟨.hbm, 171, rfl⟩
abbrev main_call6_c : Ref sig .tc := ⟨.hbm, 172, rfl⟩
abbrev main_call6_v0 : Ref sig .tc := ⟨.hbm, 173, rfl⟩
abbrev main_call6_v1 : Ref sig .tc := ⟨.hbm, 174, rfl⟩
abbrev main_call6_c_0 : Ref sig .tc := ⟨.hbm, 175, rfl⟩
abbrev main_call6_v2 : Ref sig .tc := ⟨.hbm, 176, rfl⟩
abbrev main_call6_v3 : Ref sig .tc := ⟨.hbm, 177, rfl⟩
abbrev main_call6_v4 : Ref sig .tc := ⟨.hbm, 178, rfl⟩
abbrev main_call6_v5 : Ref sig .tc := ⟨.hbm, 179, rfl⟩
abbrev main_call6_c_1 : Ref sig .tc := ⟨.hbm, 180, rfl⟩
abbrev main_call6_c_2 : Ref sig .tc := ⟨.hbm, 181, rfl⟩
abbrev main_call6_v6 : Ref sig .tc := ⟨.hbm, 182, rfl⟩
abbrev main_call6_v7 : Ref sig .tc := ⟨.hbm, 183, rfl⟩
abbrev main_call6_v8 : Ref sig .tc := ⟨.hbm, 184, rfl⟩
abbrev main_call6_v9 : Ref sig .tc := ⟨.hbm, 185, rfl⟩
abbrev main_call6_v10 : Ref sig .tc := ⟨.hbm, 186, rfl⟩
abbrev main_call6_v11 : Ref sig .tc := ⟨.hbm, 187, rfl⟩
abbrev main_call6_c_3 : Ref sig .tc := ⟨.hbm, 188, rfl⟩
abbrev main_call6_v12 : Ref sig .tc := ⟨.hbm, 189, rfl⟩
abbrev main_call6_v13 : Ref sig .tc := ⟨.hbm, 190, rfl⟩
abbrev main_call6_v14 : Ref sig .tc := ⟨.hbm, 191, rfl⟩
abbrev main_call6_cst : Ref sig .tc := ⟨.hbm, 192, rfl⟩
abbrev main_call6_v15 : Ref sig .tc := ⟨.hbm, 193, rfl⟩
abbrev main_v102 : Ref sig .tc := ⟨.hbm, 194, rfl⟩
abbrev main_cst_5 : Ref sig .tc := ⟨.hbm, 195, rfl⟩
abbrev main_v103 : Ref sig .tc := ⟨.hbm, 196, rfl⟩
abbrev main_v104 : Ref sig .tc := ⟨.hbm, 197, rfl⟩
abbrev main_v105 : Ref sig .tc := ⟨.hbm, 198, rfl⟩
abbrev main_v106 : Ref sig .tc := ⟨.hbm, 199, rfl⟩
abbrev main_v107 : Ref sig .tc := ⟨.hbm, 200, rfl⟩
abbrev main_cst_6 : Ref sig .tc := ⟨.hbm, 201, rfl⟩
abbrev main_v108 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_v112 : Ref sig .tc := ⟨.hbm, 206, rfl⟩
abbrev main_v113 : Ref sig .tc := ⟨.hbm, 207, rfl⟩
abbrev main_v114 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_v119 : Ref sig .tc := ⟨.hbm, 213, rfl⟩
abbrev main_call7_cst : Ref sig .tc := ⟨.hbm, 214, rfl⟩
abbrev main_call7_v0 : Ref sig .tc := ⟨.hbm, 215, rfl⟩
abbrev main_v120 : Ref sig .tc := ⟨.hbm, 216, rfl⟩
abbrev main_v121 : Ref sig .tc := ⟨.hbm, 217, rfl⟩
abbrev main_v122 : Ref sig .tc := ⟨.hbm, 218, rfl⟩
abbrev main_v123 : Ref sig .tc := ⟨.hbm, 219, rfl⟩
abbrev main_v124 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_v128 : Ref sig .tc := ⟨.hbm, 224, rfl⟩
abbrev main_v129 : Ref sig .tc := ⟨.hbm, 225, rfl⟩
abbrev main_v130 : Ref sig .tc := ⟨.hbm, 226, rfl⟩
abbrev main_v131 : Ref sig .tc := ⟨.hbm, 227, rfl⟩
abbrev main_v132 : Ref sig .tc := ⟨.hbm, 228, rfl⟩
abbrev main_v133 : Ref sig .tc := ⟨.hbm, 229, rfl⟩
abbrev main_v134 : Ref sig .tc := ⟨.hbm, 230, rfl⟩
abbrev main_v135 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_v139 : Ref sig .tc := ⟨.hbm, 235, rfl⟩
abbrev main_v140 : Ref sig .tc := ⟨.hbm, 236, rfl⟩
abbrev main_cst_7 : Ref sig .tc := ⟨.hbm, 237, rfl⟩
abbrev main_v141 : Ref sig .tc := ⟨.hbm, 238, rfl⟩
abbrev main_v142 : Ref sig .tc := ⟨.hbm, 239, rfl⟩
abbrev main_v143 : Ref sig .tc := ⟨.hbm, 240, rfl⟩
abbrev main_v144 : Ref sig .tc := ⟨.hbm, 241, rfl⟩
abbrev main_v145 : Ref sig .tc := ⟨.hbm, 242, rfl⟩
abbrev main_v146 : Ref sig .tc := ⟨.hbm, 243, rfl⟩
abbrev main_v147 : Ref sig .tc := ⟨.hbm, 244, rfl⟩
abbrev main_v148 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_call8_cst : Ref sig .tc := ⟨.hbm, 249, rfl⟩
abbrev main_call8_v0 : Ref sig .tc := ⟨.hbm, 250, rfl⟩
abbrev main_v152 : Ref sig .tc := ⟨.hbm, 251, rfl⟩
abbrev main_call9_c : Ref sig .tc := ⟨.hbm, 252, rfl⟩
abbrev main_call9_v0 : Ref sig .tc := ⟨.hbm, 253, rfl⟩
abbrev main_call9_v1 : Ref sig .tc := ⟨.hbm, 254, rfl⟩
abbrev main_call9_c_0 : Ref sig .tc := ⟨.hbm, 255, rfl⟩
abbrev main_call9_v2 : Ref sig .tc := ⟨.hbm, 256, rfl⟩
abbrev main_call9_v3 : Ref sig .tc := ⟨.hbm, 257, rfl⟩
abbrev main_call9_v4 : Ref sig .tc := ⟨.hbm, 258, rfl⟩
abbrev main_call9_v5 : Ref sig .tc := ⟨.hbm, 259, rfl⟩
abbrev main_call9_c_1 : Ref sig .tc := ⟨.hbm, 260, rfl⟩
abbrev main_call9_c_2 : Ref sig .tc := ⟨.hbm, 261, rfl⟩
abbrev main_call9_v6 : Ref sig .tc := ⟨.hbm, 262, rfl⟩
abbrev main_call9_v7 : Ref sig .tc := ⟨.hbm, 263, rfl⟩
abbrev main_call9_v8 : Ref sig .tc := ⟨.hbm, 264, rfl⟩
abbrev main_call9_v9 : Ref sig .tc := ⟨.hbm, 265, rfl⟩
abbrev main_call9_v10 : Ref sig .tc := ⟨.hbm, 266, rfl⟩
abbrev main_call9_v11 : Ref sig .tc := ⟨.hbm, 267, rfl⟩
abbrev main_call9_c_3 : Ref sig .tc := ⟨.hbm, 268, rfl⟩
abbrev main_call9_v12 : Ref sig .tc := ⟨.hbm, 269, rfl⟩
abbrev main_call9_v13 : Ref sig .tc := ⟨.hbm, 270, rfl⟩
abbrev main_call9_v14 : Ref sig .tc := ⟨.hbm, 271, rfl⟩
abbrev main_call9_cst : Ref sig .tc := ⟨.hbm, 272, rfl⟩
abbrev main_call9_v15 : Ref sig .tc := ⟨.hbm, 273, rfl⟩
abbrev main_v153 : Ref sig .tc := ⟨.hbm, 274, rfl⟩
abbrev main_cst_8 : Ref sig .tc := ⟨.hbm, 275, rfl⟩
abbrev main_v154 : Ref sig .tc := ⟨.hbm, 276, rfl⟩
abbrev main_v155 : Ref sig .tc := ⟨.hbm, 277, rfl⟩
abbrev main_v156 : Ref sig .tc := ⟨.hbm, 278, rfl⟩
abbrev main_v157 : Ref sig .tc := ⟨.hbm, 279, rfl⟩
abbrev main_v158 : Ref sig .tc := ⟨.hbm, 280, rfl⟩
abbrev main_cst_9 : Ref sig .tc := ⟨.hbm, 281, rfl⟩
abbrev main_v159 : Ref sig .tc := ⟨.hbm, 282, rfl⟩
abbrev main_v160 : Ref sig .tc := ⟨.hbm, 283, rfl⟩
abbrev main_v161 : Ref sig .tc := ⟨.hbm, 284, rfl⟩
abbrev main_v162 : Ref sig .tc := ⟨.hbm, 285, rfl⟩
abbrev main_v163 : Ref sig .tc := ⟨.hbm, 286, rfl⟩
abbrev main_v164 : Ref sig .tc := ⟨.hbm, 287, rfl⟩
abbrev main_v165 : Ref sig .tc := ⟨.hbm, 288, rfl⟩
abbrev main_v166 : Ref sig .tc := ⟨.hbm, 289, rfl⟩
abbrev main_v167 : Ref sig .tc := ⟨.hbm, 290, rfl⟩
abbrev main_v168 : Ref sig .tc := ⟨.hbm, 291, rfl⟩
abbrev main_v169 : Ref sig .tc := ⟨.hbm, 292, rfl⟩
abbrev main_v170 : Ref sig .tc := ⟨.hbm, 293, rfl⟩
abbrev main_call10_cst : Ref sig .tc := ⟨.hbm, 294, rfl⟩
abbrev main_call10_v0 : Ref sig .tc := ⟨.hbm, 295, rfl⟩
abbrev main_v171 : Ref sig .tc := ⟨.hbm, 296, rfl⟩
abbrev main_v172 : Ref sig .tc := ⟨.hbm, 297, rfl⟩
abbrev main_v173 : Ref sig .tc := ⟨.hbm, 298, rfl⟩
abbrev main_v174 : Ref sig .tc := ⟨.hbm, 299, rfl⟩
abbrev main_v175 : Ref sig .tc := ⟨.hbm, 300, rfl⟩
abbrev main_v176 : Ref sig .tc := ⟨.hbm, 301, rfl⟩
abbrev main_v177 : Ref sig .tc := ⟨.hbm, 302, rfl⟩
abbrev main_v178 : Ref sig .tc := ⟨.hbm, 303, rfl⟩
abbrev main_v179 : Ref sig .tc := ⟨.hbm, 304, rfl⟩
abbrev main_v180 : Ref sig .tc := ⟨.hbm, 305, rfl⟩
abbrev main_v181 : Ref sig .tc := ⟨.hbm, 306, rfl⟩
abbrev main_v182 : Ref sig .tc := ⟨.hbm, 307, rfl⟩
abbrev main_v183 : Ref sig .tc := ⟨.hbm, 308, rfl⟩
abbrev main_v184 : Ref sig .tc := ⟨.hbm, 309, rfl⟩
abbrev main_v185 : Ref sig .tc := ⟨.hbm, 310, rfl⟩
abbrev main_v186 : Ref sig .tc := ⟨.hbm, 311, rfl⟩
abbrev main_v187 : Ref sig .tc := ⟨.hbm, 312, rfl⟩
abbrev main_v188 : Ref sig .tc := ⟨.hbm, 313, rfl⟩
abbrev main_v189 : Ref sig .tc := ⟨.hbm, 314, rfl⟩
abbrev main_v190 : Ref sig .tc := ⟨.hbm, 315, rfl⟩
abbrev main_v191 : Ref sig .tc := ⟨.hbm, 316, rfl⟩
abbrev main_cst_10 : Ref sig .tc := ⟨.hbm, 317, rfl⟩
abbrev main_v192 : Ref sig .tc := ⟨.hbm, 318, rfl⟩
abbrev main_v193 : Ref sig .tc := ⟨.hbm, 319, rfl⟩
abbrev main_v194 : Ref sig .tc := ⟨.hbm, 320, rfl⟩
abbrev main_v195 : Ref sig .tc := ⟨.hbm, 321, rfl⟩
abbrev main_v196 : Ref sig .tc := ⟨.hbm, 322, rfl⟩
abbrev main_v197 : Ref sig .tc := ⟨.hbm, 323, rfl⟩
abbrev main_v198 : Ref sig .tc := ⟨.hbm, 324, rfl⟩
abbrev main_v199 : Ref sig .tc := ⟨.hbm, 325, rfl⟩
abbrev main_v200 : Ref sig .tc := ⟨.hbm, 326, rfl⟩
abbrev main_v201 : Ref sig .tc := ⟨.hbm, 327, rfl⟩
abbrev main_v202 : Ref sig .tc := ⟨.hbm, 328, rfl⟩
abbrev main_call11_cst : Ref sig .tc := ⟨.hbm, 329, rfl⟩
abbrev main_call11_v0 : Ref sig .tc := ⟨.hbm, 330, rfl⟩
abbrev main_v203 : Ref sig .tc := ⟨.hbm, 331, rfl⟩
abbrev main_call12_c : Ref sig .tc := ⟨.hbm, 332, rfl⟩
abbrev main_call12_v0 : Ref sig .tc := ⟨.hbm, 333, rfl⟩
abbrev main_call12_v1 : Ref sig .tc := ⟨.hbm, 334, rfl⟩
abbrev main_call12_c_0 : Ref sig .tc := ⟨.hbm, 335, rfl⟩
abbrev main_call12_v2 : Ref sig .tc := ⟨.hbm, 336, rfl⟩
abbrev main_call12_v3 : Ref sig .tc := ⟨.hbm, 337, rfl⟩
abbrev main_call12_v4 : Ref sig .tc := ⟨.hbm, 338, rfl⟩
abbrev main_call12_v5 : Ref sig .tc := ⟨.hbm, 339, rfl⟩
abbrev main_call12_c_1 : Ref sig .tc := ⟨.hbm, 340, rfl⟩
abbrev main_call12_c_2 : Ref sig .tc := ⟨.hbm, 341, rfl⟩
abbrev main_call12_v6 : Ref sig .tc := ⟨.hbm, 342, rfl⟩
abbrev main_call12_v7 : Ref sig .tc := ⟨.hbm, 343, rfl⟩
abbrev main_call12_v8 : Ref sig .tc := ⟨.hbm, 344, rfl⟩
abbrev main_call12_v9 : Ref sig .tc := ⟨.hbm, 345, rfl⟩
abbrev main_call12_v10 : Ref sig .tc := ⟨.hbm, 346, rfl⟩
abbrev main_call12_v11 : Ref sig .tc := ⟨.hbm, 347, rfl⟩
abbrev main_call12_c_3 : Ref sig .tc := ⟨.hbm, 348, rfl⟩
abbrev main_call12_v12 : Ref sig .tc := ⟨.hbm, 349, rfl⟩
abbrev main_call12_v13 : Ref sig .tc := ⟨.hbm, 350, rfl⟩
abbrev main_call12_v14 : Ref sig .tc := ⟨.hbm, 351, rfl⟩
abbrev main_call12_cst : Ref sig .tc := ⟨.hbm, 352, rfl⟩
abbrev main_call12_v15 : Ref sig .tc := ⟨.hbm, 353, rfl⟩
abbrev main_v204 : Ref sig .tc := ⟨.hbm, 354, rfl⟩
abbrev main_cst_11 : Ref sig .tc := ⟨.hbm, 355, rfl⟩
abbrev main_v205 : Ref sig .tc := ⟨.hbm, 356, rfl⟩
abbrev main_v206 : Ref sig .tc := ⟨.hbm, 357, rfl⟩
abbrev main_v207 : Ref sig .tc := ⟨.hbm, 358, rfl⟩
abbrev main_v208 : Ref sig .tc := ⟨.hbm, 359, rfl⟩
abbrev main_v209 : Ref sig .tc := ⟨.hbm, 360, rfl⟩
abbrev main_cst_12 : Ref sig .tc := ⟨.hbm, 361, rfl⟩
abbrev main_v210 : Ref sig .tc := ⟨.hbm, 362, rfl⟩
abbrev main_v211 : Ref sig .tc := ⟨.hbm, 363, rfl⟩
abbrev main_v212 : Ref sig .tc := ⟨.hbm, 364, rfl⟩
abbrev main_v213 : Ref sig .tc := ⟨.hbm, 365, rfl⟩
abbrev main_v214 : Ref sig .tc := ⟨.hbm, 366, rfl⟩
abbrev main_v215 : Ref sig .tc := ⟨.hbm, 367, rfl⟩
abbrev main_v216 : Ref sig .tc := ⟨.hbm, 368, rfl⟩
abbrev main_v217 : Ref sig .tc := ⟨.hbm, 369, rfl⟩
abbrev main_v218 : Ref sig .tc := ⟨.hbm, 370, rfl⟩
abbrev main_v219 : Ref sig .tc := ⟨.hbm, 371, rfl⟩
abbrev main_v220 : Ref sig .tc := ⟨.hbm, 372, rfl⟩
abbrev main_v221 : Ref sig .tc := ⟨.hbm, 373, rfl⟩
abbrev main_call13_cst : Ref sig .tc := ⟨.hbm, 374, rfl⟩
abbrev main_call13_v0 : Ref sig .tc := ⟨.hbm, 375, rfl⟩
abbrev main_v222 : Ref sig .tc := ⟨.hbm, 376, rfl⟩
abbrev main_v223 : Ref sig .tc := ⟨.hbm, 377, rfl⟩
abbrev main_v224 : Ref sig .tc := ⟨.hbm, 378, rfl⟩
abbrev main_v225 : Ref sig .tc := ⟨.hbm, 379, rfl⟩
abbrev main_v226 : Ref sig .tc := ⟨.hbm, 380, rfl⟩
abbrev main_v227 : Ref sig .tc := ⟨.hbm, 381, rfl⟩
abbrev main_v228 : Ref sig .tc := ⟨.hbm, 382, rfl⟩
abbrev main_v229 : Ref sig .tc := ⟨.hbm, 383, rfl⟩
abbrev main_v230 : Ref sig .tc := ⟨.hbm, 384, rfl⟩
abbrev main_v231 : Ref sig .tc := ⟨.hbm, 385, rfl⟩
abbrev main_v232 : Ref sig .tc := ⟨.hbm, 386, rfl⟩
abbrev main_v233 : Ref sig .tc := ⟨.hbm, 387, rfl⟩
abbrev main_v234 : Ref sig .tc := ⟨.hbm, 388, rfl⟩
abbrev main_v235 : Ref sig .tc := ⟨.hbm, 389, rfl⟩
abbrev main_v236 : Ref sig .tc := ⟨.hbm, 390, rfl⟩
abbrev main_v237 : Ref sig .tc := ⟨.hbm, 391, rfl⟩
abbrev main_v238 : Ref sig .tc := ⟨.hbm, 392, rfl⟩
abbrev main_v239 : Ref sig .tc := ⟨.hbm, 393, rfl⟩
abbrev main_v240 : Ref sig .tc := ⟨.hbm, 394, rfl⟩
abbrev main_v241 : Ref sig .tc := ⟨.hbm, 395, rfl⟩
abbrev main_v242 : Ref sig .tc := ⟨.hbm, 396, rfl⟩
abbrev main_cst_13 : Ref sig .tc := ⟨.hbm, 397, rfl⟩
abbrev main_v243 : Ref sig .tc := ⟨.hbm, 398, rfl⟩
abbrev main_v244 : Ref sig .tc := ⟨.hbm, 399, rfl⟩
abbrev main_v245 : Ref sig .tc := ⟨.hbm, 400, rfl⟩
abbrev main_v246 : Ref sig .tc := ⟨.hbm, 401, rfl⟩
abbrev main_v247 : Ref sig .tc := ⟨.hbm, 402, rfl⟩
abbrev main_v248 : Ref sig .tc := ⟨.hbm, 403, rfl⟩
abbrev main_v249 : Ref sig .tc := ⟨.hbm, 404, rfl⟩
abbrev main_v250 : Ref sig .tc := ⟨.hbm, 405, rfl⟩
abbrev main_v251 : Ref sig .tc := ⟨.hbm, 406, rfl⟩
abbrev main_v252 : Ref sig .tc := ⟨.hbm, 407, rfl⟩
abbrev main_v253 : Ref sig .tc := ⟨.hbm, 408, rfl⟩
abbrev main_call14_cst : Ref sig .tc := ⟨.hbm, 409, rfl⟩
abbrev main_call14_v0 : Ref sig .tc := ⟨.hbm, 410, rfl⟩
abbrev main_v254 : Ref sig .tc := ⟨.hbm, 411, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  slices_S5_S1_0 : S5.Slices ![0] S1
  shapeCasts_S1_S_ : S1.ShapeCasts S_
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  slices_S5_S1_1 : S5.Slices ![1] S1
  slices_S5x128x128_S1x128x128_1_0_0 : S5x128x128.Slices ![1, 0, 0] S1x128x128
  slices_S5x128_S1x128_1_0 : S5x128.Slices ![1, 0] S1x128
  slices_S5_S1_2 : S5.Slices ![2] S1
  slices_S5x128x128_S1x128x128_2_0_0 : S5x128x128.Slices ![2, 0, 0] S1x128x128
  slices_S5x128_S1x128_2_0 : S5x128.Slices ![2, 0] S1x128
  slices_S5_S1_3 : S5.Slices ![3] S1
  slices_S5x128x128_S1x128x128_3_0_0 : S5x128x128.Slices ![3, 0, 0] S1x128x128
  slices_S5x128_S1x128_3_0 : S5x128.Slices ![3, 0] S1x128
  slices_S5_S1_4 : S5.Slices ![4] S1
  slices_S5x128x128_S1x128x128_4_0_0 : S5x128x128.Slices ![4, 0, 0] S1x128x128
  slices_S5x128_S1x128_4_0 : S5x128.Slices ![4, 0] S1x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KerRun.lean ====
import proofs.«177667_j37366215475921_1_alg».proof.Proof.Gen.KernelIdeal.Frame

set_option maxRecDepth 16384

noncomputable section

namespace Cert.KernelIdeal.ValRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole run, with every unscoped buffer's final contents

The program is fifteen segments: ten stretches of host operations and five kernel regions. The thread state between
two segments is "every unscoped buffer of the core at the contents the fold `Gen.Wj` names, the generator register at
some state, nothing owed". The launch theorem for a list of segments composes them; the final thread state, read
against the final memory, says that every unscoped buffer holds `Gen.W15`. -/

-- the launch theorem's implicit arguments are found by unifying its conclusion with the statement, which needs
-- plain definitions unfolded in a metavariable's type
set_option backward.isDefEq.respectTransparency.types false in
/-- Every weakly fair execution of the kernel program terminates without a fault, and in every final memory each
    unscoped buffer of each core holds what the fold through the fifteen segments computes. -/
theorem run_all : θ_run defs (onTc (τ := τ) (main (F := F))) ⟨m, fun _ => 0, ρ⟩
    (fun r => ∀ c : Dev nD, ∀ b ∈ Pipeline.ucRefs τ sig, r.2.mem (((c : Thread nD τ)).1, b) = Gen.W15 m ρ c b) :=
  Pipeline.θ_run_regions_kit (pcfgs (F := F)) adm (pdats m ρ) () cellOf_inj emb₁ defs₀ 𝒱₀ L lv m ρ main (segs m ρ)
    (hmain := fun c Q => by rw [main_run m ρ c])
    (hnd := by simp only [Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      -- the launch element is the pipeline library's alone: owning it is owning it through the embedding; the
      -- per-core ghost resources are empty
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl⟩)
    (hinit := by
      refine Pipeline.initEach L lv fun c => ?_
      -- per core: the launch's unscoped buffers are the held set at the launch contents; the register is at its
      -- launch state; the core owes nothing, recorded over no pair
      rw [show unscopedBufs (Ix := Unit) (Name := ℕ) (U := UR sig nD τ) (Lvl := ℕ) c (fun b => m ((c : Thread nD τ).loc b))
            = StableHlo.held (c : Thread nD τ) (Pipeline.ucRefs τ sig) (W0 m ρ c) from Pipeline.unscopedBufs_held c (W0 m ρ c)]
      iintro ⟨⟨Hh, -, HO, -, Hp, -⟩, -⟩
      imodintro
      isplitl [Hh]; · iexact Hh
      isplitl [Hp]
      · iexists _; iexact Hp
      · iexists ∅; iexact HO)
    (QY := fun c s => ∀ b ∈ Pipeline.ucRefs τ sig, s.mem (((c : Thread nD τ)).1, b) = Gen.W15 m ρ c b)
    (hfin := fun c s' => by
      -- every points-to of the held set read against the state interpretation
      unfold Tₙ StableHlo.held
      iintro ⟨⟨Hh, -⟩, HSI⟩
      ihave H := (pointsTo_read_all (Pipeline.ucRefs τ sig) (fun b => (((c : Thread nD τ)).1, b)) (Gen.W15 m ρ c) s') $$ [Hh HSI]
      · isplitl [Hh] <;> iassumption
      icases H with ⟨%h, HSI⟩
      imodintro
      isplitr; · ipureintro; exact h
      iexact HSI)
    (hQ := fun _ h => h)

/-- The same run, read at the six result buffers and the twelve arguments: the first result is the first argument
    itself, untouched; the other five are the regions' outputs, at what the fold leaves there; every argument ends as
    launched (no host operation and no region writes one). -/
theorem run_results : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_v29) = Gen.W15 m ρ c (Proc.devRef .tc main_v29)
      ∧ r.2.mem ((c.tc : Thread nD τ).loc main_v59) = Gen.W15 m ρ c (Proc.devRef .tc main_v59)
      ∧ r.2.mem ((c.tc : Thread nD τ).loc main_v89) = Gen.W15 m ρ c (Proc.devRef .tc main_v89)
      ∧ r.2.mem ((c.tc : Thread nD τ).loc main_v119) = Gen.W15 m ρ c (Proc.devRef .tc main_v119)
      ∧ r.2.mem ((c.tc : Thread nD τ).loc main_v149) = Gen.W15 m ρ c (Proc.devRef .tc main_v149)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => by
    -- a TensorCore reference that is not scoped is one of the held set; read the final memory there
    have rd : ∀ b : Ref sig .tc, ¬ (Proc.devRef .tc b : DevRef τ sig).isScoped →
        r.2.mem ((c.tc : Thread nD τ).loc b) = Gen.W15 m ρ c (Proc.devRef .tc b) :=
      fun b hb => h c _ (mem_uc b hb)
    exact ⟨(rd main_arg0 (by decide)).trans (W15_main_arg0 m ρ c),
      rd main_v29 (by decide), rd main_v59 (by decide), rd main_v89 (by decide), rd main_v119 (by decide), rd main_v149 (by decide),
      (rd main_arg0 (by decide)).trans (W15_main_arg0 m ρ c),
      (rd main_arg1 (by decide)).trans (W15_main_arg1 m ρ c),
      (rd main_arg2 (by decide)).trans (W15_main_arg2 m ρ c),
      (rd main_arg3 (by decide)).trans (W15_main_arg3 m ρ c),
      (rd main_arg4 (by decide)).trans (W15_main_arg4 m ρ c),
      (rd main_arg5 (by decide)).trans (W15_main_arg5 m ρ c),
      (rd main_arg6 (by decide)).trans (W15_main_arg6 m ρ c),
      (rd main_arg7 (by decide)).trans (W15_main_arg7 m ρ c),
      (rd main_arg8 (by decide)).trans (W15_main_arg8 m ρ c),
      (rd main_arg9 (by decide)).trans (W15_main_arg9 m ρ c),
      (rd main_arg10 (by decide)).trans (W15_main_arg10 m ρ c),
      (rd main_arg11 (by decide)).trans (W15_main_arg11 m ρ c)⟩)
    (run_all m ρ)

end Cert.KernelIdeal.ValRun

end
-- ==== Proof.KerKeep.lean ====
import proofs.«177667_j37366215475921_1_alg».proof.Proof.Gen.KernelIdeal.Frame

set_option maxRecDepth 16384

noncomputable section

namespace Cert.KernelIdeal.ValRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # Which buffers each segment leaves alone

Each of the ten stretches of host operations writes only the buffers of one literal list: a buffer outside the list
holds after the stretch what it held before. A region rewrites only its own twelve arrays, and of those only the
last (its output): an input array holds at the exit what it held at the entry. From these, each region's output is
read back through the rest of the program to the end, and the arguments are read forward from the launch. -/

section Stretches

/-- The buffers written by the first take. -/
abbrev wl0 : List (Ref sig .tc) :=
  [main_call0_c, main_call0_v0, main_call0_v1, main_call0_c_0, main_call0_v2, main_call0_v3, main_call0_v4, main_call0_v5,
   main_call0_c_1, main_call0_c_2, main_call0_v6, main_call0_v7, main_call0_v8, main_call0_v9, main_call0_v10, main_call0_v11,
   main_call0_c_3, main_call0_v12, main_call0_v13, main_call0_v14, main_call0_cst, main_call0_v15, main_v0]
/-- Every operation of the stretch writes inside that list: each writes exactly its result buffer. -/
theorem writes0 : (hostOps0 : List (HloOp τ sig (Elt F))).Forall fun op =>
    op.writes ⊆ (wl0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
/-- A buffer outside the list is kept by the stretch, from any contents. -/
theorem keep0 (V' : Valuation τ sig (Elt F)) (r : Ref sig .tc) (hr : r ∉ wl0) :
    StableHlo.after hostOps0 V' (Proc.devRef .tc r) = V' (Proc.devRef .tc r) :=
  StableHlo.after_of_writes_sub hostOps0 V' writes0 hr

/-- The buffers written by the pooling and the parameter slices before region 0. -/
abbrev wl0_1 : List (Ref sig .tc) :=
  [main_cst, main_v1, main_v2, main_v3, main_v4, main_v5, main_v6, main_v7,
   main_v8, main_v9, main_v10, main_v11, main_v12, main_v13, main_v14, main_v15,
   main_v16, main_v17, main_v18, main_v19, main_v20, main_v21, main_v22, main_v23,
   main_v24, main_v25, main_v26, main_v27, main_v28]
/-- Every operation of the stretch writes inside that list: each writes exactly its result buffer. -/
theorem writes0_1 : (hostOps0_1 : List (HloOp τ sig (Elt F))).Forall fun op =>
    op.writes ⊆ (wl0_1.map (Proc.devRef (τ := τ) .tc)).toFinset := by
  simp only [hostOps0_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
/-- A buffer outside the list is kept by the stretch, from any contents. -/
theorem keep0_1 (V' : Valuation τ sig (Elt F)) (r : Ref sig .tc) (hr : r ∉ wl0_1) :
    StableHlo.after hostOps0_1 V' (Proc.devRef .tc r) = V' (Proc.devRef .tc r) :=
  StableHlo.after_of_writes_sub hostOps0_1 V' writes0_1 hr

/-- The buffers written by the second take. -/
abbrev wl1 : List (Ref sig .tc) :=
  [main_call1_c, main_call1_v0, main_call1_v1, main_call1_c_0, main_call1_v2, main_call1_v3, main_call1_v4, main_call1_v5,
   main_call1_c_1, main_call1_c_2, main_call1_v6, main_call1_v7, main_call1_v8, main_call1_v9, main_call1_v10, main_call1_v11,
   main_call1_c_3, main_call1_v12, main_call1_v13, main_call1_v14, main_call1_cst, main_call1_v15, main_v30]
/-- Every operation of the stretch writes inside that list: each writes exactly its result buffer. -/
theorem writes1 : (hostOps1 : List (HloOp τ sig (Elt F))).Forall fun op =>
    op.writes ⊆ (wl1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
/-- A buffer outside the list is kept by the stretch, from any contents. -/
theorem keep1 (V' : Valuation τ sig (Elt F)) (r : Ref sig .tc) (hr : r ∉ wl1) :
    StableHlo.after hostOps1 V' (Proc.devRef .tc r) = V' (Proc.devRef .tc r) :=
  StableHlo.after_of_writes_sub hostOps1 V' writes1 hr

/-- The buffers written by the pooling and the parameter slices before region 1. -/
abbrev wl1_1 : List (Ref sig .tc) :=
  [main_cst_0, main_v31, main_v32, main_v33, main_v34, main_v35, main_v36, main_v37,
   main_v38, main_v39, main_v40, main_v41, main_v42, main_v43, main_v44, main_v45,
   main_v46, main_v47, main_v48, main_v49, main_v50, main_v51, main_v52, main_v53,
   main_v54, main_v55, main_v56, main_v57, main_v58]
/-- Every operation of the stretch writes inside that list: each writes exactly its result buffer. -/
theorem writes1_1 : (hostOps1_1 : List (HloOp τ sig (Elt F))).Forall fun op =>
    op.writes ⊆ (wl1_1.map (Proc.devRef (τ := τ) .tc)).toFinset := by
  simp only [hostOps1_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
/-- A buffer outside the list is kept by the stretch, from any contents. -/
theorem keep1_1 (V' : Valuation τ sig (Elt F)) (r : Ref sig .tc) (hr : r ∉ wl1_1) :
    StableHlo.after hostOps1_1 V' (Proc.devRef .tc r) = V' (Proc.devRef .tc r) :=
  StableHlo.after_of_writes_sub hostOps1_1 V' writes1_1 hr

/-- The buffers written by the third take. -/
abbrev wl2 : List (Ref sig .tc) :=
  [main_call2_c, main_call2_v0, main_call2_v1, main_call2_c_0, main_call2_v2, main_call2_v3, main_call2_v4, main_call2_v5,
   main_call2_c_1, main_call2_c_2, main_call2_v6, main_call2_v7, main_call2_v8, main_call2_v9, main_call2_v10, main_call2_v11,
   main_call2_c_3, main_call2_v12, main_call2_v13, main_call2_v14, main_call2_cst, main_call2_v15, main_v60]
/-- Every operation of the stretch writes inside that list: each writes exactly its result buffer. -/
theorem writes2 : (hostOps2 : List (HloOp τ sig (Elt F))).Forall fun op =>
    op.writes ⊆ (wl2.map (Proc.devRef (τ := τ) .tc)).toFinset := by
  simp only [hostOps2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
/-- A buffer outside the list is kept by the stretch, from any contents. -/
theorem keep2 (V' : Valuation τ sig (Elt F)) (r : Ref sig .tc) (hr : r ∉ wl2) :
    StableHlo.after hostOps2 V' (Proc.devRef .tc r) = V' (Proc.devRef .tc r) :=
  StableHlo.after_of_writes_sub hostOps2 V' writes2 hr

/-- The buffers written by the pooling and the parameter slices before region 2. -/
abbrev wl2_1 : List (Ref sig .tc) :=
  [main_cst_1, main_v61, main_v62, main_v63, main_v64, main_v65, main_v66, main_v67,
   main_v68, main_v69, main_v70, main_v71, main_v72, main_v73, main_v74, main_v75,
   main_v76, main_v77, main_v78, main_v79, main_v80, main_v81, main_v82, main_v83,
   main_v84, main_v85, main_v86, main_v87, main_v88]
/-- Every operation of the stretch writes inside that list: each writes exactly its result buffer. -/
theorem writes2_1 : (hostOps2_1 : List (HloOp τ sig (Elt F))).Forall fun op =>
    op.writes ⊆ (wl2_1.map (Proc.devRef (τ := τ) .tc)).toFinset := by
  simp only [hostOps2_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
/-- A buffer outside the list is kept by the stretch, from any contents. -/
theorem keep2_1 (V' : Valuation τ sig (Elt F)) (r : Ref sig .tc) (hr : r ∉ wl2_1) :
    StableHlo.after hostOps2_1 V' (Proc.devRef .tc r) = V' (Proc.devRef .tc r) :=
  StableHlo.after_of_writes_sub hostOps2_1 V' writes2_1 hr

/-- The buffers written by the fourth take. -/
abbrev wl3 : List (Ref sig .tc) :=
  [main_call3_c, main_call3_v0, main_call3_v1, main_call3_c_0, main_call3_v2, main_call3_v3, main_call3_v4, main_call3_v5,
   main_call3_c_1, main_call3_c_2, main_call3_v6, main_call3_v7, main_call3_v8, main_call3_v9, main_call3_v10, main_call3_v11,
   main_call3_c_3, main_call3_v12, main_call3_v13, main_call3_v14, main_call3_cst, main_call3_v15, main_v90]
/-- Every operation of the stretch writes inside that list: each writes exactly its result buffer. -/
theorem writes3 : (hostOps3 : List (HloOp τ sig (Elt F))).Forall fun op =>
    op.writes ⊆ (wl3.map (Proc.devRef (τ := τ) .tc)).toFinset := by
  simp only [hostOps3, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
/-- A buffer outside the list is kept by the stretch, from any contents. -/
theorem keep3 (V' : Valuation τ sig (Elt F)) (r : Ref sig .tc) (hr : r ∉ wl3) :
    StableHlo.after hostOps3 V' (Proc.devRef .tc r) = V' (Proc.devRef .tc r) :=
  StableHlo.after_of_writes_sub hostOps3 V' writes3 hr

/-- The buffers written by the pooling and the parameter slices before region 3. -/
abbrev wl3_1 : List (Ref sig .tc) :=
  [main_cst_2, main_v91, main_v92, main_v93, main_v94, main_v95, main_v96, main_v97,
   main_v98, main_v99, main_v100, main_v101, main_v102, main_v103, main_v104, main_v105,
   main_v106, main_v107, main_v108, main_v109, main_v110, main_v111, main_v112, main_v113,
   main_v114, main_v115, main_v116, main_v117, main_v118]
/-- Every operation of the stretch writes inside that list: each writes exactly its result buffer. -/
theorem writes3_1 : (hostOps3_1 : List (HloOp τ sig (Elt F))).Forall fun op =>
    op.writes ⊆ (wl3_1.map (Proc.devRef (τ := τ) .tc)).toFinset := by
  simp only [hostOps3_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
/-- A buffer outside the list is kept by the stretch, from any contents. -/
theorem keep3_1 (V' : Valuation τ sig (Elt F)) (r : Ref sig .tc) (hr : r ∉ wl3_1) :
    StableHlo.after hostOps3_1 V' (Proc.devRef .tc r) = V' (Proc.devRef .tc r) :=
  StableHlo.after_of_writes_sub hostOps3_1 V' writes3_1 hr

/-- The buffers written by the fifth take. -/
abbrev wl4 : List (Ref sig .tc) :=
  [main_call4_c, main_call4_v0, main_call4_v1, main_call4_c_0, main_call4_v2, main_call4_v3, main_call4_v4, main_call4_v5,
   main_call4_c_1, main_call4_c_2, main_call4_v6, main_call4_v7, main_call4_v8, main_call4_v9, main_call4_v10, main_call4_v11,
   main_call4_c_3, main_call4_v12, main_call4_v13, main_call4_v14, main_call4_cst, main_call4_v15, main_v120]
/-- Every operation of the stretch writes inside that list: each writes exactly its result buffer. -/
theorem writes4 : (hostOps4 : List (HloOp τ sig (Elt F))).Forall fun op =>
    op.writes ⊆ (wl4.map (Proc.devRef (τ := τ) .tc)).toFinset := by
  simp only [hostOps4, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
/-- A buffer outside the list is kept by the stretch, from any contents. -/
theorem keep4 (V' : Valuation τ sig (Elt F)) (r : Ref sig .tc) (hr : r ∉ wl4) :
    StableHlo.after hostOps4 V' (Proc.devRef .tc r) = V' (Proc.devRef .tc r) :=
  StableHlo.after_of_writes_sub hostOps4 V' writes4 hr

/-- The buffers written by the pooling and the parameter slices before region 4. -/
abbrev wl4_1 : List (Ref sig .tc) :=
  [main_cst_3, main_v121, main_v122, main_v123, main_v124, main_v125, main_v126, main_v127,
   main_v128, main_v129, main_v130, main_v131, main_v132, main_v133, main_v134, main_v135,
   main_v136, main_v137, main_v138, main_v139, main_v140, main_v141, main_v142, main_v143,
   main_v144, main_v145, main_v146, main_v147, main_v148]
/-- Every operation of the stretch writes inside that list: each writes exactly its result buffer. -/
theorem writes4_1 : (hostOps4_1 : List (HloOp τ sig (Elt F))).Forall fun op =>
    op.writes ⊆ (wl4_1.map (Proc.devRef (τ := τ) .tc)).toFinset := by
  simp only [hostOps4_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
/-- A buffer outside the list is kept by the stretch, from any contents. -/
theorem keep4_1 (V' : Valuation τ sig (Elt F)) (r : Ref sig .tc) (hr : r ∉ wl4_1) :
    StableHlo.after hostOps4_1 V' (Proc.devRef .tc r) = V' (Proc.devRef .tc r) :=
  StableHlo.after_of_writes_sub hostOps4_1 V' writes4_1 hr

end Stretches

/-! ## Each region's output, read at the end of the program -/

/-- Region 0's output at the end of the program is what its write-backs leave: region 1 only reads it (its second
    input), and no later stretch or region touches it. -/
theorem res_0 (c : Dev nD) :
    Gen.W15 m ρ c (Proc.devRef .tc main_v29) = (Gen.dat0 (Gen.V2 m ρ) c).arrAt 11 cfg0.N :=
  calc Gen.W15 m ρ c (Proc.devRef .tc main_v29)
    _ = W14 m ρ c (Proc.devRef .tc main_v29) := W15_of_ne m ρ c main_v29 (by decide)
    _ = W13 m ρ c (Proc.devRef .tc main_v29) := keep4_1 _ main_v29 (by decide)
    _ = W12 m ρ c (Proc.devRef .tc main_v29) := keep4 _ main_v29 (by decide)
    _ = W11 m ρ c (Proc.devRef .tc main_v29) := W12_of_ne m ρ c main_v29 (by decide)
    _ = W10 m ρ c (Proc.devRef .tc main_v29) := keep3_1 _ main_v29 (by decide)
    _ = W9 m ρ c (Proc.devRef .tc main_v29) := keep3 _ main_v29 (by decide)
    _ = W8 m ρ c (Proc.devRef .tc main_v29) := W9_of_ne m ρ c main_v29 (by decide)
    _ = W7 m ρ c (Proc.devRef .tc main_v29) := keep2_1 _ main_v29 (by decide)
    _ = W6 m ρ c (Proc.devRef .tc main_v29) := keep2 _ main_v29 (by decide)
    _ = W5 m ρ c (Proc.devRef .tc main_v29) := (W6_arr m ρ c 1).trans (((dat1 (V5 m ρ) c).arrAt_in 1 rfl _).trans (A_eq1 (V5 m ρ) c 1))
    _ = W4 m ρ c (Proc.devRef .tc main_v29) := keep1_1 _ main_v29 (by decide)
    _ = W3 m ρ c (Proc.devRef .tc main_v29) := keep1 _ main_v29 (by decide)
    _ = (dat0 (V2 m ρ) c).arrAt 11 cfg0.N := W3_arr m ρ c 11

/-- Region 1's output at the end of the program is what its write-backs leave: region 2 only reads it (its second
    input), and no later stretch or region touches it. -/
theorem res_1 (c : Dev nD) :
    Gen.W15 m ρ c (Proc.devRef .tc main_v59) = (Gen.dat1 (Gen.V5 m ρ) c).arrAt 11 cfg1.N :=
  calc Gen.W15 m ρ c (Proc.devRef .tc main_v59)
    _ = W14 m ρ c (Proc.devRef .tc main_v59) := W15_of_ne m ρ c main_v59 (by decide)
    _ = W13 m ρ c (Proc.devRef .tc main_v59) := keep4_1 _ main_v59 (by decide)
    _ = W12 m ρ c (Proc.devRef .tc main_v59) := keep4 _ main_v59 (by decide)
    _ = W11 m ρ c (Proc.devRef .tc main_v59) := W12_of_ne m ρ c main_v59 (by decide)
    _ = W10 m ρ c (Proc.devRef .tc main_v59) := keep3_1 _ main_v59 (by decide)
    _ = W9 m ρ c (Proc.devRef .tc main_v59) := keep3 _ main_v59 (by decide)
    _ = W8 m ρ c (Proc.devRef .tc main_v59) := (W9_arr m ρ c 1).trans (((dat2 (V8 m ρ) c).arrAt_in 1 rfl _).trans (A_eq2 (V8 m ρ) c 1))
    _ = W7 m ρ c (Proc.devRef .tc main_v59) := keep2_1 _ main_v59 (by decide)
    _ = W6 m ρ c (Proc.devRef .tc main_v59) := keep2 _ main_v59 (by decide)
    _ = (dat1 (V5 m ρ) c).arrAt 11 cfg1.N := W6_arr m ρ c 11

/-- Region 2's output at the end of the program is what its write-backs leave: region 3 only reads it (its second
    input), and no later stretch or region touches it. -/
theorem res_2 (c : Dev nD) :
    Gen.W15 m ρ c (Proc.devRef .tc main_v89) = (Gen.dat2 (Gen.V8 m ρ) c).arrAt 11 cfg2.N :=
  calc Gen.W15 m ρ c (Proc.devRef .tc main_v89)
    _ = W14 m ρ c (Proc.devRef .tc main_v89) := W15_of_ne m ρ c main_v89 (by decide)
    _ = W13 m ρ c (Proc.devRef .tc main_v89) := keep4_1 _ main_v89 (by decide)
    _ = W12 m ρ c (Proc.devRef .tc main_v89) := keep4 _ main_v89 (by decide)
    _ = W11 m ρ c (Proc.devRef .tc main_v89) := (W12_arr m ρ c 1).trans (((dat3 (V11 m ρ) c).arrAt_in 1 rfl _).trans (A_eq3 (V11 m ρ) c 1))
    _ = W10 m ρ c (Proc.devRef .tc main_v89) := keep3_1 _ main_v89 (by decide)
    _ = W9 m ρ c (Proc.devRef .tc main_v89) := keep3 _ main_v89 (by decide)
    _ = (dat2 (V8 m ρ) c).arrAt 11 cfg2.N := W9_arr m ρ c 11

/-- Region 3's output at the end of the program is what its write-backs leave: region 4 only reads it (its second
    input), and no later stretch or region touches it. -/
theorem res_3 (c : Dev nD) :
    Gen.W15 m ρ c (Proc.devRef .tc main_v119) = (Gen.dat3 (Gen.V11 m ρ) c).arrAt 11 cfg3.N :=
  calc Gen.W15 m ρ c (Proc.devRef .tc main_v119)
    _ = W14 m ρ c (Proc.devRef .tc main_v119) := (W15_arr m ρ c 1).trans (((dat4 (V14 m ρ) c).arrAt_in 1 rfl _).trans (A_eq4 (V14 m ρ) c 1))
    _ = W13 m ρ c (Proc.devRef .tc main_v119) := keep4_1 _ main_v119 (by decide)
    _ = W12 m ρ c (Proc.devRef .tc main_v119) := keep4 _ main_v119 (by decide)
    _ = (dat3 (V11 m ρ) c).arrAt 11 cfg3.N := W12_arr m ρ c 11

/-- The last region's output is what its write-backs leave: nothing runs after it. -/
theorem res_4 (c : Dev nD) :
    Gen.W15 m ρ c (Proc.devRef .tc main_v149) = (Gen.dat4 (Gen.V14 m ρ) c).arrAt 11 cfg4.N :=
  calc Gen.W15 m ρ c (Proc.devRef .tc main_v149)
    _ = (dat4 (V14 m ρ) c).arrAt 11 cfg4.N := W15_arr m ρ c 11

/-! ## Buffers nothing touches: the arguments other than the first

A buffer that no stretch writes and that is no region's array holds at every segment boundary what the launch
memory holds. The eleven arguments after the first are such buffers (the first is region 0's second input). -/

/-- Nothing in the program touches `b`. -/
structure Quiet (b : Ref sig .tc) : Prop where
  /-- not written by the take before region 0, -/
  s0 : b ∉ wl0
  /-- nor by the pooling and the slices before it, -/
  t0 : b ∉ wl0_1
  /-- and not one of region 0's arrays; -/
  r0 : ∀ w, Pipeline.arrRef spec0 w ≠ b
  /-- not written by the take before region 1, -/
  s1 : b ∉ wl1
  /-- nor by the pooling and the slices before it, -/
  t1 : b ∉ wl1_1
  /-- and not one of region 1's arrays; -/
  r1 : ∀ w, Pipeline.arrRef spec1 w ≠ b
  /-- not written by the take before region 2, -/
  s2 : b ∉ wl2
  /-- nor by the pooling and the slices before it, -/
  t2 : b ∉ wl2_1
  /-- and not one of region 2's arrays; -/
  r2 : ∀ w, Pipeline.arrRef spec2 w ≠ b
  /-- not written by the take before region 3, -/
  s3 : b ∉ wl3
  /-- nor by the pooling and the slices before it, -/
  t3 : b ∉ wl3_1
  /-- and not one of region 3's arrays; -/
  r3 : ∀ w, Pipeline.arrRef spec3 w ≠ b
  /-- not written by the take before region 4, -/
  s4 : b ∉ wl4
  /-- nor by the pooling and the slices before it, -/
  t4 : b ∉ wl4_1
  /-- and not one of region 4's arrays; -/
  r4 : ∀ w, Pipeline.arrRef spec4 w ≠ b

section Quiet
variable {b : Ref sig .tc} (h : Quiet b) (c : Dev nD)
include h

theorem quiet_W0 : W0 m ρ c (Proc.devRef .tc b) = m ((c : Thread nD τ).loc b) := rfl
theorem quiet_W1 : W1 m ρ c (Proc.devRef .tc b) = m ((c : Thread nD τ).loc b) :=
  (keep0 _ b h.s0).trans (quiet_W0 m ρ h c)
theorem quiet_W2 : W2 m ρ c (Proc.devRef .tc b) = m ((c : Thread nD τ).loc b) :=
  (keep0_1 _ b h.t0).trans (quiet_W1 m ρ h c)
theorem quiet_W3 : W3 m ρ c (Proc.devRef .tc b) = m ((c : Thread nD τ).loc b) :=
  (W3_of_ne m ρ c b h.r0).trans (quiet_W2 m ρ h c)
theorem quiet_W4 : W4 m ρ c (Proc.devRef .tc b) = m ((c : Thread nD τ).loc b) :=
  (keep1 _ b h.s1).trans (quiet_W3 m ρ h c)
theorem quiet_W5 : W5 m ρ c (Proc.devRef .tc b) = m ((c : Thread nD τ).loc b) :=
  (keep1_1 _ b h.t1).trans (quiet_W4 m ρ h c)
theorem quiet_W6 : W6 m ρ c (Proc.devRef .tc b) = m ((c : Thread nD τ).loc b) :=
  (W6_of_ne m ρ c b h.r1).trans (quiet_W5 m ρ h c)
theorem quiet_W7 : W7 m ρ c (Proc.devRef .tc b) = m ((c : Thread nD τ).loc b) :=
  (keep2 _ b h.s2).trans (quiet_W6 m ρ h c)
theorem quiet_W8 : W8 m ρ c (Proc.devRef .tc b) = m ((c : Thread nD τ).loc b) :=
  (keep2_1 _ b h.t2).trans (quiet_W7 m ρ h c)
theorem quiet_W9 : W9 m ρ c (Proc.devRef .tc b) = m ((c : Thread nD τ).loc b) :=
  (W9_of_ne m ρ c b h.r2).trans (quiet_W8 m ρ h c)
theorem quiet_W10 : W10 m ρ c (Proc.devRef .tc b) = m ((c : Thread nD τ).loc b) :=
  (keep3 _ b h.s3).trans (quiet_W9 m ρ h c)
theorem quiet_W11 : W11 m ρ c (Proc.devRef .tc b) = m ((c : Thread nD τ).loc b) :=
  (keep3_1 _ b h.t3).trans (quiet_W10 m ρ h c)
theorem quiet_W12 : W12 m ρ c (Proc.devRef .tc b) = m ((c : Thread nD τ).loc b) :=
  (W12_of_ne m ρ c b h.r3).trans (quiet_W11 m ρ h c)
theorem quiet_W13 : W13 m ρ c (Proc.devRef .tc b) = m ((c : Thread nD τ).loc b) :=
  (keep4 _ b h.s4).trans (quiet_W12 m ρ h c)
theorem quiet_W14 : W14 m ρ c (Proc.devRef .tc b) = m ((c : Thread nD τ).loc b) :=
  (keep4_1 _ b h.t4).trans (quiet_W13 m ρ h c)
theorem quiet_W15 : W15 m ρ c (Proc.devRef .tc b) = m ((c : Thread nD τ).loc b) :=
  (W15_of_ne m ρ c b h.r4).trans (quiet_W14 m ρ h c)

end Quiet

theorem quiet_arg1 : Quiet main_arg1 := by constructor <;> decide
theorem quiet_arg2 : Quiet main_arg2 := by constructor <;> decide
theorem quiet_arg3 : Quiet main_arg3 := by constructor <;> decide
theorem quiet_arg4 : Quiet main_arg4 := by constructor <;> decide
theorem quiet_arg5 : Quiet main_arg5 := by constructor <;> decide
theorem quiet_arg6 : Quiet main_arg6 := by constructor <;> decide
theorem quiet_arg7 : Quiet main_arg7 := by constructor <;> decide
theorem quiet_arg8 : Quiet main_arg8 := by constructor <;> decide
theorem quiet_arg9 : Quiet main_arg9 := by constructor <;> decide
theorem quiet_arg10 : Quiet main_arg10 := by constructor <;> decide
theorem quiet_arg11 : Quiet main_arg11 := by constructor <;> decide

/-! ## Each region's output where the next take and the next region read it -/

/-- Region 0's output when the take before region 1 reads it: what the write-backs left. -/
theorem out0_W3 (c : Dev nD) :
    W3 m ρ c (Proc.devRef .tc main_v29) = (Gen.dat0 (Gen.V2 m ρ) c).arrAt 11 cfg0.N :=
  W3_arr m ρ c 11
/-- and when region 1 is entered: the two stretches in between leave it alone. -/
theorem out0_W5 (c : Dev nD) :
    W5 m ρ c (Proc.devRef .tc main_v29) = (Gen.dat0 (Gen.V2 m ρ) c).arrAt 11 cfg0.N :=
  (keep1_1 _ main_v29 (by decide)).trans ((keep1 _ main_v29 (by decide)).trans (out0_W3 m ρ c))

/-- Region 1's output when the take before region 2 reads it: what the write-backs left. -/
theorem out1_W6 (c : Dev nD) :
    W6 m ρ c (Proc.devRef .tc main_v59) = (Gen.dat1 (Gen.V5 m ρ) c).arrAt 11 cfg1.N :=
  W6_arr m ρ c 11
/-- and when region 2 is entered: the two stretches in between leave it alone. -/
theorem out1_W8 (c : Dev nD) :
    W8 m ρ c (Proc.devRef .tc main_v59) = (Gen.dat1 (Gen.V5 m ρ) c).arrAt 11 cfg1.N :=
  (keep2_1 _ main_v59 (by decide)).trans ((keep2 _ main_v59 (by decide)).trans (out1_W6 m ρ c))

/-- Region 2's output when the take before region 3 reads it: what the write-backs left. -/
theorem out2_W9 (c : Dev nD) :
    W9 m ρ c (Proc.devRef .tc main_v89) = (Gen.dat2 (Gen.V8 m ρ) c).arrAt 11 cfg2.N :=
  W9_arr m ρ c 11
/-- and when region 3 is entered: the two stretches in between leave it alone. -/
theorem out2_W11 (c : Dev nD) :
    W11 m ρ c (Proc.devRef .tc main_v89) = (Gen.dat2 (Gen.V8 m ρ) c).arrAt 11 cfg2.N :=
  (keep3_1 _ main_v89 (by decide)).trans ((keep3 _ main_v89 (by decide)).trans (out2_W9 m ρ c))

/-- Region 3's output when the take before region 4 reads it: what the write-backs left. -/
theorem out3_W12 (c : Dev nD) :
    W12 m ρ c (Proc.devRef .tc main_v119) = (Gen.dat3 (Gen.V11 m ρ) c).arrAt 11 cfg3.N :=
  W12_arr m ρ c 11
/-- and when region 4 is entered: the two stretches in between leave it alone. -/
theorem out3_W14 (c : Dev nD) :
    W14 m ρ c (Proc.devRef .tc main_v119) = (Gen.dat3 (Gen.V11 m ρ) c).arrAt 11 cfg3.N :=
  (keep4_1 _ main_v119 (by decide)).trans ((keep4 _ main_v119 (by decide)).trans (out3_W12 m ρ c))

/-- The first argument when region 0 is entered: the two stretches before it leave it alone. -/
theorem arg0_W2 (c : Dev nD) : W2 m ρ c (Proc.devRef .tc main_arg0) = m ((c : Thread nD τ).loc main_arg0) :=
  (keep0_1 _ main_arg0 (by decide)).trans (keep0 _ main_arg0 (by decide))

end Cert.KernelIdeal.ValRun

end
-- ==== Proof.KerHost.lean ====
import proofs.«177667_j37366215475921_1_alg».proof.Proof.KerKeep

set_option maxRecDepth 16384

noncomputable section

namespace Cert.KernelIdeal.ValRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two host computations before a region, as pure functions -/

/-- The gather of the rows of `x` at the indices `i`: a negative index is wrapped once by the row count, and a row
    whose wrapped index still falls outside `0 … 49999` is filled with the not-a-number pattern instead of a row. -/
def takeOut (x : (⟨S50000x128, .f32⟩ : BufTy).Contents (Elt F)) (i : (⟨S800000, .i32⟩ : BufTy).Contents (Elt F)) :
    (⟨S800000x128, .f32⟩ : BufTy).Contents (Elt F) :=
  let j := broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 50000#32))) i)
  select
    (broadcastInDim S800000x128 ![0] bcast_S800000_S800000x128_0
      (Host.reduce IntOp.andi
        (andi (cmpi .sge j (broadcastInDim S800000x1 ![] bcast_S_S800000x1 (constantI S_ 32 0#32)))
          (cmpi .sle j (broadcastInDim S800000x1 ![0, 1] bcast_S1x1_S800000x1_0_1
            (broadcastInDim S1x1 ![1] bcast_S1_S1x1_1 (constantI S1 32 49999#32)))))
        (constantI S_ 1 1#1) reducesTo_S800000x1_S800000_d1 h_S_))
    (Host.gather gather_S50000x128_S800000x1_S800000x128_1_0_n_n_0_1_1128 x j)
    (broadcastInDim S800000x128 ![] bcast_S_S800000x128 (constant S_ .f32 0x7FC00000#32))

/-- The rows `takeOut x i` added up by destination `d` into an array of zeros. -/
def poolOut (x : (⟨S50000x128, .f32⟩ : BufTy).Contents (Elt F)) (i d : (⟨S800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 d) (takeOut x i)

/-! ## Typed references

The operations of the take are stated over references that carry the type of the value they hold; a value is moved
to the buffer's own type when written and back when read. Writing and then reading is the identity. -/

/-- A value written to a typed reference's buffer and read back is the value. -/
theorem ofBuf_toBuf {T : BufTy} (x : StableHlo.TRef sig T) (v : T.Contents (Elt F)) : x.ofBuf (x.toBuf v) = v := by
  obtain ⟨r, h, hd, hu⟩ := x
  subst h
  rfl

end Cert.KernelIdeal.ValRun

end
-- ==== Proof.KerReads4.lean ====
import proofs.«177667_j37366215475921_1_alg».proof.Proof.KerHost

set_option maxRecDepth 16384

noncomputable section

namespace Cert.KernelIdeal.ValRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # Region 4's input arrays when it is entered

Two stretches of host operations run before region 4: the fifth take (a gather of the rows of the previous layer's
output at the source indices), and then the pooling of the gathered rows by destination together with the
slices of the stacked parameters at layer 4. Each is first read as a function of the contents it starts from, whatever
they are; then the contents are those of the fold, where the arguments are as launched and the previous region's
output is what its write-backs left. -/

section Stretches
variable (V' : Valuation τ sig (Elt F))

/-- The take's result, from any contents: the two buffers it reads are read at their values' types, and the result is
    written at the result buffer's type. -/
theorem take4_typed (x : (⟨S50000x128, .f32⟩ : BufTy).Contents (Elt F)) (i : (⟨S800000, .i32⟩ : BufTy).Contents (Elt F))
    (hx : (StableHlo.TRef.of main_v119 : StableHlo.TRef sig ⟨S50000x128, .f32⟩).ofBuf (V' (Proc.devRef .tc main_v119)) = x)
    (hi : (StableHlo.TRef.of main_arg1 : StableHlo.TRef sig ⟨S800000, .i32⟩).ofBuf (V' (Proc.devRef .tc main_arg1)) = i) :
    StableHlo.after hostOps4 V' (Proc.devRef .tc main_v120)
      = (StableHlo.TRef.of main_v120 : StableHlo.TRef sig ⟨S800000x128, .f32⟩).toBuf (takeOut x i) := by
  subst hx hi
  after_results_simp
  simp only [ofBuf_toBuf]
  rfl

/-- The same with the three changes of type removed: each is the identity, the buffer's type being the value's. -/
theorem take4_of (x : (⟨S50000x128, .f32⟩ : BufTy).Contents (Elt F)) (i : (⟨S800000, .i32⟩ : BufTy).Contents (Elt F))
    (hx : V' (Proc.devRef .tc main_v119) = x) (hi : V' (Proc.devRef .tc main_arg1) = i) :
    StableHlo.after hostOps4 V' (Proc.devRef .tc main_v120) = takeOut x i :=
  (take4_typed V' x i ((cast_eq _ _).trans hx) ((cast_eq _ _).trans hi)).trans (cast_eq _ _)

/-- The pooled rows, from any contents in which the take's result is already there. -/
theorem pool4_of (x : (⟨S50000x128, .f32⟩ : BufTy).Contents (Elt F)) (i d : (⟨S800000, .i32⟩ : BufTy).Contents (Elt F))
    (hu : V' (Proc.devRef .tc main_v120) = takeOut x i) (hd : V' (Proc.devRef .tc main_arg2) = d) :
    StableHlo.after hostOps4_1 V' (Proc.devRef .tc main_v123) = poolOut x i d := by
  subst hd
  unfold poolOut
  rw [← hu]
  after_results

/-- Window 2's array: the layer's slice of argument 3, reshaped. -/
theorem win4_2_of (a : (⟨S5, .f32⟩ : BufTy).Contents (Elt F)) (ha : V' (Proc.devRef .tc main_arg3) = a) :
    StableHlo.after hostOps4_1 V' (Proc.devRef .tc main_v142) = shapeCast S1x1 (shapeCast S_ (extractStridedSlice S1 ![4] a slices_S5_S1_4) shapeCasts_S1_S_) shapeCasts_S_S1x1 := by
  subst ha
  after_results
  rfl

/-- Window 3's array: the layer's slice of argument 4, reshaped. -/
theorem win4_3_of (a : (⟨S5x128x128, .f32⟩ : BufTy).Contents (Elt F)) (ha : V' (Proc.devRef .tc main_arg4) = a) :
    StableHlo.after hostOps4_1 V' (Proc.devRef .tc main_v127) = shapeCast S128x128 (extractStridedSlice S1x128x128 ![4, 0, 0] a slices_S5x128x128_S1x128x128_4_0_0) shapeCasts_S1x128x128_S128x128 := by
  subst ha
  after_results
  rfl

/-- Window 4's array: the layer's slice of argument 5, reshaped. -/
theorem win4_4_of (a : (⟨S5x128, .f32⟩ : BufTy).Contents (Elt F)) (ha : V' (Proc.devRef .tc main_arg5) = a) :
    StableHlo.after hostOps4_1 V' (Proc.devRef .tc main_v143) = shapeCast S1x128 (shapeCast S128 (extractStridedSlice S1x128 ![4, 0] a slices_S5x128_S1x128_4_0) shapeCasts_S1x128_S128) shapeCasts_S128_S1x128 := by
  subst ha
  after_results
  rfl

/-- Window 5's array: the layer's slice of argument 6, reshaped. -/
theorem win4_5_of (a : (⟨S5x128x128, .f32⟩ : BufTy).Contents (Elt F)) (ha : V' (Proc.devRef .tc main_arg6) = a) :
    StableHlo.after hostOps4_1 V' (Proc.devRef .tc main_v131) = shapeCast S128x128 (extractStridedSlice S1x128x128 ![4, 0, 0] a slices_S5x128x128_S1x128x128_4_0_0) shapeCasts_S1x128x128_S128x128 := by
  subst ha
  after_results
  rfl

/-- Window 6's array: the layer's slice of argument 7, reshaped. -/
theorem win4_6_of (a : (⟨S5x128, .f32⟩ : BufTy).Contents (Elt F)) (ha : V' (Proc.devRef .tc main_arg7) = a) :
    StableHlo.after hostOps4_1 V' (Proc.devRef .tc main_v144) = shapeCast S1x128 (shapeCast S128 (extractStridedSlice S1x128 ![4, 0] a slices_S5x128_S1x128_4_0) shapeCasts_S1x128_S128) shapeCasts_S128_S1x128 := by
  subst ha
  after_results
  rfl

/-- Window 7's array: the layer's slice of argument 8, reshaped. -/
theorem win4_7_of (a : (⟨S5x128, .f32⟩ : BufTy).Contents (Elt F)) (ha : V' (Proc.devRef .tc main_arg8) = a) :
    StableHlo.after hostOps4_1 V' (Proc.devRef .tc main_v145) = shapeCast S1x128 (shapeCast S128 (extractStridedSlice S1x128 ![4, 0] a slices_S5x128_S1x128_4_0) shapeCasts_S1x128_S128) shapeCasts_S128_S1x128 := by
  subst ha
  after_results
  rfl

/-- Window 8's array: the layer's slice of argument 9, reshaped. -/
theorem win4_8_of (a : (⟨S5x128, .f32⟩ : BufTy).Contents (Elt F)) (ha : V' (Proc.devRef .tc main_arg9) = a) :
    StableHlo.after hostOps4_1 V' (Proc.devRef .tc main_v146) = shapeCast S1x128 (shapeCast S128 (extractStridedSlice S1x128 ![4, 0] a slices_S5x128_S1x128_4_0) shapeCasts_S1x128_S128) shapeCasts_S128_S1x128 := by
  subst ha
  after_results
  rfl

/-- Window 9's array: the layer's slice of argument 10, reshaped. -/
theorem win4_9_of (a : (⟨S5x128, .f32⟩ : BufTy).Contents (Elt F)) (ha : V' (Proc.devRef .tc main_arg10) = a) :
    StableHlo.after hostOps4_1 V' (Proc.devRef .tc main_v147) = shapeCast S1x128 (shapeCast S128 (extractStridedSlice S1x128 ![4, 0] a slices_S5x128_S1x128_4_0) shapeCasts_S1x128_S128) shapeCasts_S128_S1x128 := by
  subst ha
  after_results
  rfl

/-- Window 10's array: the layer's slice of argument 11, reshaped. -/
theorem win4_10_of (a : (⟨S5x128, .f32⟩ : BufTy).Contents (Elt F)) (ha : V' (Proc.devRef .tc main_arg11) = a) :
    StableHlo.after hostOps4_1 V' (Proc.devRef .tc main_v148) = shapeCast S1x128 (shapeCast S128 (extractStridedSlice S1x128 ![4, 0] a slices_S5x128_S1x128_4_0) shapeCasts_S1x128_S128) shapeCasts_S128_S1x128 := by
  subst ha
  after_results
  rfl

end Stretches

/-! ## At the fold's contents -/

/-- The take's result when the second stretch starts. -/
theorem take4_W (c : Dev nD) :
    W13 m ρ c (Proc.devRef .tc main_v120) = takeOut ((Gen.dat3 (Gen.V11 m ρ) c).arrAt 11 cfg3.N) (m ((c.tc : Thread nD τ).loc main_arg1)) :=
  take4_of (W12 m ρ c) _ _ (out3_W12 m ρ c) (quiet_W12 m ρ quiet_arg1 c)

/-- Window 0: the gathered rows pooled by destination. -/
theorem entry4_0 (c : Dev nD) :
    Gen.V14 m ρ c (Pipeline.arrRef spec4 0)
      = poolOut ((Gen.dat3 (Gen.V11 m ρ) c).arrAt 11 cfg3.N) (m ((c.tc : Thread nD τ).loc main_arg1)) (m ((c.tc : Thread nD τ).loc main_arg2)) :=
  pool4_of (W13 m ρ c) _ _ _ (take4_W m ρ c) (quiet_W13 m ρ quiet_arg2 c)

/-- Window 1: the previous layer's output, untouched by the two stretches. -/
theorem entry4_1 (c : Dev nD) :
    Gen.V14 m ρ c (Pipeline.arrRef spec4 1) = ((Gen.dat3 (Gen.V11 m ρ) c).arrAt 11 cfg3.N) :=
  out3_W14 m ρ c

theorem entry4_2 (c : Dev nD) :
    Gen.V14 m ρ c (Pipeline.arrRef spec4 2)
      = shapeCast S1x1 (shapeCast S_ (extractStridedSlice S1 ![4] (m ((c.tc : Thread nD τ).loc main_arg3)) slices_S5_S1_4) shapeCasts_S1_S_) shapeCasts_S_S1x1 :=
  win4_2_of (W13 m ρ c) _ (quiet_W13 m ρ quiet_arg3 c)

theorem entry4_3 (c : Dev nD) :
    Gen.V14 m ρ c (Pipeline.arrRef spec4 3)
      = shapeCast S128x128 (extractStridedSlice S1x128x128 ![4, 0, 0] (m ((c.tc : Thread nD τ).loc main_arg4)) slices_S5x128x128_S1x128x128_4_0_0) shapeCasts_S1x128x128_S128x128 :=
  win4_3_of (W13 m ρ c) _ (quiet_W13 m ρ quiet_arg4 c)

theorem entry4_4 (c : Dev nD) :
    Gen.V14 m ρ c (Pipeline.arrRef spec4 4)
      = shapeCast S1x128 (shapeCast S128 (extractStridedSlice S1x128 ![4, 0] (m ((c.tc : Thread nD τ).loc main_arg5)) slices_S5x128_S1x128_4_0) shapeCasts_S1x128_S128) shapeCasts_S128_S1x128 :=
  win4_4_of (W13 m ρ c) _ (quiet_W13 m ρ quiet_arg5 c)

theorem entry4_5 (c : Dev nD) :
    Gen.V14 m ρ c (Pipeline.arrRef spec4 5)
      = shapeCast S128x128 (extractStridedSlice S1x128x128 ![4, 0, 0] (m ((c.tc : Thread nD τ).loc main_arg6)) slices_S5x128x128_S1x128x128_4_0_0) shapeCasts_S1x128x128_S128x128 :=
  win4_5_of (W13 m ρ c) _ (quiet_W13 m ρ quiet_arg6 c)

theorem entry4_6 (c : Dev nD) :
    Gen.V14 m ρ c (Pipeline.arrRef spec4 6)
      = shapeCast S1x128 (shapeCast S128 (extractStridedSlice S1x128 ![4, 0] (m ((c.tc : Thread nD τ).loc main_arg7)) slices_S5x128_S1x128_4_0) shapeCasts_S1x128_S128) shapeCasts_S128_S1x128 :=
  win4_6_of (W13 m ρ c) _ (quiet_W13 m ρ quiet_arg7 c)

theorem entry4_7 (c : Dev nD) :
    Gen.V14 m ρ c (Pipeline.arrRef spec4 7)
      = shapeCast S1x128 (shapeCast S128 (extractStridedSlice S1x128 ![4, 0] (m ((c.tc : Thread nD τ).loc main_arg8)) slices_S5x128_S1x128_4_0) shapeCasts_S1x128_S128) shapeCasts_S128_S1x128 :=
  win4_7_of (W13 m ρ c) _ (quiet_W13 m ρ quiet_arg8 c)

theorem entry4_8 (c : Dev nD) :
    Gen.V14 m ρ c (Pipeline.arrRef spec4 8)
      = shapeCast S1x128 (shapeCast S128 (extractStridedSlice S1x128 ![4, 0] (m ((c.tc : Thread nD τ).loc main_arg9)) slices_S5x128_S1x128_4_0) shapeCasts_S1x128_S128) shapeCasts_S128_S1x128 :=
  win4_8_of (W13 m ρ c) _ (quiet_W13 m ρ quiet_arg9 c)

theorem entry4_9 (c : Dev nD) :
    Gen.V14 m ρ c (Pipeline.arrRef spec4 9)
      = shapeCast S1x128 (shapeCast S128 (extractStridedSlice S1x128 ![4, 0] (m ((c.tc : Thread nD τ).loc main_arg10)) slices_S5x128_S1x128_4_0) shapeCasts_S1x128_S128) shapeCasts_S128_S1x128 :=
  win4_9_of (W13 m ρ c) _ (quiet_W13 m ρ quiet_arg10 c)

theorem entry4_10 (c : Dev nD) :
    Gen.V14 m ρ c (Pipeline.arrRef spec4 10)
      = shapeCast S1x128 (shapeCast S128 (extractStridedSlice S1x128 ![4, 0] (m ((c.tc : Thread nD τ).loc main_arg11)) slices_S5x128_S1x128_4_0) shapeCasts_S1x128_S128) shapeCasts_S128_S1x128 :=
  win4_10_of (W13 m ρ c) _ (quiet_W13 m ρ quiet_arg11 c)

end Cert.KernelIdeal.ValRun

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«177667_j37366215475921_1_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«177667_j37366215475921_1_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibBiasRelu.lean ====
/-
  A bias row added to every row of a matrix and the result clamped below at zero, on the extended reals: the
  function itself, the kernel body's spelling of it (the row re-shaped in place, broadcast down the rows, added, and
  the maximum taken with a splat of the zero word), the reference's spelling (the bias vector broadcast into a 1×k row
  and then into the n×k array, added, and the maximum taken with a broadcast zero), and the fact that an entry depends
  on one entry of the matrix. The zero is kept as the value of the zero word, the same on both sides.
  Nothing here mentions a program.
-/
import Idealize.ShloMosaic.PureOps.Ideal.Laws
import Idealize.ShloMosaic.Lib.ValueIdx
import Idealize.ShloMosaic.Lib.Pipeline.Value
import proofs.«177667_j37366215475921_1_alg».proof.Proof.LibBlockReads
import proofs.«177667_j37366215475921_1_alg».proof.Proof.LibRowVector

noncomputable section

namespace Cert.Lib.BiasRelu

open Idealize.ShloMosaic Idealize.ShloMosaic.ValueIdx Cert.Lib.RowVector

variable {n n' k : Nat}

/-- Entry (p, q) is the maximum of X(p, q) + b(0, q) and zero. -/
def biasRelu (X : (⟨2, ![n, k]⟩ : Shape).Idx → EReal) (b : (⟨2, ![1, k]⟩ : Shape).Idx → EReal) :
    (⟨2, ![n, k]⟩ : Shape).Idx → EReal :=
  fun i => max (X i + b (ix2 (0 : Fin 1) (⟨(i 1).val, idx2_lt1 i⟩ : Fin k))) (Ideal.ofBits .f32 0x00000000#32)

theorem biasRelu_apply (X : (⟨2, ![n, k]⟩ : Shape).Idx → EReal) (b : (⟨2, ![1, k]⟩ : Shape).Idx → EReal)
    (p : Fin n) (q : Fin k) :
    biasRelu X b (ix2 p q) = max (X (ix2 p q) + b (ix2 0 q)) (Ideal.ofBits .f32 0x00000000#32) := rfl

/-- An entry depends on one entry of the matrix: equal entries give equal results. -/
theorem biasRelu_rows (X : (⟨2, ![n, k]⟩ : Shape).Idx → EReal) (X' : (⟨2, ![n', k]⟩ : Shape).Idx → EReal)
    (b : (⟨2, ![1, k]⟩ : Shape).Idx → EReal) (p' : Fin n') (p : Fin n) (q : Fin k)
    (h : X' (ix2 p' q) = X (ix2 p q)) : biasRelu X' b (ix2 p' q) = biasRelu X b (ix2 p q) := by
  rw [biasRelu_apply, biasRelu_apply, h]

/-- The kernel body's spelling. -/
theorem body_eq (x0 : FVec Ideal ⟨2, ![n, k]⟩ .f32) (x2 : FVec Ideal ⟨2, ![1, k]⟩ .f32)
    (h0 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x0 h0) (broadcastTo ⟨2, ![n, k]⟩ (shapeCast ⟨2, ![1, k]⟩ x2 h2) hb))
      (broadcast ⟨2, ![n, k]⟩ (Scalar.ofBits (F := Ideal) .f32 0x00000000#32)) = biasRelu x0 x2 := by
  funext i
  obtain ⟨p, q, rfl⟩ : ∃ (p : Fin n) (q : Fin k), i = ix2 p q := ⟨i 0, i 1, eq_ix2 i⟩
  rw [maximumf_apply, addf_apply, shapeCast_self, shapeCast_self, Cert.Lib.BlockReads.broadcast_row_apply]
  rfl

/-- The reference's spelling: the bias vector as a 1×k row. -/
theorem host_eq (X : FVec Ideal ⟨2, ![n, k]⟩ .f32) (b : FVec Ideal ⟨1, ![k]⟩ .f32)
    (h1 : (⟨1, ![k]⟩ : Shape).BroadcastsInDim ⟨2, ![1, k]⟩ ![1])
    (h2 : (⟨2, ![1, k]⟩ : Shape).BroadcastsInDim ⟨2, ![n, k]⟩ ![0, 1])
    (h3 : (⟨0, ![]⟩ : Shape).BroadcastsInDim ⟨2, ![n, k]⟩ ![]) :
    maximumf (addf X (broadcastInDim ⟨2, ![n, k]⟩ ![0, 1] h2 (broadcastInDim ⟨2, ![1, k]⟩ ![1] h1 b)))
      (broadcastInDim ⟨2, ![n, k]⟩ ![] h3 (constant (F := Ideal) ⟨0, ![]⟩ .f32 0x00000000#32)) = biasRelu X (asRow b) := by
  funext i
  obtain ⟨p, q, rfl⟩ : ∃ (p : Fin n) (q : Fin k), i = ix2 p q := ⟨i 0, i 1, eq_ix2 i⟩
  rw [maximumf_apply, addf_apply, bcastInDim_rows_apply, bcastInDim_eq_asRow, bcastInDim_scalar_apply]
  rfl

end Cert.Lib.BiasRelu

end
-- ==== Proof.LibDenseLayers.lean ====
/-
  Dense layers on the extended reals, as functions of whole arrays.

  A layer takes an r×k array X, a k×n array W and a vector b of n entries to the r×n array whose entry (p, q) is the
  sum over c of X(p, c) · W(c, q), plus b(q) — `affine` — or the maximum of that and zero — `dense`. An entry of a
  layer's result depends on one row of X, one column of W and one entry of b, so a layer applied to some rows of X
  (and to some columns of W with the matching entries of b) gives those rows (and columns) of the layer applied to
  the whole arrays: `dense_rows`, `affine_rows`, `affine_block`, with the row and column maps as variables. The two
  spellings of the bias are read once — a kernel body's (the vector re-shaped to a 1×n row, broadcast down the rows,
  added: `body_bias`, and with the maximum with a splat of the zero word: `body_bias_max`) and a host program's (the
  vector broadcast into a 1×n row and that into the r×n array, added: `host_bias`; with the maximum it is
  `Cert.Lib.BiasRelu.host_eq`) — and `max_biasAdd` takes the maximum of an already-read bias with the zero splat
  (the form a rewriting pass meets, since it reads the inner sum first). Sums and maxima on the extended reals need no
  finiteness here: nothing is distributed or cancelled. Nothing here mentions a program.
-/
import Idealize.ShloMosaic.PureOps.Ideal.Laws
import Idealize.ShloMosaic.Lib.ValueIdx
import Idealize.ShloMosaic.Lib.Pipeline.Value
import proofs.«177667_j37366215475921_1_alg».proof.Proof.LibMatProd
import proofs.«177667_j37366215475921_1_alg».proof.Proof.LibBiasRelu
import proofs.«177667_j37366215475921_1_alg».proof.Proof.LibRowVector
import proofs.«177667_j37366215475921_1_alg».proof.Proof.LibBlockReads

open scoped BigOperators

noncomputable section

namespace Cert.Layers

open Idealize.ShloMosaic Idealize.ShloMosaic.ValueIdx Cert.Lib.MatProd Cert.Lib.BiasRelu Cert.Lib.RowVector

variable {r r' k n n' : Nat}

/-- Entry (p, q) is X(p, q) + b(0, q). -/
def biasAdd (X : (⟨2, ![r, n]⟩ : Shape).Idx → EReal) (b : (⟨2, ![1, n]⟩ : Shape).Idx → EReal) :
    (⟨2, ![r, n]⟩ : Shape).Idx → EReal :=
  fun i => X i + b (ix2 (0 : Fin 1) (⟨(i 1).val, idx2_lt1 i⟩ : Fin n))

theorem biasAdd_apply (X : (⟨2, ![r, n]⟩ : Shape).Idx → EReal) (b : (⟨2, ![1, n]⟩ : Shape).Idx → EReal)
    (p : Fin r) (q : Fin n) : biasAdd X b (ix2 p q) = X (ix2 p q) + b (ix2 0 q) := rfl

/-- A layer with the maximum: entry (p, q) is max (∑ c, X(p, c) · W(c, q) + b(q)) 0. -/
def dense (X : (⟨2, ![r, k]⟩ : Shape).Idx → EReal) (W : (⟨2, ![k, n]⟩ : Shape).Idx → EReal)
    (b : (⟨1, ![n]⟩ : Shape).Idx → EReal) : (⟨2, ![r, n]⟩ : Shape).Idx → EReal :=
  biasRelu (matProd X W) (asRow b)

/-- A layer without it: entry (p, q) is ∑ c, X(p, c) · W(c, q) + b(q). -/
def affine (X : (⟨2, ![r, k]⟩ : Shape).Idx → EReal) (W : (⟨2, ![k, n]⟩ : Shape).Idx → EReal)
    (b : (⟨1, ![n]⟩ : Shape).Idx → EReal) : (⟨2, ![r, n]⟩ : Shape).Idx → EReal :=
  biasAdd (matProd X W) (asRow b)

/-- If row p of X' is row ρ p of X, row p of `dense X' W b` is row ρ p of `dense X W b`. -/
theorem dense_rows (X : (⟨2, ![r, k]⟩ : Shape).Idx → EReal) (X' : (⟨2, ![r', k]⟩ : Shape).Idx → EReal)
    (W : (⟨2, ![k, n]⟩ : Shape).Idx → EReal) (b : (⟨1, ![n]⟩ : Shape).Idx → EReal) (ρ : Fin r' → Fin r)
    (h : ∀ (p : Fin r') (c : Fin k), X' (ix2 p c) = X (ix2 (ρ p) c)) (p : Fin r') (q : Fin n) :
    dense X' W b (ix2 p q) = dense X W b (ix2 (ρ p) q) :=
  biasRelu_rows _ _ _ p (ρ p) q (matProd_block X X' W W p q (ρ p) q (h p) fun _ => rfl)

/-- The same for a layer without the maximum, a block of columns of W and the matching entries of b taken as well:
    if also column q of W' is column γ q of W and entry q of b' is entry γ q of b, entry (p, q) of
    `affine X' W' b'` is entry (ρ p, γ q) of `affine X W b`. -/
theorem affine_block (X : (⟨2, ![r, k]⟩ : Shape).Idx → EReal) (X' : (⟨2, ![r', k]⟩ : Shape).Idx → EReal)
    (W : (⟨2, ![k, n]⟩ : Shape).Idx → EReal) (W' : (⟨2, ![k, n']⟩ : Shape).Idx → EReal)
    (b : (⟨1, ![n]⟩ : Shape).Idx → EReal) (b' : (⟨1, ![n']⟩ : Shape).Idx → EReal)
    (ρ : Fin r' → Fin r) (γ : Fin n' → Fin n)
    (hX : ∀ (p : Fin r') (c : Fin k), X' (ix2 p c) = X (ix2 (ρ p) c))
    (hW : ∀ (c : Fin k) (q : Fin n'), W' (ix2 c q) = W (ix2 c (γ q)))
    (hb : ∀ q : Fin n', b' (ix1 q) = b (ix1 (γ q))) (p : Fin r') (q : Fin n') :
    affine X' W' b' (ix2 p q) = affine X W b (ix2 (ρ p) (γ q)) := by
  unfold affine
  rw [biasAdd_apply, biasAdd_apply, asRow_apply, asRow_apply, hb q,
    matProd_block X X' W W' p q (ρ p) (γ q) (hX p) fun c => hW c q]

theorem affine_rows (X : (⟨2, ![r, k]⟩ : Shape).Idx → EReal) (X' : (⟨2, ![r', k]⟩ : Shape).Idx → EReal)
    (W : (⟨2, ![k, n]⟩ : Shape).Idx → EReal) (b : (⟨1, ![n]⟩ : Shape).Idx → EReal) (ρ : Fin r' → Fin r)
    (h : ∀ (p : Fin r') (c : Fin k), X' (ix2 p c) = X (ix2 (ρ p) c)) (p : Fin r') (q : Fin n) :
    affine X' W b (ix2 p q) = affine X W b (ix2 (ρ p) q) :=
  affine_block X X' W W b b ρ id h (fun _ _ => rfl) (fun _ => rfl) p q

/-! ## The two spellings of a layer's bias and maximum -/

/-- The kernel body's bias: the vector re-shaped to a 1×n row and broadcast down the rows, then added. -/
theorem body_bias (M : FVec Ideal ⟨2, ![r, n]⟩ .f32) (v : FVec Ideal ⟨1, ![n]⟩ .f32)
    (h : (⟨1, ![n]⟩ : Shape).ShapeCasts ⟨2, ![1, n]⟩) (hb : (⟨2, ![1, n]⟩ : Shape).Broadcasts ⟨2, ![r, n]⟩) :
    addf M (broadcastTo ⟨2, ![r, n]⟩ (shapeCast ⟨2, ![1, n]⟩ v h) hb) = biasAdd M (asRow v) := by
  funext i
  obtain ⟨p, q, rfl⟩ : ∃ (p : Fin r) (q : Fin n), i = ix2 p q := ⟨i 0, i 1, eq_ix2 i⟩
  rw [addf_apply, Cert.Lib.BlockReads.broadcast_row_apply, shapeCast_eq_asRow]
  rfl

/-- The kernel body's bias and maximum with a splat of the zero word. -/
theorem body_bias_max (M : FVec Ideal ⟨2, ![r, n]⟩ .f32) (v : FVec Ideal ⟨1, ![n]⟩ .f32)
    (h : (⟨1, ![n]⟩ : Shape).ShapeCasts ⟨2, ![1, n]⟩) (hb : (⟨2, ![1, n]⟩ : Shape).Broadcasts ⟨2, ![r, n]⟩) :
    maximumf (addf M (broadcastTo ⟨2, ![r, n]⟩ (shapeCast ⟨2, ![1, n]⟩ v h) hb))
      (broadcast ⟨2, ![r, n]⟩ (Scalar.ofBits (F := Ideal) .f32 0x00000000#32)) = biasRelu M (asRow v) := by
  funext i
  obtain ⟨p, q, rfl⟩ : ∃ (p : Fin r) (q : Fin n), i = ix2 p q := ⟨i 0, i 1, eq_ix2 i⟩
  rw [maximumf_apply, addf_apply, Cert.Lib.BlockReads.broadcast_row_apply, shapeCast_eq_asRow]
  rfl

/-- The reference's bias: the vector broadcast into a 1×n row and that into the r×n array, then added. -/
theorem host_bias (M : FVec Ideal ⟨2, ![r, n]⟩ .f32) (v : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1]) :
    addf M (broadcastInDim ⟨2, ![r, n]⟩ ![0, 1] h2 (broadcastInDim ⟨2, ![1, n]⟩ ![1] h1 v)) = biasAdd M (asRow v) := by
  funext i
  obtain ⟨p, q, rfl⟩ : ∃ (p : Fin r) (q : Fin n), i = ix2 p q := ⟨i 0, i 1, eq_ix2 i⟩
  rw [addf_apply, bcastInDim_rows_apply, bcastInDim_eq_asRow]
  rfl

/-- The maximum of a biased matrix with a splat of the zero word is the bias and maximum in one. -/
theorem max_biasAdd (M : (⟨2, ![r, n]⟩ : Shape).Idx → EReal) (b : (⟨2, ![1, n]⟩ : Shape).Idx → EReal) :
    maximumf (F := Ideal) (s := ⟨2, ![r, n]⟩) (φ := .f32) (biasAdd M b)
      (broadcast ⟨2, ![r, n]⟩ (FloatOps.ofBits (F := Ideal) .f32 0x00000000#32)) = biasRelu M b := by
  funext i
  rw [maximumf_apply]
  rfl

end Cert.Layers

end
-- ==== Proof.Layer.lean ====
/-
  One layer of a graph isomorphism network on the extended reals, as a function of whole arrays.

  With P the neighbours' sums and H the nodes' features (both r×n), e the layer's scalar, W₁ W₂ two n×n matrices and
  b₁ b₂ g β μ v six 1×n rows, the layer is, entry by entry,

    S(p, c)  = P(p, c) + (1 + e) · H(p, c)                                     the node's own term added to the sum
    Z₁(p, c) = max (∑ k, S(p, k) · W₁(k, c) + b₁(c)) 0                          the first dense layer
    Z₂(p, q) = ∑ c, Z₁(p, c) · W₂(c, q) + b₂(q)                                 the second, without the maximum
    out(p, q) = max (g(q) · (Z₂(p, q) − μ(q)) · rsqrt (v(q) + ε) + β(q)) 0      the normalisation by given statistics

  with 1 the word 0x3F800000, ε the word 0x3A83126F and 0 the zero word, each kept as its word's value. An entry of
  row p of the result depends only on row p of P and of H, so the layer applied to a block of rows gives the same
  rows of the layer applied to the whole arrays (`layer_rows`). A kernel body spells the layer with re-shapings in
  place, rows broadcast down the block, and products of narrowed operands accumulated into zeros (`body_layer`); a
  host program spells it with vectors broadcast into a row and then down the rows and with dot_general
  (`host_layer`). Both are this function: the operations are the same in the same order, a change of float format is
  the identity on the extended reals, and a product into zeros is the plain sum. Nothing is re-associated,
  distributed or cancelled, so no finiteness is asked. Nothing here mentions a program.
-/
import Idealize.ShloMosaic.PureOps.Ideal.Laws
import Idealize.ShloMosaic.Lib.ValueIdx
import Idealize.ShloMosaic.Lib.Pipeline.Value
import proofs.«177667_j37366215475921_1_alg».proof.Proof.LibBlockReads
import proofs.«177667_j37366215475921_1_alg».proof.Proof.LibMatProd
import proofs.«177667_j37366215475921_1_alg».proof.Proof.LibRowVector
import proofs.«177667_j37366215475921_1_alg».proof.Proof.LibBiasRelu
import proofs.«177667_j37366215475921_1_alg».proof.Proof.LibDenseLayers

open scoped BigOperators

noncomputable section

namespace Cert.Gin

open Idealize.ShloMosaic Idealize.ShloMosaic.ValueIdx Cert.Lib.MatProd Cert.Lib.BiasRelu Cert.Lib.RowVector Cert.Layers

variable {r r' n : Nat}

/-- The column of an index of an r×n array, as an index of a 1×n row. -/
abbrev colOf (i : (⟨2, ![r, n]⟩ : Shape).Idx) : (⟨2, ![1, n]⟩ : Shape).Idx :=
  ix2 (0 : Fin 1) (⟨(i 1).val, idx2_lt1 i⟩ : Fin n)

/-- The neighbours' sum with the node's own features added, scaled by 1 + e. -/
def selfTerm (P H : (⟨2, ![r, n]⟩ : Shape).Idx → EReal) (e : EReal) : (⟨2, ![r, n]⟩ : Shape).Idx → EReal :=
  fun i => P i + (Ideal.ofBits .f32 0x3F800000#32 + e) * H i

theorem selfTerm_apply (P H : (⟨2, ![r, n]⟩ : Shape).Idx → EReal) (e : EReal) (i : (⟨2, ![r, n]⟩ : Shape).Idx) :
    selfTerm P H e i = P i + (Ideal.ofBits .f32 0x3F800000#32 + e) * H i := rfl

/-- The normalisation of every column by a given mean and variance, the affine map per column, the clamp at zero. -/
def colNorm (Z : (⟨2, ![r, n]⟩ : Shape).Idx → EReal) (g β μ v : (⟨2, ![1, n]⟩ : Shape).Idx → EReal) :
    (⟨2, ![r, n]⟩ : Shape).Idx → EReal :=
  fun i => max (g (colOf i) * (Z i - μ (colOf i)) * Ideal.rsqrt (v (colOf i) + Ideal.ofBits .f32 0x3A83126F#32)
    + β (colOf i)) (Ideal.ofBits .f32 0x00000000#32)

theorem colNorm_apply (Z : (⟨2, ![r, n]⟩ : Shape).Idx → EReal) (g β μ v : (⟨2, ![1, n]⟩ : Shape).Idx → EReal)
    (p : Fin r) (q : Fin n) :
    colNorm Z g β μ v (ix2 p q) = max (g (ix2 0 q) * (Z (ix2 p q) - μ (ix2 0 q))
      * Ideal.rsqrt (v (ix2 0 q) + Ideal.ofBits .f32 0x3A83126F#32) + β (ix2 0 q)) (Ideal.ofBits .f32 0x00000000#32) := rfl

/-- The layer. -/
def layer (P H : (⟨2, ![r, n]⟩ : Shape).Idx → EReal) (e : EReal) (W₁ : (⟨2, ![n, n]⟩ : Shape).Idx → EReal)
    (b₁ : (⟨2, ![1, n]⟩ : Shape).Idx → EReal) (W₂ : (⟨2, ![n, n]⟩ : Shape).Idx → EReal)
    (b₂ g β μ v : (⟨2, ![1, n]⟩ : Shape).Idx → EReal) : (⟨2, ![r, n]⟩ : Shape).Idx → EReal :=
  colNorm (biasAdd (matProd (biasRelu (matProd (selfTerm P H e) W₁) b₁) W₂) b₂) g β μ v

/-- Row p' of the layer of P', H' is row p of the layer of P, H when row p' of P' is row p of P and row p' of H' is
    row p of H: every step keeps rows apart. -/
theorem layer_rows (P H : (⟨2, ![r, n]⟩ : Shape).Idx → EReal) (P' H' : (⟨2, ![r', n]⟩ : Shape).Idx → EReal) (e : EReal)
    (W₁ : (⟨2, ![n, n]⟩ : Shape).Idx → EReal) (b₁ : (⟨2, ![1, n]⟩ : Shape).Idx → EReal)
    (W₂ : (⟨2, ![n, n]⟩ : Shape).Idx → EReal) (b₂ g β μ v : (⟨2, ![1, n]⟩ : Shape).Idx → EReal)
    (p' : Fin r') (p : Fin r)
    (hP : ∀ c : Fin n, P' (ix2 p' c) = P (ix2 p c)) (hH : ∀ c : Fin n, H' (ix2 p' c) = H (ix2 p c)) (q : Fin n) :
    layer P' H' e W₁ b₁ W₂ b₂ g β μ v (ix2 p' q) = layer P H e W₁ b₁ W₂ b₂ g β μ v (ix2 p q) := by
  unfold layer
  rw [colNorm_apply, colNorm_apply, biasAdd_apply, biasAdd_apply]
  have h1 : ∀ c : Fin n, biasRelu (matProd (selfTerm P' H' e) W₁) b₁ (ix2 p' c)
      = biasRelu (matProd (selfTerm P H e) W₁) b₁ (ix2 p c) := fun c =>
    biasRelu_rows _ _ _ p' p c (matProd_block _ _ W₁ W₁ p' c p c
      (fun k => by rw [selfTerm_apply, selfTerm_apply, hP k, hH k]) fun _ => rfl)
  rw [matProd_block _ _ W₂ W₂ p' q p q h1 fun _ => rfl]

/-! ## The kernel body's spelling -/

/-- A 1×1 array broadcast into an r×n array reads its one entry everywhere. -/
theorem broadcast_one_apply {α : Type} (x : (⟨2, ![1, 1]⟩ : Shape).Idx → α)
    (h : (⟨2, ![1, 1]⟩ : Shape).Broadcasts ⟨2, ![r, n]⟩) (p : Fin r) (q : Fin n) :
    broadcastTo ⟨2, ![r, n]⟩ x h (ix2 p q) = x (ix2 0 0) :=
  broadcastTo_apply x h _ _ fun ax => by
    match ax with
    | ⟨0, _⟩ => rfl
    | ⟨1, _⟩ => rfl

/-- The body with its in-place re-shapings (each the identity) removed: the scalar added to a splat of one and
    broadcast, the two products of narrowed operands into zeros with their bias rows, and the normalisation with its
    four rows. -/
theorem body_layer_core (d : DotDims ⟨2, ![r, n]⟩ ⟨2, ![n, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (x0 x1 : FVec Ideal ⟨2, ![r, n]⟩ .f32) (x2 : FVec Ideal ⟨2, ![1, 1]⟩ .f32)
    (x3 : FVec Ideal ⟨2, ![n, n]⟩ .f32) (x4 : FVec Ideal ⟨2, ![1, n]⟩ .f32) (x5 : FVec Ideal ⟨2, ![n, n]⟩ .f32)
    (x6 x7 x8 x9 x10 : FVec Ideal ⟨2, ![1, n]⟩ .f32)
    (hb1 : (⟨2, ![1, 1]⟩ : Shape).Broadcasts ⟨2, ![r, n]⟩) (hbn : (⟨2, ![1, n]⟩ : Shape).Broadcasts ⟨2, ![r, n]⟩)
    (hlt : FTy.bf16.bits < FTy.f32.bits) :
    maximumf (addf (mulf (mulf (broadcastTo ⟨2, ![r, n]⟩ x7 hbn)
        (subf (addf (matmul d none
            (truncf .bf16 (maximumf (addf (matmul d none
                (truncf .bf16 (addf x0
                  (mulf (broadcastTo ⟨2, ![r, n]⟩ (addf (broadcast ⟨2, ![1, 1]⟩ (Scalar.ofBits (F := Ideal) .f32 0x3F800000#32))
                    x2) hb1) x1)) hlt)
                (truncf .bf16 x3 hlt) (constant ⟨2, ![r, n]⟩ .f32 0x00000000#32))
              (broadcastTo ⟨2, ![r, n]⟩ x4 hbn))
              (broadcast ⟨2, ![r, n]⟩ (Scalar.ofBits (F := Ideal) .f32 0x00000000#32))) hlt)
            (truncf .bf16 x5 hlt) (constant ⟨2, ![r, n]⟩ .f32 0x00000000#32))
          (broadcastTo ⟨2, ![r, n]⟩ x6 hbn))
          (broadcastTo ⟨2, ![r, n]⟩ x9 hbn)))
        (broadcastTo ⟨2, ![r, n]⟩ (rsqrt (addf x10
          (broadcast ⟨2, ![1, n]⟩ (Scalar.ofBits (F := Ideal) .f32 0x3A83126F#32)))) hbn))
        (broadcastTo ⟨2, ![r, n]⟩ x8 hbn))
      (broadcast ⟨2, ![r, n]⟩ (Scalar.ofBits (F := Ideal) .f32 0x00000000#32))
      = layer x0 x1 (x2 (ix2 0 0)) x3 x4 x5 x6 x7 x8 x9 x10 := by
  have hS : addf x0 (mulf (broadcastTo ⟨2, ![r, n]⟩ (addf (broadcast ⟨2, ![1, 1]⟩ (Scalar.ofBits (F := Ideal) .f32 0x3F800000#32)) x2) hb1) x1)
      = selfTerm x0 x1 (x2 (ix2 0 0)) := by
    funext i
    obtain ⟨p, q, rfl⟩ : ∃ (p : Fin r) (q : Fin n), i = ix2 p q := ⟨i 0, i 1, eq_ix2 i⟩
    rw [addf_apply, mulf_apply, broadcast_one_apply, addf_apply, broadcast_apply]
    rfl
  rw [hS, matmul_zero_eq_matProd d hlc hrc hln hrn hlb hrb none]
  have hZ : ∀ M : (⟨2, ![r, n]⟩ : Shape).Idx → EReal,
      maximumf (F := Ideal) (s := ⟨2, ![r, n]⟩) (φ := .f32) (addf (F := Ideal) (s := ⟨2, ![r, n]⟩) (φ := .f32) M
        (broadcastTo ⟨2, ![r, n]⟩ x4 hbn)) (broadcast ⟨2, ![r, n]⟩ (Scalar.ofBits (F := Ideal) .f32 0x00000000#32))
      = biasRelu M x4 := by
    intro M
    funext i
    obtain ⟨p, q, rfl⟩ : ∃ (p : Fin r) (q : Fin n), i = ix2 p q := ⟨i 0, i 1, eq_ix2 i⟩
    rw [maximumf_apply, addf_apply, Cert.Lib.BlockReads.broadcast_row_apply]
    rfl
  rw [hZ, matmul_zero_eq_matProd d hlc hrc hln hrn hlb hrb none]
  funext i
  obtain ⟨p, q, rfl⟩ : ∃ (p : Fin r) (q : Fin n), i = ix2 p q := ⟨i 0, i 1, eq_ix2 i⟩
  rw [maximumf_apply, addf_apply, mulf_apply, mulf_apply, subf_apply, addf_apply]
  simp only [Cert.Lib.BlockReads.broadcast_row_apply]
  rfl

/-- The body: the sum block re-shaped in place, the scalar added to a splat of one and broadcast, the two products
    of narrowed operands into zeros with their bias rows, and the normalisation with its four rows. -/
theorem body_layer (d : DotDims ⟨2, ![r, n]⟩ ⟨2, ![n, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (x0 x1 : FVec Ideal ⟨2, ![r, n]⟩ .f32) (x2 : FVec Ideal ⟨2, ![1, 1]⟩ .f32)
    (x3 : FVec Ideal ⟨2, ![n, n]⟩ .f32) (x4 : FVec Ideal ⟨2, ![1, n]⟩ .f32) (x5 : FVec Ideal ⟨2, ![n, n]⟩ .f32)
    (x6 x7 x8 x9 x10 : FVec Ideal ⟨2, ![1, n]⟩ .f32)
    (hrr : (⟨2, ![r, n]⟩ : Shape).ShapeCasts ⟨2, ![r, n]⟩) (h11 : (⟨2, ![1, 1]⟩ : Shape).ShapeCasts ⟨2, ![1, 1]⟩)
    (hnn : (⟨2, ![n, n]⟩ : Shape).ShapeCasts ⟨2, ![n, n]⟩) (h1n : (⟨2, ![1, n]⟩ : Shape).ShapeCasts ⟨2, ![1, n]⟩)
    (hb1 : (⟨2, ![1, 1]⟩ : Shape).Broadcasts ⟨2, ![r, n]⟩) (hbn : (⟨2, ![1, n]⟩ : Shape).Broadcasts ⟨2, ![r, n]⟩)
    (hlt : FTy.bf16.bits < FTy.f32.bits) :
    maximumf (addf (mulf (mulf (broadcastTo ⟨2, ![r, n]⟩ (shapeCast ⟨2, ![1, n]⟩ x7 h1n) hbn)
        (subf (addf (matmul d none
            (truncf .bf16 (maximumf (addf (matmul d none
                (truncf .bf16 (addf (shapeCast ⟨2, ![r, n]⟩ x0 hrr)
                  (mulf (broadcastTo ⟨2, ![r, n]⟩ (addf (broadcast ⟨2, ![1, 1]⟩ (Scalar.ofBits (F := Ideal) .f32 0x3F800000#32))
                    (shapeCast ⟨2, ![1, 1]⟩ x2 h11)) hb1) x1)) hlt)
                (truncf .bf16 (shapeCast ⟨2, ![n, n]⟩ x3 hnn) hlt) (constant ⟨2, ![r, n]⟩ .f32 0x00000000#32))
              (broadcastTo ⟨2, ![r, n]⟩ (shapeCast ⟨2, ![1, n]⟩ x4 h1n) hbn))
              (broadcast ⟨2, ![r, n]⟩ (Scalar.ofBits (F := Ideal) .f32 0x00000000#32))) hlt)
            (truncf .bf16 (shapeCast ⟨2, ![n, n]⟩ x5 hnn) hlt) (constant ⟨2, ![r, n]⟩ .f32 0x00000000#32))
          (broadcastTo ⟨2, ![r, n]⟩ (shapeCast ⟨2, ![1, n]⟩ x6 h1n) hbn))
          (broadcastTo ⟨2, ![r, n]⟩ (shapeCast ⟨2, ![1, n]⟩ x9 h1n) hbn)))
        (broadcastTo ⟨2, ![r, n]⟩ (rsqrt (addf (shapeCast ⟨2, ![1, n]⟩ x10 h1n)
          (broadcast ⟨2, ![1, n]⟩ (Scalar.ofBits (F := Ideal) .f32 0x3A83126F#32)))) hbn))
        (broadcastTo ⟨2, ![r, n]⟩ (shapeCast ⟨2, ![1, n]⟩ x8 h1n) hbn))
      (broadcast ⟨2, ![r, n]⟩ (Scalar.ofBits (F := Ideal) .f32 0x00000000#32))
      = layer x0 x1 (x2 (ix2 0 0)) x3 x4 x5 x6 x7 x8 x9 x10 := by
  simp only [shapeCast_self]
  exact body_layer_core d hlc hrc hln hrn hlb hrb x0 x1 x2 x3 x4 x5 x6 x7 x8 x9 x10 hb1 hbn hlt

/-! ## The host program's spelling -/

/-- The reference: the scalar added to one and broadcast, dot_general, bias vectors broadcast into a row and then
    down the rows, the maxima against a broadcast zero, the four statistics likewise. -/
theorem host_layer (d : DotDims ⟨2, ![r, n]⟩ ⟨2, ![n, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (P H : FVec Ideal ⟨2, ![r, n]⟩ .f32) (e : FVec Ideal ⟨0, ![]⟩ .f32)
    (W₁ W₂ : FVec Ideal ⟨2, ![n, n]⟩ .f32) (b₁ b₂ g β μ v : FVec Ideal ⟨1, ![n]⟩ .f32)
    (h0 : (⟨0, ![]⟩ : Shape).BroadcastsInDim ⟨2, ![r, n]⟩ ![])
    (h1 : (⟨1, ![n]⟩ : Shape).BroadcastsInDim ⟨2, ![1, n]⟩ ![1])
    (h2 : (⟨2, ![1, n]⟩ : Shape).BroadcastsInDim ⟨2, ![r, n]⟩ ![0, 1])
    (hv : (⟨0, ![]⟩ : Shape).BroadcastsInDim ⟨1, ![n]⟩ ![]) :
    maximumf (addf (mulf (mulf (broadcastInDim ⟨2, ![r, n]⟩ ![0, 1] h2 (broadcastInDim ⟨2, ![1, n]⟩ ![1] h1 g))
        (subf (addf (Host.dotGeneral d none
            (maximumf (addf (Host.dotGeneral d none
                (addf P (mulf (broadcastInDim ⟨2, ![r, n]⟩ ![] h0
                  (addf (constant (F := Ideal) ⟨0, ![]⟩ .f32 0x3F800000#32) e)) H)) W₁)
              (broadcastInDim ⟨2, ![r, n]⟩ ![0, 1] h2 (broadcastInDim ⟨2, ![1, n]⟩ ![1] h1 b₁)))
              (broadcastInDim ⟨2, ![r, n]⟩ ![] h0 (constant (F := Ideal) ⟨0, ![]⟩ .f32 0x00000000#32))) W₂)
          (broadcastInDim ⟨2, ![r, n]⟩ ![0, 1] h2 (broadcastInDim ⟨2, ![1, n]⟩ ![1] h1 b₂)))
          (broadcastInDim ⟨2, ![r, n]⟩ ![0, 1] h2 (broadcastInDim ⟨2, ![1, n]⟩ ![1] h1 μ))))
        (broadcastInDim ⟨2, ![r, n]⟩ ![0, 1] h2 (broadcastInDim ⟨2, ![1, n]⟩ ![1] h1
          (Host.rsqrt (addf v (broadcastInDim ⟨1, ![n]⟩ ![] hv (constant (F := Ideal) ⟨0, ![]⟩ .f32 0x3A83126F#32)))))))
        (broadcastInDim ⟨2, ![r, n]⟩ ![0, 1] h2 (broadcastInDim ⟨2, ![1, n]⟩ ![1] h1 β)))
      (broadcastInDim ⟨2, ![r, n]⟩ ![] h0 (constant (F := Ideal) ⟨0, ![]⟩ .f32 0x00000000#32))
      = layer P H (e ix0) W₁ (asRow b₁) W₂ (asRow b₂) (asRow g) (asRow β) (asRow μ) (asRow v) := by
  have hS : addf P (mulf (broadcastInDim ⟨2, ![r, n]⟩ ![] h0
      (addf (constant (F := Ideal) ⟨0, ![]⟩ .f32 0x3F800000#32) e)) H) = selfTerm P H (e ix0) := by
    funext i
    rw [addf_apply, mulf_apply, bcastInDim_scalar_apply, addf_apply]
    rfl
  unfold Host.dotGeneral
  rw [hS, dotGeneral_eq_matProd d hlc hrc hln hrn hlb hrb none _ (selfTerm P H (e ix0)) W₁,
    Cert.Lib.BiasRelu.host_eq (matProd (selfTerm P H (e ix0)) W₁) b₁ h1 h2 h0,
    dotGeneral_eq_matProd d hlc hrc hln hrn hlb hrb none]
  funext i
  obtain ⟨p, q, rfl⟩ : ∃ (p : Fin r) (q : Fin n), i = ix2 p q := ⟨i 0, i 1, eq_ix2 i⟩
  rw [maximumf_apply, addf_apply, mulf_apply, mulf_apply, subf_apply, addf_apply]
  rw [bcastInDim_rows_apply, bcastInDim_rows_apply, bcastInDim_rows_apply, bcastInDim_rows_apply,
    bcastInDim_rows_apply, bcastInDim_eq_asRow, bcastInDim_eq_asRow, bcastInDim_eq_asRow, bcastInDim_eq_asRow,
    bcastInDim_eq_asRow, bcastInDim_scalar_apply]
  show max (asRow g (ix2 0 q) * (matProd _ W₂ (ix2 p q) + asRow b₂ (ix2 0 q) - asRow μ (ix2 0 q))
      * Ideal.rsqrt (v (ix1 q) + broadcastInDim ⟨1, ![n]⟩ ![] hv (constant (F := Ideal) ⟨0, ![]⟩ .f32 0x3A83126F#32) (ix1 q))
      + asRow β (ix2 0 q)) _ = _
  rw [bcastInDim_scalar_apply]
  rfl

end Cert.Gin

end
-- ==== Proof.Region4.lean ====
/-
  Region 4 of the kernel program (the layer's pallas_call), at any contents `V` of the TensorCore's buffers when
  the region is entered: what the pipeline leaves in its output array. The grid has ten points; point t stages rows
  5000·t … 5000·t + 4999 of the neighbours' sums and of the nodes' features, and every small operand whole; the body
  computes one layer (`Cert.Gin.layer`) of those blocks and stores it as rows 5000·t … of the output. A row of the
  layer depends on the same row of its two big operands only, so each point writes its rows of the layer of the
  WHOLE arrays, and the ten blocks tile the 50000 rows: the output array ends holding the layer of the entry arrays.
-/
import proofs.«177667_j37366215475921_1_alg».proof.Proof.Gen.KernelIdeal.Frame
import proofs.«177667_j37366215475921_1_alg».proof.Proof.Layer
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region4

open Cert.KernelIdeal Cert.KernelIdeal.Gen Cert.Gin

variable (V : (c : Dev nD) → (b : Ref sig .tc) → Buf (Elt Ideal) ((c : Thread nD τ).loc b))

theorem hz : (![0, 0] : Fin 2 → Nat) = fun _ => 0 := funext fun a => by fin_cases a <;> rfl

/-- The body's arithmetic is one layer of the blocks it loads. -/
theorem pay_eq (x0 x1 : Vec Ideal S5000x128 .f32) (x2 : Vec Ideal S1x1 .f32) (x3 : Vec Ideal S128x128 .f32)
    (x4 : Vec Ideal S1x128 .f32) (x5 : Vec Ideal S128x128 .f32) (x6 x7 x8 x9 x10 : Vec Ideal S1x128 .f32) :
    k4_pay1 (k4_pay2 x1 x0 x2 x3 x4 x5 x6) (k4_pay3 x7) (k4_pay4 x8) x9 x10
      = layer (r := 5000) (n := 128) x0 x1 (x2 (ix2 0 0)) x3 x4 x5 x6 x7 x8 x9 x10 := by
  unfold k4_pay1 k4_pay2 k4_pay3 k4_pay4
  simp only [shapeCast_self]
  exact body_layer_core dot_S5000x128_S128x128_S5000x128_1_0_0_1_n_n rfl rfl rfl rfl rfl rfl x0 x1 x2 x3 x4 x5 x6 x7 x8 x9 x10
    _ _ _

/-- The layer of the arrays the region finds. -/
abbrev G (c : Dev nD) : S50000x128.Idx → Elt Ideal .f32 :=
  layer (r := 50000) (n := 128) (V c main_v123 : S50000x128.Idx → Elt Ideal .f32) (V c main_v119 : S50000x128.Idx → Elt Ideal .f32)
    ((V c main_v142 : S1x1.Idx → Elt Ideal .f32) (ix2 0 0)) (V c main_v127 : S128x128.Idx → Elt Ideal .f32)
    (V c main_v143 : S1x128.Idx → Elt Ideal .f32) (V c main_v131 : S128x128.Idx → Elt Ideal .f32)
    (V c main_v144 : S1x128.Idx → Elt Ideal .f32) (V c main_v145 : S1x128.Idx → Elt Ideal .f32)
    (V c main_v146 : S1x128.Idx → Elt Ideal .f32) (V c main_v147 : S1x128.Idx → Elt Ideal .f32)
    (V c main_v148 : S1x128.Idx → Elt Ideal .f32)

/-- The printed index maps over the grid: the two big inputs and the output move down the rows with the point, every
    small operand stays at block (0, 0). -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_11.index t (0 : Fin 2) = t.val ∧ win4_11.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0
    ∧ win4_9.index t (0 : Fin 2) = 0 ∧ win4_9.index t (1 : Fin 2) = 0
    ∧ win4_10.index t (0 : Fin 2) = 0 ∧ win4_10.index t (1 : Fin 2) = 0 :=
  (by decide +kernel : ∀ t : Fin grid4.N, _)

theorem N_eq : cfg4.N = 10 := N_4

/-- The sums' block at point t is rows 5000·t … of the sums. -/
theorem rows0 (c : Dev nD) (t : Fin cfg4.N) (x : S5000x128.Idx) (k : S50000x128.Idx)
    (hk0 : (k 0).val = 5000 * t.val + (x 0).val) (hk1 : (k 1).val = (x 1).val) :
    (iblk4 V c 0 t : Vec Ideal S5000x128 .f32) x = (V c main_v123 : S50000x128.Idx → Elt Ideal .f32) k := by
  obtain ⟨a0, a1, h0, h1, o0, o1, s2a, s2b, s3a, s3b, s4a, s4b, s5a, s5b, s6a, s6b, s7a, s7b, s8a, s8b, s9a, s9b, s10a, s10b⟩ := idx_facts t
  unfold iblk4
  rw [View.read_apply]
  show V c main_v123 _ = V c main_v123 _
  congr 1
  funext a
  apply Fin.ext
  match a with
  | ⟨0, _⟩ => show win4_0.index t 0 * 5000 + 1 * (x 0).val = (k 0).val; rw [a0, hk0]; omega
  | ⟨1, _⟩ => show win4_0.index t 1 * 128 + 1 * (x 1).val = (k 1).val; rw [a1, hk1]; omega

/-- The features' block at point t is rows 5000·t … of the features. -/
theorem rows1 (c : Dev nD) (t : Fin cfg4.N) (x : S5000x128.Idx) (k : S50000x128.Idx)
    (hk0 : (k 0).val = 5000 * t.val + (x 0).val) (hk1 : (k 1).val = (x 1).val) :
    (iblk4 V c 1 t : Vec Ideal S5000x128 .f32) x = (V c main_v119 : S50000x128.Idx → Elt Ideal .f32) k := by
  obtain ⟨a0, a1, h0, h1, o0, o1, s2a, s2b, s3a, s3b, s4a, s4b, s5a, s5b, s6a, s6b, s7a, s7b, s8a, s8b, s9a, s9b, s10a, s10b⟩ := idx_facts t
  unfold iblk4
  rw [View.read_apply]
  show V c main_v119 _ = V c main_v119 _
  congr 1
  funext a
  apply Fin.ext
  match a with
  | ⟨0, _⟩ => show win4_1.index t 0 * 5000 + 1 * (x 0).val = (k 0).val; rw [h0, hk0]; omega
  | ⟨1, _⟩ => show win4_1.index t 1 * 128 + 1 * (x 1).val = (k 1).val; rw [h1, hk1]; omega

/-- Window 2 stages its whole array at every point. -/
theorem whole2 (c : Dev nD) (t : Fin cfg4.N) :
    (iblk4 V c 2 t : Vec Ideal S1x1 .f32) = (V c main_v142 : S1x1.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk4
  rw [View.read_apply]
  show V c main_v142 _ = V c main_v142 x
  congr 1
  funext a
  apply Fin.ext
  match a with
  | ⟨0, _⟩ => show win4_2.index t 0 * 1 + 1 * (x 0).val = (x 0).val; rw [s2a]; omega
  | ⟨1, _⟩ => show win4_2.index t 1 * 1 + 1 * (x 1).val = (x 1).val; rw [s2b]; omega

/-- Window 3 stages its whole array at every point. -/
theorem whole3 (c : Dev nD) (t : Fin cfg4.N) :
    (iblk4 V c 3 t : Vec Ideal S128x128 .f32) = (V c main_v127 : S128x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk4
  rw [View.read_apply]
  show V c main_v127 _ = V c main_v127 x
  congr 1
  funext a
  apply Fin.ext
  match a with
  | ⟨0, _⟩ => show win4_3.index t 0 * 128 + 1 * (x 0).val = (x 0).val; rw [s3a]; omega
  | ⟨1, _⟩ => show win4_3.index t 1 * 128 + 1 * (x 1).val = (x 1).val; rw [s3b]; omega

/-- Window 4 stages its whole array at every point. -/
theorem whole4 (c : Dev nD) (t : Fin cfg4.N) :
    (iblk4 V c 4 t : Vec Ideal S1x128 .f32) = (V c main_v143 : S1x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk4
  rw [View.read_apply]
  show V c main_v143 _ = V c main_v143 x
  congr 1
  funext a
  apply Fin.ext
  match a with
  | ⟨0, _⟩ => show win4_4.index t 0 * 1 + 1 * (x 0).val = (x 0).val; rw [s4a]; omega
  | ⟨1, _⟩ => show win4_4.index t 1 * 128 + 1 * (x 1).val = (x 1).val; rw [s4b]; omega

/-- Window 5 stages its whole array at every point. -/
theorem whole5 (c : Dev nD) (t : Fin cfg4.N) :
    (iblk4 V c 5 t : Vec Ideal S128x128 .f32) = (V c main_v131 : S128x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk4
  rw [View.read_apply]
  show V c main_v131 _ = V c main_v131 x
  congr 1
  funext a
  apply Fin.ext
  match a with
  | ⟨0, _⟩ => show win4_5.index t 0 * 128 + 1 * (x 0).val = (x 0).val; rw [s5a]; omega
  | ⟨1, _⟩ => show win4_5.index t 1 * 128 + 1 * (x 1).val = (x 1).val; rw [s5b]; omega

/-- Window 6 stages its whole array at every point. -/
theorem whole6 (c : Dev nD) (t : Fin cfg4.N) :
    (iblk4 V c 6 t : Vec Ideal S1x128 .f32) = (V c main_v144 : S1x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk4
  rw [View.read_apply]
  show V c main_v144 _ = V c main_v144 x
  congr 1
  funext a
  apply Fin.ext
  match a with
  | ⟨0, _⟩ => show win4_6.index t 0 * 1 + 1 * (x 0).val = (x 0).val; rw [s6a]; omega
  | ⟨1, _⟩ => show win4_6.index t 1 * 128 + 1 * (x 1).val = (x 1).val; rw [s6b]; omega

/-- Window 7 stages its whole array at every point. -/
theorem whole7 (c : Dev nD) (t : Fin cfg4.N) :
    (iblk4 V c 7 t : Vec Ideal S1x128 .f32) = (V c main_v145 : S1x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk4
  rw [View.read_apply]
  show V c main_v145 _ = V c main_v145 x
  congr 1
  funext a
  apply Fin.ext
  match a with
  | ⟨0, _⟩ => show win4_7.index t 0 * 1 + 1 * (x 0).val = (x 0).val; rw [s7a]; omega
  | ⟨1, _⟩ => show win4_7.index t 1 * 128 + 1 * (x 1).val = (x 1).val; rw [s7b]; omega

/-- Window 8 stages its whole array at every point. -/
theorem whole8 (c : Dev nD) (t : Fin cfg4.N) :
    (iblk4 V c 8 t : Vec Ideal S1x128 .f32) = (V c main_v146 : S1x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk4
  rw [View.read_apply]
  show V c main_v146 _ = V c main_v146 x
  congr 1
  funext a
  apply Fin.ext
  match a with
  | ⟨0, _⟩ => show win4_8.index t 0 * 1 + 1 * (x 0).val = (x 0).val; rw [s8a]; omega
  | ⟨1, _⟩ => show win4_8.index t 1 * 128 + 1 * (x 1).val = (x 1).val; rw [s8b]; omega

/-- Window 9 stages its whole array at every point. -/
theorem whole9 (c : Dev nD) (t : Fin cfg4.N) :
    (iblk4 V c 9 t : Vec Ideal S1x128 .f32) = (V c main_v147 : S1x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk4
  rw [View.read_apply]
  show V c main_v147 _ = V c main_v147 x
  congr 1
  funext a
  apply Fin.ext
  match a with
  | ⟨0, _⟩ => show win4_9.index t 0 * 1 + 1 * (x 0).val = (x 0).val; rw [s9a]; omega
  | ⟨1, _⟩ => show win4_9.index t 1 * 128 + 1 * (x 1).val = (x 1).val; rw [s9b]; omega

/-- Window 10 stages its whole array at every point. -/
theorem whole10 (c : Dev nD) (t : Fin cfg4.N) :
    (iblk4 V c 10 t : Vec Ideal S1x128 .f32) = (V c main_v148 : S1x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk4
  rw [View.read_apply]
  show V c main_v148 _ = V c main_v148 x
  congr 1
  funext a
  apply Fin.ext
  match a with
  | ⟨0, _⟩ => show win4_10.index t 0 * 1 + 1 * (x 0).val = (x 0).val; rw [s10a]; omega
  | ⟨1, _⟩ => show win4_10.index t 1 * 128 + 1 * (x 1).val = (x 1).val; rw [s10b]; omega

theorem row_lt (t : Fin cfg4.N) (y : Fin 5000) : 5000 * t.val + y.val < 50000 := by
  have h := t.isLt
  have hN := N_eq
  have := y.isLt
  omega

/-- WHAT POINT t WRITES BACK is block t of the layer of the whole entry arrays. -/
theorem flushed_eq (c : Dev nD) (t : Fin cfg4.N) :
    (dat4 V c).flushed 11 t = ((cfg4.win 11).blk t).view.read (Elt Ideal) (G V c) := by
  show (cfg4.win 11).cut (grid4.coords t) ((dat4 V c).after 11 t) = _
  rw [after4_11]
  unfold out4_11
  rw [View.canon_unit_zero hz]
  simp only [View.ld_unit_zero (S := S5000x128) hz, View.ld_unit_zero (S := S1x1) hz,
    View.ld_unit_zero (S := S128x128) hz, View.ld_unit_zero (S := S1x128) hz]
  rw [pay_eq, whole2 V c t, whole3 V c t, whole4 V c t, whole5 V c t, whole6 V c t, whole7 V c t, whole8 V c t, whole9 V c t, whole10 V c t]
  obtain ⟨a0, a1, h0, h1, o0, o1, s2a, s2b, s3a, s3b, s4a, s4b, s5a, s5b, s6a, s6b, s7a, s7b, s8a, s8b, s9a, s9b, s10a, s10b⟩ := idx_facts t
  funext j
  obtain ⟨y, q, rfl⟩ : ∃ (y : Fin 5000) (q : Fin 128), j = ix2 y q := ⟨j 0, j 1, eq_ix2 j⟩
  have hk : ((cfg4.win 11).blk t).view.emb (ix2 y q)
      = (ix2 (⟨5000 * t.val + y.val, row_lt t y⟩ : Fin 50000) q : S50000x128.Idx) := by
    funext a
    apply Fin.ext
    match a with
    | ⟨0, _⟩ => show win4_11.index t 0 * 5000 + 1 * y.val = 5000 * t.val + y.val; rw [o0]; omega
    | ⟨1, _⟩ => show win4_11.index t 1 * 128 + 1 * q.val = q.val; rw [o1]; omega
  rw [View.read_apply, hk]
  exact layer_rows _ _ _ _ _ _ _ _ _ _ _ _ _ y ⟨5000 * t.val + y.val, row_lt t y⟩
    (fun c' => rows0 V c t (ix2 y c') (ix2 ⟨5000 * t.val + y.val, row_lt t y⟩ c') rfl rfl)
    (fun c' => rows1 V c t (ix2 y c') (ix2 ⟨5000 * t.val + y.val, row_lt t y⟩ c') rfl rfl) q

/-- An index of the output array is in point t's block iff each coordinate is in the block's range on its axis. -/
theorem mem_blk (t : Fin cfg4.N) (i : S50000x128.Idx) :
    i ∈ ((cfg4.win 11).blk t).view.set ↔ ∀ a : Fin 2, win4_11.index t a * S5000x128.size a ≤ (i a).val
      ∧ (i a).val < win4_11.index t a * S5000x128.size a + S5000x128.size a := by
  show i ∈ ((View.whole main_v149).slice (win4_11.rect t)).set ↔ _
  rw [View.set_slice_whole, Rect.mem_set_unit]
  exact Iff.rfl

/-- Row p of the output is written by point p / 5000. -/
theorem cover (i : S50000x128.Idx) :
    ∃ t : Fin cfg4.N, (cfg4.win 11).flush t = true ∧ i ∈ ((cfg4.win 11).blk t).view.set := by
  have hi0 : (i 0).val < 50000 := (i 0).isLt
  have hi1 : (i 1).val < 128 := (i 1).isLt
  have ht : (i 0).val / 5000 < cfg4.N := by rw [N_eq]; omega
  obtain ⟨a0, a1, h0, h1, o0, o1, s2a, s2b, s3a, s3b, s4a, s4b, s5a, s5b, s6a, s6b, s7a, s7b, s8a, s8b, s9a, s9b, s10a, s10b⟩ := idx_facts ⟨(i 0).val / 5000, ht⟩
  refine ⟨⟨(i 0).val / 5000, ht⟩, flush4_11 _, ?_⟩
  rw [mem_blk]
  intro a
  match a with
  | ⟨0, _⟩ =>
    show win4_11.index ⟨(i 0).val / 5000, ht⟩ 0 * 5000 ≤ (i 0).val
      ∧ (i 0).val < win4_11.index ⟨(i 0).val / 5000, ht⟩ 0 * 5000 + 5000
    rw [o0]
    show (i 0).val / 5000 * 5000 ≤ (i 0).val ∧ (i 0).val < (i 0).val / 5000 * 5000 + 5000
    omega
  | ⟨1, _⟩ =>
    show win4_11.index ⟨(i 0).val / 5000, ht⟩ 1 * 128 ≤ (i 1).val
      ∧ (i 1).val < win4_11.index ⟨(i 0).val / 5000, ht⟩ 1 * 128 + 128
    rw [o1]
    omega

/-- THE OUTPUT ARRAY after the region: the layer of the arrays the region found. -/
theorem final (c : Dev nD) : (dat4 V c).arrAt 11 cfg4.N = G V c :=
  (dat4 V c).arrAt_eq_of_cover 11 (G V c) (fun t _ => flushed_eq V c t) cover

end Cert.KernelIdeal.Region4

end
-- ==== Proof.Steps.lean ====
/-
  The five layers chained, as functions of the twelve argument arrays.

  Layer l (0 … 4) takes the features H the layer before left (the argument x for l = 0), adds up by destination the
  rows of H gathered at the edges' sources (the pooling, carried here as one function of H and of the two index
  arrays), and applies `Cert.Gin.layer` with the l-th scalar of eps, the l-th 128×128 slabs of W1 and W2, and the l-th
  rows of b1, b2, gamma, beta, the running mean and the running variance, each row a vector of 128 entries read as
  a 1×128 row. `out1 … out5` are the five results in order; the program's results are x and these five.
-/
import proofs.«177667_j37366215475921_1_alg».proof.Proof.KerHost
import proofs.«177667_j37366215475921_1_alg».proof.Proof.Layer

noncomputable section

namespace Cert.KernelIdeal.Chain

open Cert.KernelIdeal Cert.KernelIdeal.Gen Cert.KernelIdeal.ValRun Cert.Gin Cert.Lib.RowVector
open Idealize.ShloMosaic Idealize.ShloMosaic.ValueIdx

/-- One layer over the pooling of H: the neighbours' sums are the pooling of H itself. -/
def step (e : EReal) (W₁ : S128x128.Idx → EReal) (b₁ : S128.Idx → EReal) (W₂ : S128x128.Idx → EReal)
    (b₂ g β μ v : S128.Idx → EReal) (i d : (⟨S800000, .i32⟩ : BufTy).Contents (Elt Ideal))
    (H : S50000x128.Idx → EReal) : S50000x128.Idx → EReal :=
  layer (r := 50000) (n := 128) (poolOut (F := Ideal) H i d) H e W₁ (asRow b₁) W₂ (asRow b₂) (asRow g) (asRow β)
    (asRow μ) (asRow v)

/-- Entry 0 of a vector of five scalars. -/
def scal0 (a : (⟨S5, .f32⟩ : BufTy).Contents (Elt Ideal)) : EReal :=
  (shapeCast S_ (extractStridedSlice S1 ![0] a slices_S5_S1_0) shapeCasts_S1_S_ : S_.Idx → EReal) ix0

/-- Slab 0 of a stack of five 128×128 matrices. -/
def mat0 (a : (⟨S5x128x128, .f32⟩ : BufTy).Contents (Elt Ideal)) : S128x128.Idx → EReal :=
  shapeCast S128x128 (extractStridedSlice S1x128x128 ![0, 0, 0] a slices_S5x128x128_S1x128x128_0_0_0)
    shapeCasts_S1x128x128_S128x128

/-- Row 0 of a 5×128 array, as a vector of 128 entries. -/
def vec0 (a : (⟨S5x128, .f32⟩ : BufTy).Contents (Elt Ideal)) : S128.Idx → EReal :=
  shapeCast S128 (extractStridedSlice S1x128 ![0, 0] a slices_S5x128_S1x128_0_0) shapeCasts_S1x128_S128

/-- Entry 1 of a vector of five scalars. -/
def scal1 (a : (⟨S5, .f32⟩ : BufTy).Contents (Elt Ideal)) : EReal :=
  (shapeCast S_ (extractStridedSlice S1 ![1] a slices_S5_S1_1) shapeCasts_S1_S_ : S_.Idx → EReal) ix0

/-- Slab 1 of a stack of five 128×128 matrices. -/
def mat1 (a : (⟨S5x128x128, .f32⟩ : BufTy).Contents (Elt Ideal)) : S128x128.Idx → EReal :=
  shapeCast S128x128 (extractStridedSlice S1x128x128 ![1, 0, 0] a slices_S5x128x128_S1x128x128_1_0_0)
    shapeCasts_S1x128x128_S128x128

/-- Row 1 of a 5×128 array, as a vector of 128 entries. -/
def vec1 (a : (⟨S5x128, .f32⟩ : BufTy).Contents (Elt Ideal)) : S128.Idx → EReal :=
  shapeCast S128 (extractStridedSlice S1x128 ![1, 0] a slices_S5x128_S1x128_1_0) shapeCasts_S1x128_S128

/-- Entry 2 of a vector of five scalars. -/
def scal2 (a : (⟨S5, .f32⟩ : BufTy).Contents (Elt Ideal)) : EReal :=
  (shapeCast S_ (extractStridedSlice S1 ![2] a slices_S5_S1_2) shapeCasts_S1_S_ : S_.Idx → EReal) ix0

/-- Slab 2 of a stack of five 128×128 matrices. -/
def mat2 (a : (⟨S5x128x128, .f32⟩ : BufTy).Contents (Elt Ideal)) : S128x128.Idx → EReal :=
  shapeCast S128x128 (extractStridedSlice S1x128x128 ![2, 0, 0] a slices_S5x128x128_S1x128x128_2_0_0)
    shapeCasts_S1x128x128_S128x128

/-- Row 2 of a 5×128 array, as a vector of 128 entries. -/
def vec2 (a : (⟨S5x128, .f32⟩ : BufTy).Contents (Elt Ideal)) : S128.Idx → EReal :=
  shapeCast S128 (extractStridedSlice S1x128 ![2, 0] a slices_S5x128_S1x128_2_0) shapeCasts_S1x128_S128

/-- Entry 3 of a vector of five scalars. -/
def scal3 (a : (⟨S5, .f32⟩ : BufTy).Contents (Elt Ideal)) : EReal :=
  (shapeCast S_ (extractStridedSlice S1 ![3] a slices_S5_S1_3) shapeCasts_S1_S_ : S_.Idx → EReal) ix0

/-- Slab 3 of a stack of five 128×128 matrices. -/
def mat3 (a : (⟨S5x128x128, .f32⟩ : BufTy).Contents (Elt Ideal)) : S128x128.Idx → EReal :=
  shapeCast S128x128 (extractStridedSlice S1x128x128 ![3, 0, 0] a slices_S5x128x128_S1x128x128_3_0_0)
    shapeCasts_S1x128x128_S128x128

/-- Row 3 of a 5×128 array, as a vector of 128 entries. -/
def vec3 (a : (⟨S5x128, .f32⟩ : BufTy).Contents (Elt Ideal)) : S128.Idx → EReal :=
  shapeCast S128 (extractStridedSlice S1x128 ![3, 0] a slices_S5x128_S1x128_3_0) shapeCasts_S1x128_S128

/-- Entry 4 of a vector of five scalars. -/
def scal4 (a : (⟨S5, .f32⟩ : BufTy).Contents (Elt Ideal)) : EReal :=
  (shapeCast S_ (extractStridedSlice S1 ![4] a slices_S5_S1_4) shapeCasts_S1_S_ : S_.Idx → EReal) ix0

/-- Slab 4 of a stack of five 128×128 matrices. -/
def mat4 (a : (⟨S5x128x128, .f32⟩ : BufTy).Contents (Elt Ideal)) : S128x128.Idx → EReal :=
  shapeCast S128x128 (extractStridedSlice S1x128x128 ![4, 0, 0] a slices_S5x128x128_S1x128x128_4_0_0)
    shapeCasts_S1x128x128_S128x128

/-- Row 4 of a 5×128 array, as a vector of 128 entries. -/
def vec4 (a : (⟨S5x128, .f32⟩ : BufTy).Contents (Elt Ideal)) : S128.Idx → EReal :=
  shapeCast S128 (extractStridedSlice S1x128 ![4, 0] a slices_S5x128_S1x128_4_0) shapeCasts_S1x128_S128

section
variable (a0 : (⟨S50000x128, .f32⟩ : BufTy).Contents (Elt Ideal)) (a1 a2 : (⟨S800000, .i32⟩ : BufTy).Contents (Elt Ideal))
  (a3 : (⟨S5, .f32⟩ : BufTy).Contents (Elt Ideal)) (a4 : (⟨S5x128x128, .f32⟩ : BufTy).Contents (Elt Ideal))
  (a5 : (⟨S5x128, .f32⟩ : BufTy).Contents (Elt Ideal)) (a6 : (⟨S5x128x128, .f32⟩ : BufTy).Contents (Elt Ideal))
  (a7 a8 a9 a10 a11 : (⟨S5x128, .f32⟩ : BufTy).Contents (Elt Ideal))

/-- The features after layer 0. -/
def out1 : S50000x128.Idx → EReal :=
  step (scal0 a3) (mat0 a4) (vec0 a5) (mat0 a6) (vec0 a7) (vec0 a8) (vec0 a9) (vec0 a10) (vec0 a11) a1 a2
    a0

/-- The features after layer 1. -/
def out2 : S50000x128.Idx → EReal :=
  step (scal1 a3) (mat1 a4) (vec1 a5) (mat1 a6) (vec1 a7) (vec1 a8) (vec1 a9) (vec1 a10) (vec1 a11) a1 a2
    (out1 a0 a1 a2 a3 a4 a5 a6 a7 a8 a9 a10 a11)

/-- The features after layer 2. -/
def out3 : S50000x128.Idx → EReal :=
  step (scal2 a3) (mat2 a4) (vec2 a5) (mat2 a6) (vec2 a7) (vec2 a8) (vec2 a9) (vec2 a10) (vec2 a11) a1 a2
    (out2 a0 a1 a2 a3 a4 a5 a6 a7 a8 a9 a10 a11)

/-- The features after layer 3. -/
def out4 : S50000x128.Idx → EReal :=
  step (scal3 a3) (mat3 a4) (vec3 a5) (mat3 a6) (vec3 a7) (vec3 a8) (vec3 a9) (vec3 a10) (vec3 a11) a1 a2
    (out3 a0 a1 a2 a3 a4 a5 a6 a7 a8 a9 a10 a11)

/-- The features after layer 4. -/
def out5 : S50000x128.Idx → EReal :=
  step (scal4 a3) (mat4 a4) (vec4 a5) (mat4 a6) (vec4 a7) (vec4 a8) (vec4 a9) (vec4 a10) (vec4 a11) a1 a2
    (out4 a0 a1 a2 a3 a4 a5 a6 a7 a8 a9 a10 a11)

end

/-- Equal operands give equal layers. -/
theorem layer_congr {r n : Nat} {P P' H H' : (⟨2, ![r, n]⟩ : Shape).Idx → EReal} {e e' : EReal}
    {W₁ W₁' W₂ W₂' : (⟨2, ![n, n]⟩ : Shape).Idx → EReal} {b₁ b₁' b₂ b₂' g g' β β' μ μ' v v' : (⟨2, ![1, n]⟩ : Shape).Idx → EReal}
    (hP : P = P') (hH : H = H') (he : e = e') (h1 : W₁ = W₁') (hb1 : b₁ = b₁') (h2 : W₂ = W₂') (hb2 : b₂ = b₂')
    (hg : g = g') (hβ : β = β') (hμ : μ = μ') (hv : v = v') :
    layer P H e W₁ b₁ W₂ b₂ g β μ v = layer P' H' e' W₁' b₁' W₂' b₂' g' β' μ' v' := by
  subst hP hH he h1 hb1 h2 hb2 hg hβ hμ hv
  rfl

/-- A scalar re-shaped to a 1×1 array reads back the scalar. -/
theorem scalar_as_1x1 {α : Type} (s : (⟨0, ![]⟩ : Shape).Idx → α) (h : (⟨0, ![]⟩ : Shape).ShapeCasts ⟨2, ![1, 1]⟩) :
    shapeCast ⟨2, ![1, 1]⟩ s h (ix2 0 0) = s ix0 := by
  refine shapeCast_apply s h _ _ ?_
  rfl

end Cert.KernelIdeal.Chain

end
-- ==== Proof.KerReads3.lean ====
import proofs.«177667_j37366215475921_1_alg».proof.Proof.KerHost

set_option maxRecDepth 16384

noncomputable section

namespace Cert.KernelIdeal.ValRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # Region 3's input arrays when it is entered

Two stretches of host operations run before region 3: the fourth take (a gather of the rows of the previous layer's
output at the source indices), and then the pooling of the gathered rows by destination together with the
slices of the stacked parameters at layer 3. Each is first read as a function of the contents it starts from, whatever
they are; then the contents are those of the fold, where the arguments are as launched and the previous region's
output is what its write-backs left. -/

section Stretches
variable (V' : Valuation τ sig (Elt F))

/-- The take's result, from any contents: the two buffers it reads are read at their values' types, and the result is
    written at the result buffer's type. -/
theorem take3_typed (x : (⟨S50000x128, .f32⟩ : BufTy).Contents (Elt F)) (i : (⟨S800000, .i32⟩ : BufTy).Contents (Elt F))
    (hx : (StableHlo.TRef.of main_v89 : StableHlo.TRef sig ⟨S50000x128, .f32⟩).ofBuf (V' (Proc.devRef .tc main_v89)) = x)
    (hi : (StableHlo.TRef.of main_arg1 : StableHlo.TRef sig ⟨S800000, .i32⟩).ofBuf (V' (Proc.devRef .tc main_arg1)) = i) :
    StableHlo.after hostOps3 V' (Proc.devRef .tc main_v90)
      = (StableHlo.TRef.of main_v90 : StableHlo.TRef sig ⟨S800000x128, .f32⟩).toBuf (takeOut x i) := by
  subst hx hi
  after_results_simp
  simp only [ofBuf_toBuf]
  rfl

/-- The same with the three changes of type removed: each is the identity, the buffer's type being the value's. -/
theorem take3_of (x : (⟨S50000x128, .f32⟩ : BufTy).Contents (Elt F)) (i : (⟨S800000, .i32⟩ : BufTy).Contents (Elt F))
    (hx : V' (Proc.devRef .tc main_v89) = x) (hi : V' (Proc.devRef .tc main_arg1) = i) :
    StableHlo.after hostOps3 V' (Proc.devRef .tc main_v90) = takeOut x i :=
  (take3_typed V' x i ((cast_eq _ _).trans hx) ((cast_eq _ _).trans hi)).trans (cast_eq _ _)

/-- The pooled rows, from any contents in which the take's result is already there. -/
theorem pool3_of (x : (⟨S50000x128, .f32⟩ : BufTy).Contents (Elt F)) (i d : (⟨S800000, .i32⟩ : BufTy).Contents (Elt F))
    (hu : V' (Proc.devRef .tc main_v90) = takeOut x i) (hd : V' (Proc.devRef .tc main_arg2) = d) :
    StableHlo.after hostOps3_1 V' (Proc.devRef .tc main_v93) = poolOut x i d := by
  subst hd
  unfold poolOut
  rw [← hu]
  after_results

/-- Window 2's array: the layer's slice of argument 3, reshaped. -/
theorem win3_2_of (a : (⟨S5, .f32⟩ : BufTy).Contents (Elt F)) (ha : V' (Proc.devRef .tc main_arg3) = a) :
    StableHlo.after hostOps3_1 V' (Proc.devRef .tc main_v112) = shapeCast S1x1 (shapeCast S_ (extractStridedSlice S1 ![3] a slices_S5_S1_3) shapeCasts_S1_S_) shapeCasts_S_S1x1 := by
  subst ha
  after_results
  rfl

/-- Window 3's array: the layer's slice of argument 4, reshaped. -/
theorem win3_3_of (a : (⟨S5x128x128, .f32⟩ : BufTy).Contents (Elt F)) (ha : V' (Proc.devRef .tc main_arg4) = a) :
    StableHlo.after hostOps3_1 V' (Proc.devRef .tc main_v97) = shapeCast S128x128 (extractStridedSlice S1x128x128 ![3, 0, 0] a slices_S5x128x128_S1x128x128_3_0_0) shapeCasts_S1x128x128_S128x128 := by
  subst ha
  after_results
  rfl

/-- Window 4's array: the layer's slice of argument 5, reshaped. -/
theorem win3_4_of (a : (⟨S5x128, .f32⟩ : BufTy).Contents (Elt F)) (ha : V' (Proc.devRef .tc main_arg5) = a) :
    StableHlo.after hostOps3_1 V' (Proc.devRef .tc main_v113) = shapeCast S1x128 (shapeCast S128 (extractStridedSlice S1x128 ![3, 0] a slices_S5x128_S1x128_3_0) shapeCasts_S1x128_S128) shapeCasts_S128_S1x128 := by
  subst ha
  after_results
  rfl

/-- Window 5's array: the layer's slice of argument 6, reshaped. -/
theorem win3_5_of (a : (⟨S5x128x128, .f32⟩ : BufTy).Contents (Elt F)) (ha : V' (Proc.devRef .tc main_arg6) = a) :
    StableHlo.after hostOps3_1 V' (Proc.devRef .tc main_v101) = shapeCast S128x128 (extractStridedSlice S1x128x128 ![3, 0, 0] a slices_S5x128x128_S1x128x128_3_0_0) shapeCasts_S1x128x128_S128x128 := by
  subst ha
  after_results
  rfl

/-- Window 6's array: the layer's slice of argument 7, reshaped. -/
theorem win3_6_of (a : (⟨S5x128, .f32⟩ : BufTy).Contents (Elt F)) (ha : V' (Proc.devRef .tc main_arg7) = a) :
    StableHlo.after hostOps3_1 V' (Proc.devRef .tc main_v114) = shapeCast S1x128 (shapeCast S128 (extractStridedSlice S1x128 ![3, 0] a slices_S5x128_S1x128_3_0) shapeCasts_S1x128_S128) shapeCasts_S128_S1x128 := by
  subst ha
  after_results
  rfl

/-- Window 7's array: the layer's slice of argument 8, reshaped. -/
theorem win3_7_of (a : (⟨S5x128, .f32⟩ : BufTy).Contents (Elt F)) (ha : V' (Proc.devRef .tc main_arg8) = a) :
    StableHlo.after hostOps3_1 V' (Proc.devRef .tc main_v115) = shapeCast S1x128 (shapeCast S128 (extractStridedSlice S1x128 ![3, 0] a slices_S5x128_S1x128_3_0) shapeCasts_S1x128_S128) shapeCasts_S128_S1x128 := by
  subst ha
  after_results
  rfl

/-- Window 8's array: the layer's slice of argument 9, reshaped. -/
theorem win3_8_of (a : (⟨S5x128, .f32⟩ : BufTy).Contents (Elt F)) (ha : V' (Proc.devRef .tc main_arg9) = a) :
    StableHlo.after hostOps3_1 V' (Proc.devRef .tc main_v116) = shapeCast S1x128 (shapeCast S128 (extractStridedSlice S1x128 ![3, 0] a slices_S5x128_S1x128_3_0) shapeCasts_S1x128_S128) shapeCasts_S128_S1x128 := by
  subst ha
  after_results
  rfl

/-- Window 9's array: the layer's slice of argument 10, reshaped. -/
theorem win3_9_of (a : (⟨S5x128, .f32⟩ : BufTy).Contents (Elt F)) (ha : V' (Proc.devRef .tc main_arg10) = a) :
    StableHlo.after hostOps3_1 V' (Proc.devRef .tc main_v117) = shapeCast S1x128 (shapeCast S128 (extractStridedSlice S1x128 ![3, 0] a slices_S5x128_S1x128_3_0) shapeCasts_S1x128_S128) shapeCasts_S128_S1x128 := by
  subst ha
  after_results
  rfl

/-- Window 10's array: the layer's slice of argument 11, reshaped. -/
theorem win3_10_of (a : (⟨S5x128, .f32⟩ : BufTy).Contents (Elt F)) (ha : V' (Proc.devRef .tc main_arg11) = a) :
    StableHlo.after hostOps3_1 V' (Proc.devRef .tc main_v118) = shapeCast S1x128 (shapeCast S128 (extractStridedSlice S1x128 ![3, 0] a slices_S5x128_S1x128_3_0) shapeCasts_S1x128_S128) shapeCasts_S128_S1x128 := by
  subst ha
  after_results
  rfl

end Stretches

/-! ## At the fold's contents -/

/-- The take's result when the second stretch starts. -/
theorem take3_W (c : Dev nD) :
    W10 m ρ c (Proc.devRef .tc main_v90) = takeOut ((Gen.dat2 (Gen.V8 m ρ) c).arrAt 11 cfg2.N) (m ((c.tc : Thread nD τ).loc main_arg1)) :=
  take3_of (W9 m ρ c) _ _ (out2_W9 m ρ c) (quiet_W9 m ρ quiet_arg1 c)

/-- Window 0: the gathered rows pooled by destination. -/
theorem entry3_0 (c : Dev nD) :
    Gen.V11 m ρ c (Pipeline.arrRef spec3 0)
      = poolOut ((Gen.dat2 (Gen.V8 m ρ) c).arrAt 11 cfg2.N) (m ((c.tc : Thread nD τ).loc main_arg1)) (m ((c.tc : Thread nD τ).loc main_arg2)) :=
  pool3_of (W10 m ρ c) _ _ _ (take3_W m ρ c) (quiet_W10 m ρ quiet_arg2 c)

/-- Window 1: the previous layer's output, untouched by the two stretches. -/
theorem entry3_1 (c : Dev nD) :
    Gen.V11 m ρ c (Pipeline.arrRef spec3 1) = ((Gen.dat2 (Gen.V8 m ρ) c).arrAt 11 cfg2.N) :=
  out2_W11 m ρ c

theorem entry3_2 (c : Dev nD) :
    Gen.V11 m ρ c (Pipeline.arrRef spec3 2)
      = shapeCast S1x1 (shapeCast S_ (extractStridedSlice S1 ![3] (m ((c.tc : Thread nD τ).loc main_arg3)) slices_S5_S1_3) shapeCasts_S1_S_) shapeCasts_S_S1x1 :=
  win3_2_of (W10 m ρ c) _ (quiet_W10 m ρ quiet_arg3 c)

theorem entry3_3 (c : Dev nD) :
    Gen.V11 m ρ c (Pipeline.arrRef spec3 3)
      = shapeCast S128x128 (extractStridedSlice S1x128x128 ![3, 0, 0] (m ((c.tc : Thread nD τ).loc main_arg4)) slices_S5x128x128_S1x128x128_3_0_0) shapeCasts_S1x128x128_S128x128 :=
  win3_3_of (W10 m ρ c) _ (quiet_W10 m ρ quiet_arg4 c)

theorem entry3_4 (c : Dev nD) :
    Gen.V11 m ρ c (Pipeline.arrRef spec3 4)
      = shapeCast S1x128 (shapeCast S128 (extractStridedSlice S1x128 ![3, 0] (m ((c.tc : Thread nD τ).loc main_arg5)) slices_S5x128_S1x128_3_0) shapeCasts_S1x128_S128) shapeCasts_S128_S1x128 :=
  win3_4_of (W10 m ρ c) _ (quiet_W10 m ρ quiet_arg5 c)

theorem entry3_5 (c : Dev nD) :
    Gen.V11 m ρ c (Pipeline.arrRef spec3 5)
      = shapeCast S128x128 (extractStridedSlice S1x128x128 ![3, 0, 0] (m ((c.tc : Thread nD τ).loc main_arg6)) slices_S5x128x128_S1x128x128_3_0_0) shapeCasts_S1x128x128_S128x128 :=
  win3_5_of (W10 m ρ c) _ (quiet_W10 m ρ quiet_arg6 c)

theorem entry3_6 (c : Dev nD) :
    Gen.V11 m ρ c (Pipeline.arrRef spec3 6)
      = shapeCast S1x128 (shapeCast S128 (extractStridedSlice S1x128 ![3, 0] (m ((c.tc : Thread nD τ).loc main_arg7)) slices_S5x128_S1x128_3_0) shapeCasts_S1x128_S128) shapeCasts_S128_S1x128 :=
  win3_6_of (W10 m ρ c) _ (quiet_W10 m ρ quiet_arg7 c)

theorem entry3_7 (c : Dev nD) :
    Gen.V11 m ρ c (Pipeline.arrRef spec3 7)
      = shapeCast S1x128 (shapeCast S128 (extractStridedSlice S1x128 ![3, 0] (m ((c.tc : Thread nD τ).loc main_arg8)) slices_S5x128_S1x128_3_0) shapeCasts_S1x128_S128) shapeCasts_S128_S1x128 :=
  win3_7_of (W10 m ρ c) _ (quiet_W10 m ρ quiet_arg8 c)

theorem entry3_8 (c : Dev nD) :
    Gen.V11 m ρ c (Pipeline.arrRef spec3 8)
      = shapeCast S1x128 (shapeCast S128 (extractStridedSlice S1x128 ![3, 0] (m ((c.tc : Thread nD τ).loc main_arg9)) slices_S5x128_S1x128_3_0) shapeCasts_S1x128_S128) shapeCasts_S128_S1x128 :=
  win3_8_of (W10 m ρ c) _ (quiet_W10 m ρ quiet_arg9 c)

theorem entry3_9 (c : Dev nD) :
    Gen.V11 m ρ c (Pipeline.arrRef spec3 9)
      = shapeCast S1x128 (shapeCast S128 (extractStridedSlice S1x128 ![3, 0] (m ((c.tc : Thread nD τ).loc main_arg10)) slices_S5x128_S1x128_3_0) shapeCasts_S1x128_S128) shapeCasts_S128_S1x128 :=
  win3_9_of (W10 m ρ c) _ (quiet_W10 m ρ quiet_arg10 c)

theorem entry3_10 (c : Dev nD) :
    Gen.V11 m ρ c (Pipeline.arrRef spec3 10)
      = shapeCast S1x128 (shapeCast S128 (extractStridedSlice S1x128 ![3, 0] (m ((c.tc : Thread nD τ).loc main_arg11)) slices_S5x128_S1x128_3_0) shapeCasts_S1x128_S128) shapeCasts_S128_S1x128 :=
  win3_10_of (W10 m ρ c) _ (quiet_W10 m ρ quiet_arg11 c)

end Cert.KernelIdeal.ValRun

end
-- ==== Proof.Region3.lean ====
/-
  Region 3 of the kernel program (the layer's pallas_call), at any contents `V` of the TensorCore's buffers when
  the region is entered: what the pipeline leaves in its output array. The grid has ten points; point t stages rows
  5000·t … 5000·t + 4999 of the neighbours' sums and of the nodes' features, and every small operand whole; the body
  computes one layer (`Cert.Gin.layer`) of those blocks and stores it as rows 5000·t … of the output. A row of the
  layer depends on the same row of its two big operands only, so each point writes its rows of the layer of the
  WHOLE arrays, and the ten blocks tile the 50000 rows: the output array ends holding the layer of the entry arrays.
-/
import proofs.«177667_j37366215475921_1_alg».proof.Proof.Gen.KernelIdeal.Frame
import proofs.«177667_j37366215475921_1_alg».proof.Proof.Layer
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen Cert.Gin

variable (V : (c : Dev nD) → (b : Ref sig .tc) → Buf (Elt Ideal) ((c : Thread nD τ).loc b))

theorem hz : (![0, 0] : Fin 2 → Nat) = fun _ => 0 := funext fun a => by fin_cases a <;> rfl

/-- The body's arithmetic is one layer of the blocks it loads. -/
theorem pay_eq (x0 x1 : Vec Ideal S5000x128 .f32) (x2 : Vec Ideal S1x1 .f32) (x3 : Vec Ideal S128x128 .f32)
    (x4 : Vec Ideal S1x128 .f32) (x5 : Vec Ideal S128x128 .f32) (x6 x7 x8 x9 x10 : Vec Ideal S1x128 .f32) :
    k3_pay1 (k3_pay2 x1 x0 x2 x3 x4 x5 x6) (k3_pay3 x7) (k3_pay4 x8) x9 x10
      = layer (r := 5000) (n := 128) x0 x1 (x2 (ix2 0 0)) x3 x4 x5 x6 x7 x8 x9 x10 := by
  unfold k3_pay1 k3_pay2 k3_pay3 k3_pay4
  simp only [shapeCast_self]
  exact body_layer_core dot_S5000x128_S128x128_S5000x128_1_0_0_1_n_n rfl rfl rfl rfl rfl rfl x0 x1 x2 x3 x4 x5 x6 x7 x8 x9 x10
    _ _ _

/-- The layer of the arrays the region finds. -/
abbrev G (c : Dev nD) : S50000x128.Idx → Elt Ideal .f32 :=
  layer (r := 50000) (n := 128) (V c main_v93 : S50000x128.Idx → Elt Ideal .f32) (V c main_v89 : S50000x128.Idx → Elt Ideal .f32)
    ((V c main_v112 : S1x1.Idx → Elt Ideal .f32) (ix2 0 0)) (V c main_v97 : S128x128.Idx → Elt Ideal .f32)
    (V c main_v113 : S1x128.Idx → Elt Ideal .f32) (V c main_v101 : S128x128.Idx → Elt Ideal .f32)
    (V c main_v114 : S1x128.Idx → Elt Ideal .f32) (V c main_v115 : S1x128.Idx → Elt Ideal .f32)
    (V c main_v116 : S1x128.Idx → Elt Ideal .f32) (V c main_v117 : S1x128.Idx → Elt Ideal .f32)
    (V c main_v118 : S1x128.Idx → Elt Ideal .f32)

/-- The printed index maps over the grid: the two big inputs and the output move down the rows with the point, every
    small operand stays at block (0, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_11.index t (0 : Fin 2) = t.val ∧ win3_11.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = 0 ∧ win3_9.index t (1 : Fin 2) = 0
    ∧ win3_10.index t (0 : Fin 2) = 0 ∧ win3_10.index t (1 : Fin 2) = 0 :=
  (by decide +kernel : ∀ t : Fin grid3.N, _)

theorem N_eq : cfg3.N = 10 := N_3

/-- The sums' block at point t is rows 5000·t … of the sums. -/
theorem rows0 (c : Dev nD) (t : Fin cfg3.N) (x : S5000x128.Idx) (k : S50000x128.Idx)
    (hk0 : (k 0).val = 5000 * t.val + (x 0).val) (hk1 : (k 1).val = (x 1).val) :
    (iblk3 V c 0 t : Vec Ideal S5000x128 .f32) x = (V c main_v93 : S50000x128.Idx → Elt Ideal .f32) k := by
  obtain ⟨a0, a1, h0, h1, o0, o1, s2a, s2b, s3a, s3b, s4a, s4b, s5a, s5b, s6a, s6b, s7a, s7b, s8a, s8b, s9a, s9b, s10a, s10b⟩ := idx_facts t
  unfold iblk3
  rw [View.read_apply]
  show V c main_v93 _ = V c main_v93 _
  congr 1
  funext a
  apply Fin.ext
  match a with
  | ⟨0, _⟩ => show win3_0.index t 0 * 5000 + 1 * (x 0).val = (k 0).val; rw [a0, hk0]; omega
  | ⟨1, _⟩ => show win3_0.index t 1 * 128 + 1 * (x 1).val = (k 1).val; rw [a1, hk1]; omega

/-- The features' block at point t is rows 5000·t … of the features. -/
theorem rows1 (c : Dev nD) (t : Fin cfg3.N) (x : S5000x128.Idx) (k : S50000x128.Idx)
    (hk0 : (k 0).val = 5000 * t.val + (x 0).val) (hk1 : (k 1).val = (x 1).val) :
    (iblk3 V c 1 t : Vec Ideal S5000x128 .f32) x = (V c main_v89 : S50000x128.Idx → Elt Ideal .f32) k := by
  obtain ⟨a0, a1, h0, h1, o0, o1, s2a, s2b, s3a, s3b, s4a, s4b, s5a, s5b, s6a, s6b, s7a, s7b, s8a, s8b, s9a, s9b, s10a, s10b⟩ := idx_facts t
  unfold iblk3
  rw [View.read_apply]
  show V c main_v89 _ = V c main_v89 _
  congr 1
  funext a
  apply Fin.ext
  match a with
  | ⟨0, _⟩ => show win3_1.index t 0 * 5000 + 1 * (x 0).val = (k 0).val; rw [h0, hk0]; omega
  | ⟨1, _⟩ => show win3_1.index t 1 * 128 + 1 * (x 1).val = (k 1).val; rw [h1, hk1]; omega

/-- Window 2 stages its whole array at every point. -/
theorem whole2 (c : Dev nD) (t : Fin cfg3.N) :
    (iblk3 V c 2 t : Vec Ideal S1x1 .f32) = (V c main_v112 : S1x1.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk3
  rw [View.read_apply]
  show V c main_v112 _ = V c main_v112 x
  congr 1
  funext a
  apply Fin.ext
  match a with
  | ⟨0, _⟩ => show win3_2.index t 0 * 1 + 1 * (x 0).val = (x 0).val; rw [s2a]; omega
  | ⟨1, _⟩ => show win3_2.index t 1 * 1 + 1 * (x 1).val = (x 1).val; rw [s2b]; omega

/-- Window 3 stages its whole array at every point. -/
theorem whole3 (c : Dev nD) (t : Fin cfg3.N) :
    (iblk3 V c 3 t : Vec Ideal S128x128 .f32) = (V c main_v97 : S128x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk3
  rw [View.read_apply]
  show V c main_v97 _ = V c main_v97 x
  congr 1
  funext a
  apply Fin.ext
  match a with
  | ⟨0, _⟩ => show win3_3.index t 0 * 128 + 1 * (x 0).val = (x 0).val; rw [s3a]; omega
  | ⟨1, _⟩ => show win3_3.index t 1 * 128 + 1 * (x 1).val = (x 1).val; rw [s3b]; omega

/-- Window 4 stages its whole array at every point. -/
theorem whole4 (c : Dev nD) (t : Fin cfg3.N) :
    (iblk3 V c 4 t : Vec Ideal S1x128 .f32) = (V c main_v113 : S1x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk3
  rw [View.read_apply]
  show V c main_v113 _ = V c main_v113 x
  congr 1
  funext a
  apply Fin.ext
  match a with
  | ⟨0, _⟩ => show win3_4.index t 0 * 1 + 1 * (x 0).val = (x 0).val; rw [s4a]; omega
  | ⟨1, _⟩ => show win3_4.index t 1 * 128 + 1 * (x 1).val = (x 1).val; rw [s4b]; omega

/-- Window 5 stages its whole array at every point. -/
theorem whole5 (c : Dev nD) (t : Fin cfg3.N) :
    (iblk3 V c 5 t : Vec Ideal S128x128 .f32) = (V c main_v101 : S128x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk3
  rw [View.read_apply]
  show V c main_v101 _ = V c main_v101 x
  congr 1
  funext a
  apply Fin.ext
  match a with
  | ⟨0, _⟩ => show win3_5.index t 0 * 128 + 1 * (x 0).val = (x 0).val; rw [s5a]; omega
  | ⟨1, _⟩ => show win3_5.index t 1 * 128 + 1 * (x 1).val = (x 1).val; rw [s5b]; omega

/-- Window 6 stages its whole array at every point. -/
theorem whole6 (c : Dev nD) (t : Fin cfg3.N) :
    (iblk3 V c 6 t : Vec Ideal S1x128 .f32) = (V c main_v114 : S1x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk3
  rw [View.read_apply]
  show V c main_v114 _ = V c main_v114 x
  congr 1
  funext a
  apply Fin.ext
  match a with
  | ⟨0, _⟩ => show win3_6.index t 0 * 1 + 1 * (x 0).val = (x 0).val; rw [s6a]; omega
  | ⟨1, _⟩ => show win3_6.index t 1 * 128 + 1 * (x 1).val = (x 1).val; rw [s6b]; omega

/-- Window 7 stages its whole array at every point. -/
theorem whole7 (c : Dev nD) (t : Fin cfg3.N) :
    (iblk3 V c 7 t : Vec Ideal S1x128 .f32) = (V c main_v115 : S1x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk3
  rw [View.read_apply]
  show V c main_v115 _ = V c main_v115 x
  congr 1
  funext a
  apply Fin.ext
  match a with
  | ⟨0, _⟩ => show win3_7.index t 0 * 1 + 1 * (x 0).val = (x 0).val; rw [s7a]; omega
  | ⟨1, _⟩ => show win3_7.index t 1 * 128 + 1 * (x 1).val = (x 1).val; rw [s7b]; omega

/-- Window 8 stages its whole array at every point. -/
theorem whole8 (c : Dev nD) (t : Fin cfg3.N) :
    (iblk3 V c 8 t : Vec Ideal S1x128 .f32) = (V c main_v116 : S1x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk3
  rw [View.read_apply]
  show V c main_v116 _ = V c main_v116 x
  congr 1
  funext a
  apply Fin.ext
  match a with
  | ⟨0, _⟩ => show win3_8.index t 0 * 1 + 1 * (x 0).val = (x 0).val; rw [s8a]; omega
  | ⟨1, _⟩ => show win3_8.index t 1 * 128 + 1 * (x 1).val = (x 1).val; rw [s8b]; omega

/-- Window 9 stages its whole array at every point. -/
theorem whole9 (c : Dev nD) (t : Fin cfg3.N) :
    (iblk3 V c 9 t : Vec Ideal S1x128 .f32) = (V c main_v117 : S1x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk3
  rw [View.read_apply]
  show V c main_v117 _ = V c main_v117 x
  congr 1
  funext a
  apply Fin.ext
  match a with
  | ⟨0, _⟩ => show win3_9.index t 0 * 1 + 1 * (x 0).val = (x 0).val; rw [s9a]; omega
  | ⟨1, _⟩ => show win3_9.index t 1 * 128 + 1 * (x 1).val = (x 1).val; rw [s9b]; omega

/-- Window 10 stages its whole array at every point. -/
theorem whole10 (c : Dev nD) (t : Fin cfg3.N) :
    (iblk3 V c 10 t : Vec Ideal S1x128 .f32) = (V c main_v118 : S1x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk3
  rw [View.read_apply]
  show V c main_v118 _ = V c main_v118 x
  congr 1
  funext a
  apply Fin.ext
  match a with
  | ⟨0, _⟩ => show win3_10.index t 0 * 1 + 1 * (x 0).val = (x 0).val; rw [s10a]; omega
  | ⟨1, _⟩ => show win3_10.index t 1 * 128 + 1 * (x 1).val = (x 1).val; rw [s10b]; omega

theorem row_lt (t : Fin cfg3.N) (y : Fin 5000) : 5000 * t.val + y.val < 50000 := by
  have h := t.isLt
  have hN := N_eq
  have := y.isLt
  omega

/-- WHAT POINT t WRITES BACK is block t of the layer of the whole entry arrays. -/
theorem flushed_eq (c : Dev nD) (t : Fin cfg3.N) :
    (dat3 V c).flushed 11 t = ((cfg3.win 11).blk t).view.read (Elt Ideal) (G V c) := by
  show (cfg3.win 11).cut (grid3.coords t) ((dat3 V c).after 11 t) = _
  rw [after3_11]
  unfold out3_11
  rw [View.canon_unit_zero hz]
  simp only [View.ld_unit_zero (S := S5000x128) hz, View.ld_unit_zero (S := S1x1) hz,
    View.ld_unit_zero (S := S128x128) hz, View.ld_unit_zero (S := S1x128) hz]
  rw [pay_eq, whole2 V c t, whole3 V c t, whole4 V c t, whole5 V c t, whole6 V c t, whole7 V c t, whole8 V c t, whole9 V c t, whole10 V c t]
  obtain ⟨a0, a1, h0, h1, o0, o1, s2a, s2b, s3a, s3b, s4a, s4b, s5a, s5b, s6a, s6b, s7a, s7b, s8a, s8b, s9a, s9b, s10a, s10b⟩ := idx_facts t
  funext j
  obtain ⟨y, q, rfl⟩ : ∃ (y : Fin 5000) (q : Fin 128), j = ix2 y q := ⟨j 0, j 1, eq_ix2 j⟩
  have hk : ((cfg3.win 11).blk t).view.emb (ix2 y q)
      = (ix2 (⟨5000 * t.val + y.val, row_lt t y⟩ : Fin 50000) q : S50000x128.Idx) := by
    funext a
    apply Fin.ext
    match a with
    | ⟨0, _⟩ => show win3_11.index t 0 * 5000 + 1 * y.val = 5000 * t.val + y.val; rw [o0]; omega
    | ⟨1, _⟩ => show win3_11.index t 1 * 128 + 1 * q.val = q.val; rw [o1]; omega
  rw [View.read_apply, hk]
  exact layer_rows _ _ _ _ _ _ _ _ _ _ _ _ _ y ⟨5000 * t.val + y.val, row_lt t y⟩
    (fun c' => rows0 V c t (ix2 y c') (ix2 ⟨5000 * t.val + y.val, row_lt t y⟩ c') rfl rfl)
    (fun c' => rows1 V c t (ix2 y c') (ix2 ⟨5000 * t.val + y.val, row_lt t y⟩ c') rfl rfl) q

/-- An index of the output array is in point t's block iff each coordinate is in the block's range on its axis. -/
theorem mem_blk (t : Fin cfg3.N) (i : S50000x128.Idx) :
    i ∈ ((cfg3.win 11).blk t).view.set ↔ ∀ a : Fin 2, win3_11.index t a * S5000x128.size a ≤ (i a).val
      ∧ (i a).val < win3_11.index t a * S5000x128.size a + S5000x128.size a := by
  show i ∈ ((View.whole main_v119).slice (win3_11.rect t)).set ↔ _
  rw [View.set_slice_whole, Rect.mem_set_unit]
  exact Iff.rfl

/-- Row p of the output is written by point p / 5000. -/
theorem cover (i : S50000x128.Idx) :
    ∃ t : Fin cfg3.N, (cfg3.win 11).flush t = true ∧ i ∈ ((cfg3.win 11).blk t).view.set := by
  have hi0 : (i 0).val < 50000 := (i 0).isLt
  have hi1 : (i 1).val < 128 := (i 1).isLt
  have ht : (i 0).val / 5000 < cfg3.N := by rw [N_eq]; omega
  obtain ⟨a0, a1, h0, h1, o0, o1, s2a, s2b, s3a, s3b, s4a, s4b, s5a, s5b, s6a, s6b, s7a, s7b, s8a, s8b, s9a, s9b, s10a, s10b⟩ := idx_facts ⟨(i 0).val / 5000, ht⟩
  refine ⟨⟨(i 0).val / 5000, ht⟩, flush3_11 _, ?_⟩
  rw [mem_blk]
  intro a
  match a with
  | ⟨0, _⟩ =>
    show win3_11.index ⟨(i 0).val / 5000, ht⟩ 0 * 5000 ≤ (i 0).val
      ∧ (i 0).val < win3_11.index ⟨(i 0).val / 5000, ht⟩ 0 * 5000 + 5000
    rw [o0]
    show (i 0).val / 5000 * 5000 ≤ (i 0).val ∧ (i 0).val < (i 0).val / 5000 * 5000 + 5000
    omega
  | ⟨1, _⟩ =>
    show win3_11.index ⟨(i 0).val / 5000, ht⟩ 1 * 128 ≤ (i 1).val
      ∧ (i 1).val < win3_11.index ⟨(i 0).val / 5000, ht⟩ 1 * 128 + 128
    rw [o1]
    omega

/-- THE OUTPUT ARRAY after the region: the layer of the arrays the region found. -/
theorem final (c : Dev nD) : (dat3 V c).arrAt 11 cfg3.N = G V c :=
  (dat3 V c).arrAt_eq_of_cover 11 (G V c) (fun t _ => flushed_eq V c t) cover

end Cert.KernelIdeal.Region3

end
-- ==== Proof.KerReads2.lean ====
import proofs.«177667_j37366215475921_1_alg».proof.Proof.KerHost

set_option maxRecDepth 16384

noncomputable section

namespace Cert.KernelIdeal.ValRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # Region 2's input arrays when it is entered

Two stretches of host operations run before region 2: the third take (a gather of the rows of the previous layer's
output at the source indices), and then the pooling of the gathered rows by destination together with the
slices of the stacked parameters at layer 2. Each is first read as a function of the contents it starts from, whatever
they are; then the contents are those of the fold, where the arguments are as launched and the previous region's
output is what its write-backs left. -/

section Stretches
variable (V' : Valuation τ sig (Elt F))

/-- The take's result, from any contents: the two buffers it reads are read at their values' types, and the result is
    written at the result buffer's type. -/
theorem take2_typed (x : (⟨S50000x128, .f32⟩ : BufTy).Contents (Elt F)) (i : (⟨S800000, .i32⟩ : BufTy).Contents (Elt F))
    (hx : (StableHlo.TRef.of main_v59 : StableHlo.TRef sig ⟨S50000x128, .f32⟩).ofBuf (V' (Proc.devRef .tc main_v59)) = x)
    (hi : (StableHlo.TRef.of main_arg1 : StableHlo.TRef sig ⟨S800000, .i32⟩).ofBuf (V' (Proc.devRef .tc main_arg1)) = i) :
    StableHlo.after hostOps2 V' (Proc.devRef .tc main_v60)
      = (StableHlo.TRef.of main_v60 : StableHlo.TRef sig ⟨S800000x128, .f32⟩).toBuf (takeOut x i) := by
  subst hx hi
  after_results_simp
  simp only [ofBuf_toBuf]
  rfl

/-- The same with the three changes of type removed: each is the identity, the buffer's type being the value's. -/
theorem take2_of (x : (⟨S50000x128, .f32⟩ : BufTy).Contents (Elt F)) (i : (⟨S800000, .i32⟩ : BufTy).Contents (Elt F))
    (hx : V' (Proc.devRef .tc main_v59) = x) (hi : V' (Proc.devRef .tc main_arg1) = i) :
    StableHlo.after hostOps2 V' (Proc.devRef .tc main_v60) = takeOut x i :=
  (take2_typed V' x i ((cast_eq _ _).trans hx) ((cast_eq _ _).trans hi)).trans (cast_eq _ _)

/-- The pooled rows, from any contents in which the take's result is already there. -/
theorem pool2_of (x : (⟨S50000x128, .f32⟩ : BufTy).Contents (Elt F)) (i d : (⟨S800000, .i32⟩ : BufTy).Contents (Elt F))
    (hu : V' (Proc.devRef .tc main_v60) = takeOut x i) (hd : V' (Proc.devRef .tc main_arg2) = d) :
    StableHlo.after hostOps2_1 V' (Proc.devRef .tc main_v63) = poolOut x i d := by
  subst hd
  unfold poolOut
  rw [← hu]
  after_results

/-- Window 2's array: the layer's slice of argument 3, reshaped. -/
theorem win2_2_of (a : (⟨S5, .f32⟩ : BufTy).Contents (Elt F)) (ha : V' (Proc.devRef .tc main_arg3) = a) :
    StableHlo.after hostOps2_1 V' (Proc.devRef .tc main_v82) = shapeCast S1x1 (shapeCast S_ (extractStridedSlice S1 ![2] a slices_S5_S1_2) shapeCasts_S1_S_) shapeCasts_S_S1x1 := by
  subst ha
  after_results
  rfl

/-- Window 3's array: the layer's slice of argument 4, reshaped. -/
theorem win2_3_of (a : (⟨S5x128x128, .f32⟩ : BufTy).Contents (Elt F)) (ha : V' (Proc.devRef .tc main_arg4) = a) :
    StableHlo.after hostOps2_1 V' (Proc.devRef .tc main_v67) = shapeCast S128x128 (extractStridedSlice S1x128x128 ![2, 0, 0] a slices_S5x128x128_S1x128x128_2_0_0) shapeCasts_S1x128x128_S128x128 := by
  subst ha
  after_results
  rfl

/-- Window 4's array: the layer's slice of argument 5, reshaped. -/
theorem win2_4_of (a : (⟨S5x128, .f32⟩ : BufTy).Contents (Elt F)) (ha : V' (Proc.devRef .tc main_arg5) = a) :
    StableHlo.after hostOps2_1 V' (Proc.devRef .tc main_v83) = shapeCast S1x128 (shapeCast S128 (extractStridedSlice S1x128 ![2, 0] a slices_S5x128_S1x128_2_0) shapeCasts_S1x128_S128) shapeCasts_S128_S1x128 := by
  subst ha
  after_results
  rfl

/-- Window 5's array: the layer's slice of argument 6, reshaped. -/
theorem win2_5_of (a : (⟨S5x128x128, .f32⟩ : BufTy).Contents (Elt F)) (ha : V' (Proc.devRef .tc main_arg6) = a) :
    StableHlo.after hostOps2_1 V' (Proc.devRef .tc main_v71) = shapeCast S128x128 (extractStridedSlice S1x128x128 ![2, 0, 0] a slices_S5x128x128_S1x128x128_2_0_0) shapeCasts_S1x128x128_S128x128 := by
  subst ha
  after_results
  rfl

/-- Window 6's array: the layer's slice of argument 7, reshaped. -/
theorem win2_6_of (a : (⟨S5x128, .f32⟩ : BufTy).Contents (Elt F)) (ha : V' (Proc.devRef .tc main_arg7) = a) :
    StableHlo.after hostOps2_1 V' (Proc.devRef .tc main_v84) = shapeCast S1x128 (shapeCast S128 (extractStridedSlice S1x128 ![2, 0] a slices_S5x128_S1x128_2_0) shapeCasts_S1x128_S128) shapeCasts_S128_S1x128 := by
  subst ha
  after_results
  rfl

/-- Window 7's array: the layer's slice of argument 8, reshaped. -/
theorem win2_7_of (a : (⟨S5x128, .f32⟩ : BufTy).Contents (Elt F)) (ha : V' (Proc.devRef .tc main_arg8) = a) :
    StableHlo.after hostOps2_1 V' (Proc.devRef .tc main_v85) = shapeCast S1x128 (shapeCast S128 (extractStridedSlice S1x128 ![2, 0] a slices_S5x128_S1x128_2_0) shapeCasts_S1x128_S128) shapeCasts_S128_S1x128 := by
  subst ha
  after_results
  rfl

/-- Window 8's array: the layer's slice of argument 9, reshaped. -/
theorem win2_8_of (a : (⟨S5x128, .f32⟩ : BufTy).Contents (Elt F)) (ha : V' (Proc.devRef .tc main_arg9) = a) :
    StableHlo.after hostOps2_1 V' (Proc.devRef .tc main_v86) = shapeCast S1x128 (shapeCast S128 (extractStridedSlice S1x128 ![2, 0] a slices_S5x128_S1x128_2_0) shapeCasts_S1x128_S128) shapeCasts_S128_S1x128 := by
  subst ha
  after_results
  rfl

/-- Window 9's array: the layer's slice of argument 10, reshaped. -/
theorem win2_9_of (a : (⟨S5x128, .f32⟩ : BufTy).Contents (Elt F)) (ha : V' (Proc.devRef .tc main_arg10) = a) :
    StableHlo.after hostOps2_1 V' (Proc.devRef .tc main_v87) = shapeCast S1x128 (shapeCast S128 (extractStridedSlice S1x128 ![2, 0] a slices_S5x128_S1x128_2_0) shapeCasts_S1x128_S128) shapeCasts_S128_S1x128 := by
  subst ha
  after_results
  rfl

/-- Window 10's array: the layer's slice of argument 11, reshaped. -/
theorem win2_10_of (a : (⟨S5x128, .f32⟩ : BufTy).Contents (Elt F)) (ha : V' (Proc.devRef .tc main_arg11) = a) :
    StableHlo.after hostOps2_1 V' (Proc.devRef .tc main_v88) = shapeCast S1x128 (shapeCast S128 (extractStridedSlice S1x128 ![2, 0] a slices_S5x128_S1x128_2_0) shapeCasts_S1x128_S128) shapeCasts_S128_S1x128 := by
  subst ha
  after_results
  rfl

end Stretches

/-! ## At the fold's contents -/

/-- The take's result when the second stretch starts. -/
theorem take2_W (c : Dev nD) :
    W7 m ρ c (Proc.devRef .tc main_v60) = takeOut ((Gen.dat1 (Gen.V5 m ρ) c).arrAt 11 cfg1.N) (m ((c.tc : Thread nD τ).loc main_arg1)) :=
  take2_of (W6 m ρ c) _ _ (out1_W6 m ρ c) (quiet_W6 m ρ quiet_arg1 c)

/-- Window 0: the gathered rows pooled by destination. -/
theorem entry2_0 (c : Dev nD) :
    Gen.V8 m ρ c (Pipeline.arrRef spec2 0)
      = poolOut ((Gen.dat1 (Gen.V5 m ρ) c).arrAt 11 cfg1.N) (m ((c.tc : Thread nD τ).loc main_arg1)) (m ((c.tc : Thread nD τ).loc main_arg2)) :=
  pool2_of (W7 m ρ c) _ _ _ (take2_W m ρ c) (quiet_W7 m ρ quiet_arg2 c)

/-- Window 1: the previous layer's output, untouched by the two stretches. -/
theorem entry2_1 (c : Dev nD) :
    Gen.V8 m ρ c (Pipeline.arrRef spec2 1) = ((Gen.dat1 (Gen.V5 m ρ) c).arrAt 11 cfg1.N) :=
  out1_W8 m ρ c

theorem entry2_2 (c : Dev nD) :
    Gen.V8 m ρ c (Pipeline.arrRef spec2 2)
      = shapeCast S1x1 (shapeCast S_ (extractStridedSlice S1 ![2] (m ((c.tc : Thread nD τ).loc main_arg3)) slices_S5_S1_2) shapeCasts_S1_S_) shapeCasts_S_S1x1 :=
  win2_2_of (W7 m ρ c) _ (quiet_W7 m ρ quiet_arg3 c)

theorem entry2_3 (c : Dev nD) :
    Gen.V8 m ρ c (Pipeline.arrRef spec2 3)
      = shapeCast S128x128 (extractStridedSlice S1x128x128 ![2, 0, 0] (m ((c.tc : Thread nD τ).loc main_arg4)) slices_S5x128x128_S1x128x128_2_0_0) shapeCasts_S1x128x128_S128x128 :=
  win2_3_of (W7 m ρ c) _ (quiet_W7 m ρ quiet_arg4 c)

theorem entry2_4 (c : Dev nD) :
    Gen.V8 m ρ c (Pipeline.arrRef spec2 4)
      = shapeCast S1x128 (shapeCast S128 (extractStridedSlice S1x128 ![2, 0] (m ((c.tc : Thread nD τ).loc main_arg5)) slices_S5x128_S1x128_2_0) shapeCasts_S1x128_S128) shapeCasts_S128_S1x128 :=
  win2_4_of (W7 m ρ c) _ (quiet_W7 m ρ quiet_arg5 c)

theorem entry2_5 (c : Dev nD) :
    Gen.V8 m ρ c (Pipeline.arrRef spec2 5)
      = shapeCast S128x128 (extractStridedSlice S1x128x128 ![2, 0, 0] (m ((c.tc : Thread nD τ).loc main_arg6)) slices_S5x128x128_S1x128x128_2_0_0) shapeCasts_S1x128x128_S128x128 :=
  win2_5_of (W7 m ρ c) _ (quiet_W7 m ρ quiet_arg6 c)

theorem entry2_6 (c : Dev nD) :
    Gen.V8 m ρ c (Pipeline.arrRef spec2 6)
      = shapeCast S1x128 (shapeCast S128 (extractStridedSlice S1x128 ![2, 0] (m ((c.tc : Thread nD τ).loc main_arg7)) slices_S5x128_S1x128_2_0) shapeCasts_S1x128_S128) shapeCasts_S128_S1x128 :=
  win2_6_of (W7 m ρ c) _ (quiet_W7 m ρ quiet_arg7 c)

theorem entry2_7 (c : Dev nD) :
    Gen.V8 m ρ c (Pipeline.arrRef spec2 7)
      = shapeCast S1x128 (shapeCast S128 (extractStridedSlice S1x128 ![2, 0] (m ((c.tc : Thread nD τ).loc main_arg8)) slices_S5x128_S1x128_2_0) shapeCasts_S1x128_S128) shapeCasts_S128_S1x128 :=
  win2_7_of (W7 m ρ c) _ (quiet_W7 m ρ quiet_arg8 c)

theorem entry2_8 (c : Dev nD) :
    Gen.V8 m ρ c (Pipeline.arrRef spec2 8)
      = shapeCast S1x128 (shapeCast S128 (extractStridedSlice S1x128 ![2, 0] (m ((c.tc : Thread nD τ).loc main_arg9)) slices_S5x128_S1x128_2_0) shapeCasts_S1x128_S128) shapeCasts_S128_S1x128 :=
  win2_8_of (W7 m ρ c) _ (quiet_W7 m ρ quiet_arg9 c)

theorem entry2_9 (c : Dev nD) :
    Gen.V8 m ρ c (Pipeline.arrRef spec2 9)
      = shapeCast S1x128 (shapeCast S128 (extractStridedSlice S1x128 ![2, 0] (m ((c.tc : Thread nD τ).loc main_arg10)) slices_S5x128_S1x128_2_0) shapeCasts_S1x128_S128) shapeCasts_S128_S1x128 :=
  win2_9_of (W7 m ρ c) _ (quiet_W7 m ρ quiet_arg10 c)

theorem entry2_10 (c : Dev nD) :
    Gen.V8 m ρ c (Pipeline.arrRef spec2 10)
      = shapeCast S1x128 (shapeCast S128 (extractStridedSlice S1x128 ![2, 0] (m ((c.tc : Thread nD τ).loc main_arg11)) slices_S5x128_S1x128_2_0) shapeCasts_S1x128_S128) shapeCasts_S128_S1x128 :=
  win2_10_of (W7 m ρ c) _ (quiet_W7 m ρ quiet_arg11 c)

end Cert.KernelIdeal.ValRun

end
-- ==== Proof.Region2.lean ====
/-
  Region 2 of the kernel program (the layer's pallas_call), at any contents `V` of the TensorCore's buffers when
  the region is entered: what the pipeline leaves in its output array. The grid has ten points; point t stages rows
  5000·t … 5000·t + 4999 of the neighbours' sums and of the nodes' features, and every small operand whole; the body
  computes one layer (`Cert.Gin.layer`) of those blocks and stores it as rows 5000·t … of the output. A row of the
  layer depends on the same row of its two big operands only, so each point writes its rows of the layer of the
  WHOLE arrays, and the ten blocks tile the 50000 rows: the output array ends holding the layer of the entry arrays.
-/
import proofs.«177667_j37366215475921_1_alg».proof.Proof.Gen.KernelIdeal.Frame
import proofs.«177667_j37366215475921_1_alg».proof.Proof.Layer
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.Gin

variable (V : (c : Dev nD) → (b : Ref sig .tc) → Buf (Elt Ideal) ((c : Thread nD τ).loc b))

theorem hz : (![0, 0] : Fin 2 → Nat) = fun _ => 0 := funext fun a => by fin_cases a <;> rfl

/-- The body's arithmetic is one layer of the blocks it loads. -/
theorem pay_eq (x0 x1 : Vec Ideal S5000x128 .f32) (x2 : Vec Ideal S1x1 .f32) (x3 : Vec Ideal S128x128 .f32)
    (x4 : Vec Ideal S1x128 .f32) (x5 : Vec Ideal S128x128 .f32) (x6 x7 x8 x9 x10 : Vec Ideal S1x128 .f32) :
    k2_pay1 (k2_pay2 x1 x0 x2 x3 x4 x5 x6) (k2_pay3 x7) (k2_pay4 x8) x9 x10
      = layer (r := 5000) (n := 128) x0 x1 (x2 (ix2 0 0)) x3 x4 x5 x6 x7 x8 x9 x10 := by
  unfold k2_pay1 k2_pay2 k2_pay3 k2_pay4
  simp only [shapeCast_self]
  exact body_layer_core dot_S5000x128_S128x128_S5000x128_1_0_0_1_n_n rfl rfl rfl rfl rfl rfl x0 x1 x2 x3 x4 x5 x6 x7 x8 x9 x10
    _ _ _

/-- The layer of the arrays the region finds. -/
abbrev G (c : Dev nD) : S50000x128.Idx → Elt Ideal .f32 :=
  layer (r := 50000) (n := 128) (V c main_v63 : S50000x128.Idx → Elt Ideal .f32) (V c main_v59 : S50000x128.Idx → Elt Ideal .f32)
    ((V c main_v82 : S1x1.Idx → Elt Ideal .f32) (ix2 0 0)) (V c main_v67 : S128x128.Idx → Elt Ideal .f32)
    (V c main_v83 : S1x128.Idx → Elt Ideal .f32) (V c main_v71 : S128x128.Idx → Elt Ideal .f32)
    (V c main_v84 : S1x128.Idx → Elt Ideal .f32) (V c main_v85 : S1x128.Idx → Elt Ideal .f32)
    (V c main_v86 : S1x128.Idx → Elt Ideal .f32) (V c main_v87 : S1x128.Idx → Elt Ideal .f32)
    (V c main_v88 : S1x128.Idx → Elt Ideal .f32)

/-- The printed index maps over the grid: the two big inputs and the output move down the rows with the point, every
    small operand stays at block (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_11.index t (0 : Fin 2) = t.val ∧ win2_11.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0 :=
  (by decide +kernel : ∀ t : Fin grid2.N, _)

theorem N_eq : cfg2.N = 10 := N_2

/-- The sums' block at point t is rows 5000·t … of the sums. -/
theorem rows0 (c : Dev nD) (t : Fin cfg2.N) (x : S5000x128.Idx) (k : S50000x128.Idx)
    (hk0 : (k 0).val = 5000 * t.val + (x 0).val) (hk1 : (k 1).val = (x 1).val) :
    (iblk2 V c 0 t : Vec Ideal S5000x128 .f32) x = (V c main_v63 : S50000x128.Idx → Elt Ideal .f32) k := by
  obtain ⟨a0, a1, h0, h1, o0, o1, s2a, s2b, s3a, s3b, s4a, s4b, s5a, s5b, s6a, s6b, s7a, s7b, s8a, s8b, s9a, s9b, s10a, s10b⟩ := idx_facts t
  unfold iblk2
  rw [View.read_apply]
  show V c main_v63 _ = V c main_v63 _
  congr 1
  funext a
  apply Fin.ext
  match a with
  | ⟨0, _⟩ => show win2_0.index t 0 * 5000 + 1 * (x 0).val = (k 0).val; rw [a0, hk0]; omega
  | ⟨1, _⟩ => show win2_0.index t 1 * 128 + 1 * (x 1).val = (k 1).val; rw [a1, hk1]; omega

/-- The features' block at point t is rows 5000·t … of the features. -/
theorem rows1 (c : Dev nD) (t : Fin cfg2.N) (x : S5000x128.Idx) (k : S50000x128.Idx)
    (hk0 : (k 0).val = 5000 * t.val + (x 0).val) (hk1 : (k 1).val = (x 1).val) :
    (iblk2 V c 1 t : Vec Ideal S5000x128 .f32) x = (V c main_v59 : S50000x128.Idx → Elt Ideal .f32) k := by
  obtain ⟨a0, a1, h0, h1, o0, o1, s2a, s2b, s3a, s3b, s4a, s4b, s5a, s5b, s6a, s6b, s7a, s7b, s8a, s8b, s9a, s9b, s10a, s10b⟩ := idx_facts t
  unfold iblk2
  rw [View.read_apply]
  show V c main_v59 _ = V c main_v59 _
  congr 1
  funext a
  apply Fin.ext
  match a with
  | ⟨0, _⟩ => show win2_1.index t 0 * 5000 + 1 * (x 0).val = (k 0).val; rw [h0, hk0]; omega
  | ⟨1, _⟩ => show win2_1.index t 1 * 128 + 1 * (x 1).val = (k 1).val; rw [h1, hk1]; omega

/-- Window 2 stages its whole array at every point. -/
theorem whole2 (c : Dev nD) (t : Fin cfg2.N) :
    (iblk2 V c 2 t : Vec Ideal S1x1 .f32) = (V c main_v82 : S1x1.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk2
  rw [View.read_apply]
  show V c main_v82 _ = V c main_v82 x
  congr 1
  funext a
  apply Fin.ext
  match a with
  | ⟨0, _⟩ => show win2_2.index t 0 * 1 + 1 * (x 0).val = (x 0).val; rw [s2a]; omega
  | ⟨1, _⟩ => show win2_2.index t 1 * 1 + 1 * (x 1).val = (x 1).val; rw [s2b]; omega

/-- Window 3 stages its whole array at every point. -/
theorem whole3 (c : Dev nD) (t : Fin cfg2.N) :
    (iblk2 V c 3 t : Vec Ideal S128x128 .f32) = (V c main_v67 : S128x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk2
  rw [View.read_apply]
  show V c main_v67 _ = V c main_v67 x
  congr 1
  funext a
  apply Fin.ext
  match a with
  | ⟨0, _⟩ => show win2_3.index t 0 * 128 + 1 * (x 0).val = (x 0).val; rw [s3a]; omega
  | ⟨1, _⟩ => show win2_3.index t 1 * 128 + 1 * (x 1).val = (x 1).val; rw [s3b]; omega

/-- Window 4 stages its whole array at every point. -/
theorem whole4 (c : Dev nD) (t : Fin cfg2.N) :
    (iblk2 V c 4 t : Vec Ideal S1x128 .f32) = (V c main_v83 : S1x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk2
  rw [View.read_apply]
  show V c main_v83 _ = V c main_v83 x
  congr 1
  funext a
  apply Fin.ext
  match a with
  | ⟨0, _⟩ => show win2_4.index t 0 * 1 + 1 * (x 0).val = (x 0).val; rw [s4a]; omega
  | ⟨1, _⟩ => show win2_4.index t 1 * 128 + 1 * (x 1).val = (x 1).val; rw [s4b]; omega

/-- Window 5 stages its whole array at every point. -/
theorem whole5 (c : Dev nD) (t : Fin cfg2.N) :
    (iblk2 V c 5 t : Vec Ideal S128x128 .f32) = (V c main_v71 : S128x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk2
  rw [View.read_apply]
  show V c main_v71 _ = V c main_v71 x
  congr 1
  funext a
  apply Fin.ext
  match a with
  | ⟨0, _⟩ => show win2_5.index t 0 * 128 + 1 * (x 0).val = (x 0).val; rw [s5a]; omega
  | ⟨1, _⟩ => show win2_5.index t 1 * 128 + 1 * (x 1).val = (x 1).val; rw [s5b]; omega

/-- Window 6 stages its whole array at every point. -/
theorem whole6 (c : Dev nD) (t : Fin cfg2.N) :
    (iblk2 V c 6 t : Vec Ideal S1x128 .f32) = (V c main_v84 : S1x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk2
  rw [View.read_apply]
  show V c main_v84 _ = V c main_v84 x
  congr 1
  funext a
  apply Fin.ext
  match a with
  | ⟨0, _⟩ => show win2_6.index t 0 * 1 + 1 * (x 0).val = (x 0).val; rw [s6a]; omega
  | ⟨1, _⟩ => show win2_6.index t 1 * 128 + 1 * (x 1).val = (x 1).val; rw [s6b]; omega

/-- Window 7 stages its whole array at every point. -/
theorem whole7 (c : Dev nD) (t : Fin cfg2.N) :
    (iblk2 V c 7 t : Vec Ideal S1x128 .f32) = (V c main_v85 : S1x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk2
  rw [View.read_apply]
  show V c main_v85 _ = V c main_v85 x
  congr 1
  funext a
  apply Fin.ext
  match a with
  | ⟨0, _⟩ => show win2_7.index t 0 * 1 + 1 * (x 0).val = (x 0).val; rw [s7a]; omega
  | ⟨1, _⟩ => show win2_7.index t 1 * 128 + 1 * (x 1).val = (x 1).val; rw [s7b]; omega

/-- Window 8 stages its whole array at every point. -/
theorem whole8 (c : Dev nD) (t : Fin cfg2.N) :
    (iblk2 V c 8 t : Vec Ideal S1x128 .f32) = (V c main_v86 : S1x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk2
  rw [View.read_apply]
  show V c main_v86 _ = V c main_v86 x
  congr 1
  funext a
  apply Fin.ext
  match a with
  | ⟨0, _⟩ => show win2_8.index t 0 * 1 + 1 * (x 0).val = (x 0).val; rw [s8a]; omega
  | ⟨1, _⟩ => show win2_8.index t 1 * 128 + 1 * (x 1).val = (x 1).val; rw [s8b]; omega

/-- Window 9 stages its whole array at every point. -/
theorem whole9 (c : Dev nD) (t : Fin cfg2.N) :
    (iblk2 V c 9 t : Vec Ideal S1x128 .f32) = (V c main_v87 : S1x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk2
  rw [View.read_apply]
  show V c main_v87 _ = V c main_v87 x
  congr 1
  funext a
  apply Fin.ext
  match a with
  | ⟨0, _⟩ => show win2_9.index t 0 * 1 + 1 * (x 0).val = (x 0).val; rw [s9a]; omega
  | ⟨1, _⟩ => show win2_9.index t 1 * 128 + 1 * (x 1).val = (x 1).val; rw [s9b]; omega

/-- Window 10 stages its whole array at every point. -/
theorem whole10 (c : Dev nD) (t : Fin cfg2.N) :
    (iblk2 V c 10 t : Vec Ideal S1x128 .f32) = (V c main_v88 : S1x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk2
  rw [View.read_apply]
  show V c main_v88 _ = V c main_v88 x
  congr 1
  funext a
  apply Fin.ext
  match a with
  | ⟨0, _⟩ => show win2_10.index t 0 * 1 + 1 * (x 0).val = (x 0).val; rw [s10a]; omega
  | ⟨1, _⟩ => show win2_10.index t 1 * 128 + 1 * (x 1).val = (x 1).val; rw [s10b]; omega

theorem row_lt (t : Fin cfg2.N) (y : Fin 5000) : 5000 * t.val + y.val < 50000 := by
  have h := t.isLt
  have hN := N_eq
  have := y.isLt
  omega

/-- WHAT POINT t WRITES BACK is block t of the layer of the whole entry arrays. -/
theorem flushed_eq (c : Dev nD) (t : Fin cfg2.N) :
    (dat2 V c).flushed 11 t = ((cfg2.win 11).blk t).view.read (Elt Ideal) (G V c) := by
  show (cfg2.win 11).cut (grid2.coords t) ((dat2 V c).after 11 t) = _
  rw [after2_11]
  unfold out2_11
  rw [View.canon_unit_zero hz]
  simp only [View.ld_unit_zero (S := S5000x128) hz, View.ld_unit_zero (S := S1x1) hz,
    View.ld_unit_zero (S := S128x128) hz, View.ld_unit_zero (S := S1x128) hz]
  rw [pay_eq, whole2 V c t, whole3 V c t, whole4 V c t, whole5 V c t, whole6 V c t, whole7 V c t, whole8 V c t, whole9 V c t, whole10 V c t]
  obtain ⟨a0, a1, h0, h1, o0, o1, s2a, s2b, s3a, s3b, s4a, s4b, s5a, s5b, s6a, s6b, s7a, s7b, s8a, s8b, s9a, s9b, s10a, s10b⟩ := idx_facts t
  funext j
  obtain ⟨y, q, rfl⟩ : ∃ (y : Fin 5000) (q : Fin 128), j = ix2 y q := ⟨j 0, j 1, eq_ix2 j⟩
  have hk : ((cfg2.win 11).blk t).view.emb (ix2 y q)
      = (ix2 (⟨5000 * t.val + y.val, row_lt t y⟩ : Fin 50000) q : S50000x128.Idx) := by
    funext a
    apply Fin.ext
    match a with
    | ⟨0, _⟩ => show win2_11.index t 0 * 5000 + 1 * y.val = 5000 * t.val + y.val; rw [o0]; omega
    | ⟨1, _⟩ => show win2_11.index t 1 * 128 + 1 * q.val = q.val; rw [o1]; omega
  rw [View.read_apply, hk]
  exact layer_rows _ _ _ _ _ _ _ _ _ _ _ _ _ y ⟨5000 * t.val + y.val, row_lt t y⟩
    (fun c' => rows0 V c t (ix2 y c') (ix2 ⟨5000 * t.val + y.val, row_lt t y⟩ c') rfl rfl)
    (fun c' => rows1 V c t (ix2 y c') (ix2 ⟨5000 * t.val + y.val, row_lt t y⟩ c') rfl rfl) q

/-- An index of the output array is in point t's block iff each coordinate is in the block's range on its axis. -/
theorem mem_blk (t : Fin cfg2.N) (i : S50000x128.Idx) :
    i ∈ ((cfg2.win 11).blk t).view.set ↔ ∀ a : Fin 2, win2_11.index t a * S5000x128.size a ≤ (i a).val
      ∧ (i a).val < win2_11.index t a * S5000x128.size a + S5000x128.size a := by
  show i ∈ ((View.whole main_v89).slice (win2_11.rect t)).set ↔ _
  rw [View.set_slice_whole, Rect.mem_set_unit]
  exact Iff.rfl

/-- Row p of the output is written by point p / 5000. -/
theorem cover (i : S50000x128.Idx) :
    ∃ t : Fin cfg2.N, (cfg2.win 11).flush t = true ∧ i ∈ ((cfg2.win 11).blk t).view.set := by
  have hi0 : (i 0).val < 50000 := (i 0).isLt
  have hi1 : (i 1).val < 128 := (i 1).isLt
  have ht : (i 0).val / 5000 < cfg2.N := by rw [N_eq]; omega
  obtain ⟨a0, a1, h0, h1, o0, o1, s2a, s2b, s3a, s3b, s4a, s4b, s5a, s5b, s6a, s6b, s7a, s7b, s8a, s8b, s9a, s9b, s10a, s10b⟩ := idx_facts ⟨(i 0).val / 5000, ht⟩
  refine ⟨⟨(i 0).val / 5000, ht⟩, flush2_11 _, ?_⟩
  rw [mem_blk]
  intro a
  match a with
  | ⟨0, _⟩ =>
    show win2_11.index ⟨(i 0).val / 5000, ht⟩ 0 * 5000 ≤ (i 0).val
      ∧ (i 0).val < win2_11.index ⟨(i 0).val / 5000, ht⟩ 0 * 5000 + 5000
    rw [o0]
    show (i 0).val / 5000 * 5000 ≤ (i 0).val ∧ (i 0).val < (i 0).val / 5000 * 5000 + 5000
    omega
  | ⟨1, _⟩ =>
    show win2_11.index ⟨(i 0).val / 5000, ht⟩ 1 * 128 ≤ (i 1).val
      ∧ (i 1).val < win2_11.index ⟨(i 0).val / 5000, ht⟩ 1 * 128 + 128
    rw [o1]
    omega

/-- THE OUTPUT ARRAY after the region: the layer of the arrays the region found. -/
theorem final (c : Dev nD) : (dat2 V c).arrAt 11 cfg2.N = G V c :=
  (dat2 V c).arrAt_eq_of_cover 11 (G V c) (fun t _ => flushed_eq V c t) cover

end Cert.KernelIdeal.Region2

end
-- ==== Proof.KerReads1.lean ====
import proofs.«177667_j37366215475921_1_alg».proof.Proof.KerHost

set_option maxRecDepth 16384

noncomputable section

namespace Cert.KernelIdeal.ValRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # Region 1's input arrays when it is entered

Two stretches of host operations run before region 1: the second take (a gather of the rows of the previous layer's
output at the source indices), and then the pooling of the gathered rows by destination together with the
slices of the stacked parameters at layer 1. Each is first read as a function of the contents it starts from, whatever
they are; then the contents are those of the fold, where the arguments are as launched and the previous region's
output is what its write-backs left. -/

section Stretches
variable (V' : Valuation τ sig (Elt F))

/-- The take's result, from any contents: the two buffers it reads are read at their values' types, and the result is
    written at the result buffer's type. -/
theorem take1_typed (x : (⟨S50000x128, .f32⟩ : BufTy).Contents (Elt F)) (i : (⟨S800000, .i32⟩ : BufTy).Contents (Elt F))
    (hx : (StableHlo.TRef.of main_v29 : StableHlo.TRef sig ⟨S50000x128, .f32⟩).ofBuf (V' (Proc.devRef .tc main_v29)) = x)
    (hi : (StableHlo.TRef.of main_arg1 : StableHlo.TRef sig ⟨S800000, .i32⟩).ofBuf (V' (Proc.devRef .tc main_arg1)) = i) :
    StableHlo.after hostOps1 V' (Proc.devRef .tc main_v30)
      = (StableHlo.TRef.of main_v30 : StableHlo.TRef sig ⟨S800000x128, .f32⟩).toBuf (takeOut x i) := by
  subst hx hi
  after_results_simp
  simp only [ofBuf_toBuf]
  rfl

/-- The same with the three changes of type removed: each is the identity, the buffer's type being the value's. -/
theorem take1_of (x : (⟨S50000x128, .f32⟩ : BufTy).Contents (Elt F)) (i : (⟨S800000, .i32⟩ : BufTy).Contents (Elt F))
    (hx : V' (Proc.devRef .tc main_v29) = x) (hi : V' (Proc.devRef .tc main_arg1) = i) :
    StableHlo.after hostOps1 V' (Proc.devRef .tc main_v30) = takeOut x i :=
  (take1_typed V' x i ((cast_eq _ _).trans hx) ((cast_eq _ _).trans hi)).trans (cast_eq _ _)

/-- The pooled rows, from any contents in which the take's result is already there. -/
theorem pool1_of (x : (⟨S50000x128, .f32⟩ : BufTy).Contents (Elt F)) (i d : (⟨S800000, .i32⟩ : BufTy).Contents (Elt F))
    (hu : V' (Proc.devRef .tc main_v30) = takeOut x i) (hd : V' (Proc.devRef .tc main_arg2) = d) :
    StableHlo.after hostOps1_1 V' (Proc.devRef .tc main_v33) = poolOut x i d := by
  subst hd
  unfold poolOut
  rw [← hu]
  after_results

/-- Window 2's array: the layer's slice of argument 3, reshaped. -/
theorem win1_2_of (a : (⟨S5, .f32⟩ : BufTy).Contents (Elt F)) (ha : V' (Proc.devRef .tc main_arg3) = a) :
    StableHlo.after hostOps1_1 V' (Proc.devRef .tc main_v52) = shapeCast S1x1 (shapeCast S_ (extractStridedSlice S1 ![1] a slices_S5_S1_1) shapeCasts_S1_S_) shapeCasts_S_S1x1 := by
  subst ha
  after_results
  rfl

/-- Window 3's array: the layer's slice of argument 4, reshaped. -/
theorem win1_3_of (a : (⟨S5x128x128, .f32⟩ : BufTy).Contents (Elt F)) (ha : V' (Proc.devRef .tc main_arg4) = a) :
    StableHlo.after hostOps1_1 V' (Proc.devRef .tc main_v37) = shapeCast S128x128 (extractStridedSlice S1x128x128 ![1, 0, 0] a slices_S5x128x128_S1x128x128_1_0_0) shapeCasts_S1x128x128_S128x128 := by
  subst ha
  after_results
  rfl

/-- Window 4's array: the layer's slice of argument 5, reshaped. -/
theorem win1_4_of (a : (⟨S5x128, .f32⟩ : BufTy).Contents (Elt F)) (ha : V' (Proc.devRef .tc main_arg5) = a) :
    StableHlo.after hostOps1_1 V' (Proc.devRef .tc main_v53) = shapeCast S1x128 (shapeCast S128 (extractStridedSlice S1x128 ![1, 0] a slices_S5x128_S1x128_1_0) shapeCasts_S1x128_S128) shapeCasts_S128_S1x128 := by
  subst ha
  after_results
  rfl

/-- Window 5's array: the layer's slice of argument 6, reshaped. -/
theorem win1_5_of (a : (⟨S5x128x128, .f32⟩ : BufTy).Contents (Elt F)) (ha : V' (Proc.devRef .tc main_arg6) = a) :
    StableHlo.after hostOps1_1 V' (Proc.devRef .tc main_v41) = shapeCast S128x128 (extractStridedSlice S1x128x128 ![1, 0, 0] a slices_S5x128x128_S1x128x128_1_0_0) shapeCasts_S1x128x128_S128x128 := by
  subst ha
  after_results
  rfl

/-- Window 6's array: the layer's slice of argument 7, reshaped. -/
theorem win1_6_of (a : (⟨S5x128, .f32⟩ : BufTy).Contents (Elt F)) (ha : V' (Proc.devRef .tc main_arg7) = a) :
    StableHlo.after hostOps1_1 V' (Proc.devRef .tc main_v54) = shapeCast S1x128 (shapeCast S128 (extractStridedSlice S1x128 ![1, 0] a slices_S5x128_S1x128_1_0) shapeCasts_S1x128_S128) shapeCasts_S128_S1x128 := by
  subst ha
  after_results
  rfl

/-- Window 7's array: the layer's slice of argument 8, reshaped. -/
theorem win1_7_of (a : (⟨S5x128, .f32⟩ : BufTy).Contents (Elt F)) (ha : V' (Proc.devRef .tc main_arg8) = a) :
    StableHlo.after hostOps1_1 V' (Proc.devRef .tc main_v55) = shapeCast S1x128 (shapeCast S128 (extractStridedSlice S1x128 ![1, 0] a slices_S5x128_S1x128_1_0) shapeCasts_S1x128_S128) shapeCasts_S128_S1x128 := by
  subst ha
  after_results
  rfl

/-- Window 8's array: the layer's slice of argument 9, reshaped. -/
theorem win1_8_of (a : (⟨S5x128, .f32⟩ : BufTy).Contents (Elt F)) (ha : V' (Proc.devRef .tc main_arg9) = a) :
    StableHlo.after hostOps1_1 V' (Proc.devRef .tc main_v56) = shapeCast S1x128 (shapeCast S128 (extractStridedSlice S1x128 ![1, 0] a slices_S5x128_S1x128_1_0) shapeCasts_S1x128_S128) shapeCasts_S128_S1x128 := by
  subst ha
  after_results
  rfl

/-- Window 9's array: the layer's slice of argument 10, reshaped. -/
theorem win1_9_of (a : (⟨S5x128, .f32⟩ : BufTy).Contents (Elt F)) (ha : V' (Proc.devRef .tc main_arg10) = a) :
    StableHlo.after hostOps1_1 V' (Proc.devRef .tc main_v57) = shapeCast S1x128 (shapeCast S128 (extractStridedSlice S1x128 ![1, 0] a slices_S5x128_S1x128_1_0) shapeCasts_S1x128_S128) shapeCasts_S128_S1x128 := by
  subst ha
  after_results
  rfl

/-- Window 10's array: the layer's slice of argument 11, reshaped. -/
theorem win1_10_of (a : (⟨S5x128, .f32⟩ : BufTy).Contents (Elt F)) (ha : V' (Proc.devRef .tc main_arg11) = a) :
    StableHlo.after hostOps1_1 V' (Proc.devRef .tc main_v58) = shapeCast S1x128 (shapeCast S128 (extractStridedSlice S1x128 ![1, 0] a slices_S5x128_S1x128_1_0) shapeCasts_S1x128_S128) shapeCasts_S128_S1x128 := by
  subst ha
  after_results
  rfl

end Stretches

/-! ## At the fold's contents -/

/-- The take's result when the second stretch starts. -/
theorem take1_W (c : Dev nD) :
    W4 m ρ c (Proc.devRef .tc main_v30) = takeOut ((Gen.dat0 (Gen.V2 m ρ) c).arrAt 11 cfg0.N) (m ((c.tc : Thread nD τ).loc main_arg1)) :=
  take1_of (W3 m ρ c) _ _ (out0_W3 m ρ c) (quiet_W3 m ρ quiet_arg1 c)

/-- Window 0: the gathered rows pooled by destination. -/
theorem entry1_0 (c : Dev nD) :
    Gen.V5 m ρ c (Pipeline.arrRef spec1 0)
      = poolOut ((Gen.dat0 (Gen.V2 m ρ) c).arrAt 11 cfg0.N) (m ((c.tc : Thread nD τ).loc main_arg1)) (m ((c.tc : Thread nD τ).loc main_arg2)) :=
  pool1_of (W4 m ρ c) _ _ _ (take1_W m ρ c) (quiet_W4 m ρ quiet_arg2 c)

/-- Window 1: the previous layer's output, untouched by the two stretches. -/
theorem entry1_1 (c : Dev nD) :
    Gen.V5 m ρ c (Pipeline.arrRef spec1 1) = ((Gen.dat0 (Gen.V2 m ρ) c).arrAt 11 cfg0.N) :=
  out0_W5 m ρ c

theorem entry1_2 (c : Dev nD) :
    Gen.V5 m ρ c (Pipeline.arrRef spec1 2)
      = shapeCast S1x1 (shapeCast S_ (extractStridedSlice S1 ![1] (m ((c.tc : Thread nD τ).loc main_arg3)) slices_S5_S1_1) shapeCasts_S1_S_) shapeCasts_S_S1x1 :=
  win1_2_of (W4 m ρ c) _ (quiet_W4 m ρ quiet_arg3 c)

theorem entry1_3 (c : Dev nD) :
    Gen.V5 m ρ c (Pipeline.arrRef spec1 3)
      = shapeCast S128x128 (extractStridedSlice S1x128x128 ![1, 0, 0] (m ((c.tc : Thread nD τ).loc main_arg4)) slices_S5x128x128_S1x128x128_1_0_0) shapeCasts_S1x128x128_S128x128 :=
  win1_3_of (W4 m ρ c) _ (quiet_W4 m ρ quiet_arg4 c)

theorem entry1_4 (c : Dev nD) :
    Gen.V5 m ρ c (Pipeline.arrRef spec1 4)
      = shapeCast S1x128 (shapeCast S128 (extractStridedSlice S1x128 ![1, 0] (m ((c.tc : Thread nD τ).loc main_arg5)) slices_S5x128_S1x128_1_0) shapeCasts_S1x128_S128) shapeCasts_S128_S1x128 :=
  win1_4_of (W4 m ρ c) _ (quiet_W4 m ρ quiet_arg5 c)

theorem entry1_5 (c : Dev nD) :
    Gen.V5 m ρ c (Pipeline.arrRef spec1 5)
      = shapeCast S128x128 (extractStridedSlice S1x128x128 ![1, 0, 0] (m ((c.tc : Thread nD τ).loc main_arg6)) slices_S5x128x128_S1x128x128_1_0_0) shapeCasts_S1x128x128_S128x128 :=
  win1_5_of (W4 m ρ c) _ (quiet_W4 m ρ quiet_arg6 c)

theorem entry1_6 (c : Dev nD) :
    Gen.V5 m ρ c (Pipeline.arrRef spec1 6)
      = shapeCast S1x128 (shapeCast S128 (extractStridedSlice S1x128 ![1, 0] (m ((c.tc : Thread nD τ).loc main_arg7)) slices_S5x128_S1x128_1_0) shapeCasts_S1x128_S128) shapeCasts_S128_S1x128 :=
  win1_6_of (W4 m ρ c) _ (quiet_W4 m ρ quiet_arg7 c)

theorem entry1_7 (c : Dev nD) :
    Gen.V5 m ρ c (Pipeline.arrRef spec1 7)
      = shapeCast S1x128 (shapeCast S128 (extractStridedSlice S1x128 ![1, 0] (m ((c.tc : Thread nD τ).loc main_arg8)) slices_S5x128_S1x128_1_0) shapeCasts_S1x128_S128) shapeCasts_S128_S1x128 :=
  win1_7_of (W4 m ρ c) _ (quiet_W4 m ρ quiet_arg8 c)

theorem entry1_8 (c : Dev nD) :
    Gen.V5 m ρ c (Pipeline.arrRef spec1 8)
      = shapeCast S1x128 (shapeCast S128 (extractStridedSlice S1x128 ![1, 0] (m ((c.tc : Thread nD τ).loc main_arg9)) slices_S5x128_S1x128_1_0) shapeCasts_S1x128_S128) shapeCasts_S128_S1x128 :=
  win1_8_of (W4 m ρ c) _ (quiet_W4 m ρ quiet_arg9 c)

theorem entry1_9 (c : Dev nD) :
    Gen.V5 m ρ c (Pipeline.arrRef spec1 9)
      = shapeCast S1x128 (shapeCast S128 (extractStridedSlice S1x128 ![1, 0] (m ((c.tc : Thread nD τ).loc main_arg10)) slices_S5x128_S1x128_1_0) shapeCasts_S1x128_S128) shapeCasts_S128_S1x128 :=
  win1_9_of (W4 m ρ c) _ (quiet_W4 m ρ quiet_arg10 c)

theorem entry1_10 (c : Dev nD) :
    Gen.V5 m ρ c (Pipeline.arrRef spec1 10)
      = shapeCast S1x128 (shapeCast S128 (extractStridedSlice S1x128 ![1, 0] (m ((c.tc : Thread nD τ).loc main_arg11)) slices_S5x128_S1x128_1_0) shapeCasts_S1x128_S128) shapeCasts_S128_S1x128 :=
  win1_10_of (W4 m ρ c) _ (quiet_W4 m ρ quiet_arg11 c)

end Cert.KernelIdeal.ValRun

end
-- ==== Proof.Region1.lean ====
/-
  Region 1 of the kernel program (the layer's pallas_call), at any contents `V` of the TensorCore's buffers when
  the region is entered: what the pipeline leaves in its output array. The grid has ten points; point t stages rows
  5000·t … 5000·t + 4999 of the neighbours' sums and of the nodes' features, and every small operand whole; the body
  computes one layer (`Cert.Gin.layer`) of those blocks and stores it as rows 5000·t … of the output. A row of the
  layer depends on the same row of its two big operands only, so each point writes its rows of the layer of the
  WHOLE arrays, and the ten blocks tile the 50000 rows: the output array ends holding the layer of the entry arrays.
-/
import proofs.«177667_j37366215475921_1_alg».proof.Proof.Gen.KernelIdeal.Frame
import proofs.«177667_j37366215475921_1_alg».proof.Proof.Layer
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.Gin

variable (V : (c : Dev nD) → (b : Ref sig .tc) → Buf (Elt Ideal) ((c : Thread nD τ).loc b))

theorem hz : (![0, 0] : Fin 2 → Nat) = fun _ => 0 := funext fun a => by fin_cases a <;> rfl

/-- The body's arithmetic is one layer of the blocks it loads. -/
theorem pay_eq (x0 x1 : Vec Ideal S5000x128 .f32) (x2 : Vec Ideal S1x1 .f32) (x3 : Vec Ideal S128x128 .f32)
    (x4 : Vec Ideal S1x128 .f32) (x5 : Vec Ideal S128x128 .f32) (x6 x7 x8 x9 x10 : Vec Ideal S1x128 .f32) :
    k1_pay1 (k1_pay2 x1 x0 x2 x3 x4 x5 x6) (k1_pay3 x7) (k1_pay4 x8) x9 x10
      = layer (r := 5000) (n := 128) x0 x1 (x2 (ix2 0 0)) x3 x4 x5 x6 x7 x8 x9 x10 := by
  unfold k1_pay1 k1_pay2 k1_pay3 k1_pay4
  simp only [shapeCast_self]
  exact body_layer_core dot_S5000x128_S128x128_S5000x128_1_0_0_1_n_n rfl rfl rfl rfl rfl rfl x0 x1 x2 x3 x4 x5 x6 x7 x8 x9 x10
    _ _ _

/-- The layer of the arrays the region finds. -/
abbrev G (c : Dev nD) : S50000x128.Idx → Elt Ideal .f32 :=
  layer (r := 50000) (n := 128) (V c main_v33 : S50000x128.Idx → Elt Ideal .f32) (V c main_v29 : S50000x128.Idx → Elt Ideal .f32)
    ((V c main_v52 : S1x1.Idx → Elt Ideal .f32) (ix2 0 0)) (V c main_v37 : S128x128.Idx → Elt Ideal .f32)
    (V c main_v53 : S1x128.Idx → Elt Ideal .f32) (V c main_v41 : S128x128.Idx → Elt Ideal .f32)
    (V c main_v54 : S1x128.Idx → Elt Ideal .f32) (V c main_v55 : S1x128.Idx → Elt Ideal .f32)
    (V c main_v56 : S1x128.Idx → Elt Ideal .f32) (V c main_v57 : S1x128.Idx → Elt Ideal .f32)
    (V c main_v58 : S1x128.Idx → Elt Ideal .f32)

/-- The printed index maps over the grid: the two big inputs and the output move down the rows with the point, every
    small operand stays at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_11.index t (0 : Fin 2) = t.val ∧ win1_11.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0 :=
  (by decide +kernel : ∀ t : Fin grid1.N, _)

theorem N_eq : cfg1.N = 10 := N_1

/-- The sums' block at point t is rows 5000·t … of the sums. -/
theorem rows0 (c : Dev nD) (t : Fin cfg1.N) (x : S5000x128.Idx) (k : S50000x128.Idx)
    (hk0 : (k 0).val = 5000 * t.val + (x 0).val) (hk1 : (k 1).val = (x 1).val) :
    (iblk1 V c 0 t : Vec Ideal S5000x128 .f32) x = (V c main_v33 : S50000x128.Idx → Elt Ideal .f32) k := by
  obtain ⟨a0, a1, h0, h1, o0, o1, s2a, s2b, s3a, s3b, s4a, s4b, s5a, s5b, s6a, s6b, s7a, s7b, s8a, s8b, s9a, s9b, s10a, s10b⟩ := idx_facts t
  unfold iblk1
  rw [View.read_apply]
  show V c main_v33 _ = V c main_v33 _
  congr 1
  funext a
  apply Fin.ext
  match a with
  | ⟨0, _⟩ => show win1_0.index t 0 * 5000 + 1 * (x 0).val = (k 0).val; rw [a0, hk0]; omega
  | ⟨1, _⟩ => show win1_0.index t 1 * 128 + 1 * (x 1).val = (k 1).val; rw [a1, hk1]; omega

/-- The features' block at point t is rows 5000·t … of the features. -/
theorem rows1 (c : Dev nD) (t : Fin cfg1.N) (x : S5000x128.Idx) (k : S50000x128.Idx)
    (hk0 : (k 0).val = 5000 * t.val + (x 0).val) (hk1 : (k 1).val = (x 1).val) :
    (iblk1 V c 1 t : Vec Ideal S5000x128 .f32) x = (V c main_v29 : S50000x128.Idx → Elt Ideal .f32) k := by
  obtain ⟨a0, a1, h0, h1, o0, o1, s2a, s2b, s3a, s3b, s4a, s4b, s5a, s5b, s6a, s6b, s7a, s7b, s8a, s8b, s9a, s9b, s10a, s10b⟩ := idx_facts t
  unfold iblk1
  rw [View.read_apply]
  show V c main_v29 _ = V c main_v29 _
  congr 1
  funext a
  apply Fin.ext
  match a with
  | ⟨0, _⟩ => show win1_1.index t 0 * 5000 + 1 * (x 0).val = (k 0).val; rw [h0, hk0]; omega
  | ⟨1, _⟩ => show win1_1.index t 1 * 128 + 1 * (x 1).val = (k 1).val; rw [h1, hk1]; omega

/-- Window 2 stages its whole array at every point. -/
theorem whole2 (c : Dev nD) (t : Fin cfg1.N) :
    (iblk1 V c 2 t : Vec Ideal S1x1 .f32) = (V c main_v52 : S1x1.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk1
  rw [View.read_apply]
  show V c main_v52 _ = V c main_v52 x
  congr 1
  funext a
  apply Fin.ext
  match a with
  | ⟨0, _⟩ => show win1_2.index t 0 * 1 + 1 * (x 0).val = (x 0).val; rw [s2a]; omega
  | ⟨1, _⟩ => show win1_2.index t 1 * 1 + 1 * (x 1).val = (x 1).val; rw [s2b]; omega

/-- Window 3 stages its whole array at every point. -/
theorem whole3 (c : Dev nD) (t : Fin cfg1.N) :
    (iblk1 V c 3 t : Vec Ideal S128x128 .f32) = (V c main_v37 : S128x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk1
  rw [View.read_apply]
  show V c main_v37 _ = V c main_v37 x
  congr 1
  funext a
  apply Fin.ext
  match a with
  | ⟨0, _⟩ => show win1_3.index t 0 * 128 + 1 * (x 0).val = (x 0).val; rw [s3a]; omega
  | ⟨1, _⟩ => show win1_3.index t 1 * 128 + 1 * (x 1).val = (x 1).val; rw [s3b]; omega

/-- Window 4 stages its whole array at every point. -/
theorem whole4 (c : Dev nD) (t : Fin cfg1.N) :
    (iblk1 V c 4 t : Vec Ideal S1x128 .f32) = (V c main_v53 : S1x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk1
  rw [View.read_apply]
  show V c main_v53 _ = V c main_v53 x
  congr 1
  funext a
  apply Fin.ext
  match a with
  | ⟨0, _⟩ => show win1_4.index t 0 * 1 + 1 * (x 0).val = (x 0).val; rw [s4a]; omega
  | ⟨1, _⟩ => show win1_4.index t 1 * 128 + 1 * (x 1).val = (x 1).val; rw [s4b]; omega

/-- Window 5 stages its whole array at every point. -/
theorem whole5 (c : Dev nD) (t : Fin cfg1.N) :
    (iblk1 V c 5 t : Vec Ideal S128x128 .f32) = (V c main_v41 : S128x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk1
  rw [View.read_apply]
  show V c main_v41 _ = V c main_v41 x
  congr 1
  funext a
  apply Fin.ext
  match a with
  | ⟨0, _⟩ => show win1_5.index t 0 * 128 + 1 * (x 0).val = (x 0).val; rw [s5a]; omega
  | ⟨1, _⟩ => show win1_5.index t 1 * 128 + 1 * (x 1).val = (x 1).val; rw [s5b]; omega

/-- Window 6 stages its whole array at every point. -/
theorem whole6 (c : Dev nD) (t : Fin cfg1.N) :
    (iblk1 V c 6 t : Vec Ideal S1x128 .f32) = (V c main_v54 : S1x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk1
  rw [View.read_apply]
  show V c main_v54 _ = V c main_v54 x
  congr 1
  funext a
  apply Fin.ext
  match a with
  | ⟨0, _⟩ => show win1_6.index t 0 * 1 + 1 * (x 0).val = (x 0).val; rw [s6a]; omega
  | ⟨1, _⟩ => show win1_6.index t 1 * 128 + 1 * (x 1).val = (x 1).val; rw [s6b]; omega

/-- Window 7 stages its whole array at every point. -/
theorem whole7 (c : Dev nD) (t : Fin cfg1.N) :
    (iblk1 V c 7 t : Vec Ideal S1x128 .f32) = (V c main_v55 : S1x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk1
  rw [View.read_apply]
  show V c main_v55 _ = V c main_v55 x
  congr 1
  funext a
  apply Fin.ext
  match a with
  | ⟨0, _⟩ => show win1_7.index t 0 * 1 + 1 * (x 0).val = (x 0).val; rw [s7a]; omega
  | ⟨1, _⟩ => show win1_7.index t 1 * 128 + 1 * (x 1).val = (x 1).val; rw [s7b]; omega

/-- Window 8 stages its whole array at every point. -/
theorem whole8 (c : Dev nD) (t : Fin cfg1.N) :
    (iblk1 V c 8 t : Vec Ideal S1x128 .f32) = (V c main_v56 : S1x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk1
  rw [View.read_apply]
  show V c main_v56 _ = V c main_v56 x
  congr 1
  funext a
  apply Fin.ext
  match a with
  | ⟨0, _⟩ => show win1_8.index t 0 * 1 + 1 * (x 0).val = (x 0).val; rw [s8a]; omega
  | ⟨1, _⟩ => show win1_8.index t 1 * 128 + 1 * (x 1).val = (x 1).val; rw [s8b]; omega

/-- Window 9 stages its whole array at every point. -/
theorem whole9 (c : Dev nD) (t : Fin cfg1.N) :
    (iblk1 V c 9 t : Vec Ideal S1x128 .f32) = (V c main_v57 : S1x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk1
  rw [View.read_apply]
  show V c main_v57 _ = V c main_v57 x
  congr 1
  funext a
  apply Fin.ext
  match a with
  | ⟨0, _⟩ => show win1_9.index t 0 * 1 + 1 * (x 0).val = (x 0).val; rw [s9a]; omega
  | ⟨1, _⟩ => show win1_9.index t 1 * 128 + 1 * (x 1).val = (x 1).val; rw [s9b]; omega

/-- Window 10 stages its whole array at every point. -/
theorem whole10 (c : Dev nD) (t : Fin cfg1.N) :
    (iblk1 V c 10 t : Vec Ideal S1x128 .f32) = (V c main_v58 : S1x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk1
  rw [View.read_apply]
  show V c main_v58 _ = V c main_v58 x
  congr 1
  funext a
  apply Fin.ext
  match a with
  | ⟨0, _⟩ => show win1_10.index t 0 * 1 + 1 * (x 0).val = (x 0).val; rw [s10a]; omega
  | ⟨1, _⟩ => show win1_10.index t 1 * 128 + 1 * (x 1).val = (x 1).val; rw [s10b]; omega

theorem row_lt (t : Fin cfg1.N) (y : Fin 5000) : 5000 * t.val + y.val < 50000 := by
  have h := t.isLt
  have hN := N_eq
  have := y.isLt
  omega

/-- WHAT POINT t WRITES BACK is block t of the layer of the whole entry arrays. -/
theorem flushed_eq (c : Dev nD) (t : Fin cfg1.N) :
    (dat1 V c).flushed 11 t = ((cfg1.win 11).blk t).view.read (Elt Ideal) (G V c) := by
  show (cfg1.win 11).cut (grid1.coords t) ((dat1 V c).after 11 t) = _
  rw [after1_11]
  unfold out1_11
  rw [View.canon_unit_zero hz]
  simp only [View.ld_unit_zero (S := S5000x128) hz, View.ld_unit_zero (S := S1x1) hz,
    View.ld_unit_zero (S := S128x128) hz, View.ld_unit_zero (S := S1x128) hz]
  rw [pay_eq, whole2 V c t, whole3 V c t, whole4 V c t, whole5 V c t, whole6 V c t, whole7 V c t, whole8 V c t, whole9 V c t, whole10 V c t]
  obtain ⟨a0, a1, h0, h1, o0, o1, s2a, s2b, s3a, s3b, s4a, s4b, s5a, s5b, s6a, s6b, s7a, s7b, s8a, s8b, s9a, s9b, s10a, s10b⟩ := idx_facts t
  funext j
  obtain ⟨y, q, rfl⟩ : ∃ (y : Fin 5000) (q : Fin 128), j = ix2 y q := ⟨j 0, j 1, eq_ix2 j⟩
  have hk : ((cfg1.win 11).blk t).view.emb (ix2 y q)
      = (ix2 (⟨5000 * t.val + y.val, row_lt t y⟩ : Fin 50000) q : S50000x128.Idx) := by
    funext a
    apply Fin.ext
    match a with
    | ⟨0, _⟩ => show win1_11.index t 0 * 5000 + 1 * y.val = 5000 * t.val + y.val; rw [o0]; omega
    | ⟨1, _⟩ => show win1_11.index t 1 * 128 + 1 * q.val = q.val; rw [o1]; omega
  rw [View.read_apply, hk]
  exact layer_rows _ _ _ _ _ _ _ _ _ _ _ _ _ y ⟨5000 * t.val + y.val, row_lt t y⟩
    (fun c' => rows0 V c t (ix2 y c') (ix2 ⟨5000 * t.val + y.val, row_lt t y⟩ c') rfl rfl)
    (fun c' => rows1 V c t (ix2 y c') (ix2 ⟨5000 * t.val + y.val, row_lt t y⟩ c') rfl rfl) q

/-- An index of the output array is in point t's block iff each coordinate is in the block's range on its axis. -/
theorem mem_blk (t : Fin cfg1.N) (i : S50000x128.Idx) :
    i ∈ ((cfg1.win 11).blk t).view.set ↔ ∀ a : Fin 2, win1_11.index t a * S5000x128.size a ≤ (i a).val
      ∧ (i a).val < win1_11.index t a * S5000x128.size a + S5000x128.size a := by
  show i ∈ ((View.whole main_v59).slice (win1_11.rect t)).set ↔ _
  rw [View.set_slice_whole, Rect.mem_set_unit]
  exact Iff.rfl

/-- Row p of the output is written by point p / 5000. -/
theorem cover (i : S50000x128.Idx) :
    ∃ t : Fin cfg1.N, (cfg1.win 11).flush t = true ∧ i ∈ ((cfg1.win 11).blk t).view.set := by
  have hi0 : (i 0).val < 50000 := (i 0).isLt
  have hi1 : (i 1).val < 128 := (i 1).isLt
  have ht : (i 0).val / 5000 < cfg1.N := by rw [N_eq]; omega
  obtain ⟨a0, a1, h0, h1, o0, o1, s2a, s2b, s3a, s3b, s4a, s4b, s5a, s5b, s6a, s6b, s7a, s7b, s8a, s8b, s9a, s9b, s10a, s10b⟩ := idx_facts ⟨(i 0).val / 5000, ht⟩
  refine ⟨⟨(i 0).val / 5000, ht⟩, flush1_11 _, ?_⟩
  rw [mem_blk]
  intro a
  match a with
  | ⟨0, _⟩ =>
    show win1_11.index ⟨(i 0).val / 5000, ht⟩ 0 * 5000 ≤ (i 0).val
      ∧ (i 0).val < win1_11.index ⟨(i 0).val / 5000, ht⟩ 0 * 5000 + 5000
    rw [o0]
    show (i 0).val / 5000 * 5000 ≤ (i 0).val ∧ (i 0).val < (i 0).val / 5000 * 5000 + 5000
    omega
  | ⟨1, _⟩ =>
    show win1_11.index ⟨(i 0).val / 5000, ht⟩ 1 * 128 ≤ (i 1).val
      ∧ (i 1).val < win1_11.index ⟨(i 0).val / 5000, ht⟩ 1 * 128 + 128
    rw [o1]
    omega

/-- THE OUTPUT ARRAY after the region: the layer of the arrays the region found. -/
theorem final (c : Dev nD) : (dat1 V c).arrAt 11 cfg1.N = G V c :=
  (dat1 V c).arrAt_eq_of_cover 11 (G V c) (fun t _ => flushed_eq V c t) cover

end Cert.KernelIdeal.Region1

end
-- ==== Proof.KerReads0.lean ====
import proofs.«177667_j37366215475921_1_alg».proof.Proof.KerHost

set_option maxRecDepth 16384

noncomputable section

namespace Cert.KernelIdeal.ValRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # Region 0's input arrays when it is entered

Two stretches of host operations run before region 0: the first take (a gather of the rows of the previous layer's
output — here the first argument — at the source indices), and then the pooling of the gathered rows by destination together with the
slices of the stacked parameters at layer 0. Each is first read as a function of the contents it starts from, whatever
they are; then the contents are those of the fold, where the arguments are as launched. -/

section Stretches
variable (V' : Valuation τ sig (Elt F))

/-- The take's result, from any contents: the two buffers it reads are read at their values' types, and the result is
    written at the result buffer's type. -/
theorem take0_typed (x : (⟨S50000x128, .f32⟩ : BufTy).Contents (Elt F)) (i : (⟨S800000, .i32⟩ : BufTy).Contents (Elt F))
    (hx : (StableHlo.TRef.of main_arg0 : StableHlo.TRef sig ⟨S50000x128, .f32⟩).ofBuf (V' (Proc.devRef .tc main_arg0)) = x)
    (hi : (StableHlo.TRef.of main_arg1 : StableHlo.TRef sig ⟨S800000, .i32⟩).ofBuf (V' (Proc.devRef .tc main_arg1)) = i) :
    StableHlo.after hostOps0 V' (Proc.devRef .tc main_v0)
      = (StableHlo.TRef.of main_v0 : StableHlo.TRef sig ⟨S800000x128, .f32⟩).toBuf (takeOut x i) := by
  subst hx hi
  after_results_simp
  simp only [ofBuf_toBuf]
  rfl

/-- The same with the three changes of type removed: each is the identity, the buffer's type being the value's. -/
theorem take0_of (x : (⟨S50000x128, .f32⟩ : BufTy).Contents (Elt F)) (i : (⟨S800000, .i32⟩ : BufTy).Contents (Elt F))
    (hx : V' (Proc.devRef .tc main_arg0) = x) (hi : V' (Proc.devRef .tc main_arg1) = i) :
    StableHlo.after hostOps0 V' (Proc.devRef .tc main_v0) = takeOut x i :=
  (take0_typed V' x i ((cast_eq _ _).trans hx) ((cast_eq _ _).trans hi)).trans (cast_eq _ _)

/-- The pooled rows, from any contents in which the take's result is already there. -/
theorem pool0_of (x : (⟨S50000x128, .f32⟩ : BufTy).Contents (Elt F)) (i d : (⟨S800000, .i32⟩ : BufTy).Contents (Elt F))
    (hu : V' (Proc.devRef .tc main_v0) = takeOut x i) (hd : V' (Proc.devRef .tc main_arg2) = d) :
    StableHlo.after hostOps0_1 V' (Proc.devRef .tc main_v3) = poolOut x i d := by
  subst hd
  unfold poolOut
  rw [← hu]
  after_results

/-- Window 2's array: the layer's slice of argument 3, reshaped. -/
theorem win0_2_of (a : (⟨S5, .f32⟩ : BufTy).Contents (Elt F)) (ha : V' (Proc.devRef .tc main_arg3) = a) :
    StableHlo.after hostOps0_1 V' (Proc.devRef .tc main_v22) = shapeCast S1x1 (shapeCast S_ (extractStridedSlice S1 ![0] a slices_S5_S1_0) shapeCasts_S1_S_) shapeCasts_S_S1x1 := by
  subst ha
  after_results
  rfl

/-- Window 3's array: the layer's slice of argument 4, reshaped. -/
theorem win0_3_of (a : (⟨S5x128x128, .f32⟩ : BufTy).Contents (Elt F)) (ha : V' (Proc.devRef .tc main_arg4) = a) :
    StableHlo.after hostOps0_1 V' (Proc.devRef .tc main_v7) = shapeCast S128x128 (extractStridedSlice S1x128x128 ![0, 0, 0] a slices_S5x128x128_S1x128x128_0_0_0) shapeCasts_S1x128x128_S128x128 := by
  subst ha
  after_results
  rfl

/-- Window 4's array: the layer's slice of argument 5, reshaped. -/
theorem win0_4_of (a : (⟨S5x128, .f32⟩ : BufTy).Contents (Elt F)) (ha : V' (Proc.devRef .tc main_arg5) = a) :
    StableHlo.after hostOps0_1 V' (Proc.devRef .tc main_v23) = shapeCast S1x128 (shapeCast S128 (extractStridedSlice S1x128 ![0, 0] a slices_S5x128_S1x128_0_0) shapeCasts_S1x128_S128) shapeCasts_S128_S1x128 := by
  subst ha
  after_results
  rfl

/-- Window 5's array: the layer's slice of argument 6, reshaped. -/
theorem win0_5_of (a : (⟨S5x128x128, .f32⟩ : BufTy).Contents (Elt F)) (ha : V' (Proc.devRef .tc main_arg6) = a) :
    StableHlo.after hostOps0_1 V' (Proc.devRef .tc main_v11) = shapeCast S128x128 (extractStridedSlice S1x128x128 ![0, 0, 0] a slices_S5x128x128_S1x128x128_0_0_0) shapeCasts_S1x128x128_S128x128 := by
  subst ha
  after_results
  rfl

/-- Window 6's array: the layer's slice of argument 7, reshaped. -/
theorem win0_6_of (a : (⟨S5x128, .f32⟩ : BufTy).Contents (Elt F)) (ha : V' (Proc.devRef .tc main_arg7) = a) :
    StableHlo.after hostOps0_1 V' (Proc.devRef .tc main_v24) = shapeCast S1x128 (shapeCast S128 (extractStridedSlice S1x128 ![0, 0] a slices_S5x128_S1x128_0_0) shapeCasts_S1x128_S128) shapeCasts_S128_S1x128 := by
  subst ha
  after_results
  rfl

/-- Window 7's array: the layer's slice of argument 8, reshaped. -/
theorem win0_7_of (a : (⟨S5x128, .f32⟩ : BufTy).Contents (Elt F)) (ha : V' (Proc.devRef .tc main_arg8) = a) :
    StableHlo.after hostOps0_1 V' (Proc.devRef .tc main_v25) = shapeCast S1x128 (shapeCast S128 (extractStridedSlice S1x128 ![0, 0] a slices_S5x128_S1x128_0_0) shapeCasts_S1x128_S128) shapeCasts_S128_S1x128 := by
  subst ha
  after_results
  rfl

/-- Window 8's array: the layer's slice of argument 9, reshaped. -/
theorem win0_8_of (a : (⟨S5x128, .f32⟩ : BufTy).Contents (Elt F)) (ha : V' (Proc.devRef .tc main_arg9) = a) :
    StableHlo.after hostOps0_1 V' (Proc.devRef .tc main_v26) = shapeCast S1x128 (shapeCast S128 (extractStridedSlice S1x128 ![0, 0] a slices_S5x128_S1x128_0_0) shapeCasts_S1x128_S128) shapeCasts_S128_S1x128 := by
  subst ha
  after_results
  rfl

/-- Window 9's array: the layer's slice of argument 10, reshaped. -/
theorem win0_9_of (a : (⟨S5x128, .f32⟩ : BufTy).Contents (Elt F)) (ha : V' (Proc.devRef .tc main_arg10) = a) :
    StableHlo.after hostOps0_1 V' (Proc.devRef .tc main_v27) = shapeCast S1x128 (shapeCast S128 (extractStridedSlice S1x128 ![0, 0] a slices_S5x128_S1x128_0_0) shapeCasts_S1x128_S128) shapeCasts_S128_S1x128 := by
  subst ha
  after_results
  rfl

/-- Window 10's array: the layer's slice of argument 11, reshaped. -/
theorem win0_10_of (a : (⟨S5x128, .f32⟩ : BufTy).Contents (Elt F)) (ha : V' (Proc.devRef .tc main_arg11) = a) :
    StableHlo.after hostOps0_1 V' (Proc.devRef .tc main_v28) = shapeCast S1x128 (shapeCast S128 (extractStridedSlice S1x128 ![0, 0] a slices_S5x128_S1x128_0_0) shapeCasts_S1x128_S128) shapeCasts_S128_S1x128 := by
  subst ha
  after_results
  rfl

end Stretches

/-! ## At the fold's contents -/

/-- The take's result when the second stretch starts. -/
theorem take0_W (c : Dev nD) :
    W1 m ρ c (Proc.devRef .tc main_v0) = takeOut (m ((c.tc : Thread nD τ).loc main_arg0)) (m ((c.tc : Thread nD τ).loc main_arg1)) :=
  take0_of (W0 m ρ c) _ _ rfl rfl

/-- Window 0: the gathered rows pooled by destination. -/
theorem entry0_0 (c : Dev nD) :
    Gen.V2 m ρ c (Pipeline.arrRef spec0 0)
      = poolOut (m ((c.tc : Thread nD τ).loc main_arg0)) (m ((c.tc : Thread nD τ).loc main_arg1)) (m ((c.tc : Thread nD τ).loc main_arg2)) :=
  pool0_of (W1 m ρ c) _ _ _ (take0_W m ρ c) (quiet_W1 m ρ quiet_arg2 c)

/-- Window 1: the previous layer's output (the first argument), untouched by the two stretches. -/
theorem entry0_1 (c : Dev nD) :
    Gen.V2 m ρ c (Pipeline.arrRef spec0 1) = (m ((c.tc : Thread nD τ).loc main_arg0)) :=
  arg0_W2 m ρ c

theorem entry0_2 (c : Dev nD) :
    Gen.V2 m ρ c (Pipeline.arrRef spec0 2)
      = shapeCast S1x1 (shapeCast S_ (extractStridedSlice S1 ![0] (m ((c.tc : Thread nD τ).loc main_arg3)) slices_S5_S1_0) shapeCasts_S1_S_) shapeCasts_S_S1x1 :=
  win0_2_of (W1 m ρ c) _ (quiet_W1 m ρ quiet_arg3 c)

theorem entry0_3 (c : Dev nD) :
    Gen.V2 m ρ c (Pipeline.arrRef spec0 3)
      = shapeCast S128x128 (extractStridedSlice S1x128x128 ![0, 0, 0] (m ((c.tc : Thread nD τ).loc main_arg4)) slices_S5x128x128_S1x128x128_0_0_0) shapeCasts_S1x128x128_S128x128 :=
  win0_3_of (W1 m ρ c) _ (quiet_W1 m ρ quiet_arg4 c)

theorem entry0_4 (c : Dev nD) :
    Gen.V2 m ρ c (Pipeline.arrRef spec0 4)
      = shapeCast S1x128 (shapeCast S128 (extractStridedSlice S1x128 ![0, 0] (m ((c.tc : Thread nD τ).loc main_arg5)) slices_S5x128_S1x128_0_0) shapeCasts_S1x128_S128) shapeCasts_S128_S1x128 :=
  win0_4_of (W1 m ρ c) _ (quiet_W1 m ρ quiet_arg5 c)

theorem entry0_5 (c : Dev nD) :
    Gen.V2 m ρ c (Pipeline.arrRef spec0 5)
      = shapeCast S128x128 (extractStridedSlice S1x128x128 ![0, 0, 0] (m ((c.tc : Thread nD τ).loc main_arg6)) slices_S5x128x128_S1x128x128_0_0_0) shapeCasts_S1x128x128_S128x128 :=
  win0_5_of (W1 m ρ c) _ (quiet_W1 m ρ quiet_arg6 c)

theorem entry0_6 (c : Dev nD) :
    Gen.V2 m ρ c (Pipeline.arrRef spec0 6)
      = shapeCast S1x128 (shapeCast S128 (extractStridedSlice S1x128 ![0, 0] (m ((c.tc : Thread nD τ).loc main_arg7)) slices_S5x128_S1x128_0_0) shapeCasts_S1x128_S128) shapeCasts_S128_S1x128 :=
  win0_6_of (W1 m ρ c) _ (quiet_W1 m ρ quiet_arg7 c)

theorem entry0_7 (c : Dev nD) :
    Gen.V2 m ρ c (Pipeline.arrRef spec0 7)
      = shapeCast S1x128 (shapeCast S128 (extractStridedSlice S1x128 ![0, 0] (m ((c.tc : Thread nD τ).loc main_arg8)) slices_S5x128_S1x128_0_0) shapeCasts_S1x128_S128) shapeCasts_S128_S1x128 :=
  win0_7_of (W1 m ρ c) _ (quiet_W1 m ρ quiet_arg8 c)

theorem entry0_8 (c : Dev nD) :
    Gen.V2 m ρ c (Pipeline.arrRef spec0 8)
      = shapeCast S1x128 (shapeCast S128 (extractStridedSlice S1x128 ![0, 0] (m ((c.tc : Thread nD τ).loc main_arg9)) slices_S5x128_S1x128_0_0) shapeCasts_S1x128_S128) shapeCasts_S128_S1x128 :=
  win0_8_of (W1 m ρ c) _ (quiet_W1 m ρ quiet_arg9 c)

theorem entry0_9 (c : Dev nD) :
    Gen.V2 m ρ c (Pipeline.arrRef spec0 9)
      = shapeCast S1x128 (shapeCast S128 (extractStridedSlice S1x128 ![0, 0] (m ((c.tc : Thread nD τ).loc main_arg10)) slices_S5x128_S1x128_0_0) shapeCasts_S1x128_S128) shapeCasts_S128_S1x128 :=
  win0_9_of (W1 m ρ c) _ (quiet_W1 m ρ quiet_arg10 c)

theorem entry0_10 (c : Dev nD) :
    Gen.V2 m ρ c (Pipeline.arrRef spec0 10)
      = shapeCast S1x128 (shapeCast S128 (extractStridedSlice S1x128 ![0, 0] (m ((c.tc : Thread nD τ).loc main_arg11)) slices_S5x128_S1x128_0_0) shapeCasts_S1x128_S128) shapeCasts_S128_S1x128 :=
  win0_10_of (W1 m ρ c) _ (quiet_W1 m ρ quiet_arg11 c)

end Cert.KernelIdeal.ValRun

end
-- ==== Proof.Region0.lean ====
/-
  Region 0 of the kernel program (the layer's pallas_call), at any contents `V` of the TensorCore's buffers when
  the region is entered: what the pipeline leaves in its output array. The grid has ten points; point t stages rows
  5000·t … 5000·t + 4999 of the neighbours' sums and of the nodes' features, and every small operand whole; the body
  computes one layer (`Cert.Gin.layer`) of those blocks and stores it as rows 5000·t … of the output. A row of the
  layer depends on the same row of its two big operands only, so each point writes its rows of the layer of the
  WHOLE arrays, and the ten blocks tile the 50000 rows: the output array ends holding the layer of the entry arrays.
-/
import proofs.«177667_j37366215475921_1_alg».proof.Proof.Gen.KernelIdeal.Frame
import proofs.«177667_j37366215475921_1_alg».proof.Proof.Layer
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.Gin

variable (V : (c : Dev nD) → (b : Ref sig .tc) → Buf (Elt Ideal) ((c : Thread nD τ).loc b))

theorem hz : (![0, 0] : Fin 2 → Nat) = fun _ => 0 := funext fun a => by fin_cases a <;> rfl

/-- The body's arithmetic is one layer of the blocks it loads. -/
theorem pay_eq (x0 x1 : Vec Ideal S5000x128 .f32) (x2 : Vec Ideal S1x1 .f32) (x3 : Vec Ideal S128x128 .f32)
    (x4 : Vec Ideal S1x128 .f32) (x5 : Vec Ideal S128x128 .f32) (x6 x7 x8 x9 x10 : Vec Ideal S1x128 .f32) :
    k0_pay1 (k0_pay2 x1 x0 x2 x3 x4 x5 x6) (k0_pay3 x7) (k0_pay4 x8) x9 x10
      = layer (r := 5000) (n := 128) x0 x1 (x2 (ix2 0 0)) x3 x4 x5 x6 x7 x8 x9 x10 := by
  unfold k0_pay1 k0_pay2 k0_pay3 k0_pay4
  simp only [shapeCast_self]
  exact body_layer_core dot_S5000x128_S128x128_S5000x128_1_0_0_1_n_n rfl rfl rfl rfl rfl rfl x0 x1 x2 x3 x4 x5 x6 x7 x8 x9 x10
    _ _ _

/-- The layer of the arrays the region finds. -/
abbrev G (c : Dev nD) : S50000x128.Idx → Elt Ideal .f32 :=
  layer (r := 50000) (n := 128) (V c main_v3 : S50000x128.Idx → Elt Ideal .f32) (V c main_arg0 : S50000x128.Idx → Elt Ideal .f32)
    ((V c main_v22 : S1x1.Idx → Elt Ideal .f32) (ix2 0 0)) (V c main_v7 : S128x128.Idx → Elt Ideal .f32)
    (V c main_v23 : S1x128.Idx → Elt Ideal .f32) (V c main_v11 : S128x128.Idx → Elt Ideal .f32)
    (V c main_v24 : S1x128.Idx → Elt Ideal .f32) (V c main_v25 : S1x128.Idx → Elt Ideal .f32)
    (V c main_v26 : S1x128.Idx → Elt Ideal .f32) (V c main_v27 : S1x128.Idx → Elt Ideal .f32)
    (V c main_v28 : S1x128.Idx → Elt Ideal .f32)

/-- The printed index maps over the grid: the two big inputs and the output move down the rows with the point, every
    small operand stays at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_11.index t (0 : Fin 2) = t.val ∧ win0_11.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

theorem N_eq : cfg0.N = 10 := N_0

/-- The sums' block at point t is rows 5000·t … of the sums. -/
theorem rows0 (c : Dev nD) (t : Fin cfg0.N) (x : S5000x128.Idx) (k : S50000x128.Idx)
    (hk0 : (k 0).val = 5000 * t.val + (x 0).val) (hk1 : (k 1).val = (x 1).val) :
    (iblk0 V c 0 t : Vec Ideal S5000x128 .f32) x = (V c main_v3 : S50000x128.Idx → Elt Ideal .f32) k := by
  obtain ⟨a0, a1, h0, h1, o0, o1, s2a, s2b, s3a, s3b, s4a, s4b, s5a, s5b, s6a, s6b, s7a, s7b, s8a, s8b, s9a, s9b, s10a, s10b⟩ := idx_facts t
  unfold iblk0
  rw [View.read_apply]
  show V c main_v3 _ = V c main_v3 _
  congr 1
  funext a
  apply Fin.ext
  match a with
  | ⟨0, _⟩ => show win0_0.index t 0 * 5000 + 1 * (x 0).val = (k 0).val; rw [a0, hk0]; omega
  | ⟨1, _⟩ => show win0_0.index t 1 * 128 + 1 * (x 1).val = (k 1).val; rw [a1, hk1]; omega

/-- The features' block at point t is rows 5000·t … of the features. -/
theorem rows1 (c : Dev nD) (t : Fin cfg0.N) (x : S5000x128.Idx) (k : S50000x128.Idx)
    (hk0 : (k 0).val = 5000 * t.val + (x 0).val) (hk1 : (k 1).val = (x 1).val) :
    (iblk0 V c 1 t : Vec Ideal S5000x128 .f32) x = (V c main_arg0 : S50000x128.Idx → Elt Ideal .f32) k := by
  obtain ⟨a0, a1, h0, h1, o0, o1, s2a, s2b, s3a, s3b, s4a, s4b, s5a, s5b, s6a, s6b, s7a, s7b, s8a, s8b, s9a, s9b, s10a, s10b⟩ := idx_facts t
  unfold iblk0
  rw [View.read_apply]
  show V c main_arg0 _ = V c main_arg0 _
  congr 1
  funext a
  apply Fin.ext
  match a with
  | ⟨0, _⟩ => show win0_1.index t 0 * 5000 + 1 * (x 0).val = (k 0).val; rw [h0, hk0]; omega
  | ⟨1, _⟩ => show win0_1.index t 1 * 128 + 1 * (x 1).val = (k 1).val; rw [h1, hk1]; omega

/-- Window 2 stages its whole array at every point. -/
theorem whole2 (c : Dev nD) (t : Fin cfg0.N) :
    (iblk0 V c 2 t : Vec Ideal S1x1 .f32) = (V c main_v22 : S1x1.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk0
  rw [View.read_apply]
  show V c main_v22 _ = V c main_v22 x
  congr 1
  funext a
  apply Fin.ext
  match a with
  | ⟨0, _⟩ => show win0_2.index t 0 * 1 + 1 * (x 0).val = (x 0).val; rw [s2a]; omega
  | ⟨1, _⟩ => show win0_2.index t 1 * 1 + 1 * (x 1).val = (x 1).val; rw [s2b]; omega

/-- Window 3 stages its whole array at every point. -/
theorem whole3 (c : Dev nD) (t : Fin cfg0.N) :
    (iblk0 V c 3 t : Vec Ideal S128x128 .f32) = (V c main_v7 : S128x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk0
  rw [View.read_apply]
  show V c main_v7 _ = V c main_v7 x
  congr 1
  funext a
  apply Fin.ext
  match a with
  | ⟨0, _⟩ => show win0_3.index t 0 * 128 + 1 * (x 0).val = (x 0).val; rw [s3a]; omega
  | ⟨1, _⟩ => show win0_3.index t 1 * 128 + 1 * (x 1).val = (x 1).val; rw [s3b]; omega

/-- Window 4 stages its whole array at every point. -/
theorem whole4 (c : Dev nD) (t : Fin cfg0.N) :
    (iblk0 V c 4 t : Vec Ideal S1x128 .f32) = (V c main_v23 : S1x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk0
  rw [View.read_apply]
  show V c main_v23 _ = V c main_v23 x
  congr 1
  funext a
  apply Fin.ext
  match a with
  | ⟨0, _⟩ => show win0_4.index t 0 * 1 + 1 * (x 0).val = (x 0).val; rw [s4a]; omega
  | ⟨1, _⟩ => show win0_4.index t 1 * 128 + 1 * (x 1).val = (x 1).val; rw [s4b]; omega

/-- Window 5 stages its whole array at every point. -/
theorem whole5 (c : Dev nD) (t : Fin cfg0.N) :
    (iblk0 V c 5 t : Vec Ideal S128x128 .f32) = (V c main_v11 : S128x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk0
  rw [View.read_apply]
  show V c main_v11 _ = V c main_v11 x
  congr 1
  funext a
  apply Fin.ext
  match a with
  | ⟨0, _⟩ => show win0_5.index t 0 * 128 + 1 * (x 0).val = (x 0).val; rw [s5a]; omega
  | ⟨1, _⟩ => show win0_5.index t 1 * 128 + 1 * (x 1).val = (x 1).val; rw [s5b]; omega

/-- Window 6 stages its whole array at every point. -/
theorem whole6 (c : Dev nD) (t : Fin cfg0.N) :
    (iblk0 V c 6 t : Vec Ideal S1x128 .f32) = (V c main_v24 : S1x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk0
  rw [View.read_apply]
  show V c main_v24 _ = V c main_v24 x
  congr 1
  funext a
  apply Fin.ext
  match a with
  | ⟨0, _⟩ => show win0_6.index t 0 * 1 + 1 * (x 0).val = (x 0).val; rw [s6a]; omega
  | ⟨1, _⟩ => show win0_6.index t 1 * 128 + 1 * (x 1).val = (x 1).val; rw [s6b]; omega

/-- Window 7 stages its whole array at every point. -/
theorem whole7 (c : Dev nD) (t : Fin cfg0.N) :
    (iblk0 V c 7 t : Vec Ideal S1x128 .f32) = (V c main_v25 : S1x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk0
  rw [View.read_apply]
  show V c main_v25 _ = V c main_v25 x
  congr 1
  funext a
  apply Fin.ext
  match a with
  | ⟨0, _⟩ => show win0_7.index t 0 * 1 + 1 * (x 0).val = (x 0).val; rw [s7a]; omega
  | ⟨1, _⟩ => show win0_7.index t 1 * 128 + 1 * (x 1).val = (x 1).val; rw [s7b]; omega

/-- Window 8 stages its whole array at every point. -/
theorem whole8 (c : Dev nD) (t : Fin cfg0.N) :
    (iblk0 V c 8 t : Vec Ideal S1x128 .f32) = (V c main_v26 : S1x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk0
  rw [View.read_apply]
  show V c main_v26 _ = V c main_v26 x
  congr 1
  funext a
  apply Fin.ext
  match a with
  | ⟨0, _⟩ => show win0_8.index t 0 * 1 + 1 * (x 0).val = (x 0).val; rw [s8a]; omega
  | ⟨1, _⟩ => show win0_8.index t 1 * 128 + 1 * (x 1).val = (x 1).val; rw [s8b]; omega

/-- Window 9 stages its whole array at every point. -/
theorem whole9 (c : Dev nD) (t : Fin cfg0.N) :
    (iblk0 V c 9 t : Vec Ideal S1x128 .f32) = (V c main_v27 : S1x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk0
  rw [View.read_apply]
  show V c main_v27 _ = V c main_v27 x
  congr 1
  funext a
  apply Fin.ext
  match a with
  | ⟨0, _⟩ => show win0_9.index t 0 * 1 + 1 * (x 0).val = (x 0).val; rw [s9a]; omega
  | ⟨1, _⟩ => show win0_9.index t 1 * 128 + 1 * (x 1).val = (x 1).val; rw [s9b]; omega

/-- Window 10 stages its whole array at every point. -/
theorem whole10 (c : Dev nD) (t : Fin cfg0.N) :
    (iblk0 V c 10 t : Vec Ideal S1x128 .f32) = (V c main_v28 : S1x128.Idx → Elt Ideal .f32) := by
  obtain ⟨a0, a1, h0, h1, o0, o1, s2a, s2b, s3a, s3b, s4a, s4b, s5a, s5b, s6a, s6b, s7a, s7b, s8a, s8b, s9a, s9b, s10a, s10b⟩ := idx_facts t
  funext x
  unfold iblk0
  rw [View.read_apply]
  show V c main_v28 _ = V c main_v28 x
  congr 1
  funext a
  apply Fin.ext
  match a with
  | ⟨0, _⟩ => show win0_10.index t 0 * 1 + 1 * (x 0).val = (x 0).val; rw [s10a]; omega
  | ⟨1, _⟩ => show win0_10.index t 1 * 128 + 1 * (x 1).val = (x 1).val; rw [s10b]; omega

theorem row_lt (t : Fin cfg0.N) (y : Fin 5000) : 5000 * t.val + y.val < 50000 := by
  have h := t.isLt
  have hN := N_eq
  have := y.isLt
  omega

/-- WHAT POINT t WRITES BACK is block t of the layer of the whole entry arrays. -/
theorem flushed_eq (c : Dev nD) (t : Fin cfg0.N) :
    (dat0 V c).flushed 11 t = ((cfg0.win 11).blk t).view.read (Elt Ideal) (G V c) := by
  show (cfg0.win 11).cut (grid0.coords t) ((dat0 V c).after 11 t) = _
  rw [after0_11]
  unfold out0_11
  rw [View.canon_unit_zero hz]
  simp only [View.ld_unit_zero (S := S5000x128) hz, View.ld_unit_zero (S := S1x1) hz,
    View.ld_unit_zero (S := S128x128) hz, View.ld_unit_zero (S := S1x128) hz]
  rw [pay_eq, whole2 V c t, whole3 V c t, whole4 V c t, whole5 V c t, whole6 V c t, whole7 V c t, whole8 V c t, whole9 V c t, whole10 V c t]
  obtain ⟨a0, a1, h0, h1, o0, o1, s2a, s2b, s3a, s3b, s4a, s4b, s5a, s5b, s6a, s6b, s7a, s7b, s8a, s8b, s9a, s9b, s10a, s10b⟩ := idx_facts t
  funext j
  obtain ⟨y, q, rfl⟩ : ∃ (y : Fin 5000) (q : Fin 128), j = ix2 y q := ⟨j 0, j 1, eq_ix2 j⟩
  have hk : ((cfg0.win 11).blk t).view.emb (ix2 y q)
      = (ix2 (⟨5000 * t.val + y.val, row_lt t y⟩ : Fin 50000) q : S50000x128.Idx) := by
    funext a
    apply Fin.ext
    match a with
    | ⟨0, _⟩ => show win0_11.index t 0 * 5000 + 1 * y.val = 5000 * t.val + y.val; rw [o0]; omega
    | ⟨1, _⟩ => show win0_11.index t 1 * 128 + 1 * q.val = q.val; rw [o1]; omega
  rw [View.read_apply, hk]
  exact layer_rows _ _ _ _ _ _ _ _ _ _ _ _ _ y ⟨5000 * t.val + y.val, row_lt t y⟩
    (fun c' => rows0 V c t (ix2 y c') (ix2 ⟨5000 * t.val + y.val, row_lt t y⟩ c') rfl rfl)
    (fun c' => rows1 V c t (ix2 y c') (ix2 ⟨5000 * t.val + y.val, row_lt t y⟩ c') rfl rfl) q

/-- An index of the output array is in point t's block iff each coordinate is in the block's range on its axis. -/
theorem mem_blk (t : Fin cfg0.N) (i : S50000x128.Idx) :
    i ∈ ((cfg0.win 11).blk t).view.set ↔ ∀ a : Fin 2, win0_11.index t a * S5000x128.size a ≤ (i a).val
      ∧ (i a).val < win0_11.index t a * S5000x128.size a + S5000x128.size a := by
  show i ∈ ((View.whole main_v29).slice (win0_11.rect t)).set ↔ _
  rw [View.set_slice_whole, Rect.mem_set_unit]
  exact Iff.rfl

/-- Row p of the output is written by point p / 5000. -/
theorem cover (i : S50000x128.Idx) :
    ∃ t : Fin cfg0.N, (cfg0.win 11).flush t = true ∧ i ∈ ((cfg0.win 11).blk t).view.set := by
  have hi0 : (i 0).val < 50000 := (i 0).isLt
  have hi1 : (i 1).val < 128 := (i 1).isLt
  have ht : (i 0).val / 5000 < cfg0.N := by rw [N_eq]; omega
  obtain ⟨a0, a1, h0, h1, o0, o1, s2a, s2b, s3a, s3b, s4a, s4b, s5a, s5b, s6a, s6b, s7a, s7b, s8a, s8b, s9a, s9b, s10a, s10b⟩ := idx_facts ⟨(i 0).val / 5000, ht⟩
  refine ⟨⟨(i 0).val / 5000, ht⟩, flush0_11 _, ?_⟩
  rw [mem_blk]
  intro a
  match a with
  | ⟨0, _⟩ =>
    show win0_11.index ⟨(i 0).val / 5000, ht⟩ 0 * 5000 ≤ (i 0).val
      ∧ (i 0).val < win0_11.index ⟨(i 0).val / 5000, ht⟩ 0 * 5000 + 5000
    rw [o0]
    show (i 0).val / 5000 * 5000 ≤ (i 0).val ∧ (i 0).val < (i 0).val / 5000 * 5000 + 5000
    omega
  | ⟨1, _⟩ =>
    show win0_11.index ⟨(i 0).val / 5000, ht⟩ 1 * 128 ≤ (i 1).val
      ∧ (i 1).val < win0_11.index ⟨(i 0).val / 5000, ht⟩ 1 * 128 + 128
    rw [o1]
    omega

/-- THE OUTPUT ARRAY after the region: the layer of the arrays the region found. -/
theorem final (c : Dev nD) : (dat0 V c).arrAt 11 cfg0.N = G V c :=
  (dat0 V c).arrAt_eq_of_cover 11 (G V c) (fun t _ => flushed_eq V c t) cover

end Cert.KernelIdeal.Region0

end
-- ==== Proof.LayerK0.lean ====
/-
  What the kernel program leaves in its result 1: the features after layer 0 of the chain, as a function of the
  launch arguments. The result buffer is region 0's output array, which no later host operation or region writes;
  the region leaves in it the layer of the arrays it finds at entry; and those are the pooling of the features the
  layer before left, those features themselves, and the layer's scalar, matrices and rows cut out of the stacked
  arguments — the scalar as a 1×1 array, each row as a vector re-shaped to a 1×128 row.
-/
import proofs.«177667_j37366215475921_1_alg».proof.Proof.KerReads0
import proofs.«177667_j37366215475921_1_alg».proof.Proof.Region0
import proofs.«177667_j37366215475921_1_alg».proof.Proof.Steps

set_option maxRecDepth 16384

noncomputable section

namespace Cert.KernelIdeal.Chain

open Cert.KernelIdeal Cert.KernelIdeal.Gen Cert.KernelIdeal.ValRun Cert.Gin Cert.Lib.RowVector
open Idealize.ShloMosaic Idealize.ShloMosaic.TcCoe Idealize.SL.Sem Idealize.ShloMosaic.ValueIdx

variable (m : (ℓ : Loc nD τ sig) → Buf (Elt Ideal) ℓ) (ρ : Dev nD → PrngReg)

set_option maxHeartbeats 2000000 in
/-- Result 1 of the kernel program is the features after layer 0 of the chain. -/
theorem kout1 (c : Dev nD) :
    Gen.W15 m ρ c (Proc.devRef .tc main_v29) = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [res_0 m ρ c, Region0.final (Gen.V2 m ρ) c]
  have e0 : (Gen.V2 m ρ c main_v3 : S50000x128.Idx → Elt Ideal .f32) = poolOut (F := Ideal) (m ((c.tc : Thread nD τ).loc main_arg0)) (m ((c.tc : Thread nD τ).loc main_arg1)) (m ((c.tc : Thread nD τ).loc main_arg2)) :=
    entry0_0 m ρ c
  have e1 : (Gen.V2 m ρ c main_arg0 : S50000x128.Idx → Elt Ideal .f32) = (m ((c.tc : Thread nD τ).loc main_arg0)) :=
    entry0_1 m ρ c
  have e2f : (Gen.V2 m ρ c main_v22 : S1x1.Idx → Elt Ideal .f32) = shapeCast S1x1 (shapeCast S_ (extractStridedSlice S1 ![0] (m ((c.tc : Thread nD τ).loc main_arg3)) slices_S5_S1_0) shapeCasts_S1_S_) shapeCasts_S_S1x1 :=
    entry0_2 m ρ c
  have e2 : (Gen.V2 m ρ c main_v22 : S1x1.Idx → Elt Ideal .f32) (ix2 0 0) = scal0 (m ((c.tc : Thread nD τ).loc main_arg3)) :=
    (congrFun e2f (ix2 0 0)).trans (scalar_as_1x1 _ _)
  have e3 : (Gen.V2 m ρ c main_v7 : S128x128.Idx → Elt Ideal .f32) = mat0 (m ((c.tc : Thread nD τ).loc main_arg4)) := entry0_3 m ρ c
  have e4 : (Gen.V2 m ρ c main_v23 : S1x128.Idx → Elt Ideal .f32) = asRow (shapeCast S128 (extractStridedSlice S1x128 ![0, 0] (m ((c.tc : Thread nD τ).loc main_arg5)) slices_S5x128_S1x128_0_0) shapeCasts_S1x128_S128) :=
    (entry0_4 m ρ c).trans (shapeCast_eq_asRow _ _)
  have e5 : (Gen.V2 m ρ c main_v11 : S128x128.Idx → Elt Ideal .f32) = mat0 (m ((c.tc : Thread nD τ).loc main_arg6)) := entry0_5 m ρ c
  have e6 : (Gen.V2 m ρ c main_v24 : S1x128.Idx → Elt Ideal .f32) = asRow (shapeCast S128 (extractStridedSlice S1x128 ![0, 0] (m ((c.tc : Thread nD τ).loc main_arg7)) slices_S5x128_S1x128_0_0) shapeCasts_S1x128_S128) :=
    (entry0_6 m ρ c).trans (shapeCast_eq_asRow _ _)
  have e7 : (Gen.V2 m ρ c main_v25 : S1x128.Idx → Elt Ideal .f32) = asRow (shapeCast S128 (extractStridedSlice S1x128 ![0, 0] (m ((c.tc : Thread nD τ).loc main_arg8)) slices_S5x128_S1x128_0_0) shapeCasts_S1x128_S128) :=
    (entry0_7 m ρ c).trans (shapeCast_eq_asRow _ _)
  have e8 : (Gen.V2 m ρ c main_v26 : S1x128.Idx → Elt Ideal .f32) = asRow (shapeCast S128 (extractStridedSlice S1x128 ![0, 0] (m ((c.tc : Thread nD τ).loc main_arg9)) slices_S5x128_S1x128_0_0) shapeCasts_S1x128_S128) :=
    (entry0_8 m ρ c).trans (shapeCast_eq_asRow _ _)
  have e9 : (Gen.V2 m ρ c main_v27 : S1x128.Idx → Elt Ideal .f32) = asRow (shapeCast S128 (extractStridedSlice S1x128 ![0, 0] (m ((c.tc : Thread nD τ).loc main_arg10)) slices_S5x128_S1x128_0_0) shapeCasts_S1x128_S128) :=
    (entry0_9 m ρ c).trans (shapeCast_eq_asRow _ _)
  have e10 : (Gen.V2 m ρ c main_v28 : S1x128.Idx → Elt Ideal .f32) = asRow (shapeCast S128 (extractStridedSlice S1x128 ![0, 0] (m ((c.tc : Thread nD τ).loc main_arg11)) slices_S5x128_S1x128_0_0) shapeCasts_S1x128_S128) :=
    (entry0_10 m ρ c).trans (shapeCast_eq_asRow _ _)
  exact layer_congr e0 e1 e2 e3 e4 e5 e6 e7 e8 e9 e10

end Cert.KernelIdeal.Chain

end
-- ==== Proof.LayerK1.lean ====
/-
  What the kernel program leaves in its result 2: the features after layer 1 of the chain, as a function of the
  launch arguments. The result buffer is region 1's output array, which no later host operation or region writes;
  the region leaves in it the layer of the arrays it finds at entry; and those are the pooling of the features the
  layer before left, those features themselves, and the layer's scalar, matrices and rows cut out of the stacked
  arguments — the scalar as a 1×1 array, each row as a vector re-shaped to a 1×128 row.
-/
import proofs.«177667_j37366215475921_1_alg».proof.Proof.KerReads1
import proofs.«177667_j37366215475921_1_alg».proof.Proof.Region1
import proofs.«177667_j37366215475921_1_alg».proof.Proof.Steps
import proofs.«177667_j37366215475921_1_alg».proof.Proof.LayerK0

set_option maxRecDepth 16384

noncomputable section

namespace Cert.KernelIdeal.Chain

open Cert.KernelIdeal Cert.KernelIdeal.Gen Cert.KernelIdeal.ValRun Cert.Gin Cert.Lib.RowVector
open Idealize.ShloMosaic Idealize.ShloMosaic.TcCoe Idealize.SL.Sem Idealize.ShloMosaic.ValueIdx

variable (m : (ℓ : Loc nD τ sig) → Buf (Elt Ideal) ℓ) (ρ : Dev nD → PrngReg)

set_option maxHeartbeats 2000000 in
/-- Result 2 of the kernel program is the features after layer 1 of the chain. -/
theorem kout2 (c : Dev nD) :
    Gen.W15 m ρ c (Proc.devRef .tc main_v59) = out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [res_1 m ρ c, Region1.final (Gen.V5 m ρ) c]
  have hp : (Gen.dat0 (Gen.V2 m ρ) c).arrAt 11 cfg0.N = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
    (res_0 m ρ c).symm.trans (kout1 m ρ c)
  have e0 : (Gen.V5 m ρ c main_v33 : S50000x128.Idx → Elt Ideal .f32) = poolOut (F := Ideal) (out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (m ((c.tc : Thread nD τ).loc main_arg1)) (m ((c.tc : Thread nD τ).loc main_arg2)) :=
    (entry1_0 m ρ c).trans (by rw [hp])
  have e1 : (Gen.V5 m ρ c main_v29 : S50000x128.Idx → Elt Ideal .f32) = (out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) :=
    (entry1_1 m ρ c).trans hp
  have e2f : (Gen.V5 m ρ c main_v52 : S1x1.Idx → Elt Ideal .f32) = shapeCast S1x1 (shapeCast S_ (extractStridedSlice S1 ![1] (m ((c.tc : Thread nD τ).loc main_arg3)) slices_S5_S1_1) shapeCasts_S1_S_) shapeCasts_S_S1x1 :=
    entry1_2 m ρ c
  have e2 : (Gen.V5 m ρ c main_v52 : S1x1.Idx → Elt Ideal .f32) (ix2 0 0) = scal1 (m ((c.tc : Thread nD τ).loc main_arg3)) :=
    (congrFun e2f (ix2 0 0)).trans (scalar_as_1x1 _ _)
  have e3 : (Gen.V5 m ρ c main_v37 : S128x128.Idx → Elt Ideal .f32) = mat1 (m ((c.tc : Thread nD τ).loc main_arg4)) := entry1_3 m ρ c
  have e4 : (Gen.V5 m ρ c main_v53 : S1x128.Idx → Elt Ideal .f32) = asRow (shapeCast S128 (extractStridedSlice S1x128 ![1, 0] (m ((c.tc : Thread nD τ).loc main_arg5)) slices_S5x128_S1x128_1_0) shapeCasts_S1x128_S128) :=
    (entry1_4 m ρ c).trans (shapeCast_eq_asRow _ _)
  have e5 : (Gen.V5 m ρ c main_v41 : S128x128.Idx → Elt Ideal .f32) = mat1 (m ((c.tc : Thread nD τ).loc main_arg6)) := entry1_5 m ρ c
  have e6 : (Gen.V5 m ρ c main_v54 : S1x128.Idx → Elt Ideal .f32) = asRow (shapeCast S128 (extractStridedSlice S1x128 ![1, 0] (m ((c.tc : Thread nD τ).loc main_arg7)) slices_S5x128_S1x128_1_0) shapeCasts_S1x128_S128) :=
    (entry1_6 m ρ c).trans (shapeCast_eq_asRow _ _)
  have e7 : (Gen.V5 m ρ c main_v55 : S1x128.Idx → Elt Ideal .f32) = asRow (shapeCast S128 (extractStridedSlice S1x128 ![1, 0] (m ((c.tc : Thread nD τ).loc main_arg8)) slices_S5x128_S1x128_1_0) shapeCasts_S1x128_S128) :=
    (entry1_7 m ρ c).trans (shapeCast_eq_asRow _ _)
  have e8 : (Gen.V5 m ρ c main_v56 : S1x128.Idx → Elt Ideal .f32) = asRow (shapeCast S128 (extractStridedSlice S1x128 ![1, 0] (m ((c.tc : Thread nD τ).loc main_arg9)) slices_S5x128_S1x128_1_0) shapeCasts_S1x128_S128) :=
    (entry1_8 m ρ c).trans (shapeCast_eq_asRow _ _)
  have e9 : (Gen.V5 m ρ c main_v57 : S1x128.Idx → Elt Ideal .f32) = asRow (shapeCast S128 (extractStridedSlice S1x128 ![1, 0] (m ((c.tc : Thread nD τ).loc main_arg10)) slices_S5x128_S1x128_1_0) shapeCasts_S1x128_S128) :=
    (entry1_9 m ρ c).trans (shapeCast_eq_asRow _ _)
  have e10 : (Gen.V5 m ρ c main_v58 : S1x128.Idx → Elt Ideal .f32) = asRow (shapeCast S128 (extractStridedSlice S1x128 ![1, 0] (m ((c.tc : Thread nD τ).loc main_arg11)) slices_S5x128_S1x128_1_0) shapeCasts_S1x128_S128) :=
    (entry1_10 m ρ c).trans (shapeCast_eq_asRow _ _)
  exact layer_congr e0 e1 e2 e3 e4 e5 e6 e7 e8 e9 e10

end Cert.KernelIdeal.Chain

end
-- ==== Proof.LayerK2.lean ====
/-
  What the kernel program leaves in its result 3: the features after layer 2 of the chain, as a function of the
  launch arguments. The result buffer is region 2's output array, which no later host operation or region writes;
  the region leaves in it the layer of the arrays it finds at entry; and those are the pooling of the features the
  layer before left, those features themselves, and the layer's scalar, matrices and rows cut out of the stacked
  arguments — the scalar as a 1×1 array, each row as a vector re-shaped to a 1×128 row.
-/
import proofs.«177667_j37366215475921_1_alg».proof.Proof.KerReads2
import proofs.«177667_j37366215475921_1_alg».proof.Proof.Region2
import proofs.«177667_j37366215475921_1_alg».proof.Proof.Steps
import proofs.«177667_j37366215475921_1_alg».proof.Proof.LayerK1

set_option maxRecDepth 16384

noncomputable section

namespace Cert.KernelIdeal.Chain

open Cert.KernelIdeal Cert.KernelIdeal.Gen Cert.KernelIdeal.ValRun Cert.Gin Cert.Lib.RowVector
open Idealize.ShloMosaic Idealize.ShloMosaic.TcCoe Idealize.SL.Sem Idealize.ShloMosaic.ValueIdx

variable (m : (ℓ : Loc nD τ sig) → Buf (Elt Ideal) ℓ) (ρ : Dev nD → PrngReg)

set_option maxHeartbeats 2000000 in
/-- Result 3 of the kernel program is the features after layer 2 of the chain. -/
theorem kout3 (c : Dev nD) :
    Gen.W15 m ρ c (Proc.devRef .tc main_v89) = out3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [res_2 m ρ c, Region2.final (Gen.V8 m ρ) c]
  have hp : (Gen.dat1 (Gen.V5 m ρ) c).arrAt 11 cfg1.N = out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
    (res_1 m ρ c).symm.trans (kout2 m ρ c)
  have e0 : (Gen.V8 m ρ c main_v63 : S50000x128.Idx → Elt Ideal .f32) = poolOut (F := Ideal) (out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (m ((c.tc : Thread nD τ).loc main_arg1)) (m ((c.tc : Thread nD τ).loc main_arg2)) :=
    (entry2_0 m ρ c).trans (by rw [hp])
  have e1 : (Gen.V8 m ρ c main_v59 : S50000x128.Idx → Elt Ideal .f32) = (out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) :=
    (entry2_1 m ρ c).trans hp
  have e2f : (Gen.V8 m ρ c main_v82 : S1x1.Idx → Elt Ideal .f32) = shapeCast S1x1 (shapeCast S_ (extractStridedSlice S1 ![2] (m ((c.tc : Thread nD τ).loc main_arg3)) slices_S5_S1_2) shapeCasts_S1_S_) shapeCasts_S_S1x1 :=
    entry2_2 m ρ c
  have e2 : (Gen.V8 m ρ c main_v82 : S1x1.Idx → Elt Ideal .f32) (ix2 0 0) = scal2 (m ((c.tc : Thread nD τ).loc main_arg3)) :=
    (congrFun e2f (ix2 0 0)).trans (scalar_as_1x1 _ _)
  have e3 : (Gen.V8 m ρ c main_v67 : S128x128.Idx → Elt Ideal .f32) = mat2 (m ((c.tc : Thread nD τ).loc main_arg4)) := entry2_3 m ρ c
  have e4 : (Gen.V8 m ρ c main_v83 : S1x128.Idx → Elt Ideal .f32) = asRow (shapeCast S128 (extractStridedSlice S1x128 ![2, 0] (m ((c.tc : Thread nD τ).loc main_arg5)) slices_S5x128_S1x128_2_0) shapeCasts_S1x128_S128) :=
    (entry2_4 m ρ c).trans (shapeCast_eq_asRow _ _)
  have e5 : (Gen.V8 m ρ c main_v71 : S128x128.Idx → Elt Ideal .f32) = mat2 (m ((c.tc : Thread nD τ).loc main_arg6)) := entry2_5 m ρ c
  have e6 : (Gen.V8 m ρ c main_v84 : S1x128.Idx → Elt Ideal .f32) = asRow (shapeCast S128 (extractStridedSlice S1x128 ![2, 0] (m ((c.tc : Thread nD τ).loc main_arg7)) slices_S5x128_S1x128_2_0) shapeCasts_S1x128_S128) :=
    (entry2_6 m ρ c).trans (shapeCast_eq_asRow _ _)
  have e7 : (Gen.V8 m ρ c main_v85 : S1x128.Idx → Elt Ideal .f32) = asRow (shapeCast S128 (extractStridedSlice S1x128 ![2, 0] (m ((c.tc : Thread nD τ).loc main_arg8)) slices_S5x128_S1x128_2_0) shapeCasts_S1x128_S128) :=
    (entry2_7 m ρ c).trans (shapeCast_eq_asRow _ _)
  have e8 : (Gen.V8 m ρ c main_v86 : S1x128.Idx → Elt Ideal .f32) = asRow (shapeCast S128 (extractStridedSlice S1x128 ![2, 0] (m ((c.tc : Thread nD τ).loc main_arg9)) slices_S5x128_S1x128_2_0) shapeCasts_S1x128_S128) :=
    (entry2_8 m ρ c).trans (shapeCast_eq_asRow _ _)
  have e9 : (Gen.V8 m ρ c main_v87 : S1x128.Idx → Elt Ideal .f32) = asRow (shapeCast S128 (extractStridedSlice S1x128 ![2, 0] (m ((c.tc : Thread nD τ).loc main_arg10)) slices_S5x128_S1x128_2_0) shapeCasts_S1x128_S128) :=
    (entry2_9 m ρ c).trans (shapeCast_eq_asRow _ _)
  have e10 : (Gen.V8 m ρ c main_v88 : S1x128.Idx → Elt Ideal .f32) = asRow (shapeCast S128 (extractStridedSlice S1x128 ![2, 0] (m ((c.tc : Thread nD τ).loc main_arg11)) slices_S5x128_S1x128_2_0) shapeCasts_S1x128_S128) :=
    (entry2_10 m ρ c).trans (shapeCast_eq_asRow _ _)
  exact layer_congr e0 e1 e2 e3 e4 e5 e6 e7 e8 e9 e10

end Cert.KernelIdeal.Chain

end
-- ==== Proof.LayerK3.lean ====
/-
  What the kernel program leaves in its result 4: the features after layer 3 of the chain, as a function of the
  launch arguments. The result buffer is region 3's output array, which no later host operation or region writes;
  the region leaves in it the layer of the arrays it finds at entry; and those are the pooling of the features the
  layer before left, those features themselves, and the layer's scalar, matrices and rows cut out of the stacked
  arguments — the scalar as a 1×1 array, each row as a vector re-shaped to a 1×128 row.
-/
import proofs.«177667_j37366215475921_1_alg».proof.Proof.KerReads3
import proofs.«177667_j37366215475921_1_alg».proof.Proof.Region3
import proofs.«177667_j37366215475921_1_alg».proof.Proof.Steps
import proofs.«177667_j37366215475921_1_alg».proof.Proof.LayerK2

set_option maxRecDepth 16384

noncomputable section

namespace Cert.KernelIdeal.Chain

open Cert.KernelIdeal Cert.KernelIdeal.Gen Cert.KernelIdeal.ValRun Cert.Gin Cert.Lib.RowVector
open Idealize.ShloMosaic Idealize.ShloMosaic.TcCoe Idealize.SL.Sem Idealize.ShloMosaic.ValueIdx

variable (m : (ℓ : Loc nD τ sig) → Buf (Elt Ideal) ℓ) (ρ : Dev nD → PrngReg)

set_option maxHeartbeats 2000000 in
/-- Result 4 of the kernel program is the features after layer 3 of the chain. -/
theorem kout4 (c : Dev nD) :
    Gen.W15 m ρ c (Proc.devRef .tc main_v119) = out4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [res_3 m ρ c, Region3.final (Gen.V11 m ρ) c]
  have hp : (Gen.dat2 (Gen.V8 m ρ) c).arrAt 11 cfg2.N = out3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
    (res_2 m ρ c).symm.trans (kout3 m ρ c)
  have e0 : (Gen.V11 m ρ c main_v93 : S50000x128.Idx → Elt Ideal .f32) = poolOut (F := Ideal) (out3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (m ((c.tc : Thread nD τ).loc main_arg1)) (m ((c.tc : Thread nD τ).loc main_arg2)) :=
    (entry3_0 m ρ c).trans (by rw [hp])
  have e1 : (Gen.V11 m ρ c main_v89 : S50000x128.Idx → Elt Ideal .f32) = (out3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) :=
    (entry3_1 m ρ c).trans hp
  have e2f : (Gen.V11 m ρ c main_v112 : S1x1.Idx → Elt Ideal .f32) = shapeCast S1x1 (shapeCast S_ (extractStridedSlice S1 ![3] (m ((c.tc : Thread nD τ).loc main_arg3)) slices_S5_S1_3) shapeCasts_S1_S_) shapeCasts_S_S1x1 :=
    entry3_2 m ρ c
  have e2 : (Gen.V11 m ρ c main_v112 : S1x1.Idx → Elt Ideal .f32) (ix2 0 0) = scal3 (m ((c.tc : Thread nD τ).loc main_arg3)) :=
    (congrFun e2f (ix2 0 0)).trans (scalar_as_1x1 _ _)
  have e3 : (Gen.V11 m ρ c main_v97 : S128x128.Idx → Elt Ideal .f32) = mat3 (m ((c.tc : Thread nD τ).loc main_arg4)) := entry3_3 m ρ c
  have e4 : (Gen.V11 m ρ c main_v113 : S1x128.Idx → Elt Ideal .f32) = asRow (shapeCast S128 (extractStridedSlice S1x128 ![3, 0] (m ((c.tc : Thread nD τ).loc main_arg5)) slices_S5x128_S1x128_3_0) shapeCasts_S1x128_S128) :=
    (entry3_4 m ρ c).trans (shapeCast_eq_asRow _ _)
  have e5 : (Gen.V11 m ρ c main_v101 : S128x128.Idx → Elt Ideal .f32) = mat3 (m ((c.tc : Thread nD τ).loc main_arg6)) := entry3_5 m ρ c
  have e6 : (Gen.V11 m ρ c main_v114 : S1x128.Idx → Elt Ideal .f32) = asRow (shapeCast S128 (extractStridedSlice S1x128 ![3, 0] (m ((c.tc : Thread nD τ).loc main_arg7)) slices_S5x128_S1x128_3_0) shapeCasts_S1x128_S128) :=
    (entry3_6 m ρ c).trans (shapeCast_eq_asRow _ _)
  have e7 : (Gen.V11 m ρ c main_v115 : S1x128.Idx → Elt Ideal .f32) = asRow (shapeCast S128 (extractStridedSlice S1x128 ![3, 0] (m ((c.tc : Thread nD τ).loc main_arg8)) slices_S5x128_S1x128_3_0) shapeCasts_S1x128_S128) :=
    (entry3_7 m ρ c).trans (shapeCast_eq_asRow _ _)
  have e8 : (Gen.V11 m ρ c main_v116 : S1x128.Idx → Elt Ideal .f32) = asRow (shapeCast S128 (extractStridedSlice S1x128 ![3, 0] (m ((c.tc : Thread nD τ).loc main_arg9)) slices_S5x128_S1x128_3_0) shapeCasts_S1x128_S128) :=
    (entry3_8 m ρ c).trans (shapeCast_eq_asRow _ _)
  have e9 : (Gen.V11 m ρ c main_v117 : S1x128.Idx → Elt Ideal .f32) = asRow (shapeCast S128 (extractStridedSlice S1x128 ![3, 0] (m ((c.tc : Thread nD τ).loc main_arg10)) slices_S5x128_S1x128_3_0) shapeCasts_S1x128_S128) :=
    (entry3_9 m ρ c).trans (shapeCast_eq_asRow _ _)
  have e10 : (Gen.V11 m ρ c main_v118 : S1x128.Idx → Elt Ideal .f32) = asRow (shapeCast S128 (extractStridedSlice S1x128 ![3, 0] (m ((c.tc : Thread nD τ).loc main_arg11)) slices_S5x128_S1x128_3_0) shapeCasts_S1x128_S128) :=
    (entry3_10 m ρ c).trans (shapeCast_eq_asRow _ _)
  exact layer_congr e0 e1 e2 e3 e4 e5 e6 e7 e8 e9 e10

end Cert.KernelIdeal.Chain

end
-- ==== Proof.LayerK4.lean ====
/-
  What the kernel program leaves in its result 5: the features after layer 4 of the chain, as a function of the
  launch arguments. The result buffer is region 4's output array, which no later host operation or region writes;
  the region leaves in it the layer of the arrays it finds at entry; and those are the pooling of the features the
  layer before left, those features themselves, and the layer's scalar, matrices and rows cut out of the stacked
  arguments — the scalar as a 1×1 array, each row as a vector re-shaped to a 1×128 row.
-/
import proofs.«177667_j37366215475921_1_alg».proof.Proof.KerReads4
import proofs.«177667_j37366215475921_1_alg».proof.Proof.Region4
import proofs.«177667_j37366215475921_1_alg».proof.Proof.Steps
import proofs.«177667_j37366215475921_1_alg».proof.Proof.LayerK3

set_option maxRecDepth 16384

noncomputable section

namespace Cert.KernelIdeal.Chain

open Cert.KernelIdeal Cert.KernelIdeal.Gen Cert.KernelIdeal.ValRun Cert.Gin Cert.Lib.RowVector
open Idealize.ShloMosaic Idealize.ShloMosaic.TcCoe Idealize.SL.Sem Idealize.ShloMosaic.ValueIdx

variable (m : (ℓ : Loc nD τ sig) → Buf (Elt Ideal) ℓ) (ρ : Dev nD → PrngReg)

set_option maxHeartbeats 2000000 in
/-- Result 5 of the kernel program is the features after layer 4 of the chain. -/
theorem kout5 (c : Dev nD) :
    Gen.W15 m ρ c (Proc.devRef .tc main_v149) = out5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [res_4 m ρ c, Region4.final (Gen.V14 m ρ) c]
  have hp : (Gen.dat3 (Gen.V11 m ρ) c).arrAt 11 cfg3.N = out4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
    (res_3 m ρ c).symm.trans (kout4 m ρ c)
  have e0 : (Gen.V14 m ρ c main_v123 : S50000x128.Idx → Elt Ideal .f32) = poolOut (F := Ideal) (out4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (m ((c.tc : Thread nD τ).loc main_arg1)) (m ((c.tc : Thread nD τ).loc main_arg2)) :=
    (entry4_0 m ρ c).trans (by rw [hp])
  have e1 : (Gen.V14 m ρ c main_v119 : S50000x128.Idx → Elt Ideal .f32) = (out4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) :=
    (entry4_1 m ρ c).trans hp
  have e2f : (Gen.V14 m ρ c main_v142 : S1x1.Idx → Elt Ideal .f32) = shapeCast S1x1 (shapeCast S_ (extractStridedSlice S1 ![4] (m ((c.tc : Thread nD τ).loc main_arg3)) slices_S5_S1_4) shapeCasts_S1_S_) shapeCasts_S_S1x1 :=
    entry4_2 m ρ c
  have e2 : (Gen.V14 m ρ c main_v142 : S1x1.Idx → Elt Ideal .f32) (ix2 0 0) = scal4 (m ((c.tc : Thread nD τ).loc main_arg3)) :=
    (congrFun e2f (ix2 0 0)).trans (scalar_as_1x1 _ _)
  have e3 : (Gen.V14 m ρ c main_v127 : S128x128.Idx → Elt Ideal .f32) = mat4 (m ((c.tc : Thread nD τ).loc main_arg4)) := entry4_3 m ρ c
  have e4 : (Gen.V14 m ρ c main_v143 : S1x128.Idx → Elt Ideal .f32) = asRow (shapeCast S128 (extractStridedSlice S1x128 ![4, 0] (m ((c.tc : Thread nD τ).loc main_arg5)) slices_S5x128_S1x128_4_0) shapeCasts_S1x128_S128) :=
    (entry4_4 m ρ c).trans (shapeCast_eq_asRow _ _)
  have e5 : (Gen.V14 m ρ c main_v131 : S128x128.Idx → Elt Ideal .f32) = mat4 (m ((c.tc : Thread nD τ).loc main_arg6)) := entry4_5 m ρ c
  have e6 : (Gen.V14 m ρ c main_v144 : S1x128.Idx → Elt Ideal .f32) = asRow (shapeCast S128 (extractStridedSlice S1x128 ![4, 0] (m ((c.tc : Thread nD τ).loc main_arg7)) slices_S5x128_S1x128_4_0) shapeCasts_S1x128_S128) :=
    (entry4_6 m ρ c).trans (shapeCast_eq_asRow _ _)
  have e7 : (Gen.V14 m ρ c main_v145 : S1x128.Idx → Elt Ideal .f32) = asRow (shapeCast S128 (extractStridedSlice S1x128 ![4, 0] (m ((c.tc : Thread nD τ).loc main_arg8)) slices_S5x128_S1x128_4_0) shapeCasts_S1x128_S128) :=
    (entry4_7 m ρ c).trans (shapeCast_eq_asRow _ _)
  have e8 : (Gen.V14 m ρ c main_v146 : S1x128.Idx → Elt Ideal .f32) = asRow (shapeCast S128 (extractStridedSlice S1x128 ![4, 0] (m ((c.tc : Thread nD τ).loc main_arg9)) slices_S5x128_S1x128_4_0) shapeCasts_S1x128_S128) :=
    (entry4_8 m ρ c).trans (shapeCast_eq_asRow _ _)
  have e9 : (Gen.V14 m ρ c main_v147 : S1x128.Idx → Elt Ideal .f32) = asRow (shapeCast S128 (extractStridedSlice S1x128 ![4, 0] (m ((c.tc : Thread nD τ).loc main_arg10)) slices_S5x128_S1x128_4_0) shapeCasts_S1x128_S128) :=
    (entry4_9 m ρ c).trans (shapeCast_eq_asRow _ _)
  have e10 : (Gen.V14 m ρ c main_v148 : S1x128.Idx → Elt Ideal .f32) = asRow (shapeCast S128 (extractStridedSlice S1x128 ![4, 0] (m ((c.tc : Thread nD τ).loc main_arg11)) slices_S5x128_S1x128_4_0) shapeCasts_S1x128_S128) :=
    (entry4_10 m ρ c).trans (shapeCast_eq_asRow _ _)
  exact layer_congr e0 e1 e2 e3 e4 e5 e6 e7 e8 e9 e10

end Cert.KernelIdeal.Chain

end
-- ==== Proof.RefOps.lean ====
import proofs.«177667_j37366215475921_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! # The reference program as one straight line

Every layer of the network is the same eighty operations over its own buffers: the gather of the rows at the
source indices (the take function's twenty-three operations, the select of its inner call in place), the
scatter-add into a zero array at the target indices, the scaled skip term, two affine maps each followed by a
maximum with zero, and between them the normalisation by the running statistics. The lists below are those
operations in program order, the called functions' operations standing at their call sites over the calls'
buffers; a layer that straddles two of the program's windows is listed in two pieces. -/

theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- Running two lines one after the other is running their concatenation. -/
theorem after_append (A B : List (HloOp τ sig (Elt F))) (V : Valuation τ sig (Elt F)) :
    after (A ++ B) V = after B (after A V) := by
  induction A generalizing V with
  | nil => rfl
  | cons op A ih => exact ih _

/-- Layer 0's operations (80). -/
abbrev opsL0 : List (HloOp τ sig (Elt F)) :=
  [ StableHlo.TRef.nullary main_call0.c (constantI S_ 32 0#32),
    StableHlo.TRef.unary main_call0.c main_call0.v0 (broadcastInDim S800000 ![] bcast_S_S800000),
    StableHlo.TRef.binary (.of main_arg1 : StableHlo.TRef sig ⟨S800000, .i32⟩) main_call0.v0 main_call0.v1 (cmpi .slt),
    StableHlo.TRef.nullary main_call0.c_0 (constantI S_ 32 50000#32),
    StableHlo.TRef.unary main_call0.c_0 main_call0.v2 (broadcastInDim S800000 ![] bcast_S_S800000),
    StableHlo.TRef.binary (.of main_arg1 : StableHlo.TRef sig ⟨S800000, .i32⟩) main_call0.v2 main_call0.v3 addi,
    StableHlo.TRef.ternary main_call0.v1 main_call0.v3 (.of main_arg1 : StableHlo.TRef sig ⟨S800000, .i32⟩) main_call0.call0.v0 select,
    StableHlo.TRef.unary main_call0.call0.v0 main_call0.v5 (broadcastInDim S800000x1 ![0] bcast_S800000_S800000x1_0),
    StableHlo.TRef.nullary main_call0.c_1 (constantI S1 32 49999#32),
    StableHlo.TRef.nullary main_call0.c_2 (constantI S_ 32 0#32),
    StableHlo.TRef.unary main_call0.c_2 main_call0.v6 (broadcastInDim S800000x1 ![] bcast_S_S800000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S800000x1 ![0, 1] bcast_S1x1_S800000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S800000x1_S800000_d1 h_S_),
    StableHlo.TRef.binary (.of main_arg0 : StableHlo.TRef sig ⟨S50000x128, .f32⟩) main_call0.v5 main_call0.v13 (fun x i => Host.gather gather_S50000x128_S800000x1_S800000x128_1_0_n_n_0_1_1128 x i),
    StableHlo.TRef.unary main_call0.v12 main_call0.v14 (broadcastInDim S800000x128 ![0] bcast_S800000_S800000x128_0),
    StableHlo.TRef.nullary main_call0.cst (constant S_ .f32 0x7FC00000#32),
    StableHlo.TRef.unary main_call0.cst main_call0.v15 (broadcastInDim S800000x128 ![] bcast_S_S800000x128),
    StableHlo.TRef.ternary main_call0.v14 main_call0.v13 main_call0.v15 main_call0.v16 select,
    StableHlo.nullary main_cst (constant S_ .f32 0x00000000#32),
    StableHlo.unary main_cst main_v1 (broadcastInDim S50000x128 ![] bcast_S_S50000x128 : (⟨S_, .f32⟩ : BufTy).Contents (Elt F) → (⟨S50000x128, .f32⟩ : BufTy).Contents (Elt F)),
    StableHlo.unary main_arg2 main_v2 (broadcastInDim S800000x1 ![0] bcast_S800000_S800000x1_0 : (⟨S800000, .i32⟩ : BufTy).Contents (Elt F) → (⟨S800000x1, .i32⟩ : BufTy).Contents (Elt F)),
    StableHlo.ternary main_v1 main_v2 main_v0 main_v3 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg3 main_v4 ((extractStridedSlice S1 ![0] · slices_S5_S1_0) : (⟨S5, .f32⟩ : BufTy).Contents (Elt F) → (⟨S1, .f32⟩ : BufTy).Contents (Elt F)),
    StableHlo.reshape main_v4 main_v5 rfl shapeCasts_S1_S_,
    StableHlo.nullary main_cst_0 (constant S_ .f32 0x3F800000#32),
    StableHlo.binary main_cst_0 main_v5 main_v6 (addf : (⟨S_, .f32⟩ : BufTy).Contents (Elt F) → (⟨S_, .f32⟩ : BufTy).Contents (Elt F) → (⟨S_, .f32⟩ : BufTy).Contents (Elt F)),
    StableHlo.unary main_v6 main_v7 (broadcastInDim S50000x128 ![] bcast_S_S50000x128 : (⟨S_, .f32⟩ : BufTy).Contents (Elt F) → (⟨S50000x128, .f32⟩ : BufTy).Contents (Elt F)),
    StableHlo.binary main_v7 main_arg0 main_v8 (mulf : (⟨S50000x128, .f32⟩ : BufTy).Contents (Elt F) → (⟨S50000x128, .f32⟩ : BufTy).Contents (Elt F) → (⟨S50000x128, .f32⟩ : BufTy).Contents (Elt F)),
    StableHlo.binary main_v3 main_v8 main_v9 (addf : (⟨S50000x128, .f32⟩ : BufTy).Contents (Elt F) → (⟨S50000x128, .f32⟩ : BufTy).Contents (Elt F) → (⟨S50000x128, .f32⟩ : BufTy).Contents (Elt F)),
    StableHlo.unary main_arg4 main_v10 ((extractStridedSlice S1x128x128 ![0, 0, 0] · slices_S5x128x128_S1x128x128_0_0_0) : (⟨S5x128x128, .f32⟩ : BufTy).Contents (Elt F) → (⟨S1x128x128, .f32⟩ : BufTy).Contents (Elt F)),
    StableHlo.reshape main_v10 main_v11 rfl shapeCasts_S1x128x128_S128x128,
    StableHlo.binary main_v9 main_v11 main_v12 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v13 ((extractStridedSlice S1x128 ![0, 0] · slices_S5x128_S1x128_0_0) : (⟨S5x128, .f32⟩ : BufTy).Contents (Elt F) → (⟨S1x128, .f32⟩ : BufTy).Contents (Elt F)),
    StableHlo.reshape main_v13 main_v14 rfl shapeCasts_S1x128_S128,
    StableHlo.unary main_v14 main_v15 (broadcastInDim S1x128 ![1] bcast_S128_S1x128_1 : (⟨S128, .f32⟩ : BufTy).Contents (Elt F) → (⟨S1x128, .f32⟩ : BufTy).Contents (Elt F)),
    StableHlo.unary main_v15 main_v16 (broadcastInDim S50000x128 ![0, 1] bcast_S1x128_S50000x128_0_1 : (⟨S1x128, .f32⟩ : BufTy).Contents (Elt F) → (⟨S50000x128, .f32⟩ : BufTy).Contents (Elt F)),
    StableHlo.binary main_v12 main_v16 main_v17 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v17 : StableHlo.TRef sig ⟨S50000x128, .f32⟩) main_call1.v0 main_call1.v1 maximumf,
    StableHlo.unary main_arg6 main_v19 ((extractStridedSlice S1x128x128 ![0, 0, 0] · slices_S5x128x128_S1x128x128_0_0_0) : (⟨S5x128x128, .f32⟩ : BufTy).Contents (Elt F) → (⟨S1x128x128, .f32⟩ : BufTy).Contents (Elt F)),
    StableHlo.reshape main_v19 main_v20 rfl shapeCasts_S1x128x128_S128x128,
    StableHlo.binary main_v18 main_v20 main_v21 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v22 ((extractStridedSlice S1x128 ![0, 0] · slices_S5x128_S1x128_0_0) : (⟨S5x128, .f32⟩ : BufTy).Contents (Elt F) → (⟨S1x128, .f32⟩ : BufTy).Contents (Elt F)),
    StableHlo.reshape main_v22 main_v23 rfl shapeCasts_S1x128_S128,
    StableHlo.unary main_v23 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S50000x128 ![0, 1] bcast_S1x128_S50000x128_0_1 : (⟨S1x128, .f32⟩ : BufTy).Contents (Elt F) → (⟨S50000x128, .f32⟩ : BufTy).Contents (Elt F)),
    StableHlo.binary main_v21 main_v25 main_v26 (addf : (⟨S50000x128, .f32⟩ : BufTy).Contents (Elt F) → (⟨S50000x128, .f32⟩ : BufTy).Contents (Elt F) → (⟨S50000x128, .f32⟩ : BufTy).Contents (Elt F)),
    StableHlo.unary main_arg8 main_v27 ((extractStridedSlice S1x128 ![0, 0] · slices_S5x128_S1x128_0_0) : (⟨S5x128, .f32⟩ : BufTy).Contents (Elt F) → (⟨S1x128, .f32⟩ : BufTy).Contents (Elt F)),
    StableHlo.reshape main_v27 main_v28 rfl shapeCasts_S1x128_S128,
    StableHlo.unary main_arg10 main_v29 ((extractStridedSlice S1x128 ![0, 0] · slices_S5x128_S1x128_0_0) : (⟨S5x128, .f32⟩ : BufTy).Contents (Elt F) → (⟨S1x128, .f32⟩ : BufTy).Contents (Elt F)),
    StableHlo.reshape main_v29 main_v30 rfl shapeCasts_S1x128_S128,
    StableHlo.unary main_v30 main_v31 (broadcastInDim S1x128 ![1] bcast_S128_S1x128_1 : (⟨S128, .f32⟩ : BufTy).Contents (Elt F) → (⟨S1x128, .f32⟩ : BufTy).Contents (Elt F)),
    StableHlo.unary main_v31 main_v32 (broadcastInDim S50000x128 ![0, 1] bcast_S1x128_S50000x128_0_1 : (⟨S1x128, .f32⟩ : BufTy).Contents (Elt F) → (⟨S50000x128, .f32⟩ : BufTy).Contents (Elt F)),
    StableHlo.binary main_v26 main_v32 main_v33 (subf : (⟨S50000x128, .f32⟩ : BufTy).Contents (Elt F) → (⟨S50000x128, .f32⟩ : BufTy).Contents (Elt F) → (⟨S50000x128, .f32⟩ : BufTy).Contents (Elt F)),
    StableHlo.unary main_v28 main_v34 (broadcastInDim S1x128 ![1] bcast_S128_S1x128_1 : (⟨S128, .f32⟩ : BufTy).Contents (Elt F) → (⟨S1x128, .f32⟩ : BufTy).Contents (Elt F)),
    StableHlo.unary main_v34 main_v35 (broadcastInDim S50000x128 ![0, 1] bcast_S1x128_S50000x128_0_1 : (⟨S1x128, .f32⟩ : BufTy).Contents (Elt F) → (⟨S50000x128, .f32⟩ : BufTy).Contents (Elt F)),
    StableHlo.binary main_v35 main_v33 main_v36 (mulf : (⟨S50000x128, .f32⟩ : BufTy).Contents (Elt F) → (⟨S50000x128, .f32⟩ : BufTy).Contents (Elt F) → (⟨S50000x128, .f32⟩ : BufTy).Contents (Elt F)),
    StableHlo.unary main_arg11 main_v37 ((extractStridedSlice S1x128 ![0, 0] · slices_S5x128_S1x128_0_0) : (⟨S5x128, .f32⟩ : BufTy).Contents (Elt F) → (⟨S1x128, .f32⟩ : BufTy).Contents (Elt F)),
    StableHlo.reshape main_v37 main_v38 rfl shapeCasts_S1x128_S128,
    StableHlo.nullary main_cst_1 (constant S_ .f32 0x3A83126F#32),
    StableHlo.unary main_cst_1 main_v39 (broadcastInDim S128 ![] bcast_S_S128 : (⟨S_, .f32⟩ : BufTy).Contents (Elt F) → (⟨S128, .f32⟩ : BufTy).Contents (Elt F)),
    StableHlo.binary main_v38 main_v39 main_v40 (addf : (⟨S128, .f32⟩ : BufTy).Contents (Elt F) → (⟨S128, .f32⟩ : BufTy).Contents (Elt F) → (⟨S128, .f32⟩ : BufTy).Contents (Elt F)),
    StableHlo.unary main_v40 main_v41 (Host.rsqrt : (⟨S128, .f32⟩ : BufTy).Contents (Elt F) → (⟨S128, .f32⟩ : BufTy).Contents (Elt F)),
    StableHlo.unary main_v41 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S50000x128 ![0, 1] bcast_S1x128_S50000x128_0_1 : (⟨S1x128, .f32⟩ : BufTy).Contents (Elt F) → (⟨S50000x128, .f32⟩ : BufTy).Contents (Elt F)),
    StableHlo.binary main_v36 main_v43 main_v44 (mulf : (⟨S50000x128, .f32⟩ : BufTy).Contents (Elt F) → (⟨S50000x128, .f32⟩ : BufTy).Contents (Elt F) → (⟨S50000x128, .f32⟩ : BufTy).Contents (Elt F)),
    StableHlo.unary main_arg9 main_v45 ((extractStridedSlice S1x128 ![0, 0] · slices_S5x128_S1x128_0_0) : (⟨S5x128, .f32⟩ : BufTy).Contents (Elt F) → (⟨S1x128, .f32⟩ : BufTy).Contents (Elt F)),
    StableHlo.reshape main_v45 main_v46 rfl shapeCasts_S1x128_S128,
    StableHlo.unary main_v46 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S50000x128 ![0, 1] bcast_S1x128_S50000x128_0_1 : (⟨S1x128, .f32⟩ : BufTy).Contents (Elt F) → (⟨S50000x128, .f32⟩ : BufTy).Contents (Elt F)),
    StableHlo.binary main_v44 main_v48 main_v49 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v49 : StableHlo.TRef sig ⟨S50000x128, .f32⟩) main_call2.v0 main_call2.v1 maximumf ]

/-- Layer 1's operations, the first piece (28). -/
abbrev opsL1a : List (HloOp τ sig (Elt F)) :=
  [ StableHlo.TRef.nullary main_call3.c (constantI S_ 32 0#32),
    StableHlo.TRef.unary main_call3.c main_call3.v0 (broadcastInDim S800000 ![] bcast_S_S800000),
    StableHlo.TRef.binary (.of main_arg1 : StableHlo.TRef sig ⟨S800000, .i32⟩) main_call3.v0 main_call3.v1 (cmpi .slt),
    StableHlo.TRef.nullary main_call3.c_0 (constantI S_ 32 50000#32),
    StableHlo.TRef.unary main_call3.c_0 main_call3.v2 (broadcastInDim S800000 ![] bcast_S_S800000),
    StableHlo.TRef.binary (.of main_arg1 : StableHlo.TRef sig ⟨S800000, .i32⟩) main_call3.v2 main_call3.v3 addi,
    StableHlo.TRef.ternary main_call3.v1 main_call3.v3 (.of main_arg1 : StableHlo.TRef sig ⟨S800000, .i32⟩) main_call3.call0.v0 select,
    StableHlo.TRef.unary main_call3.call0.v0 main_call3.v5 (broadcastInDim S800000x1 ![0] bcast_S800000_S800000x1_0),
    StableHlo.TRef.nullary main_call3.c_1 (constantI S1 32 49999#32),
    StableHlo.TRef.nullary main_call3.c_2 (constantI S_ 32 0#32),
    StableHlo.TRef.unary main_call3.c_2 main_call3.v6 (broadcastInDim S800000x1 ![] bcast_S_S800000x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S800000x1 ![0, 1] bcast_S1x1_S800000x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S800000x1_S800000_d1 h_S_),
    StableHlo.TRef.binary (.of main_v50 : StableHlo.TRef sig ⟨S50000x128, .f32⟩) main_call3.v5 main_call3.v13 (fun x i => Host.gather gather_S50000x128_S800000x1_S800000x128_1_0_n_n_0_1_1128 x i),
    StableHlo.TRef.unary main_call3.v12 main_call3.v14 (broadcastInDim S800000x128 ![0] bcast_S800000_S800000x128_0),
    StableHlo.TRef.nullary main_call3.cst (constant S_ .f32 0x7FC00000#32),
    StableHlo.TRef.unary main_call3.cst main_call3.v15 (broadcastInDim S800000x128 ![] bcast_S_S800000x128),
    StableHlo.TRef.ternary main_call3.v14 main_call3.v13 main_call3.v15 main_call3.v16 select,
    StableHlo.nullary main_cst_2 (constant S_ .f32 0x00000000#32),
    StableHlo.unary main_cst_2 main_v52 (broadcastInDim S50000x128 ![] bcast_S_S50000x128 : (⟨S_, .f32⟩ : BufTy).Contents (Elt F) → (⟨S50000x128, .f32⟩ : BufTy).Contents (Elt F)),
    StableHlo.unary main_arg2 main_v53 (broadcastInDim S800000x1 ![0] bcast_S800000_S800000x1_0 : (⟨S800000, .i32⟩ : BufTy).Contents (Elt F) → (⟨S800000x1, .i32⟩ : BufTy).Contents (Elt F)),
    StableHlo.ternary main_v52 main_v53 main_v51 main_v54 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg3 main_v55 ((extractStridedSlice S1 ![1] · slices_S5_S1_1) : (⟨S5, .f32⟩ : BufTy).Contents (Elt F) → (⟨S1, .f32⟩ : BufTy).Contents (Elt F)) ]

/-- Layer 1's operations, the second piece (52). -/
abbrev opsL1b : List (HloOp τ sig (Elt F)) :=
  [ StableHlo.reshape main_v55 main_v56 rfl shapeCasts_S1_S_,
    StableHlo.nullary main_cst_3 (constant S_ .f32 0x3F800000#32),
    StableHlo.binary main_cst_3 main_v56 main_v57 (addf : (⟨S_, .f32⟩ : BufTy).Contents (Elt F) → (⟨S_, .f32⟩ : BufTy).Contents (Elt F) → (⟨S_, .f32⟩ : BufTy).Contents (Elt F)),
    StableHlo.unary main_v57 main_v58 (broadcastInDim S50000x128 ![] bcast_S_S50000x128 : (⟨S_, .f32⟩ : BufTy).Contents (Elt F) → (⟨S50000x128, .f32⟩ : BufTy).Contents (Elt F)),
    StableHlo.binary main_v58 main_v50 main_v59 (mulf : (⟨S50000x128, .f32⟩ : BufTy).Contents (Elt F) → (⟨S50000x128, .f32⟩ : BufTy).Contents (Elt F) → (⟨S50000x128, .f32⟩ : BufTy).Contents (Elt F)),
    StableHlo.binary main_v54 main_v59 main_v60 (addf : (⟨S50000x128, .f32⟩ : BufTy).Contents (Elt F) → (⟨S50000x128, .f32⟩ : BufTy).Contents (Elt F) → (⟨S50000x128, .f32⟩ : BufTy).Contents (Elt F)),
    StableHlo.unary main_arg4 main_v61 ((extractStridedSlice S1x128x128 ![1, 0, 0] · slices_S5x128x128_S1x128x128_1_0_0) : (⟨S5x128x128, .f32⟩ : BufTy).Contents (Elt F) → (⟨S1x128x128, .f32⟩ : BufTy).Contents (Elt F)),
    StableHlo.reshape main_v61 main_v62 rfl shapeCasts_S1x128x128_S128x128,
    StableHlo.binary main_v60 main_v62 main_v63 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v64 ((extractStridedSlice S1x128 ![1, 0] · slices_S5x128_S1x128_1_0) : (⟨S5x128, .f32⟩ : BufTy).Contents (Elt F) → (⟨S1x128, .f32⟩ : BufTy).Contents (Elt F)),
    StableHlo.reshape main_v64 main_v65 rfl shapeCasts_S1x128_S128,
    StableHlo.unary main_v65 main_v66 (broadcastInDim S1x128 ![1] bcast_S128_S1x128_1 : (⟨S128, .f32⟩ : BufTy).Contents (Elt F) → (⟨S1x128, .f32⟩ : BufTy).Contents (Elt F)),
    StableHlo.unary main_v66 main_v67 (broadcastInDim S50000x128 ![0, 1] bcast_S1x128_S50000x128_0_1 : (⟨S1x128, .f32⟩ : BufTy).Contents (Elt F) → (⟨S50000x128, .f32⟩ : BufTy).Contents (Elt F)),
    StableHlo.binary main_v63 main_v67 main_v68 (addf : (⟨S50000x128, .f32⟩ : BufTy).Contents (Elt F) → (⟨S50000x128, .f32⟩ : BufTy).Contents (Elt F) → (⟨S50000x128, .f32⟩ : BufTy).Contents (Elt F)),
    StableHlo.TRef.nullary main_call4.cst (constant S_ .f32 0x00000000#32),
    StableHlo.TRef.unary main_call4.cst main_call4.v0 (broadcastInDim S50000x128 ![] bcast_S_S50000x128),
    StableHlo.TRef.binary (.of main_v68 : StableHlo.TRef sig ⟨S50000x128, .f32⟩) main_call4.v0 main_call4.v1 maximumf,
    StableHlo.unary main_arg6 main_v70 ((extractStridedSlice S1x128x128 ![1, 0, 0] · slices_S5x128x128_S1x128x128_1_0_0) : (⟨S5x128x128, .f32⟩ : BufTy).Contents (Elt F) → (⟨S1x128x128, .f32⟩ : BufTy).Contents (Elt F)),
    StableHlo.reshape main_v70 main_v71 rfl shapeCasts_S1x128x128_S128x128,
    StableHlo.binary main_v69 main_v71 main_v72 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v73 ((extractStridedSlice S1x128 ![1, 0] · slices_S5x128_S1x128_1_0) : (⟨S5x128, .f32⟩ : BufTy).Contents (Elt F) → (⟨S1x128, .f32⟩ : BufTy).Contents (Elt F)),
    StableHlo.reshape main_v73 main_v74 rfl shapeCasts_S1x128_S128,
    StableHlo.unary main_v74 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S50000x128 ![0, 1] bcast_S1x128_S50000x128_0_1 : (⟨S1x128, .f32⟩ : BufTy).Contents (Elt F) → (⟨S50000x128, .f32⟩ : BufTy).Contents (Elt F)),
    StableHlo.binary main_v72 main_v76 main_v77 (addf : (⟨S50000x128, .f32⟩ : BufTy).Contents (Elt F) → (⟨S50000x128, .f32⟩ : BufTy).Contents (Elt F) → (⟨S50000x128, .f32⟩ : BufTy).Contents (Elt F)),
    StableHlo.unary main_arg8 main_v78 ((extractStridedSlice S1x128 ![1, 0] · slices_S5x128_S1x128_1_0) : (⟨S5x128, .f32⟩ : BufTy).Contents (Elt F) → (⟨S1x128, .f32⟩ : BufTy).Contents (Elt F)),
    StableHlo.reshape main_v78 main_v79 rfl shapeCasts_S1x128_S128,
    StableHlo.unary main_arg10 main_v80 ((extractStridedSlice S1x128 ![1, 0] · slices_S5x128_S1x128_1_0) : (⟨S5x128, .f32⟩ : BufTy).Contents (Elt F) → (⟨S1x128, .f32⟩ : BufTy).Contents (Elt F)),
    StableHlo.reshape main_v80 main_v81 rfl shapeCasts_S1x128_S128,
    StableHlo.unary main_v81 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S50000x128 ![0, 1] bcast_S1x128_S50000x128_0_1 : (⟨S1x128, .f32⟩ : BufTy).Contents (Elt F) → (⟨S50000x128, .f32⟩ : BufTy).Contents (Elt F)),
    StableHlo.binary main_v77 main_v83 main_v84 (subf : (⟨S50000x128, .f32⟩ : BufTy).Contents (Elt F) → (⟨S50000x128, .f32⟩ : BufTy).Contents (Elt F) → (⟨S50000x128, .f32⟩ : BufTy).Contents (Elt F)),
    StableHlo.unary main_v79 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S50000x128 ![0, 1] bcast_S1x128_S50000x128_0_1 : (⟨S1x128, .f32⟩ : BufTy).Contents (Elt F) → (⟨S50000x128, .f32⟩ : BufTy).Contents (Elt F)),
    StableHlo.binary main_v86 main_v84 main_v87 (mulf : (⟨S50000x128, .f32⟩ : BufTy).Contents (Elt F) → (⟨S50000x128, .f32⟩ : BufTy).Contents (Elt F) → (⟨S50000x128, .f32⟩ : BufTy).Contents (Elt F)),
    StableHlo.unary main_arg11 main_v88 ((extractStridedSlice S1x128 ![1, 0] · slices_S5x128_S1x128_1_0) : (⟨S5x128, .f32⟩ : BufTy).Contents (Elt F) → (⟨S1x128, .f32⟩ : BufTy).Contents (Elt F)),
    StableHlo.reshape main_v88 main_v89 rfl shapeCasts_S1x128_S128,
    StableHlo.nullary main_cst_4 (constant S_ .f32 0x3A83126F#32),
    StableHlo.unary main_cst_4 main_v90 (broadcastInDim S128 ![] bcast_S_S128 : (⟨S_, .f32⟩ : BufTy).Contents (Elt F) → (⟨S128, .f32⟩ : BufTy).Contents (Elt F)),
    StableHlo.binary main_v89 main_v90 main_v91 (addf : (⟨S128, .f32⟩ : BufTy).Contents (Elt F) → (⟨S128, .f32⟩ : BufTy).Contents (Elt F) → (⟨S128, .f32⟩ : BufTy).Contents (Elt F)),
    StableHlo.unary main_v91 main_v92 (Host.rsqrt : (⟨S128, .f32⟩ : BufTy).Contents (Elt F) → (⟨S128, .f32⟩ : BufTy).Contents (Elt F)),
    StableHlo.unary main_v92 main_v93 (broadcastInDim S1x128 ![1] bcast_S128_S1x128_1 : (⟨S128, .f32⟩ : BufTy).Contents (Elt F) → (⟨S1x128, .f32⟩ : BufTy).Contents (Elt F)),
    StableHlo.unary main_v93 main_v94 (broadcastInDim S50000x128 ![0, 1] bcast_S1x128_S50000x128_0_1 : (⟨S1x128, .f32⟩ : BufTy).Contents (Elt F) → (⟨S50000x128, .f32⟩ : BufTy).Contents (Elt F)),
    StableHlo.binary main_v87 main_v94 main_v95 (mulf : (⟨S50000x128, .f32⟩ : BufTy).Contents (Elt F) → (⟨S50000x128, .f32⟩ : BufTy).Contents (Elt F) → (⟨S50000x128, .f32⟩ : BufTy).Contents (Elt F)),
    StableHlo.unary main_arg9 main_v96 ((extractStridedSlice S1x128 ![1, 0] · slices_S5x128_S1x128_1_0) : (⟨S5x128, .f32⟩ : BufTy).Contents (Elt F) → (⟨S1x128, .f32⟩ : BufTy).Contents (Elt F)),
    StableHlo.reshape main_v96 main_v97 rfl shapeCasts_S1x128_S128,
    StableHlo.unary main_v97 main_v98 (broadcastInDim S1x128 ![1] bcast_S128_S1x128_1 : (⟨S128, .f32⟩ : BufTy).Contents (Elt F) → (⟨S1x128, .f32⟩ : BufTy).Contents (Elt F)),
    StableHlo.unary main_v98 main_v99 (broadcastInDim S50000x128 ![0, 1] bcast_S1x128_S50000x128_0_1 : (⟨S1x128, .f32⟩ : BufTy).Contents (Elt F) → (⟨S50000x128, .f32⟩ : BufTy).Contents (Elt F)),
    StableHlo.binary main_v95 main_v99 main_v100 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v100 : StableHlo.TRef sig ⟨S50000x128, .f32⟩) main_call5.v0 main_call5.v1 maximumf ]

/-- Layer 2's operations, the first piece (34). -/
abbrev opsL2a : List (HloOp τ sig (Elt F)) :=
  [ StableHlo.TRef.nullary main_call6.c (constantI S_ 32 0#32),
    StableHlo.TRef.unary main_call6.c main_call6.v0 (broadcastInDim S800000 ![] bcast_S_S800000),
    StableHlo.TRef.binary (.of main_arg1 : StableHlo.TRef sig ⟨S800000, .i32⟩) main_call6.v0 main_call6.v1 (cmpi .slt),
    StableHlo.TRef.nullary main_call6.c_0 (constantI S_ 32 50000#32),
    StableHlo.TRef.unary main_call6.c_0 main_call6.v2 (broadcastInDim S800000 ![] bcast_S_S800000),
    StableHlo.TRef.binary (.of main_arg1 : StableHlo.TRef sig ⟨S800000, .i32⟩) main_call6.v2 main_call6.v3 addi,
    StableHlo.TRef.ternary main_call6.v1 main_call6.v3 (.of main_arg1 : StableHlo.TRef sig ⟨S800000, .i32⟩) main_call6.call0.v0 select,
    StableHlo.TRef.unary main_call6.call0.v0 main_call6.v5 (broadcastInDim S800000x1 ![0] bcast_S800000_S800000x1_0),
    StableHlo.TRef.nullary main_call6.c_1 (constantI S1 32 49999#32),
    StableHlo.TRef.nullary main_call6.c_2 (constantI S_ 32 0#32),
    StableHlo.TRef.unary main_call6.c_2 main_call6.v6 (broadcastInDim S800000x1 ![] bcast_S_S800000x1),
    StableHlo.TRef.binary main_call6.v5 main_call6.v6 main_call6.v7 (cmpi .sge),
    StableHlo.TRef.unary main_call6.c_1 main_call6.v8 (broadcastInDim S1x1 ![1] bcast_S1_S1x1_1),
    StableHlo.TRef.unary main_call6.v8 main_call6.v9 (broadcastInDim S800000x1 ![0, 1] bcast_S1x1_S800000x1_0_1),
    StableHlo.TRef.binary main_call6.v5 main_call6.v9 main_call6.v10 (cmpi .sle),
    StableHlo.TRef.binary main_call6.v7 main_call6.v10 main_call6.v11 andi,
    StableHlo.TRef.nullary main_call6.c_3 (constantI S_ 1 1#1),
    StableHlo.TRef.binary main_call6.v11 main_call6.c_3 main_call6.v12 (fun x v => Host.reduce IntOp.andi x v reducesTo_S800000x1_S800000_d1 h_S_),
    StableHlo.TRef.binary (.of main_v101 : StableHlo.TRef sig ⟨S50000x128, .f32⟩) main_call6.v5 main_call6.v13 (fun x i => Host.gather gather_S50000x128_S800000x1_S800000x128_1_0_n_n_0_1_1128 x i),
    StableHlo.TRef.unary main_call6.v12 main_call6.v14 (broadcastInDim S800000x128 ![0] bcast_S800000_S800000x128_0),
    StableHlo.TRef.nullary main_call6.cst (constant S_ .f32 0x7FC00000#32),
    StableHlo.TRef.unary main_call6.cst main_call6.v15 (broadcastInDim S800000x128 ![] bcast_S_S800000x128),
    StableHlo.TRef.ternary main_call6.v14 main_call6.v13 main_call6.v15 main_call6.v16 select,
    StableHlo.nullary main_cst_5 (constant S_ .f32 0x00000000#32),
    StableHlo.unary main_cst_5 main_v103 (broadcastInDim S50000x128 ![] bcast_S_S50000x128 : (⟨S_, .f32⟩ : BufTy).Contents (Elt F) → (⟨S50000x128, .f32⟩ : BufTy).Contents (Elt F)),
    StableHlo.unary main_arg2 main_v104 (broadcastInDim S800000x1 ![0] bcast_S800000_S800000x1_0 : (⟨S800000, .i32⟩ : BufTy).Contents (Elt F) → (⟨S800000x1, .i32⟩ : BufTy).Contents (Elt F)),
    StableHlo.ternary main_v103 main_v104 main_v102 main_v105 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg3 main_v106 ((extractStridedSlice S1 ![2] · slices_S5_S1_2) : (⟨S5, .f32⟩ : BufTy).Contents (Elt F) → (⟨S1, .f32⟩ : BufTy).Contents (Elt F)),
    StableHlo.reshape main_v106 main_v107 rfl shapeCasts_S1_S_,
    StableHlo.nullary main_cst_6 (constant S_ .f32 0x3F800000#32),
    StableHlo.binary main_cst_6 main_v107 main_v108 (addf : (⟨S_, .f32⟩ : BufTy).Contents (Elt F) → (⟨S_, .f32⟩ : BufTy).Contents (Elt F) → (⟨S_, .f32⟩ : BufTy).Contents (Elt F)),
    StableHlo.unary main_v108 main_v109 (broadcastInDim S50000x128 ![] bcast_S_S50000x128 : (⟨S_, .f32⟩ : BufTy).Contents (Elt F) → (⟨S50000x128, .f32⟩ : BufTy).Contents (Elt F)),
    StableHlo.binary main_v109 main_v101 main_v110 (mulf : (⟨S50000x128, .f32⟩ : BufTy).Contents (Elt F) → (⟨S50000x128, .f32⟩ : BufTy).Contents (Elt F) → (⟨S50000x128, .f32⟩ : BufTy).Contents (Elt F)),
    StableHlo.binary main_v105 main_v110 main_v111 (addf : (⟨S50000x128, .f32⟩ : BufTy).Contents (Elt F) → (⟨S50000x128, .f32⟩ : BufTy).Contents (Elt F) → (⟨S50000x128, .f32⟩ : BufTy).Contents (Elt F)) ]

/-- Layer 2's operations, the second piece (46). -/
abbrev opsL2b : List (HloOp τ sig (Elt F)) :=
  [ StableHlo.unary main_arg4 main_v112 ((extractStridedSlice S1x128x128 ![2, 0, 0] · slices_S5x128x128_S1x128x128_2_0_0) : (⟨S5x128x128, .f32⟩ : BufTy).Contents (Elt F) → (⟨S1x128x128, .f32⟩ : BufTy).Contents (Elt F)),
    StableHlo.reshape main_v112 main_v113 rfl shapeCasts_S1x128x128_S128x128,
    StableHlo.binary main_v111 main_v113 main_v114 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v115 ((extractStridedSlice S1x128 ![2, 0] · slices_S5x128_S1x128_2_0) : (⟨S5x128, .f32⟩ : BufTy).Contents (Elt F) → (⟨S1x128, .f32⟩ : BufTy).Contents (Elt F)),
    StableHlo.reshape main_v115 main_v116 rfl shapeCasts_S1x128_S128,
    StableHlo.unary main_v116 main_v117 (broadcastInDim S1x128 ![1] bcast_S128_S1x128_1 : (⟨S128, .f32⟩ : BufTy).Contents (Elt F) → (⟨S1x128, .f32⟩ : BufTy).Contents (Elt F)),
    StableHlo.unary main_v117 main_v118 (broadcastInDim S50000x128 ![0, 1] bcast_S1x128_S50000x128_0_1 : (⟨S1x128, .f32⟩ : BufTy).Contents (Elt F) → (⟨S50000x128, .f32⟩ : BufTy).Contents (Elt F)),
    StableHlo.binary main_v114 main_v118 main_v119 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (.of main_v119 : StableHlo.TRef sig ⟨S50000x128, .f32⟩) main_call7.v0 main_call7.v1 maximumf,
    StableHlo.unary main_arg6 main_v121 ((extractStridedSlice S1x128x128 ![2, 0, 0] · slices_S5x128x128_S1x128x128_2_0_0) : (⟨S5x128x128, .f32⟩ : BufTy).Contents (Elt F) → (⟨S1x128x128, .f32⟩ : BufTy).Contents (Elt F)),
    StableHlo.reshape main_v121 main_v122 rfl shapeCasts_S1x128x128_S128x128,
    StableHlo.binary main_v120 main_v122 main_v123 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v124 ((extractStridedSlice S1x128 ![2, 0] · slices_S5x128_S1x128_2_0) : (⟨S5x128, .f32⟩ : BufTy).Contents (Elt F) → (⟨S1x128, .f32⟩ : BufTy).Contents (Elt F)),
    StableHlo.reshape main_v124 main_v125 rfl shapeCasts_S1x128_S128,
    StableHlo.unary main_v125 main_v126 (broadcastInDim S1x128 ![1] bcast_S128_S1x128_1 : (⟨S128, .f32⟩ : BufTy).Contents (Elt F) → (⟨S1x128, .f32⟩ : BufTy).Contents (Elt F)),
    StableHlo.unary main_v126 main_v127 (broadcastInDim S50000x128 ![0, 1] bcast_S1x128_S50000x128_0_1 : (⟨S1x128, .f32⟩ : BufTy).Contents (Elt F) → (⟨S50000x128, .f32⟩ : BufTy).Contents (Elt F)),
    StableHlo.binary main_v123 main_v127 main_v128 (addf : (⟨S50000x128, .f32⟩ : BufTy).Contents (Elt F) → (⟨S50000x128, .f32⟩ : BufTy).Contents (Elt F) → (⟨S50000x128, .f32⟩ : BufTy).Contents (Elt F)),
    StableHlo.unary main_arg8 main_v129 ((extractStridedSlice S1x128 ![2, 0] · slices_S5x128_S1x128_2_0) : (⟨S5x128, .f32⟩ : BufTy).Contents (Elt F) → (⟨S1x128, .f32⟩ : BufTy).Contents (Elt F)),
    StableHlo.reshape main_v129 main_v130 rfl shapeCasts_S1x128_S128,
    StableHlo.unary main_arg10 main_v131 ((extractStridedSlice S1x128 ![2, 0] · slices_S5x128_S1x128_2_0) : (⟨S5x128, .f32⟩ : BufTy).Contents (Elt F) → (⟨S1x128, .f32⟩ : BufTy).Contents (Elt F)),
    StableHlo.reshape main_v131 main_v132 rfl shapeCasts_S1x128_S128,
    StableHlo.unary main_v132 main_v133 (broadcastInDim S1x128 ![1] bcast_S128_S1x128_1 : (⟨S128, .f32⟩ : BufTy).Contents (Elt F) → (⟨S1x128, .f32⟩ : BufTy).Contents (Elt F)),
    StableHlo.unary main_v133 main_v134 (broadcastInDim S50000x128 ![0, 1] bcast_S1x128_S50000x128_0_1 : (⟨S1x128, .f32⟩ : BufTy).Contents (Elt F) → (⟨S50000x128, .f32⟩ : BufTy).Contents (Elt F)),
    StableHlo.binary main_v128 main_v134 main_v135 (subf : (⟨S50000x128, .f32⟩ : BufTy).Contents (Elt F) → (⟨S50000x128, .f32⟩ : BufTy).Contents (Elt F) → (⟨S50000x128, .f32⟩ : BufTy).Contents (Elt F)),
    StableHlo.unary main_v130 main_v136 (broadcastInDim S1x128 ![1] bcast_S128_S1x128_1 : (⟨S128, .f32⟩ : BufTy).Contents (Elt F) → (⟨S1x128, .f32⟩ : BufTy).Contents (Elt F)),
    StableHlo.unary main_v136 main_v137 (broadcastInDim S50000x128 ![0, 1] bcast_S1x128_S50000x128_0_1 : (⟨S1x128, .f32⟩ : BufTy).Contents (Elt F) → (⟨S50000x128, .f32⟩ : BufTy).Contents (Elt F)),
    StableHlo.binary main_v137 main_v135 main_v138 (mulf : (⟨S50000x128, .f32⟩ : BufTy).Contents (Elt F) → (⟨S50000x128, .f32⟩ : BufTy).Contents (Elt F) → (⟨S50000x128, .f32⟩ : BufTy).Contents (Elt F)),
    StableHlo.unary main_arg11 main_v139 ((extractStridedSlice S1x128 ![2, 0] · slices_S5x128_S1x128_2_0) : (⟨S5x128, .f32⟩ : BufTy).Contents (Elt F) → (⟨S1x128, .f32⟩ : BufTy).Contents (Elt F)),
    StableHlo.reshape main_v139 main_v140 rfl shapeCasts_S1x128_S128,
    StableHlo.nullary main_cst_7 (constant S_ .f32 0x3A83126F#32),
    StableHlo.unary main_cst_7 main_v141 (broadcastInDim S128 ![] bcast_S_S128 : (⟨S_, .f32⟩ : BufTy).Contents (Elt F) → (⟨S128, .f32⟩ : BufTy).Contents (Elt F)),
    StableHlo.binary main_v140 main_v141 main_v142 (addf : (⟨S128, .f32⟩ : BufTy).Contents (Elt F) → (⟨S128, .f32⟩ : BufTy).Contents (Elt F) → (⟨S128, .f32⟩ : BufTy).Contents (Elt F)),
    StableHlo.unary main_v142 main_v143 (Host.rsqrt : (⟨S128, .f32⟩ : BufTy).Contents (Elt F) → (⟨S128, .f32⟩ : BufTy).Contents (Elt F)),
    StableHlo.unary main_v143 main_v144 (broadcastInDim S1x128 ![1] bcast_S128_S1x128_1 : (⟨S128, .f32⟩ : BufTy).Contents (Elt F) → (⟨S1x128, .f32⟩ : BufTy).Contents (Elt F)),
    StableHlo.unary main_v144 main_v145 (broadcastInDim S50000x128 ![0, 1] bcast_S1x128_S50000x128_0_1 : (⟨S1x128, .f32⟩ : BufTy).Contents (Elt F) → (⟨S50000x128, .f32⟩ : BufTy).Contents (Elt F)),
    StableHlo.binary main_v138 main_v145 main_v146 (mulf : (⟨S50000x128, .f32⟩ : BufTy).Contents (Elt F) → (⟨S50000x128, .f32⟩ : BufTy).Contents (Elt F) → (⟨S50000x128, .f32⟩ : BufTy).Contents (Elt F)),
    StableHlo.unary main_arg9 main_v147 ((extractStridedSlice S1x128 ![2, 0] · slices_S5x128_S1x128_2_0) : (⟨S5x128, .f32⟩ : BufTy).Contents (Elt F) → (⟨S1x128, .f32⟩ : BufTy).Contents (Elt F)),
    StableHlo.reshape main_v147 main_v148 rfl shapeCasts_S1x128_S128,
    StableHlo.unary main_v148 main_v149 (broadcastInDim S1x128 ![1] bcast_S128_S1x128_1 : (⟨S128, .f32⟩ : BufTy).Contents (Elt F) → (⟨S1x128, .f32⟩ : BufTy).Contents (Elt F)),
    StableHlo.unary main_v149 main_v150 (broadcastInDim S50000x128 ![0, 1] bcast_S1x128_S50000x128_0_1 : (⟨S1x128, .f32⟩ : BufTy).Contents (Elt F) → (⟨S50000x128, .f32⟩ : BufTy).Contents (Elt F)),
    StableHlo.binary main_v146 main_v150 main_v151 (addf : (⟨S50000x128, .f32⟩ : BufTy).Contents (Elt F) → (⟨S50000x128, .f32⟩ : BufTy).Contents (Elt F) → (⟨S50000x128, .f32⟩ : BufTy).Contents (Elt F)),
    StableHlo.TRef.nullary main_call8.cst (constant S_ .f32 0x00000000#32),
    StableHlo.TRef.unary main_call8.cst main_call8.v0 (broadcastInDim S50000x128 ![] bcast_S_S50000x128),
    StableHlo.TRef.binary (.of main_v151 : StableHlo.TRef sig ⟨S50000x128, .f32⟩) main_call8.v0 main_call8.v1 maximumf ]

/-- Layer 3's operations, the first piece (40). -/
abbrev opsL3a : List (HloOp τ sig (Elt F)) :=
  [ StableHlo.TRef.nullary main_call9.c (constantI S_ 32 0#32),
    StableHlo.TRef.unary main_call9.c main_call9.v0 (broadcastInDim S800000 ![] bcast_S_S800000),
    StableHlo.TRef.binary (.of main_arg1 : StableHlo.TRef sig ⟨S800000, .i32⟩) main_call9.v0 main_call9.v1 (cmpi .slt),
    StableHlo.TRef.nullary main_call9.c_0 (constantI S_ 32 50000#32),
    StableHlo.TRef.unary main_call9.c_0 main_call9.v2 (broadcastInDim S800000 ![] bcast_S_S800000),
    StableHlo.TRef.binary (.of main_arg1 : StableHlo.TRef sig ⟨S800000, .i32⟩) main_call9.v2 main_call9.v3 addi,
    StableHlo.TRef.ternary main_call9.v1 main_call9.v3 (.of main_arg1 : StableHlo.TRef sig ⟨S800000, .i32⟩) main_call9.call0.v0 select,
    StableHlo.TRef.unary main_call9.call0.v0 main_call9.v5 (broadcastInDim S800000x1 ![0] bcast_S800000_S800000x1_0),
    StableHlo.TRef.nullary main_call9.c_1 (constantI S1 32 49999#32),
    StableHlo.TRef.nullary main_call9.c_2 (constantI S_ 32 0#32),
    StableHlo.TRef.unary main_call9.c_2 main_call9.v6 (broadcastInDim S800000x1 ![] bcast_S_S800000x1),
    StableHlo.TRef.binary main_call9.v5 main_call9.v6 main_call9.v7 (cmpi .sge),
    StableHlo.TRef.unary main_call9.c_1 main_call9.v8 (broadcastInDim S1x1 ![1] bcast_S1_S1x1_1),
    StableHlo.TRef.unary main_call9.v8 main_call9.v9 (broadcastInDim S800000x1 ![0, 1] bcast_S1x1_S800000x1_0_1),
    StableHlo.TRef.binary main_call9.v5 main_call9.v9 main_call9.v10 (cmpi .sle),
    StableHlo.TRef.binary main_call9.v7 main_call9.v10 main_call9.v11 andi,
    StableHlo.TRef.nullary main_call9.c_3 (constantI S_ 1 1#1),
    StableHlo.TRef.binary main_call9.v11 main_call9.c_3 main_call9.v12 (fun x v => Host.reduce IntOp.andi x v reducesTo_S800000x1_S800000_d1 h_S_),
    StableHlo.TRef.binary (.of main_v152 : StableHlo.TRef sig ⟨S50000x128, .f32⟩) main_call9.v5 main_call9.v13 (fun x i => Host.gather gather_S50000x128_S800000x1_S800000x128_1_0_n_n_0_1_1128 x i),
    StableHlo.TRef.unary main_call9.v12 main_call9.v14 (broadcastInDim S800000x128 ![0] bcast_S800000_S800000x128_0),
    StableHlo.TRef.nullary main_call9.cst (constant S_ .f32 0x7FC00000#32),
    StableHlo.TRef.unary main_call9.cst main_call9.v15 (broadcastInDim S800000x128 ![] bcast_S_S800000x128),
    StableHlo.TRef.ternary main_call9.v14 main_call9.v13 main_call9.v15 main_call9.v16 select,
    StableHlo.nullary main_cst_8 (constant S_ .f32 0x00000000#32),
    StableHlo.unary main_cst_8 main_v154 (broadcastInDim S50000x128 ![] bcast_S_S50000x128 : (⟨S_, .f32⟩ : BufTy).Contents (Elt F) → (⟨S50000x128, .f32⟩ : BufTy).Contents (Elt F)),
    StableHlo.unary main_arg2 main_v155 (broadcastInDim S800000x1 ![0] bcast_S800000_S800000x1_0 : (⟨S800000, .i32⟩ : BufTy).Contents (Elt F) → (⟨S800000x1, .i32⟩ : BufTy).Contents (Elt F)),
    StableHlo.ternary main_v154 main_v155 main_v153 main_v156 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg3 main_v157 ((extractStridedSlice S1 ![3] · slices_S5_S1_3) : (⟨S5, .f32⟩ : BufTy).Contents (Elt F) → (⟨S1, .f32⟩ : BufTy).Contents (Elt F)),
    StableHlo.reshape main_v157 main_v158 rfl shapeCasts_S1_S_,
    StableHlo.nullary main_cst_9 (constant S_ .f32 0x3F800000#32),
    StableHlo.binary main_cst_9 main_v158 main_v159 (addf : (⟨S_, .f32⟩ : BufTy).Contents (Elt F) → (⟨S_, .f32⟩ : BufTy).Contents (Elt F) → (⟨S_, .f32⟩ : BufTy).Contents (Elt F)),
    StableHlo.unary main_v159 main_v160 (broadcastInDim S50000x128 ![] bcast_S_S50000x128 : (⟨S_, .f32⟩ : BufTy).Contents (Elt F) → (⟨S50000x128, .f32⟩ : BufTy).Contents (Elt F)),
    StableHlo.binary main_v160 main_v152 main_v161 (mulf : (⟨S50000x128, .f32⟩ : BufTy).Contents (Elt F) → (⟨S50000x128, .f32⟩ : BufTy).Contents (Elt F) → (⟨S50000x128, .f32⟩ : BufTy).Contents (Elt F)),
    StableHlo.binary main_v156 main_v161 main_v162 (addf : (⟨S50000x128, .f32⟩ : BufTy).Contents (Elt F) → (⟨S50000x128, .f32⟩ : BufTy).Contents (Elt F) → (⟨S50000x128, .f32⟩ : BufTy).Contents (Elt F)),
    StableHlo.unary main_arg4 main_v163 ((extractStridedSlice S1x128x128 ![3, 0, 0] · slices_S5x128x128_S1x128x128_3_0_0) : (⟨S5x128x128, .f32⟩ : BufTy).Contents (Elt F) → (⟨S1x128x128, .f32⟩ : BufTy).Contents (Elt F)),
    StableHlo.reshape main_v163 main_v164 rfl shapeCasts_S1x128x128_S128x128,
    StableHlo.binary main_v162 main_v164 main_v165 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v166 ((extractStridedSlice S1x128 ![3, 0] · slices_S5x128_S1x128_3_0) : (⟨S5x128, .f32⟩ : BufTy).Contents (Elt F) → (⟨S1x128, .f32⟩ : BufTy).Contents (Elt F)),
    StableHlo.reshape main_v166 main_v167 rfl shapeCasts_S1x128_S128,
    StableHlo.unary main_v167 main_v168 (broadcastInDim S1x128 ![1] bcast_S128_S1x128_1 : (⟨S128, .f32⟩ : BufTy).Contents (Elt F) → (⟨S1x128, .f32⟩ : BufTy).Contents (Elt F)) ]

/-- Layer 3's operations, the second piece (40). -/
abbrev opsL3b : List (HloOp τ sig (Elt F)) :=
  [ StableHlo.unary main_v168 main_v169 (broadcastInDim S50000x128 ![0, 1] bcast_S1x128_S50000x128_0_1 : (⟨S1x128, .f32⟩ : BufTy).Contents (Elt F) → (⟨S50000x128, .f32⟩ : BufTy).Contents (Elt F)),
    StableHlo.binary main_v165 main_v169 main_v170 (addf : (⟨S50000x128, .f32⟩ : BufTy).Contents (Elt F) → (⟨S50000x128, .f32⟩ : BufTy).Contents (Elt F) → (⟨S50000x128, .f32⟩ : BufTy).Contents (Elt F)),
    StableHlo.TRef.nullary main_call10.cst (constant S_ .f32 0x00000000#32),
    StableHlo.TRef.unary main_call10.cst main_call10.v0 (broadcastInDim S50000x128 ![] bcast_S_S50000x128),
    StableHlo.TRef.binary (.of main_v170 : StableHlo.TRef sig ⟨S50000x128, .f32⟩) main_call10.v0 main_call10.v1 maximumf,
    StableHlo.unary main_arg6 main_v172 ((extractStridedSlice S1x128x128 ![3, 0, 0] · slices_S5x128x128_S1x128x128_3_0_0) : (⟨S5x128x128, .f32⟩ : BufTy).Contents (Elt F) → (⟨S1x128x128, .f32⟩ : BufTy).Contents (Elt F)),
    StableHlo.reshape main_v172 main_v173 rfl shapeCasts_S1x128x128_S128x128,
    StableHlo.binary main_v171 main_v173 main_v174 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v175 ((extractStridedSlice S1x128 ![3, 0] · slices_S5x128_S1x128_3_0) : (⟨S5x128, .f32⟩ : BufTy).Contents (Elt F) → (⟨S1x128, .f32⟩ : BufTy).Contents (Elt F)),
    StableHlo.reshape main_v175 main_v176 rfl shapeCasts_S1x128_S128,
    StableHlo.unary main_v176 main_v177 (broadcastInDim S1x128 ![1] bcast_S128_S1x128_1 : (⟨S128, .f32⟩ : BufTy).Contents (Elt F) → (⟨S1x128, .f32⟩ : BufTy).Contents (Elt F)),
    StableHlo.unary main_v177 main_v178 (broadcastInDim S50000x128 ![0, 1] bcast_S1x128_S50000x128_0_1 : (⟨S1x128, .f32⟩ : BufTy).Contents (Elt F) → (⟨S50000x128, .f32⟩ : BufTy).Contents (Elt F)),
    StableHlo.binary main_v174 main_v178 main_v179 (addf : (⟨S50000x128, .f32⟩ : BufTy).Contents (Elt F) → (⟨S50000x128, .f32⟩ : BufTy).Contents (Elt F) → (⟨S50000x128, .f32⟩ : BufTy).Contents (Elt F)),
    StableHlo.unary main_arg8 main_v180 ((extractStridedSlice S1x128 ![3, 0] · slices_S5x128_S1x128_3_0) : (⟨S5x128, .f32⟩ : BufTy).Contents (Elt F) → (⟨S1x128, .f32⟩ : BufTy).Contents (Elt F)),
    StableHlo.reshape main_v180 main_v181 rfl shapeCasts_S1x128_S128,
    StableHlo.unary main_arg10 main_v182 ((extractStridedSlice S1x128 ![3, 0] · slices_S5x128_S1x128_3_0) : (⟨S5x128, .f32⟩ : BufTy).Contents (Elt F) → (⟨S1x128, .f32⟩ : BufTy).Contents (Elt F)),
    StableHlo.reshape main_v182 main_v183 rfl shapeCasts_S1x128_S128,
    StableHlo.unary main_v183 main_v184 (broadcastInDim S1x128 ![1] bcast_S128_S1x128_1 : (⟨S128, .f32⟩ : BufTy).Contents (Elt F) → (⟨S1x128, .f32⟩ : BufTy).Contents (Elt F)),
    StableHlo.unary main_v184 main_v185 (broadcastInDim S50000x128 ![0, 1] bcast_S1x128_S50000x128_0_1 : (⟨S1x128, .f32⟩ : BufTy).Contents (Elt F) → (⟨S50000x128, .f32⟩ : BufTy).Contents (Elt F)),
    StableHlo.binary main_v179 main_v185 main_v186 (subf : (⟨S50000x128, .f32⟩ : BufTy).Contents (Elt F) → (⟨S50000x128, .f32⟩ : BufTy).Contents (Elt F) → (⟨S50000x128, .f32⟩ : BufTy).Contents (Elt F)),
    StableHlo.unary main_v181 main_v187 (broadcastInDim S1x128 ![1] bcast_S128_S1x128_1 : (⟨S128, .f32⟩ : BufTy).Contents (Elt F) → (⟨S1x128, .f32⟩ : BufTy).Contents (Elt F)),
    StableHlo.unary main_v187 main_v188 (broadcastInDim S50000x128 ![0, 1] bcast_S1x128_S50000x128_0_1 : (⟨S1x128, .f32⟩ : BufTy).Contents (Elt F) → (⟨S50000x128, .f32⟩ : BufTy).Contents (Elt F)),
    StableHlo.binary main_v188 main_v186 main_v189 (mulf : (⟨S50000x128, .f32⟩ : BufTy).Contents (Elt F) → (⟨S50000x128, .f32⟩ : BufTy).Contents (Elt F) → (⟨S50000x128, .f32⟩ : BufTy).Contents (Elt F)),
    StableHlo.unary main_arg11 main_v190 ((extractStridedSlice S1x128 ![3, 0] · slices_S5x128_S1x128_3_0) : (⟨S5x128, .f32⟩ : BufTy).Contents (Elt F) → (⟨S1x128, .f32⟩ : BufTy).Contents (Elt F)),
    StableHlo.reshape main_v190 main_v191 rfl shapeCasts_S1x128_S128,
    StableHlo.nullary main_cst_10 (constant S_ .f32 0x3A83126F#32),
    StableHlo.unary main_cst_10 main_v192 (broadcastInDim S128 ![] bcast_S_S128 : (⟨S_, .f32⟩ : BufTy).Contents (Elt F) → (⟨S128, .f32⟩ : BufTy).Contents (Elt F)),
    StableHlo.binary main_v191 main_v192 main_v193 (addf : (⟨S128, .f32⟩ : BufTy).Contents (Elt F) → (⟨S128, .f32⟩ : BufTy).Contents (Elt F) → (⟨S128, .f32⟩ : BufTy).Contents (Elt F)),
    StableHlo.unary main_v193 main_v194 (Host.rsqrt : (⟨S128, .f32⟩ : BufTy).Contents (Elt F) → (⟨S128, .f32⟩ : BufTy).Contents (Elt F)),
    StableHlo.unary main_v194 main_v195 (broadcastInDim S1x128 ![1] bcast_S128_S1x128_1 : (⟨S128, .f32⟩ : BufTy).Contents (Elt F) → (⟨S1x128, .f32⟩ : BufTy).Contents (Elt F)),
    StableHlo.unary main_v195 main_v196 (broadcastInDim S50000x128 ![0, 1] bcast_S1x128_S50000x128_0_1 : (⟨S1x128, .f32⟩ : BufTy).Contents (Elt F) → (⟨S50000x128, .f32⟩ : BufTy).Contents (Elt F)),
    StableHlo.binary main_v189 main_v196 main_v197 (mulf : (⟨S50000x128, .f32⟩ : BufTy).Contents (Elt F) → (⟨S50000x128, .f32⟩ : BufTy).Contents (Elt F) → (⟨S50000x128, .f32⟩ : BufTy).Contents (Elt F)),
    StableHlo.unary main_arg9 main_v198 ((extractStridedSlice S1x128 ![3, 0] · slices_S5x128_S1x128_3_0) : (⟨S5x128, .f32⟩ : BufTy).Contents (Elt F) → (⟨S1x128, .f32⟩ : BufTy).Contents (Elt F)),
    StableHlo.reshape main_v198 main_v199 rfl shapeCasts_S1x128_S128,
    StableHlo.unary main_v199 main_v200 (broadcastInDim S1x128 ![1] bcast_S128_S1x128_1 : (⟨S128, .f32⟩ : BufTy).Contents (Elt F) → (⟨S1x128, .f32⟩ : BufTy).Contents (Elt F)),
    StableHlo.unary main_v200 main_v201 (broadcastInDim S50000x128 ![0, 1] bcast_S1x128_S50000x128_0_1 : (⟨S1x128, .f32⟩ : BufTy).Contents (Elt F) → (⟨S50000x128, .f32⟩ : BufTy).Contents (Elt F)),
    StableHlo.binary main_v197 main_v201 main_v202 (addf : (⟨S50000x128, .f32⟩ : BufTy).Contents (Elt F) → (⟨S50000x128, .f32⟩ : BufTy).Contents (Elt F) → (⟨S50000x128, .f32⟩ : BufTy).Contents (Elt F)),
    StableHlo.TRef.nullary main_call11.cst (constant S_ .f32 0x00000000#32),
    StableHlo.TRef.unary main_call11.cst main_call11.v0 (broadcastInDim S50000x128 ![] bcast_S_S50000x128),
    StableHlo.TRef.binary (.of main_v202 : StableHlo.TRef sig ⟨S50000x128, .f32⟩) main_call11.v0 main_call11.v1 maximumf ]

/-- Layer 4's operations, the first piece (48). -/
abbrev opsL4a : List (HloOp τ sig (Elt F)) :=
  [ StableHlo.TRef.nullary main_call12.c (constantI S_ 32 0#32),
    StableHlo.TRef.unary main_call12.c main_call12.v0 (broadcastInDim S800000 ![] bcast_S_S800000),
    StableHlo.TRef.binary (.of main_arg1 : StableHlo.TRef sig ⟨S800000, .i32⟩) main_call12.v0 main_call12.v1 (cmpi .slt),
    StableHlo.TRef.nullary main_call12.c_0 (constantI S_ 32 50000#32),
    StableHlo.TRef.unary main_call12.c_0 main_call12.v2 (broadcastInDim S800000 ![] bcast_S_S800000),
    StableHlo.TRef.binary (.of main_arg1 : StableHlo.TRef sig ⟨S800000, .i32⟩) main_call12.v2 main_call12.v3 addi,
    StableHlo.TRef.ternary main_call12.v1 main_call12.v3 (.of main_arg1 : StableHlo.TRef sig ⟨S800000, .i32⟩) main_call12.call0.v0 select,
    StableHlo.TRef.unary main_call12.call0.v0 main_call12.v5 (broadcastInDim S800000x1 ![0] bcast_S800000_S800000x1_0),
    StableHlo.TRef.nullary main_call12.c_1 (constantI S1 32 49999#32),
    StableHlo.TRef.nullary main_call12.c_2 (constantI S_ 32 0#32),
    StableHlo.TRef.unary main_call12.c_2 main_call12.v6 (broadcastInDim S800000x1 ![] bcast_S_S800000x1),
    StableHlo.TRef.binary main_call12.v5 main_call12.v6 main_call12.v7 (cmpi .sge),
    StableHlo.TRef.unary main_call12.c_1 main_call12.v8 (broadcastInDim S1x1 ![1] bcast_S1_S1x1_1),
    StableHlo.TRef.unary main_call12.v8 main_call12.v9 (broadcastInDim S800000x1 ![0, 1] bcast_S1x1_S800000x1_0_1),
    StableHlo.TRef.binary main_call12.v5 main_call12.v9 main_call12.v10 (cmpi .sle),
    StableHlo.TRef.binary main_call12.v7 main_call12.v10 main_call12.v11 andi,
    StableHlo.TRef.nullary main_call12.c_3 (constantI S_ 1 1#1),
    StableHlo.TRef.binary main_call12.v11 main_call12.c_3 main_call12.v12 (fun x v => Host.reduce IntOp.andi x v reducesTo_S800000x1_S800000_d1 h_S_),
    StableHlo.TRef.binary (.of main_v203 : StableHlo.TRef sig ⟨S50000x128, .f32⟩) main_call12.v5 main_call12.v13 (fun x i => Host.gather gather_S50000x128_S800000x1_S800000x128_1_0_n_n_0_1_1128 x i),
    StableHlo.TRef.unary main_call12.v12 main_call12.v14 (broadcastInDim S800000x128 ![0] bcast_S800000_S800000x128_0),
    StableHlo.TRef.nullary main_call12.cst (constant S_ .f32 0x7FC00000#32),
    StableHlo.TRef.unary main_call12.cst main_call12.v15 (broadcastInDim S800000x128 ![] bcast_S_S800000x128),
    StableHlo.TRef.ternary main_call12.v14 main_call12.v13 main_call12.v15 main_call12.v16 select,
    StableHlo.nullary main_cst_11 (constant S_ .f32 0x00000000#32),
    StableHlo.unary main_cst_11 main_v205 (broadcastInDim S50000x128 ![] bcast_S_S50000x128 : (⟨S_, .f32⟩ : BufTy).Contents (Elt F) → (⟨S50000x128, .f32⟩ : BufTy).Contents (Elt F)),
    StableHlo.unary main_arg2 main_v206 (broadcastInDim S800000x1 ![0] bcast_S800000_S800000x1_0 : (⟨S800000, .i32⟩ : BufTy).Contents (Elt F) → (⟨S800000x1, .i32⟩ : BufTy).Contents (Elt F)),
    StableHlo.ternary main_v205 main_v206 main_v204 main_v207 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg3 main_v208 ((extractStridedSlice S1 ![4] · slices_S5_S1_4) : (⟨S5, .f32⟩ : BufTy).Contents (Elt F) → (⟨S1, .f32⟩ : BufTy).Contents (Elt F)),
    StableHlo.reshape main_v208 main_v209 rfl shapeCasts_S1_S_,
    StableHlo.nullary main_cst_12 (constant S_ .f32 0x3F800000#32),
    StableHlo.binary main_cst_12 main_v209 main_v210 (addf : (⟨S_, .f32⟩ : BufTy).Contents (Elt F) → (⟨S_, .f32⟩ : BufTy).Contents (Elt F) → (⟨S_, .f32⟩ : BufTy).Contents (Elt F)),
    StableHlo.unary main_v210 main_v211 (broadcastInDim S50000x128 ![] bcast_S_S50000x128 : (⟨S_, .f32⟩ : BufTy).Contents (Elt F) → (⟨S50000x128, .f32⟩ : BufTy).Contents (Elt F)),
    StableHlo.binary main_v211 main_v203 main_v212 (mulf : (⟨S50000x128, .f32⟩ : BufTy).Contents (Elt F) → (⟨S50000x128, .f32⟩ : BufTy).Contents (Elt F) → (⟨S50000x128, .f32⟩ : BufTy).Contents (Elt F)),
    StableHlo.binary main_v207 main_v212 main_v213 (addf : (⟨S50000x128, .f32⟩ : BufTy).Contents (Elt F) → (⟨S50000x128, .f32⟩ : BufTy).Contents (Elt F) → (⟨S50000x128, .f32⟩ : BufTy).Contents (Elt F)),
    StableHlo.unary main_arg4 main_v214 ((extractStridedSlice S1x128x128 ![4, 0, 0] · slices_S5x128x128_S1x128x128_4_0_0) : (⟨S5x128x128, .f32⟩ : BufTy).Contents (Elt F) → (⟨S1x128x128, .f32⟩ : BufTy).Contents (Elt F)),
    StableHlo.reshape main_v214 main_v215 rfl shapeCasts_S1x128x128_S128x128,
    StableHlo.binary main_v213 main_v215 main_v216 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v217 ((extractStridedSlice S1x128 ![4, 0] · slices_S5x128_S1x128_4_0) : (⟨S5x128, .f32⟩ : BufTy).Contents (Elt F) → (⟨S1x128, .f32⟩ : BufTy).Contents (Elt F)),
    StableHlo.reshape main_v217 main_v218 rfl shapeCasts_S1x128_S128,
    StableHlo.unary main_v218 main_v219 (broadcastInDim S1x128 ![1] bcast_S128_S1x128_1 : (⟨S128, .f32⟩ : BufTy).Contents (Elt F) → (⟨S1x128, .f32⟩ : BufTy).Contents (Elt F)),
    StableHlo.unary main_v219 main_v220 (broadcastInDim S50000x128 ![0, 1] bcast_S1x128_S50000x128_0_1 : (⟨S1x128, .f32⟩ : BufTy).Contents (Elt F) → (⟨S50000x128, .f32⟩ : BufTy).Contents (Elt F)),
    StableHlo.binary main_v216 main_v220 main_v221 (addf : (⟨S50000x128, .f32⟩ : BufTy).Contents (Elt F) → (⟨S50000x128, .f32⟩ : BufTy).Contents (Elt F) → (⟨S50000x128, .f32⟩ : BufTy).Contents (Elt F)),
    StableHlo.TRef.nullary main_call13.cst (constant S_ .f32 0x00000000#32),
    StableHlo.TRef.unary main_call13.cst main_call13.v0 (broadcastInDim S50000x128 ![] bcast_S_S50000x128),
    StableHlo.TRef.binary (.of main_v221 : StableHlo.TRef sig ⟨S50000x128, .f32⟩) main_call13.v0 main_call13.v1 maximumf,
    StableHlo.unary main_arg6 main_v223 ((extractStridedSlice S1x128x128 ![4, 0, 0] · slices_S5x128x128_S1x128x128_4_0_0) : (⟨S5x128x128, .f32⟩ : BufTy).Contents (Elt F) → (⟨S1x128x128, .f32⟩ : BufTy).Contents (Elt F)),
    StableHlo.reshape main_v223 main_v224 rfl shapeCasts_S1x128x128_S128x128,
    StableHlo.binary main_v222 main_v224 main_v225 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- Layer 4's operations, the second piece (32). -/
abbrev opsL4b : List (HloOp τ sig (Elt F)) :=
  [ StableHlo.unary main_arg7 main_v226 ((extractStridedSlice S1x128 ![4, 0] · slices_S5x128_S1x128_4_0) : (⟨S5x128, .f32⟩ : BufTy).Contents (Elt F) → (⟨S1x128, .f32⟩ : BufTy).Contents (Elt F)),
    StableHlo.reshape main_v226 main_v227 rfl shapeCasts_S1x128_S128,
    StableHlo.unary main_v227 main_v228 (broadcastInDim S1x128 ![1] bcast_S128_S1x128_1 : (⟨S128, .f32⟩ : BufTy).Contents (Elt F) → (⟨S1x128, .f32⟩ : BufTy).Contents (Elt F)),
    StableHlo.unary main_v228 main_v229 (broadcastInDim S50000x128 ![0, 1] bcast_S1x128_S50000x128_0_1 : (⟨S1x128, .f32⟩ : BufTy).Contents (Elt F) → (⟨S50000x128, .f32⟩ : BufTy).Contents (Elt F)),
    StableHlo.binary main_v225 main_v229 main_v230 (addf : (⟨S50000x128, .f32⟩ : BufTy).Contents (Elt F) → (⟨S50000x128, .f32⟩ : BufTy).Contents (Elt F) → (⟨S50000x128, .f32⟩ : BufTy).Contents (Elt F)),
    StableHlo.unary main_arg8 main_v231 ((extractStridedSlice S1x128 ![4, 0] · slices_S5x128_S1x128_4_0) : (⟨S5x128, .f32⟩ : BufTy).Contents (Elt F) → (⟨S1x128, .f32⟩ : BufTy).Contents (Elt F)),
    StableHlo.reshape main_v231 main_v232 rfl shapeCasts_S1x128_S128,
    StableHlo.unary main_arg10 main_v233 ((extractStridedSlice S1x128 ![4, 0] · slices_S5x128_S1x128_4_0) : (⟨S5x128, .f32⟩ : BufTy).Contents (Elt F) → (⟨S1x128, .f32⟩ : BufTy).Contents (Elt F)),
    StableHlo.reshape main_v233 main_v234 rfl shapeCasts_S1x128_S128,
    StableHlo.unary main_v234 main_v235 (broadcastInDim S1x128 ![1] bcast_S128_S1x128_1 : (⟨S128, .f32⟩ : BufTy).Contents (Elt F) → (⟨S1x128, .f32⟩ : BufTy).Contents (Elt F)),
    StableHlo.unary main_v235 main_v236 (broadcastInDim S50000x128 ![0, 1] bcast_S1x128_S50000x128_0_1 : (⟨S1x128, .f32⟩ : BufTy).Contents (Elt F) → (⟨S50000x128, .f32⟩ : BufTy).Contents (Elt F)),
    StableHlo.binary main_v230 main_v236 main_v237 (subf : (⟨S50000x128, .f32⟩ : BufTy).Contents (Elt F) → (⟨S50000x128, .f32⟩ : BufTy).Contents (Elt F) → (⟨S50000x128, .f32⟩ : BufTy).Contents (Elt F)),
    StableHlo.unary main_v232 main_v238 (broadcastInDim S1x128 ![1] bcast_S128_S1x128_1 : (⟨S128, .f32⟩ : BufTy).Contents (Elt F) → (⟨S1x128, .f32⟩ : BufTy).Contents (Elt F)),
    StableHlo.unary main_v238 main_v239 (broadcastInDim S50000x128 ![0, 1] bcast_S1x128_S50000x128_0_1 : (⟨S1x128, .f32⟩ : BufTy).Contents (Elt F) → (⟨S50000x128, .f32⟩ : BufTy).Contents (Elt F)),
    StableHlo.binary main_v239 main_v237 main_v240 (mulf : (⟨S50000x128, .f32⟩ : BufTy).Contents (Elt F) → (⟨S50000x128, .f32⟩ : BufTy).Contents (Elt F) → (⟨S50000x128, .f32⟩ : BufTy).Contents (Elt F)),
    StableHlo.unary main_arg11 main_v241 ((extractStridedSlice S1x128 ![4, 0] · slices_S5x128_S1x128_4_0) : (⟨S5x128, .f32⟩ : BufTy).Contents (Elt F) → (⟨S1x128, .f32⟩ : BufTy).Contents (Elt F)),
    StableHlo.reshape main_v241 main_v242 rfl shapeCasts_S1x128_S128,
    StableHlo.nullary main_cst_13 (constant S_ .f32 0x3A83126F#32),
    StableHlo.unary main_cst_13 main_v243 (broadcastInDim S128 ![] bcast_S_S128 : (⟨S_, .f32⟩ : BufTy).Contents (Elt F) → (⟨S128, .f32⟩ : BufTy).Contents (Elt F)),
    StableHlo.binary main_v242 main_v243 main_v244 (addf : (⟨S128, .f32⟩ : BufTy).Contents (Elt F) → (⟨S128, .f32⟩ : BufTy).Contents (Elt F) → (⟨S128, .f32⟩ : BufTy).Contents (Elt F)),
    StableHlo.unary main_v244 main_v245 (Host.rsqrt : (⟨S128, .f32⟩ : BufTy).Contents (Elt F) → (⟨S128, .f32⟩ : BufTy).Contents (Elt F)),
    StableHlo.unary main_v245 main_v246 (broadcastInDim S1x128 ![1] bcast_S128_S1x128_1 : (⟨S128, .f32⟩ : BufTy).Contents (Elt F) → (⟨S1x128, .f32⟩ : BufTy).Contents (Elt F)),
    StableHlo.unary main_v246 main_v247 (broadcastInDim S50000x128 ![0, 1] bcast_S1x128_S50000x128_0_1 : (⟨S1x128, .f32⟩ : BufTy).Contents (Elt F) → (⟨S50000x128, .f32⟩ : BufTy).Contents (Elt F)),
    StableHlo.binary main_v240 main_v247 main_v248 (mulf : (⟨S50000x128, .f32⟩ : BufTy).Contents (Elt F) → (⟨S50000x128, .f32⟩ : BufTy).Contents (Elt F) → (⟨S50000x128, .f32⟩ : BufTy).Contents (Elt F)),
    StableHlo.unary main_arg9 main_v249 ((extractStridedSlice S1x128 ![4, 0] · slices_S5x128_S1x128_4_0) : (⟨S5x128, .f32⟩ : BufTy).Contents (Elt F) → (⟨S1x128, .f32⟩ : BufTy).Contents (Elt F)),
    StableHlo.reshape main_v249 main_v250 rfl shapeCasts_S1x128_S128,
    StableHlo.unary main_v250 main_v251 (broadcastInDim S1x128 ![1] bcast_S128_S1x128_1 : (⟨S128, .f32⟩ : BufTy).Contents (Elt F) → (⟨S1x128, .f32⟩ : BufTy).Contents (Elt F)),
    StableHlo.unary main_v251 main_v252 (broadcastInDim S50000x128 ![0, 1] bcast_S1x128_S50000x128_0_1 : (⟨S1x128, .f32⟩ : BufTy).Contents (Elt F) → (⟨S50000x128, .f32⟩ : BufTy).Contents (Elt F)),
    StableHlo.binary main_v248 main_v252 main_v253 (addf : (⟨S50000x128, .f32⟩ : BufTy).Contents (Elt F) → (⟨S50000x128, .f32⟩ : BufTy).Contents (Elt F) → (⟨S50000x128, .f32⟩ : BufTy).Contents (Elt F)),
    StableHlo.TRef.nullary main_call14.cst (constant S_ .f32 0x00000000#32),
    StableHlo.TRef.unary main_call14.cst main_call14.v0 (broadcastInDim S50000x128 ![] bcast_S_S50000x128),
    StableHlo.TRef.binary (.of main_v253 : StableHlo.TRef sig ⟨S50000x128, .f32⟩) main_call14.v0 main_call14.v1 maximumf ]

/-- Layer 1's operations. -/
abbrev opsL1 : List (HloOp τ sig (Elt F)) := opsL1a ++ opsL1b

/-- Layer 2's operations. -/
abbrev opsL2 : List (HloOp τ sig (Elt F)) := opsL2a ++ opsL2b

/-- Layer 3's operations. -/
abbrev opsL3 : List (HloOp τ sig (Elt F)) := opsL3a ++ opsL3b

/-- Layer 4's operations. -/
abbrev opsL4 : List (HloOp τ sig (Elt F)) := opsL4a ++ opsL4b

/-- The whole program's operations, layer after layer. -/
abbrev ops : List (HloOp τ sig (Elt F)) := opsL0 ++ opsL1 ++ opsL2 ++ opsL3 ++ opsL4

/-- The operations of each window of the printed program. -/
def win0 : List (HloOp τ sig (Elt F)) := opsL0 ++ opsL1a
def win1 : List (HloOp τ sig (Elt F)) := opsL1b ++ opsL2a
def win2 : List (HloOp τ sig (Elt F)) := opsL2b ++ opsL3a
def win3 : List (HloOp τ sig (Elt F)) := opsL3b ++ opsL4a
def win4 : List (HloOp τ sig (Elt F)) := opsL4b

theorem ops_eq_wins : (ops : List (HloOp τ sig (Elt F))) = win0 ++ (win1 ++ (win2 ++ (win3 ++ win4))) := by
  simp only [win0, win1, win2, win3, win4, List.append_assoc]

set_option maxRecDepth 16384 in
set_option maxHeartbeats 4000000 in
theorem main_part0_eq (c : Dev nD) : main_part0 (F := F) c = seq win0 := rfl

set_option maxRecDepth 16384 in
set_option maxHeartbeats 4000000 in
theorem main_part1_eq (c : Dev nD) : main_part1 (F := F) c = seq win1 := rfl

set_option maxRecDepth 16384 in
set_option maxHeartbeats 4000000 in
theorem main_part2_eq (c : Dev nD) : main_part2 (F := F) c = seq win2 := rfl

set_option maxRecDepth 16384 in
set_option maxHeartbeats 4000000 in
theorem main_part3_eq (c : Dev nD) : main_part3 (F := F) c = seq win3 := rfl

set_option maxRecDepth 16384 in
set_option maxHeartbeats 4000000 in
theorem main_part4_eq (c : Dev nD) : main_part4 (F := F) c = seq win4 := rfl

/-- The program is that straight line: each window is its operations by unfolding the called functions at
    their calls, and the windows run in order. -/
theorem main_eq (c : Dev nD) : main (F := F) c = seq ops := by
  rw [ops_eq_wins]
  simp only [seq_append]
  rw [← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsL0_sub : (opsL0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

set_option maxRecDepth 8192 in
theorem opsL1a_sub : (opsL1a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., unary_bufs_sub ..⟩

set_option maxRecDepth 8192 in
theorem opsL1b_sub : (opsL1b : List (HloOp τ sig (Elt F))).Forall fun op => op.bufs ⊆ tcRefs τ sig :=
  ⟨reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

set_option maxRecDepth 8192 in
theorem opsL2a_sub : (opsL2a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub ..⟩

set_option maxRecDepth 8192 in
theorem opsL2b_sub : (opsL2b : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

set_option maxRecDepth 8192 in
theorem opsL3a_sub : (opsL3a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub ..⟩

set_option maxRecDepth 8192 in
theorem opsL3b_sub : (opsL3b : List (HloOp τ sig (Elt F))).Forall fun op => op.bufs ⊆ tcRefs τ sig :=
  ⟨unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

set_option maxRecDepth 8192 in
theorem opsL4a_sub : (opsL4a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub ..⟩

set_option maxRecDepth 8192 in
theorem opsL4b_sub : (opsL4b : List (HloOp τ sig (Elt F))).Forall fun op => op.bufs ⊆ tcRefs τ sig :=
  ⟨unary_bufs_sub .., reshape_bufs_sub .., unary_bufs_sub .., unary_bufs_sub .., binary_bufs_sub .., unary_bufs_sub .., reshape_bufs_sub .., unary_bufs_sub .., reshape_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

theorem ops_sub : (ops : List (HloOp τ sig (Elt F))).Forall fun op => op.bufs ⊆ tcRefs τ sig :=
  forall_append (forall_append (forall_append (forall_append opsL0_sub (forall_append opsL1a_sub opsL1b_sub))
    (forall_append opsL2a_sub opsL2b_sub)) (forall_append opsL3a_sub opsL3b_sub)) (forall_append opsL4a_sub opsL4b_sub)

/-- On every device, for any float values, from any memory with zero counters: every weakly fair execution of the
    program terminates, and every buffer ends at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.RefDefs.lean ====
import proofs.«177667_j37366215475921_1_alg».proof.Proof.Gen.ReferenceIdeal
import Idealize.ShloMosaic.Lib.StableHlo.Run
import proofs.«177667_j37366215475921_1_alg».proof.Proof.RefOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! A change of type along an equation between a type and itself is the identity: the operations stated over typed
references carry such changes around their functions, and these lemmas take them off without opening the
functions. -/

theorem cast_free₀ {C : Type} (hC : C = C) (v : C) : cast hC v = v := rfl
theorem cast_free₁ {A C : Type} (hA : A = A) (hC : C = C) (f : A → C) (a : A) : cast hC (f (cast hA a)) = f a := rfl
theorem cast_free₂ {A B C : Type} (hA : A = A) (hB : B = B) (hC : C = C) (f : A → B → C) (a : A) (b : B) :
    cast hC (f (cast hA a) (cast hB b)) = f a b := rfl
theorem cast_free₃ {A B D C : Type} (hA : A = A) (hB : B = B) (hD : D = D) (hC : C = C) (f : A → B → D → C)
    (a : A) (b : B) (d : D) : cast hC (f (cast hA a) (cast hB b) (cast hD d)) = f a b d := rfl

/-! Two operations of one builder over the same buffers are equal when their functions agree. -/

theorem nullary_congr (y : Ref sig .tc) (v v' : y.ty.Contents (Elt F)) (hy hy') (h : v = v') :
    (StableHlo.nullary (τ := τ) y v hy : HloOp τ sig (Elt F)) = StableHlo.nullary y v' hy' := by
  subst h; rfl
theorem unary_congr (x y : Ref sig .tc) (g g' : x.ty.Contents (Elt F) → y.ty.Contents (Elt F)) (hx hy hx' hy')
    (h : ∀ u, g u = g' u) :
    (StableHlo.unary (τ := τ) x y g hx hy : HloOp τ sig (Elt F)) = StableHlo.unary x y g' hx' hy' := by
  have e : g = g' := funext h
  subst e; rfl
theorem binary_congr (a b y : Ref sig .tc) (g g' : a.ty.Contents (Elt F) → b.ty.Contents (Elt F) → y.ty.Contents (Elt F))
    (ha hb hy ha' hb' hy') (h : ∀ u v, g u v = g' u v) :
    (StableHlo.binary (τ := τ) a b y g ha hb hy : HloOp τ sig (Elt F)) = StableHlo.binary a b y g' ha' hb' hy' := by
  have e : g = g' := funext fun u => funext fun v => h u v
  subst e; rfl
theorem ternary_congr (c a b y : Ref sig .tc)
    (g g' : c.ty.Contents (Elt F) → a.ty.Contents (Elt F) → b.ty.Contents (Elt F) → y.ty.Contents (Elt F))
    (hc ha hb hy hc' ha' hb' hy') (h : ∀ w u v, g w u v = g' w u v) :
    (StableHlo.ternary (τ := τ) c a b y g hc ha hb hy : HloOp τ sig (Elt F)) = StableHlo.ternary c a b y g' hc' ha' hb' hy' := by
  have e : g = g' := funext fun w => funext fun u => funext fun v => h w u v
  subst e; rfl

/-! # What one layer computes

The three definitions spell the layer's operations composed as one pure term, exactly as the program applies them:
`takeOut` is the gather of the rows of `x` at the indices `i` — a negative index first moved up by the row count, the
rows whose index is out of range replaced by the not-a-number constant —, `poolOut` the sum of those rows into a zero
array at the rows `d` names, and `layerOut` the whole layer: the pooled rows plus the scaled input, an affine map
and a maximum with zero, a second affine map, the normalisation by the stored mean and variance, and the last
maximum with zero. The layer's three slice starts (and the facts that the slices fit) are parameters. -/

/-- The rows of `x` at the indices `i`. -/
def takeOut (x : (⟨S50000x128, .f32⟩ : BufTy).Contents (Elt F)) (i : (⟨S800000, .i32⟩ : BufTy).Contents (Elt F)) :
    (⟨S800000x128, .f32⟩ : BufTy).Contents (Elt F) :=
  select (broadcastInDim S800000x128 ![0] bcast_S800000_S800000x128_0 (Host.reduce IntOp.andi (andi (cmpi .sge (broadcastInDim S800000x1 ![0] bcast_S800000_S800000x1_0 (select (cmpi .slt i (broadcastInDim S800000 ![] bcast_S_S800000 (constantI S_ 32 0#32))) (addi i (broadcastInDim S800000 ![] bcast_S_S800000 (constantI S_ 32 50000#32))) i)) (broadcastInDim S800000x1 ![] bcast_S_S800000x1 (constantI S_ 32 0#32))) (cmpi .sle (broadcastInDim S800000x1 ![0] bcast_S800000_S800000x1_0 (select (cmpi .slt i (broadcastInDim S800000 ![] bcast_S_S800000 (constantI S_ 32 0#32))) (addi i (broadcastInDim S800000 ![] bcast_S_S800000 (constantI S_ 32 50000#32))) i)) (broadcastInDim S800000x1 ![0, 1] bcast_S1x1_S800000x1_0_1 (broadcastInDim S1x1 ![1] bcast_S1_S1x1_1 (constantI S1 32 49999#32))))) (constantI S_ 1 1#1) reducesTo_S800000x1_S800000_d1 h_S_)) (Host.gather gather_S50000x128_S800000x1_S800000x128_1_0_n_n_0_1_1128 x (broadcastInDim S800000x1 ![0] bcast_S800000_S800000x1_0 (select (cmpi .slt i (broadcastInDim S800000 ![] bcast_S_S800000 (constantI S_ 32 0#32))) (addi i (broadcastInDim S800000 ![] bcast_S_S800000 (constantI S_ 32 50000#32))) i))) (broadcastInDim S800000x128 ![] bcast_S_S800000x128 (constant (F := F) S_ .f32 0x7FC00000#32))

/-- The gathered rows summed into a zero array at the rows `d` names. -/
def poolOut (x : (⟨S50000x128, .f32⟩ : BufTy).Contents (Elt F)) (i d : (⟨S800000, .i32⟩ : BufTy).Contents (Elt F)) :
    (⟨S50000x128, .f32⟩ : BufTy).Contents (Elt F) :=
  Host.scatterAdd scatter_S50000x128_S800000x1_S800000x128_1_0_0_1 (broadcastInDim S50000x128 ![] bcast_S_S50000x128 (constant (F := F) S_ .f32 0x00000000#32)) (broadcastInDim S800000x1 ![0] bcast_S800000_S800000x1_0 d) (takeOut x i)

/-- One layer's result from its input `x` and the program's arguments 1 … 11. -/
def layerOut (o1 : Fin S5.rank → Nat) (h1 : S5.Slices o1 S1) (o3 : Fin S5x128x128.rank → Nat) (h3 : S5x128x128.Slices o3 S1x128x128)
    (o2 : Fin S5x128.rank → Nat) (h2 : S5x128.Slices o2 S1x128)
    (x : (⟨S50000x128, .f32⟩ : BufTy).Contents (Elt F)) (a1 a2 : (⟨S800000, .i32⟩ : BufTy).Contents (Elt F)) (a3 : (⟨S5, .f32⟩ : BufTy).Contents (Elt F))
    (a4 : (⟨S5x128x128, .f32⟩ : BufTy).Contents (Elt F)) (a5 : (⟨S5x128, .f32⟩ : BufTy).Contents (Elt F)) (a6 : (⟨S5x128x128, .f32⟩ : BufTy).Contents (Elt F))
    (a7 a8 a9 a10 a11 : (⟨S5x128, .f32⟩ : BufTy).Contents (Elt F)) : (⟨S50000x128, .f32⟩ : BufTy).Contents (Elt F) :=
  maximumf (addf (mulf (mulf (broadcastInDim S50000x128 ![0, 1] bcast_S1x128_S50000x128_0_1 (broadcastInDim S1x128 ![1] bcast_S128_S1x128_1 (shapeCast S128 (extractStridedSlice S1x128 o2 a8 h2) shapeCasts_S1x128_S128))) (subf (addf (Host.dotGeneral dot_S50000x128_S128x128_S50000x128_1_0_0_1_n_n none (maximumf (addf (Host.dotGeneral dot_S50000x128_S128x128_S50000x128_1_0_0_1_n_n none (addf (poolOut x a1 a2) (mulf (broadcastInDim S50000x128 ![] bcast_S_S50000x128 (addf (constant (F := F) S_ .f32 0x3F800000#32) (shapeCast S_ (extractStridedSlice S1 o1 a3 h1) shapeCasts_S1_S_))) x)) (shapeCast S128x128 (extractStridedSlice S1x128x128 o3 a4 h3) shapeCasts_S1x128x128_S128x128)) (broadcastInDim S50000x128 ![0, 1] bcast_S1x128_S50000x128_0_1 (broadcastInDim S1x128 ![1] bcast_S128_S1x128_1 (shapeCast S128 (extractStridedSlice S1x128 o2 a5 h2) shapeCasts_S1x128_S128)))) (broadcastInDim S50000x128 ![] bcast_S_S50000x128 (constant (F := F) S_ .f32 0x00000000#32))) (shapeCast S128x128 (extractStridedSlice S1x128x128 o3 a6 h3) shapeCasts_S1x128x128_S128x128)) (broadcastInDim S50000x128 ![0, 1] bcast_S1x128_S50000x128_0_1 (broadcastInDim S1x128 ![1] bcast_S128_S1x128_1 (shapeCast S128 (extractStridedSlice S1x128 o2 a7 h2) shapeCasts_S1x128_S128)))) (broadcastInDim S50000x128 ![0, 1] bcast_S1x128_S50000x128_0_1 (broadcastInDim S1x128 ![1] bcast_S128_S1x128_1 (shapeCast S128 (extractStridedSlice S1x128 o2 a10 h2) shapeCasts_S1x128_S128))))) (broadcastInDim S50000x128 ![0, 1] bcast_S1x128_S50000x128_0_1 (broadcastInDim S1x128 ![1] bcast_S128_S1x128_1 (Host.rsqrt (addf (shapeCast S128 (extractStridedSlice S1x128 o2 a11 h2) shapeCasts_S1x128_S128) (broadcastInDim S128 ![] bcast_S_S128 (constant (F := F) S_ .f32 0x3A83126F#32))))))) (broadcastInDim S50000x128 ![0, 1] bcast_S1x128_S50000x128_0_1 (broadcastInDim S1x128 ![1] bcast_S128_S1x128_1 (shapeCast S128 (extractStridedSlice S1x128 o2 a9 h2) shapeCasts_S1x128_S128)))) (broadcastInDim S50000x128 ![] bcast_S_S50000x128 (constant (F := F) S_ .f32 0x00000000#32))

end Cert.ReferenceIdeal.HandRun

end
-- ==== Proof.RefWrites.lean ====
import proofs.«177667_j37366215475921_1_alg».proof.Proof.Gen.ReferenceIdeal
import Idealize.ShloMosaic.Lib.StableHlo.Run
import proofs.«177667_j37366215475921_1_alg».proof.Proof.RefOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! # What each layer's operations write

For each piece of the operation lists: the literal list of the buffers its operations write, that every operation
writes inside it, and so that any buffer outside the list keeps its contents through the piece; then the same for
each whole layer. -/

/-- The buffers `opsL0` writes. -/
abbrev opsL0_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0, main_cst, main_v1, main_v2, main_v3, main_v4, main_v5, main_cst_0, main_v6, main_v7, main_v8, main_v9, main_v10, main_v11, main_v12, main_v13, main_v14, main_v15, main_v16, main_v17, main_call1_cst, main_call1_v0, main_v18, main_v19, main_v20, main_v21, main_v22, main_v23, main_v24, main_v25, main_v26, main_v27, main_v28, main_v29, main_v30, main_v31, main_v32, main_v33, main_v34, main_v35, main_v36, main_v37, main_v38, main_cst_1, main_v39, main_v40, main_v41, main_v42, main_v43, main_v44, main_v45, main_v46, main_v47, main_v48, main_v49, main_call2_cst, main_call2_v0, main_v50]

set_option maxRecDepth 8192 in
theorem opsL0_writes : (opsL0 : List (HloOp τ sig (Elt F))).Forall fun op =>
    op.writes ⊆ (opsL0_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The buffers `opsL1a` writes. -/
abbrev opsL1a_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v51, main_cst_2, main_v52, main_v53, main_v54, main_v55]

set_option maxRecDepth 8192 in
theorem opsL1a_writes : (opsL1a : List (HloOp τ sig (Elt F))).Forall fun op =>
    op.writes ⊆ (opsL1a_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The buffers `opsL1b` writes. -/
abbrev opsL1b_W : List (Ref sig .tc) := [main_v56, main_cst_3, main_v57, main_v58, main_v59, main_v60, main_v61, main_v62, main_v63, main_v64, main_v65, main_v66, main_v67, main_v68, main_call4_cst, main_call4_v0, main_v69, main_v70, main_v71, main_v72, main_v73, main_v74, main_v75, main_v76, main_v77, main_v78, main_v79, main_v80, main_v81, main_v82, main_v83, main_v84, main_v85, main_v86, main_v87, main_v88, main_v89, main_cst_4, main_v90, main_v91, main_v92, main_v93, main_v94, main_v95, main_v96, main_v97, main_v98, main_v99, main_v100, main_call5_cst, main_call5_v0, main_v101]

set_option maxRecDepth 8192 in
theorem opsL1b_writes : (opsL1b : List (HloOp τ sig (Elt F))).Forall fun op =>
    op.writes ⊆ (opsL1b_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The buffers `opsL2a` writes. -/
abbrev opsL2a_W : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v102, main_cst_5, main_v103, main_v104, main_v105, main_v106, main_v107, main_cst_6, main_v108, main_v109, main_v110, main_v111]

set_option maxRecDepth 8192 in
theorem opsL2a_writes : (opsL2a : List (HloOp τ sig (Elt F))).Forall fun op =>
    op.writes ⊆ (opsL2a_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The buffers `opsL2b` writes. -/
abbrev opsL2b_W : List (Ref sig .tc) := [main_v112, main_v113, main_v114, main_v115, main_v116, main_v117, main_v118, main_v119, main_call7_cst, main_call7_v0, main_v120, main_v121, main_v122, main_v123, main_v124, main_v125, main_v126, main_v127, main_v128, main_v129, main_v130, main_v131, main_v132, main_v133, main_v134, main_v135, main_v136, main_v137, main_v138, main_v139, main_v140, main_cst_7, main_v141, main_v142, main_v143, main_v144, main_v145, main_v146, main_v147, main_v148, main_v149, main_v150, main_v151, main_call8_cst, main_call8_v0, main_v152]

set_option maxRecDepth 8192 in
theorem opsL2b_writes : (opsL2b : List (HloOp τ sig (Elt F))).Forall fun op =>
    op.writes ⊆ (opsL2b_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The buffers `opsL3a` writes. -/
abbrev opsL3a_W : List (Ref sig .tc) := [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_v14, main_call9_cst, main_call9_v15, main_v153, main_cst_8, main_v154, main_v155, main_v156, main_v157, main_v158, main_cst_9, main_v159, main_v160, main_v161, main_v162, main_v163, main_v164, main_v165, main_v166, main_v167, main_v168]

set_option maxRecDepth 8192 in
theorem opsL3a_writes : (opsL3a : List (HloOp τ sig (Elt F))).Forall fun op =>
    op.writes ⊆ (opsL3a_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The buffers `opsL3b` writes. -/
abbrev opsL3b_W : List (Ref sig .tc) := [main_v169, main_v170, main_call10_cst, main_call10_v0, main_v171, main_v172, main_v173, main_v174, main_v175, main_v176, main_v177, main_v178, main_v179, main_v180, main_v181, main_v182, main_v183, main_v184, main_v185, main_v186, main_v187, main_v188, main_v189, main_v190, main_v191, main_cst_10, main_v192, main_v193, main_v194, main_v195, main_v196, main_v197, main_v198, main_v199, main_v200, main_v201, main_v202, main_call11_cst, main_call11_v0, main_v203]

set_option maxRecDepth 8192 in
theorem opsL3b_writes : (opsL3b : List (HloOp τ sig (Elt F))).Forall fun op =>
    op.writes ⊆ (opsL3b_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The buffers `opsL4a` writes. -/
abbrev opsL4a_W : List (Ref sig .tc) := [main_call12_c, main_call12_v0, main_call12_v1, main_call12_c_0, main_call12_v2, main_call12_v3, main_call12_v4, main_call12_v5, main_call12_c_1, main_call12_c_2, main_call12_v6, main_call12_v7, main_call12_v8, main_call12_v9, main_call12_v10, main_call12_v11, main_call12_c_3, main_call12_v12, main_call12_v13, main_call12_v14, main_call12_cst, main_call12_v15, main_v204, main_cst_11, main_v205, main_v206, main_v207, main_v208, main_v209, main_cst_12, main_v210, main_v211, main_v212, main_v213, main_v214, main_v215, main_v216, main_v217, main_v218, main_v219, main_v220, main_v221, main_call13_cst, main_call13_v0, main_v222, main_v223, main_v224, main_v225]

set_option maxRecDepth 8192 in
theorem opsL4a_writes : (opsL4a : List (HloOp τ sig (Elt F))).Forall fun op =>
    op.writes ⊆ (opsL4a_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The buffers `opsL4b` writes. -/
abbrev opsL4b_W : List (Ref sig .tc) := [main_v226, main_v227, main_v228, main_v229, main_v230, main_v231, main_v232, main_v233, main_v234, main_v235, main_v236, main_v237, main_v238, main_v239, main_v240, main_v241, main_v242, main_cst_13, main_v243, main_v244, main_v245, main_v246, main_v247, main_v248, main_v249, main_v250, main_v251, main_v252, main_v253, main_call14_cst, main_call14_v0, main_v254]

set_option maxRecDepth 8192 in
theorem opsL4b_writes : (opsL4b : List (HloOp τ sig (Elt F))).Forall fun op =>
    op.writes ⊆ (opsL4b_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The buffers each layer writes. -/
abbrev opsL1_W : List (Ref sig .tc) := opsL1a_W ++ opsL1b_W
abbrev opsL2_W : List (Ref sig .tc) := opsL2a_W ++ opsL2b_W
abbrev opsL3_W : List (Ref sig .tc) := opsL3a_W ++ opsL3b_W
abbrev opsL4_W : List (Ref sig .tc) := opsL4a_W ++ opsL4b_W

/-- A buffer layer 0 does not write keeps its contents through it. -/
theorem keep_L0 (V : Valuation τ sig (Elt F)) (r : Ref sig .tc) (h : r ∉ opsL0_W) :
    after opsL0 V (Proc.devRef .tc r) = V (Proc.devRef .tc r) :=
  after_of_writes_sub opsL0 V opsL0_writes h

/-- A buffer layer 1 does not write keeps its contents through it. -/
theorem keep_L1 (V : Valuation τ sig (Elt F)) (r : Ref sig .tc) (h : r ∉ opsL1_W) :
    after opsL1 V (Proc.devRef .tc r) = V (Proc.devRef .tc r) := by
  rw [after_append, after_of_writes_sub opsL1b _ opsL1b_writes (fun h' => h (List.mem_append_right _ h')),
    after_of_writes_sub opsL1a _ opsL1a_writes (fun h' => h (List.mem_append_left _ h'))]

/-- A buffer layer 2 does not write keeps its contents through it. -/
theorem keep_L2 (V : Valuation τ sig (Elt F)) (r : Ref sig .tc) (h : r ∉ opsL2_W) :
    after opsL2 V (Proc.devRef .tc r) = V (Proc.devRef .tc r) := by
  rw [after_append, after_of_writes_sub opsL2b _ opsL2b_writes (fun h' => h (List.mem_append_right _ h')),
    after_of_writes_sub opsL2a _ opsL2a_writes (fun h' => h (List.mem_append_left _ h'))]

/-- A buffer layer 3 does not write keeps its contents through it. -/
theorem keep_L3 (V : Valuation τ sig (Elt F)) (r : Ref sig .tc) (h : r ∉ opsL3_W) :
    after opsL3 V (Proc.devRef .tc r) = V (Proc.devRef .tc r) := by
  rw [after_append, after_of_writes_sub opsL3b _ opsL3b_writes (fun h' => h (List.mem_append_right _ h')),
    after_of_writes_sub opsL3a _ opsL3a_writes (fun h' => h (List.mem_append_left _ h'))]

/-- A buffer layer 4 does not write keeps its contents through it. -/
theorem keep_L4 (V : Valuation τ sig (Elt F)) (r : Ref sig .tc) (h : r ∉ opsL4_W) :
    after opsL4 V (Proc.devRef .tc r) = V (Proc.devRef .tc r) := by
  rw [after_append, after_of_writes_sub opsL4b _ opsL4b_writes (fun h' => h (List.mem_append_right _ h')),
    after_of_writes_sub opsL4a _ opsL4a_writes (fun h' => h (List.mem_append_left _ h'))]

end Cert.ReferenceIdeal.HandRun

end
-- ==== Proof.RefReadL0.lean ====
import proofs.«177667_j37366215475921_1_alg».proof.Proof.Gen.ReferenceIdeal
import Idealize.ShloMosaic.Lib.StableHlo.Run
import proofs.«177667_j37366215475921_1_alg».proof.Proof.RefOps
import proofs.«177667_j37366215475921_1_alg».proof.Proof.RefDefs

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! # Layer 0 read back

The layer's operations that were listed over typed references (the gather's and the two maxima's) are first shown
equal to the same builders over the buffers themselves — the changes of type around their functions are identities —,
so the layer is a list of eighty plain operations. It is read in four stretches — the gather, the pooled sum with the
first affine map and maximum, the second affine map with the centring, the scaling with the shift and the last
maximum —: what each stretch leaves in its last buffer from any contents, that it leaves every buffer it does not
write alone, and the four composed. -/

namespace L0

theorem e0 : (StableHlo.TRef.nullary main_call0.c (constantI S_ 32 0#32) : HloOp τ sig (Elt F)) = StableHlo.nullary main_call0_c (constantI S_ 32 0#32) :=
  nullary_congr _ _ _ _ _ (cast_free₀ _ (constantI S_ 32 0#32 : (⟨S_, .i32⟩ : BufTy).Contents (Elt F)))

theorem e1 : (StableHlo.TRef.unary main_call0.c main_call0.v0 (broadcastInDim S800000 ![] bcast_S_S800000) : HloOp τ sig (Elt F)) = StableHlo.unary main_call0_c main_call0_v0 (broadcastInDim S800000 ![] bcast_S_S800000 : (⟨S_, .i32⟩ : BufTy).Contents (Elt F) → (⟨S800000, .i32⟩ : BufTy).Contents (Elt F)) :=
  unary_congr _ _ _ _ _ _ _ _ (fun v => cast_free₁ _ _ (broadcastInDim S800000 ![] bcast_S_S800000 : (⟨S_, .i32⟩ : BufTy).Contents (Elt F) → (⟨S800000, .i32⟩ : BufTy).Contents (Elt F)) v)

theorem e2 : (StableHlo.TRef.binary (.of main_arg1 : StableHlo.TRef sig ⟨S800000, .i32⟩) main_call0.v0 main_call0.v1 (cmpi .slt) : HloOp τ sig (Elt F)) = StableHlo.binary main_arg1 main_call0_v0 main_call0_v1 (cmpi .slt : (⟨S800000, .i32⟩ : BufTy).Contents (Elt F) → (⟨S800000, .i32⟩ : BufTy).Contents (Elt F) → (⟨S800000, .i1⟩ : BufTy).Contents (Elt F)) :=
  binary_congr _ _ _ _ _ _ _ _ _ _ _ (fun u v => cast_free₂ _ _ _ (cmpi .slt : (⟨S800000, .i32⟩ : BufTy).Contents (Elt F) → (⟨S800000, .i32⟩ : BufTy).Contents (Elt F) → (⟨S800000, .i1⟩ : BufTy).Contents (Elt F)) u v)

theorem e3 : (StableHlo.TRef.nullary main_call0.c_0 (constantI S_ 32 50000#32) : HloOp τ sig (Elt F)) = StableHlo.nullary main_call0_c_0 (constantI S_ 32 50000#32) :=
  nullary_congr _ _ _ _ _ (cast_free₀ _ (constantI S_ 32 50000#32 : (⟨S_, .i32⟩ : BufTy).Contents (Elt F)))

theorem e4 : (StableHlo.TRef.unary main_call0.c_0 main_call0.v2 (broadcastInDim S800000 ![] bcast_S_S800000) : HloOp τ sig (Elt F)) = StableHlo.unary main_call0_c_0 main_call0_v2 (broadcastInDim S800000 ![] bcast_S_S800000 : (⟨S_, .i32⟩ : BufTy).Contents (Elt F) → (⟨S800000, .i32⟩ : BufTy).Contents (Elt F)) :=
  unary_congr _ _ _ _ _ _ _ _ (fun v => cast_free₁ _ _ (broadcastInDim S800000 ![] bcast_S_S800000 : (⟨S_, .i32⟩ : BufTy).Contents (Elt F) → (⟨S800000, .i32⟩ : BufTy).Contents (Elt F)) v)

theorem e5 : (StableHlo.TRef.binary (.of main_arg1 : StableHlo.TRef sig ⟨S800000, .i32⟩) main_call0.v2 main_call0.v3 addi : HloOp τ sig (Elt F)) = StableHlo.binary main_arg1 main_call0_v2 main_call0_v3 (addi : (⟨S800000, .i32⟩ : BufTy).Contents (Elt F) → (⟨S800000, .i32⟩ : BufTy).Contents (Elt F) → (⟨S800000, .i32⟩ : BufTy).Contents (Elt F)) :=
  binary_congr _ _ _ _ _ _ _ _ _ _ _ (fun u v => cast_free₂ _ _ _ (addi : (⟨S800000, .i32⟩ : BufTy).Contents (Elt F) → (⟨S800000, .i32⟩ : BufTy).Contents (Elt F) → (⟨S800000, .i32⟩ : BufTy).Contents (Elt F)) u v)

theorem e6 : (StableHlo.TRef.ternary main_call0.v1 main_call0.v3 (.of main_arg1 : StableHlo.TRef sig ⟨S800000, .i32⟩) main_call0.call0.v0 select : HloOp τ sig (Elt F)) = StableHlo.ternary main_call0_v1 main_call0_v3 main_arg1 main_call0_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) :=
  ternary_congr _ _ _ _ _ _ _ _ _ _ _ _ _ _ (fun w u v => cast_free₃ _ _ _ _ (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) w u v)

theorem e7 : (StableHlo.TRef.unary main_call0.call0.v0 main_call0.v5 (broadcastInDim S800000x1 ![0] bcast_S800000_S800000x1_0) : HloOp τ sig (Elt F)) = StableHlo.unary main_call0_v4 main_call0_v5 (broadcastInDim S800000x1 ![0] bcast_S800000_S800000x1_0 : (⟨S800000, .i32⟩ : BufTy).Contents (Elt F) → (⟨S800000x1, .i32⟩ : BufTy).Contents (Elt F)) :=
  unary_congr _ _ _ _ _ _ _ _ (fun v => cast_free₁ _ _ (broadcastInDim S800000x1 ![0] bcast_S800000_S800000x1_0 : (⟨S800000, .i32⟩ : BufTy).Contents (Elt F) → (⟨S800000x1, .i32⟩ : BufTy).Contents (Elt F)) v)

theorem e8 : (StableHlo.TRef.nullary main_call0.c_1 (constantI S1 32 49999#32) : HloOp τ sig (Elt F)) = StableHlo.nullary main_call0_c_1 (constantI S1 32 49999#32) :=
  nullary_congr _ _ _ _ _ (cast_free₀ _ (constantI S1 32 49999#32 : (⟨S1, .i32⟩ : BufTy).Contents (Elt F)))

theorem e9 : (StableHlo.TRef.nullary main_call0.c_2 (constantI S_ 32 0#32) : HloOp τ sig (Elt F)) = StableHlo.nullary main_call0_c_2 (constantI S_ 32 0#32) :=
  nullary_congr _ _ _ _ _ (cast_free₀ _ (constantI S_ 32 0#32 : (⟨S_, .i32⟩ : BufTy).Contents (Elt F)))

theorem e10 : (StableHlo.TRef.unary main_call0.c_2 main_call0.v6 (broadcastInDim S800000x1 ![] bcast_S_S800000x1) : HloOp τ sig (Elt F)) = StableHlo.unary main_call0_c_2 main_call0_v6 (broadcastInDim S800000x1 ![] bcast_S_S800000x1 : (⟨S_, .i32⟩ : BufTy).Contents (Elt F) → (⟨S800000x1, .i32⟩ : BufTy).Contents (Elt F)) :=
  unary_congr _ _ _ _ _ _ _ _ (fun v => cast_free₁ _ _ (broadcastInDim S800000x1 ![] bcast_S_S800000x1 : (⟨S_, .i32⟩ : BufTy).Contents (Elt F) → (⟨S800000x1, .i32⟩ : BufTy).Contents (Elt F)) v)

theorem e11 : (StableHlo.TRef.binary main_call0.v5 main_call0.v6 main_call0.v7 (cmpi .sge) : HloOp τ sig (Elt F)) = StableHlo.binary main_call0_v5 main_call0_v6 main_call0_v7 (cmpi .sge : (⟨S800000x1, .i32⟩ : BufTy).Contents (Elt F) → (⟨S800000x1, .i32⟩ : BufTy).Contents (Elt F) → (⟨S800000x1, .i1⟩ : BufTy).Contents (Elt F)) :=
  binary_congr _ _ _ _ _ _ _ _ _ _ _ (fun u v => cast_free₂ _ _ _ (cmpi .sge : (⟨S800000x1, .i32⟩ : BufTy).Contents (Elt F) → (⟨S800000x1, .i32⟩ : BufTy).Contents (Elt F) → (⟨S800000x1, .i1⟩ : BufTy).Contents (Elt F)) u v)

theorem e12 : (StableHlo.TRef.unary main_call0.c_1 main_call0.v8 (broadcastInDim S1x1 ![1] bcast_S1_S1x1_1) : HloOp τ sig (Elt F)) = StableHlo.unary main_call0_c_1 main_call0_v8 (broadcastInDim S1x1 ![1] bcast_S1_S1x1_1 : (⟨S1, .i32⟩ : BufTy).Contents (Elt F) → (⟨S1x1, .i32⟩ : BufTy).Contents (Elt F)) :=
  unary_congr _ _ _ _ _ _ _ _ (fun v => cast_free₁ _ _ (broadcastInDim S1x1 ![1] bcast_S1_S1x1_1 : (⟨S1, .i32⟩ : BufTy).Contents (Elt F) → (⟨S1x1, .i32⟩ : BufTy).Contents (Elt F)) v)

theorem e13 : (StableHlo.TRef.unary main_call0.v8 main_call0.v9 (broadcastInDim S800000x1 ![0, 1] bcast_S1x1_S800000x1_0_1) : HloOp τ sig (Elt F)) = StableHlo.unary main_call0_v8 main_call0_v9 (broadcastInDim S800000x1 ![0, 1] bcast_S1x1_S800000x1_0_1 : (⟨S1x1, .i32⟩ : BufTy).Contents (Elt F) → (⟨S800000x1, .i32⟩ : BufTy).Contents (Elt F)) :=
  unary_congr _ _ _ _ _ _ _ _ (fun v => cast_free₁ _ _ (broadcastInDim S800000x1 ![0, 1] bcast_S1x1_S800000x1_0_1 : (⟨S1x1, .i32⟩ : BufTy).Contents (Elt F) → (⟨S800000x1, .i32⟩ : BufTy).Contents (Elt F)) v)

theorem e14 : (StableHlo.TRef.binary main_call0.v5 main_call0.v9 main_call0.v10 (cmpi .sle) : HloOp τ sig (Elt F)) = StableHlo.binary main_call0_v5 main_call0_v9 main_call0_v10 (cmpi .sle : (⟨S800000x1, .i32⟩ : BufTy).Contents (Elt F) → (⟨S800000x1, .i32⟩ : BufTy).Contents (Elt F) → (⟨S800000x1, .i1⟩ : BufTy).Contents (Elt F)) :=
  binary_congr _ _ _ _ _ _ _ _ _ _ _ (fun u v => cast_free₂ _ _ _ (cmpi .sle : (⟨S800000x1, .i32⟩ : BufTy).Contents (Elt F) → (⟨S800000x1, .i32⟩ : BufTy).Contents (Elt F) → (⟨S800000x1, .i1⟩ : BufTy).Contents (Elt F)) u v)

theorem e15 : (StableHlo.TRef.binary main_call0.v7 main_call0.v10 main_call0.v11 andi : HloOp τ sig (Elt F)) = StableHlo.binary main_call0_v7 main_call0_v10 main_call0_v11 (andi : (⟨S800000x1, .i1⟩ : BufTy).Contents (Elt F) → (⟨S800000x1, .i1⟩ : BufTy).Contents (Elt F) → (⟨S800000x1, .i1⟩ : BufTy).Contents (Elt F)) :=
  binary_congr _ _ _ _ _ _ _ _ _ _ _ (fun u v => cast_free₂ _ _ _ (andi : (⟨S800000x1, .i1⟩ : BufTy).Contents (Elt F) → (⟨S800000x1, .i1⟩ : BufTy).Contents (Elt F) → (⟨S800000x1, .i1⟩ : BufTy).Contents (Elt F)) u v)

theorem e16 : (StableHlo.TRef.nullary main_call0.c_3 (constantI S_ 1 1#1) : HloOp τ sig (Elt F)) = StableHlo.nullary main_call0_c_3 (constantI S_ 1 1#1) :=
  nullary_congr _ _ _ _ _ (cast_free₀ _ (constantI S_ 1 1#1 : (⟨S_, .i1⟩ : BufTy).Contents (Elt F)))

theorem e17 : (StableHlo.TRef.binary main_call0.v11 main_call0.c_3 main_call0.v12 (fun x v => Host.reduce IntOp.andi x v reducesTo_S800000x1_S800000_d1 h_S_) : HloOp τ sig (Elt F)) = StableHlo.binary main_call0_v11 main_call0_c_3 main_call0_v12 ((fun x v => Host.reduce IntOp.andi x v reducesTo_S800000x1_S800000_d1 h_S_) : (⟨S800000x1, .i1⟩ : BufTy).Contents (Elt F) → (⟨S_, .i1⟩ : BufTy).Contents (Elt F) → (⟨S800000, .i1⟩ : BufTy).Contents (Elt F)) :=
  binary_congr _ _ _ _ _ _ _ _ _ _ _ (fun u v => cast_free₂ _ _ _ (fun x v => Host.reduce IntOp.andi x v reducesTo_S800000x1_S800000_d1 h_S_ : (⟨S800000x1, .i1⟩ : BufTy).Contents (Elt F) → (⟨S_, .i1⟩ : BufTy).Contents (Elt F) → (⟨S800000, .i1⟩ : BufTy).Contents (Elt F)) u v)

theorem e18 : (StableHlo.TRef.binary (.of main_arg0 : StableHlo.TRef sig ⟨S50000x128, .f32⟩) main_call0.v5 main_call0.v13 (fun x i => Host.gather gather_S50000x128_S800000x1_S800000x128_1_0_n_n_0_1_1128 x i) : HloOp τ sig (Elt F)) = StableHlo.binary main_arg0 main_call0_v5 main_call0_v13 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) :=
  binary_congr _ _ _ _ _ _ _ _ _ _ _ (fun u v => cast_free₂ _ _ _ (fun x i => Host.gather gather_S50000x128_S800000x1_S800000x128_1_0_n_n_0_1_1128 x i : (⟨S50000x128, .f32⟩ : BufTy).Contents (Elt F) → (⟨S800000x1, .i32⟩ : BufTy).Contents (Elt F) → (⟨S800000x128, .f32⟩ : BufTy).Contents (Elt F)) u v)

theorem e19 : (StableHlo.TRef.unary main_call0.v12 main_call0.v14 (broadcastInDim S800000x128 ![0] bcast_S800000_S800000x128_0) : HloOp τ sig (Elt F)) = StableHlo.unary main_call0_v12 main_call0_v14 (broadcastInDim S800000x128 ![0] bcast_S800000_S800000x128_0 : (⟨S800000, .i1⟩ : BufTy).Contents (Elt F) → (⟨S800000x128, .i1⟩ : BufTy).Contents (Elt F)) :=
  unary_congr _ _ _ _ _ _ _ _ (fun v => cast_free₁ _ _ (broadcastInDim S800000x128 ![0] bcast_S800000_S800000x128_0 : (⟨S800000, .i1⟩ : BufTy).Contents (Elt F) → (⟨S800000x128, .i1⟩ : BufTy).Contents (Elt F)) v)

theorem e20 : (StableHlo.TRef.nullary main_call0.cst (constant S_ .f32 0x7FC00000#32) : HloOp τ sig (Elt F)) = StableHlo.nullary main_call0_cst (constant S_ .f32 0x7FC00000#32) :=
  nullary_congr _ _ _ _ _ (cast_free₀ _ (constant S_ .f32 0x7FC00000#32 : (⟨S_, .f32⟩ : BufTy).Contents (Elt F)))

theorem e21 : (StableHlo.TRef.unary main_call0.cst main_call0.v15 (broadcastInDim S800000x128 ![] bcast_S_S800000x128) : HloOp τ sig (Elt F)) = StableHlo.unary main_call0_cst main_call0_v15 (broadcastInDim S800000x128 ![] bcast_S_S800000x128 : (⟨S_, .f32⟩ : BufTy).Contents (Elt F) → (⟨S800000x128, .f32⟩ : BufTy).Contents (Elt F)) :=
  unary_congr _ _ _ _ _ _ _ _ (fun v => cast_free₁ _ _ (broadcastInDim S800000x128 ![] bcast_S_S800000x128 : (⟨S_, .f32⟩ : BufTy).Contents (Elt F) → (⟨S800000x128, .f32⟩ : BufTy).Contents (Elt F)) v)

theorem e22 : (StableHlo.TRef.ternary main_call0.v14 main_call0.v13 main_call0.v15 main_call0.v16 select : HloOp τ sig (Elt F)) = StableHlo.ternary main_call0_v14 main_call0_v13 main_call0_v15 main_v0 (select : (⟨S800000x128, .i1⟩ : BufTy).Contents (Elt F) → (⟨S800000x128, .f32⟩ : BufTy).Contents (Elt F) → (⟨S800000x128, .f32⟩ : BufTy).Contents (Elt F) → (⟨S800000x128, .f32⟩ : BufTy).Contents (Elt F)) :=
  ternary_congr _ _ _ _ _ _ _ _ _ _ _ _ _ _ (fun w u v => cast_free₃ _ _ _ _ (select : (⟨S800000x128, .i1⟩ : BufTy).Contents (Elt F) → (⟨S800000x128, .f32⟩ : BufTy).Contents (Elt F) → (⟨S800000x128, .f32⟩ : BufTy).Contents (Elt F) → (⟨S800000x128, .f32⟩ : BufTy).Contents (Elt F)) w u v)

theorem e42 : (StableHlo.TRef.nullary main_call1.cst (constant S_ .f32 0x00000000#32) : HloOp τ sig (Elt F)) = StableHlo.nullary main_call1_cst (constant S_ .f32 0x00000000#32) :=
  nullary_congr _ _ _ _ _ (cast_free₀ _ (constant S_ .f32 0x00000000#32 : (⟨S_, .f32⟩ : BufTy).Contents (Elt F)))

theorem e43 : (StableHlo.TRef.unary main_call1.cst main_call1.v0 (broadcastInDim S50000x128 ![] bcast_S_S50000x128) : HloOp τ sig (Elt F)) = StableHlo.unary main_call1_cst main_call1_v0 (broadcastInDim S50000x128 ![] bcast_S_S50000x128 : (⟨S_, .f32⟩ : BufTy).Contents (Elt F) → (⟨S50000x128, .f32⟩ : BufTy).Contents (Elt F)) :=
  unary_congr _ _ _ _ _ _ _ _ (fun v => cast_free₁ _ _ (broadcastInDim S50000x128 ![] bcast_S_S50000x128 : (⟨S_, .f32⟩ : BufTy).Contents (Elt F) → (⟨S50000x128, .f32⟩ : BufTy).Contents (Elt F)) v)

theorem e44 : (StableHlo.TRef.binary (.of main_v17 : StableHlo.TRef sig ⟨S50000x128, .f32⟩) main_call1.v0 main_call1.v1 maximumf : HloOp τ sig (Elt F)) = StableHlo.binary main_v17 main_call1_v0 main_v18 (maximumf : (⟨S50000x128, .f32⟩ : BufTy).Contents (Elt F) → (⟨S50000x128, .f32⟩ : BufTy).Contents (Elt F) → (⟨S50000x128, .f32⟩ : BufTy).Contents (Elt F)) :=
  binary_congr _ _ _ _ _ _ _ _ _ _ _ (fun u v => cast_free₂ _ _ _ (maximumf : (⟨S50000x128, .f32⟩ : BufTy).Contents (Elt F) → (⟨S50000x128, .f32⟩ : BufTy).Contents (Elt F) → (⟨S50000x128, .f32⟩ : BufTy).Contents (Elt F)) u v)

theorem e77 : (StableHlo.TRef.nullary main_call2.cst (constant S_ .f32 0x00000000#32) : HloOp τ sig (Elt F)) = StableHlo.nullary main_call2_cst (constant S_ .f32 0x00000000#32) :=
  nullary_congr _ _ _ _ _ (cast_free₀ _ (constant S_ .f32 0x00000000#32 : (⟨S_, .f32⟩ : BufTy).Contents (Elt F)))

theorem e78 : (StableHlo.TRef.unary main_call2.cst main_call2.v0 (broadcastInDim S50000x128 ![] bcast_S_S50000x128) : HloOp τ sig (Elt F)) = StableHlo.unary main_call2_cst main_call2_v0 (broadcastInDim S50000x128 ![] bcast_S_S50000x128 : (⟨S_, .f32⟩ : BufTy).Contents (Elt F) → (⟨S50000x128, .f32⟩ : BufTy).Contents (Elt F)) :=
  unary_congr _ _ _ _ _ _ _ _ (fun v => cast_free₁ _ _ (broadcastInDim S50000x128 ![] bcast_S_S50000x128 : (⟨S_, .f32⟩ : BufTy).Contents (Elt F) → (⟨S50000x128, .f32⟩ : BufTy).Contents (Elt F)) v)

theorem e79 : (StableHlo.TRef.binary (.of main_v49 : StableHlo.TRef sig ⟨S50000x128, .f32⟩) main_call2.v0 main_call2.v1 maximumf : HloOp τ sig (Elt F)) = StableHlo.binary main_v49 main_call2_v0 main_v50 (maximumf : (⟨S50000x128, .f32⟩ : BufTy).Contents (Elt F) → (⟨S50000x128, .f32⟩ : BufTy).Contents (Elt F) → (⟨S50000x128, .f32⟩ : BufTy).Contents (Elt F)) :=
  binary_congr _ _ _ _ _ _ _ _ _ _ _ (fun u v => cast_free₂ _ _ _ (maximumf : (⟨S50000x128, .f32⟩ : BufTy).Contents (Elt F) → (⟨S50000x128, .f32⟩ : BufTy).Contents (Elt F) → (⟨S50000x128, .f32⟩ : BufTy).Contents (Elt F)) u v)

abbrev cT : List (HloOp τ sig (Elt F)) :=
  [ StableHlo.nullary main_call0_c (constantI S_ 32 0#32),
    StableHlo.unary main_call0_c main_call0_v0 (broadcastInDim S800000 ![] bcast_S_S800000 : (⟨S_, .i32⟩ : BufTy).Contents (Elt F) → (⟨S800000, .i32⟩ : BufTy).Contents (Elt F)),
    StableHlo.binary main_arg1 main_call0_v0 main_call0_v1 (cmpi .slt : (⟨S800000, .i32⟩ : BufTy).Contents (Elt F) → (⟨S800000, .i32⟩ : BufTy).Contents (Elt F) → (⟨S800000, .i1⟩ : BufTy).Contents (Elt F)),
    StableHlo.nullary main_call0_c_0 (constantI S_ 32 50000#32),
    StableHlo.unary main_call0_c_0 main_call0_v2 (broadcastInDim S800000 ![] bcast_S_S800000 : (⟨S_, .i32⟩ : BufTy).Contents (Elt F) → (⟨S800000, .i32⟩ : BufTy).Contents (Elt F)),
    StableHlo.binary main_arg1 main_call0_v2 main_call0_v3 (addi : (⟨S800000, .i32⟩ : BufTy).Contents (Elt F) → (⟨S800000, .i32⟩ : BufTy).Contents (Elt F) → (⟨S800000, .i32⟩ : BufTy).Contents (Elt F)),
    StableHlo.ternary main_call0_v1 main_call0_v3 main_arg1 main_call0_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_call0_v4 main_call0_v5 (broadcastInDim S800000x1 ![0] bcast_S800000_S800000x1_0 : (⟨S800000, .i32⟩ : BufTy).Contents (Elt F) → (⟨S800000x1, .i32⟩ : BufTy).Contents (Elt F)),
    StableHlo.nullary main_call0_c_1 (constantI S1 32 49999#32),
    StableHlo.nullary main_call0_c_2 (constantI S_ 32 0#32),
    StableHlo.unary main_call0_c_2 main_call0_v6 (broadcastInDim S800000x1 ![] bcast_S_S800000x1 : (⟨S_, .i32⟩ : BufTy).Contents (Elt F) → (⟨S800000x1, .i32⟩ : BufTy).Contents (Elt F)),
    StableHlo.binary main_call0_v5 main_call0_v6 main_call0_v7 (cmpi .sge : (⟨S800000x1, .i32⟩ : BufTy).Contents (Elt F) → (⟨S800000x1, .i32⟩ : BufTy).Contents (Elt F) → (⟨S800000x1, .i1⟩ : BufTy).Contents (Elt F)),
    StableHlo.unary main_call0_c_1 main_call0_v8 (broadcastInDim S1x1 ![1] bcast_S1_S1x1_1 : (⟨S1, .i32⟩ : BufTy).Contents (Elt F) → (⟨S1x1, .i32⟩ : BufTy).Contents (Elt F)),
    StableHlo.unary main_call0_v8 main_call0_v9 (broadcastInDim S800000x1 ![0, 1] bcast_S1x1_S800000x1_0_1 : (⟨S1x1, .i32⟩ : BufTy).Contents (Elt F) → (⟨S800000x1, .i32⟩ : BufTy).Contents (Elt F)),
    StableHlo.binary main_call0_v5 main_call0_v9 main_call0_v10 (cmpi .sle : (⟨S800000x1, .i32⟩ : BufTy).Contents (Elt F) → (⟨S800000x1, .i32⟩ : BufTy).Contents (Elt F) → (⟨S800000x1, .i1⟩ : BufTy).Contents (Elt F)),
    StableHlo.binary main_call0_v7 main_call0_v10 main_call0_v11 (andi : (⟨S800000x1, .i1⟩ : BufTy).Contents (Elt F) → (⟨S800000x1, .i1⟩ : BufTy).Contents (Elt F) → (⟨S800000x1, .i1⟩ : BufTy).Contents (Elt F)),
    StableHlo.nullary main_call0_c_3 (constantI S_ 1 1#1),
    StableHlo.binary main_call0_v11 main_call0_c_3 main_call0_v12 ((fun x v => Host.reduce IntOp.andi x v reducesTo_S800000x1_S800000_d1 h_S_) : (⟨S800000x1, .i1⟩ : BufTy).Contents (Elt F) → (⟨S_, .i1⟩ : BufTy).Contents (Elt F) → (⟨S800000, .i1⟩ : BufTy).Contents (Elt F)),
    StableHlo.binary main_arg0 main_call0_v5 main_call0_v13 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_call0_v12 main_call0_v14 (broadcastInDim S800000x128 ![0] bcast_S800000_S800000x128_0 : (⟨S800000, .i1⟩ : BufTy).Contents (Elt F) → (⟨S800000x128, .i1⟩ : BufTy).Contents (Elt F)),
    StableHlo.nullary main_call0_cst (constant S_ .f32 0x7FC00000#32),
    StableHlo.unary main_call0_cst main_call0_v15 (broadcastInDim S800000x128 ![] bcast_S_S800000x128 : (⟨S_, .f32⟩ : BufTy).Contents (Elt F) → (⟨S800000x128, .f32⟩ : BufTy).Contents (Elt F)),
    StableHlo.ternary main_call0_v14 main_call0_v13 main_call0_v15 main_v0 (select : (⟨S800000x128, .i1⟩ : BufTy).Contents (Elt F) → (⟨S800000x128, .f32⟩ : BufTy).Contents (Elt F) → (⟨S800000x128, .f32⟩ : BufTy).Contents (Elt F) → (⟨S800000x128, .f32⟩ : BufTy).Contents (Elt F)) ]

abbrev cA : List (HloOp τ sig (Elt F)) :=
  [ StableHlo.nullary main_cst (constant S_ .f32 0x00000000#32),
    StableHlo.unary main_cst main_v1 (broadcastInDim S50000x128 ![] bcast_S_S50000x128 : (⟨S_, .f32⟩ : BufTy).Contents (Elt F) → (⟨S50000x128, .f32⟩ : BufTy).Contents (Elt F)),
    StableHlo.unary main_arg2 main_v2 (broadcastInDim S800000x1 ![0] bcast_S800000_S800000x1_0 : (⟨S800000, .i32⟩ : BufTy).Contents (Elt F) → (⟨S800000x1, .i32⟩ : BufTy).Contents (Elt F)),
    StableHlo.ternary main_v1 main_v2 main_v0 main_v3 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg3 main_v4 ((extractStridedSlice S1 ![0] · slices_S5_S1_0) : (⟨S5, .f32⟩ : BufTy).Contents (Elt F) → (⟨S1, .f32⟩ : BufTy).Contents (Elt F)),
    StableHlo.reshape main_v4 main_v5 rfl shapeCasts_S1_S_,
    StableHlo.nullary main_cst_0 (constant S_ .f32 0x3F800000#32),
    StableHlo.binary main_cst_0 main_v5 main_v6 (addf : (⟨S_, .f32⟩ : BufTy).Contents (Elt F) → (⟨S_, .f32⟩ : BufTy).Contents (Elt F) → (⟨S_, .f32⟩ : BufTy).Contents (Elt F)),
    StableHlo.unary main_v6 main_v7 (broadcastInDim S50000x128 ![] bcast_S_S50000x128 : (⟨S_, .f32⟩ : BufTy).Contents (Elt F) → (⟨S50000x128, .f32⟩ : BufTy).Contents (Elt F)),
    StableHlo.binary main_v7 main_arg0 main_v8 (mulf : (⟨S50000x128, .f32⟩ : BufTy).Contents (Elt F) → (⟨S50000x128, .f32⟩ : BufTy).Contents (Elt F) → (⟨S50000x128, .f32⟩ : BufTy).Contents (Elt F)),
    StableHlo.binary main_v3 main_v8 main_v9 (addf : (⟨S50000x128, .f32⟩ : BufTy).Contents (Elt F) → (⟨S50000x128, .f32⟩ : BufTy).Contents (Elt F) → (⟨S50000x128, .f32⟩ : BufTy).Contents (Elt F)),
    StableHlo.unary main_arg4 main_v10 ((extractStridedSlice S1x128x128 ![0, 0, 0] · slices_S5x128x128_S1x128x128_0_0_0) : (⟨S5x128x128, .f32⟩ : BufTy).Contents (Elt F) → (⟨S1x128x128, .f32⟩ : BufTy).Contents (Elt F)),
    StableHlo.reshape main_v10 main_v11 rfl shapeCasts_S1x128x128_S128x128,
    StableHlo.binary main_v9 main_v11 main_v12 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v13 ((extractStridedSlice S1x128 ![0, 0] · slices_S5x128_S1x128_0_0) : (⟨S5x128, .f32⟩ : BufTy).Contents (Elt F) → (⟨S1x128, .f32⟩ : BufTy).Contents (Elt F)),
    StableHlo.reshape main_v13 main_v14 rfl shapeCasts_S1x128_S128,
    StableHlo.unary main_v14 main_v15 (broadcastInDim S1x128 ![1] bcast_S128_S1x128_1 : (⟨S128, .f32⟩ : BufTy).Contents (Elt F) → (⟨S1x128, .f32⟩ : BufTy).Contents (Elt F)),
    StableHlo.unary main_v15 main_v16 (broadcastInDim S50000x128 ![0, 1] bcast_S1x128_S50000x128_0_1 : (⟨S1x128, .f32⟩ : BufTy).Contents (Elt F) → (⟨S50000x128, .f32⟩ : BufTy).Contents (Elt F)),
    StableHlo.binary main_v12 main_v16 main_v17 (addf : (⟨S50000x128, .f32⟩ : BufTy).Contents (Elt F) → (⟨S50000x128, .f32⟩ : BufTy).Contents (Elt F) → (⟨S50000x128, .f32⟩ : BufTy).Contents (Elt F)),
    StableHlo.nullary main_call1_cst (constant S_ .f32 0x00000000#32),
    StableHlo.unary main_call1_cst main_call1_v0 (broadcastInDim S50000x128 ![] bcast_S_S50000x128 : (⟨S_, .f32⟩ : BufTy).Contents (Elt F) → (⟨S50000x128, .f32⟩ : BufTy).Contents (Elt F)),
    StableHlo.binary main_v17 main_call1_v0 main_v18 (maximumf : (⟨S50000x128, .f32⟩ : BufTy).Contents (Elt F) → (⟨S50000x128, .f32⟩ : BufTy).Contents (Elt F) → (⟨S50000x128, .f32⟩ : BufTy).Contents (Elt F)) ]

abbrev cB : List (HloOp τ sig (Elt F)) :=
  [ StableHlo.unary main_arg6 main_v19 ((extractStridedSlice S1x128x128 ![0, 0, 0] · slices_S5x128x128_S1x128x128_0_0_0) : (⟨S5x128x128, .f32⟩ : BufTy).Contents (Elt F) → (⟨S1x128x128, .f32⟩ : BufTy).Contents (Elt F)),
    StableHlo.reshape main_v19 main_v20 rfl shapeCasts_S1x128x128_S128x128,
    StableHlo.binary main_v18 main_v20 main_v21 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v22 ((extractStridedSlice S1x128 ![0, 0] · slices_S5x128_S1x128_0_0) : (⟨S5x128, .f32⟩ : BufTy).Contents (Elt F) → (⟨S1x128, .f32⟩ : BufTy).Contents (Elt F)),
    StableHlo.reshape main_v22 main_v23 rfl shapeCasts_S1x128_S128,
    StableHlo.unary main_v23 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S50000x128 ![0, 1] bcast_S1x128_S50000x128_0_1 : (⟨S1x128, .f32⟩ : BufTy).Contents (Elt F) → (⟨S50000x128, .f32⟩ : BufTy).Contents (Elt F)),
    StableHlo.binary main_v21 main_v25 main_v26 (addf : (⟨S50000x128, .f32⟩ : BufTy).Contents (Elt F) → (⟨S50000x128, .f32⟩ : BufTy).Contents (Elt F) → (⟨S50000x128, .f32⟩ : BufTy).Contents (Elt F)),
    StableHlo.unary main_arg8 main_v27 ((extractStridedSlice S1x128 ![0, 0] · slices_S5x128_S1x128_0_0) : (⟨S5x128, .f32⟩ : BufTy).Contents (Elt F) → (⟨S1x128, .f32⟩ : BufTy).Contents (Elt F)),
    StableHlo.reshape main_v27 main_v28 rfl shapeCasts_S1x128_S128,
    StableHlo.unary main_arg10 main_v29 ((extractStridedSlice S1x128 ![0, 0] · slices_S5x128_S1x128_0_0) : (⟨S5x128, .f32⟩ : BufTy).Contents (Elt F) → (⟨S1x128, .f32⟩ : BufTy).Contents (Elt F)),
    StableHlo.reshape main_v29 main_v30 rfl shapeCasts_S1x128_S128,
    StableHlo.unary main_v30 main_v31 (broadcastInDim S1x128 ![1] bcast_S128_S1x128_1 : (⟨S128, .f32⟩ : BufTy).Contents (Elt F) → (⟨S1x128, .f32⟩ : BufTy).Contents (Elt F)),
    StableHlo.unary main_v31 main_v32 (broadcastInDim S50000x128 ![0, 1] bcast_S1x128_S50000x128_0_1 : (⟨S1x128, .f32⟩ : BufTy).Contents (Elt F) → (⟨S50000x128, .f32⟩ : BufTy).Contents (Elt F)),
    StableHlo.binary main_v26 main_v32 main_v33 (subf : (⟨S50000x128, .f32⟩ : BufTy).Contents (Elt F) → (⟨S50000x128, .f32⟩ : BufTy).Contents (Elt F) → (⟨S50000x128, .f32⟩ : BufTy).Contents (Elt F)),
    StableHlo.unary main_v28 main_v34 (broadcastInDim S1x128 ![1] bcast_S128_S1x128_1 : (⟨S128, .f32⟩ : BufTy).Contents (Elt F) → (⟨S1x128, .f32⟩ : BufTy).Contents (Elt F)),
    StableHlo.unary main_v34 main_v35 (broadcastInDim S50000x128 ![0, 1] bcast_S1x128_S50000x128_0_1 : (⟨S1x128, .f32⟩ : BufTy).Contents (Elt F) → (⟨S50000x128, .f32⟩ : BufTy).Contents (Elt F)),
    StableHlo.binary main_v35 main_v33 main_v36 (mulf : (⟨S50000x128, .f32⟩ : BufTy).Contents (Elt F) → (⟨S50000x128, .f32⟩ : BufTy).Contents (Elt F) → (⟨S50000x128, .f32⟩ : BufTy).Contents (Elt F)) ]

abbrev cC : List (HloOp τ sig (Elt F)) :=
  [ StableHlo.unary main_arg11 main_v37 ((extractStridedSlice S1x128 ![0, 0] · slices_S5x128_S1x128_0_0) : (⟨S5x128, .f32⟩ : BufTy).Contents (Elt F) → (⟨S1x128, .f32⟩ : BufTy).Contents (Elt F)),
    StableHlo.reshape main_v37 main_v38 rfl shapeCasts_S1x128_S128,
    StableHlo.nullary main_cst_1 (constant S_ .f32 0x3A83126F#32),
    StableHlo.unary main_cst_1 main_v39 (broadcastInDim S128 ![] bcast_S_S128 : (⟨S_, .f32⟩ : BufTy).Contents (Elt F) → (⟨S128, .f32⟩ : BufTy).Contents (Elt F)),
    StableHlo.binary main_v38 main_v39 main_v40 (addf : (⟨S128, .f32⟩ : BufTy).Contents (Elt F) → (⟨S128, .f32⟩ : BufTy).Contents (Elt F) → (⟨S128, .f32⟩ : BufTy).Contents (Elt F)),
    StableHlo.unary main_v40 main_v41 (Host.rsqrt : (⟨S128, .f32⟩ : BufTy).Contents (Elt F) → (⟨S128, .f32⟩ : BufTy).Contents (Elt F)),
    StableHlo.unary main_v41 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S50000x128 ![0, 1] bcast_S1x128_S50000x128_0_1 : (⟨S1x128, .f32⟩ : BufTy).Contents (Elt F) → (⟨S50000x128, .f32⟩ : BufTy).Contents (Elt F)),
    StableHlo.binary main_v36 main_v43 main_v44 (mulf : (⟨S50000x128, .f32⟩ : BufTy).Contents (Elt F) → (⟨S50000x128, .f32⟩ : BufTy).Contents (Elt F) → (⟨S50000x128, .f32⟩ : BufTy).Contents (Elt F)),
    StableHlo.unary main_arg9 main_v45 ((extractStridedSlice S1x128 ![0, 0] · slices_S5x128_S1x128_0_0) : (⟨S5x128, .f32⟩ : BufTy).Contents (Elt F) → (⟨S1x128, .f32⟩ : BufTy).Contents (Elt F)),
    StableHlo.reshape main_v45 main_v46 rfl shapeCasts_S1x128_S128,
    StableHlo.unary main_v46 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S50000x128 ![0, 1] bcast_S1x128_S50000x128_0_1 : (⟨S1x128, .f32⟩ : BufTy).Contents (Elt F) → (⟨S50000x128, .f32⟩ : BufTy).Contents (Elt F)),
    StableHlo.binary main_v44 main_v48 main_v49 (addf : (⟨S50000x128, .f32⟩ : BufTy).Contents (Elt F) → (⟨S50000x128, .f32⟩ : BufTy).Contents (Elt F) → (⟨S50000x128, .f32⟩ : BufTy).Contents (Elt F)),
    StableHlo.nullary main_call2_cst (constant S_ .f32 0x00000000#32),
    StableHlo.unary main_call2_cst main_call2_v0 (broadcastInDim S50000x128 ![] bcast_S_S50000x128 : (⟨S_, .f32⟩ : BufTy).Contents (Elt F) → (⟨S50000x128, .f32⟩ : BufTy).Contents (Elt F)),
    StableHlo.binary main_v49 main_call2_v0 main_v50 (maximumf : (⟨S50000x128, .f32⟩ : BufTy).Contents (Elt F) → (⟨S50000x128, .f32⟩ : BufTy).Contents (Elt F) → (⟨S50000x128, .f32⟩ : BufTy).Contents (Elt F)) ]

set_option maxRecDepth 16384 in
theorem split : (opsL0 : List (HloOp τ sig (Elt F))) = cT ++ (cA ++ (cB ++ cC)) :=
  (congrArg₂ List.cons e0 (congrArg₂ List.cons e1 (congrArg₂ List.cons e2 (congrArg₂ List.cons e3 (congrArg₂ List.cons e4 (congrArg₂ List.cons e5 (congrArg₂ List.cons e6 (congrArg₂ List.cons e7 (congrArg₂ List.cons e8 (congrArg₂ List.cons e9 (congrArg₂ List.cons e10 (congrArg₂ List.cons e11 (congrArg₂ List.cons e12 (congrArg₂ List.cons e13 (congrArg₂ List.cons e14 (congrArg₂ List.cons e15 (congrArg₂ List.cons e16 (congrArg₂ List.cons e17 (congrArg₂ List.cons e18 (congrArg₂ List.cons e19 (congrArg₂ List.cons e20 (congrArg₂ List.cons e21 (congrArg₂ List.cons e22 (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons e42 (congrArg₂ List.cons e43 (congrArg₂ List.cons e44 (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons e77 (congrArg₂ List.cons e78 (congrArg₂ List.cons e79 rfl))))))))))))))))))))))))))))))))))))))))))))))))))))))))))))))))))))))))))))))))

theorem after_split (V : Valuation τ sig (Elt F)) :
    after opsL0 V = after cC (after cB (after cA (after cT V))) := by
  rw [split, after_append cT, after_append cA, after_append cB]

abbrev cT_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]

set_option maxRecDepth 8192 in
theorem cT_writes : (cT : List (HloOp τ sig (Elt F))).Forall fun op =>
    op.writes ⊆ (cT_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

theorem cT_keep (W : Valuation τ sig (Elt F)) (r : Ref sig .tc) (h : r ∉ cT_W) :
    after cT W (Proc.devRef .tc r) = W (Proc.devRef .tc r) :=
  after_of_writes_sub cT W cT_writes h

abbrev cA_W : List (Ref sig .tc) := [main_cst, main_v1, main_v2, main_v3, main_v4, main_v5, main_cst_0, main_v6, main_v7, main_v8, main_v9, main_v10, main_v11, main_v12, main_v13, main_v14, main_v15, main_v16, main_v17, main_call1_cst, main_call1_v0, main_v18]

set_option maxRecDepth 8192 in
theorem cA_writes : (cA : List (HloOp τ sig (Elt F))).Forall fun op =>
    op.writes ⊆ (cA_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

theorem cA_keep (W : Valuation τ sig (Elt F)) (r : Ref sig .tc) (h : r ∉ cA_W) :
    after cA W (Proc.devRef .tc r) = W (Proc.devRef .tc r) :=
  after_of_writes_sub cA W cA_writes h

abbrev cB_W : List (Ref sig .tc) := [main_v19, main_v20, main_v21, main_v22, main_v23, main_v24, main_v25, main_v26, main_v27, main_v28, main_v29, main_v30, main_v31, main_v32, main_v33, main_v34, main_v35, main_v36]

set_option maxRecDepth 8192 in
theorem cB_writes : (cB : List (HloOp τ sig (Elt F))).Forall fun op =>
    op.writes ⊆ (cB_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

theorem cB_keep (W : Valuation τ sig (Elt F)) (r : Ref sig .tc) (h : r ∉ cB_W) :
    after cB W (Proc.devRef .tc r) = W (Proc.devRef .tc r) :=
  after_of_writes_sub cB W cB_writes h

abbrev cC_W : List (Ref sig .tc) := [main_v37, main_v38, main_cst_1, main_v39, main_v40, main_v41, main_v42, main_v43, main_v44, main_v45, main_v46, main_v47, main_v48, main_v49, main_call2_cst, main_call2_v0, main_v50]

set_option maxRecDepth 8192 in
theorem cC_writes : (cC : List (HloOp τ sig (Elt F))).Forall fun op =>
    op.writes ⊆ (cC_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

theorem cC_keep (W : Valuation τ sig (Elt F)) (r : Ref sig .tc) (h : r ∉ cC_W) :
    after cC W (Proc.devRef .tc r) = W (Proc.devRef .tc r) :=
  after_of_writes_sub cC W cC_writes h

attribute [local irreducible] Host.reduce Host.gather Host.scatterAdd in
set_option maxRecDepth 16384 in
set_option maxHeartbeats 4000000 in
theorem cT_read (W : Valuation τ sig (Elt F)) :
    after cT W (main_v0 : DevRef τ sig)
      = takeOut (W (main_arg0 : DevRef τ sig)) (W (main_arg1 : DevRef τ sig)) := by
  after_results_simp
  rfl

attribute [local irreducible] Host.reduce Host.gather Host.scatterAdd in
set_option maxRecDepth 16384 in
set_option maxHeartbeats 4000000 in
theorem cA_read (W : Valuation τ sig (Elt F)) :
    after cA W (main_v18 : DevRef τ sig)
      = maximumf (addf (Host.dotGeneral dot_S50000x128_S128x128_S50000x128_1_0_0_1_n_n none (addf (Host.scatterAdd scatter_S50000x128_S800000x1_S800000x128_1_0_0_1 (broadcastInDim S50000x128 ![] bcast_S_S50000x128 (constant (F := F) S_ .f32 0x00000000#32)) (broadcastInDim S800000x1 ![0] bcast_S800000_S800000x1_0 (W (main_arg2 : DevRef τ sig))) (W (main_v0 : DevRef τ sig))) (mulf (broadcastInDim S50000x128 ![] bcast_S_S50000x128 (addf (constant (F := F) S_ .f32 0x3F800000#32) (shapeCast S_ (extractStridedSlice S1 ![0] (W (main_arg3 : DevRef τ sig)) slices_S5_S1_0) shapeCasts_S1_S_))) (W (main_arg0 : DevRef τ sig)))) (shapeCast S128x128 (extractStridedSlice S1x128x128 ![0, 0, 0] (W (main_arg4 : DevRef τ sig)) slices_S5x128x128_S1x128x128_0_0_0) shapeCasts_S1x128x128_S128x128)) (broadcastInDim S50000x128 ![0, 1] bcast_S1x128_S50000x128_0_1 (broadcastInDim S1x128 ![1] bcast_S128_S1x128_1 (shapeCast S128 (extractStridedSlice S1x128 ![0, 0] (W (main_arg5 : DevRef τ sig)) slices_S5x128_S1x128_0_0) shapeCasts_S1x128_S128)))) (broadcastInDim S50000x128 ![] bcast_S_S50000x128 (constant (F := F) S_ .f32 0x00000000#32)) := by
  after_results_simp
  rfl

attribute [local irreducible] Host.reduce Host.gather Host.scatterAdd in
set_option maxRecDepth 16384 in
set_option maxHeartbeats 4000000 in
theorem cB_read (W : Valuation τ sig (Elt F)) :
    after cB W (main_v36 : DevRef τ sig)
      = mulf (broadcastInDim S50000x128 ![0, 1] bcast_S1x128_S50000x128_0_1 (broadcastInDim S1x128 ![1] bcast_S128_S1x128_1 (shapeCast S128 (extractStridedSlice S1x128 ![0, 0] (W (main_arg8 : DevRef τ sig)) slices_S5x128_S1x128_0_0) shapeCasts_S1x128_S128))) (subf (addf (Host.dotGeneral dot_S50000x128_S128x128_S50000x128_1_0_0_1_n_n none (W (main_v18 : DevRef τ sig)) (shapeCast S128x128 (extractStridedSlice S1x128x128 ![0, 0, 0] (W (main_arg6 : DevRef τ sig)) slices_S5x128x128_S1x128x128_0_0_0) shapeCasts_S1x128x128_S128x128)) (broadcastInDim S50000x128 ![0, 1] bcast_S1x128_S50000x128_0_1 (broadcastInDim S1x128 ![1] bcast_S128_S1x128_1 (shapeCast S128 (extractStridedSlice S1x128 ![0, 0] (W (main_arg7 : DevRef τ sig)) slices_S5x128_S1x128_0_0) shapeCasts_S1x128_S128)))) (broadcastInDim S50000x128 ![0, 1] bcast_S1x128_S50000x128_0_1 (broadcastInDim S1x128 ![1] bcast_S128_S1x128_1 (shapeCast S128 (extractStridedSlice S1x128 ![0, 0] (W (main_arg10 : DevRef τ sig)) slices_S5x128_S1x128_0_0) shapeCasts_S1x128_S128)))) := by
  after_results_simp
  rfl

attribute [local irreducible] Host.reduce Host.gather Host.scatterAdd in
set_option maxRecDepth 16384 in
set_option maxHeartbeats 4000000 in
theorem cC_read (W : Valuation τ sig (Elt F)) :
    after cC W (main_v50 : DevRef τ sig)
      = maximumf (addf (mulf (W (main_v36 : DevRef τ sig)) (broadcastInDim S50000x128 ![0, 1] bcast_S1x128_S50000x128_0_1 (broadcastInDim S1x128 ![1] bcast_S128_S1x128_1 (Host.rsqrt (addf (shapeCast S128 (extractStridedSlice S1x128 ![0, 0] (W (main_arg11 : DevRef τ sig)) slices_S5x128_S1x128_0_0) shapeCasts_S1x128_S128) (broadcastInDim S128 ![] bcast_S_S128 (constant (F := F) S_ .f32 0x3A83126F#32))))))) (broadcastInDim S50000x128 ![0, 1] bcast_S1x128_S50000x128_0_1 (broadcastInDim S1x128 ![1] bcast_S128_S1x128_1 (shapeCast S128 (extractStridedSlice S1x128 ![0, 0] (W (main_arg9 : DevRef τ sig)) slices_S5x128_S1x128_0_0) shapeCasts_S1x128_S128)))) (broadcastInDim S50000x128 ![] bcast_S_S50000x128 (constant (F := F) S_ .f32 0x00000000#32)) := by
  after_results_simp
  rfl

end L0

open L0 in
set_option maxRecDepth 16384 in
/-- Layer 0's result buffer after its operations, from any contents. -/
theorem read_L0 (V : Valuation τ sig (Elt F)) :
    after opsL0 V (main_v50 : DevRef τ sig)
      = layerOut ![0] slices_S5_S1_0 ![0, 0, 0] slices_S5x128x128_S1x128x128_0_0_0 ![0, 0] slices_S5x128_S1x128_0_0 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [after_split, cC_read,
    cB_keep _ main_arg11 (by decide),
    cA_keep _ main_arg11 (by decide),
    cT_keep _ main_arg11 (by decide),
    cB_read,
    cB_keep _ main_arg9 (by decide),
    cA_keep _ main_arg9 (by decide),
    cT_keep _ main_arg9 (by decide),
    cA_keep _ main_arg6 (by decide),
    cT_keep _ main_arg6 (by decide),
    cA_read,
    cA_keep _ main_arg7 (by decide),
    cT_keep _ main_arg7 (by decide),
    cA_keep _ main_arg8 (by decide),
    cT_keep _ main_arg8 (by decide),
    cA_keep _ main_arg10 (by decide),
    cT_keep _ main_arg10 (by decide),
    cT_keep _ main_arg2 (by decide),
    cT_read,
    cT_keep _ main_arg3 (by decide),
    cT_keep _ main_arg0 (by decide),
    cT_keep _ main_arg4 (by decide),
    cT_keep _ main_arg5 (by decide)]
  rfl

end Cert.ReferenceIdeal.HandRun

end
-- ==== Proof.RefReadL1.lean ====
import proofs.«177667_j37366215475921_1_alg».proof.Proof.Gen.ReferenceIdeal
import Idealize.ShloMosaic.Lib.StableHlo.Run
import proofs.«177667_j37366215475921_1_alg».proof.Proof.RefOps
import proofs.«177667_j37366215475921_1_alg».proof.Proof.RefDefs

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! # Layer 1 read back

The layer's operations that were listed over typed references (the gather's and the two maxima's) are first shown
equal to the same builders over the buffers themselves — the changes of type around their functions are identities —,
so the layer is a list of eighty plain operations. It is read in four stretches — the gather, the pooled sum with the
first affine map and maximum, the second affine map with the centring, the scaling with the shift and the last
maximum —: what each stretch leaves in its last buffer from any contents, that it leaves every buffer it does not
write alone, and the four composed. -/

namespace L1

theorem e0 : (StableHlo.TRef.nullary main_call3.c (constantI S_ 32 0#32) : HloOp τ sig (Elt F)) = StableHlo.nullary main_call3_c (constantI S_ 32 0#32) :=
  nullary_congr _ _ _ _ _ (cast_free₀ _ (constantI S_ 32 0#32 : (⟨S_, .i32⟩ : BufTy).Contents (Elt F)))

theorem e1 : (StableHlo.TRef.unary main_call3.c main_call3.v0 (broadcastInDim S800000 ![] bcast_S_S800000) : HloOp τ sig (Elt F)) = StableHlo.unary main_call3_c main_call3_v0 (broadcastInDim S800000 ![] bcast_S_S800000 : (⟨S_, .i32⟩ : BufTy).Contents (Elt F) → (⟨S800000, .i32⟩ : BufTy).Contents (Elt F)) :=
  unary_congr _ _ _ _ _ _ _ _ (fun v => cast_free₁ _ _ (broadcastInDim S800000 ![] bcast_S_S800000 : (⟨S_, .i32⟩ : BufTy).Contents (Elt F) → (⟨S800000, .i32⟩ : BufTy).Contents (Elt F)) v)

theorem e2 : (StableHlo.TRef.binary (.of main_arg1 : StableHlo.TRef sig ⟨S800000, .i32⟩) main_call3.v0 main_call3.v1 (cmpi .slt) : HloOp τ sig (Elt F)) = StableHlo.binary main_arg1 main_call3_v0 main_call3_v1 (cmpi .slt : (⟨S800000, .i32⟩ : BufTy).Contents (Elt F) → (⟨S800000, .i32⟩ : BufTy).Contents (Elt F) → (⟨S800000, .i1⟩ : BufTy).Contents (Elt F)) :=
  binary_congr _ _ _ _ _ _ _ _ _ _ _ (fun u v => cast_free₂ _ _ _ (cmpi .slt : (⟨S800000, .i32⟩ : BufTy).Contents (Elt F) → (⟨S800000, .i32⟩ : BufTy).Contents (Elt F) → (⟨S800000, .i1⟩ : BufTy).Contents (Elt F)) u v)

theorem e3 : (StableHlo.TRef.nullary main_call3.c_0 (constantI S_ 32 50000#32) : HloOp τ sig (Elt F)) = StableHlo.nullary main_call3_c_0 (constantI S_ 32 50000#32) :=
  nullary_congr _ _ _ _ _ (cast_free₀ _ (constantI S_ 32 50000#32 : (⟨S_, .i32⟩ : BufTy).Contents (Elt F)))

theorem e4 : (StableHlo.TRef.unary main_call3.c_0 main_call3.v2 (broadcastInDim S800000 ![] bcast_S_S800000) : HloOp τ sig (Elt F)) = StableHlo.unary main_call3_c_0 main_call3_v2 (broadcastInDim S800000 ![] bcast_S_S800000 : (⟨S_, .i32⟩ : BufTy).Contents (Elt F) → (⟨S800000, .i32⟩ : BufTy).Contents (Elt F)) :=
  unary_congr _ _ _ _ _ _ _ _ (fun v => cast_free₁ _ _ (broadcastInDim S800000 ![] bcast_S_S800000 : (⟨S_, .i32⟩ : BufTy).Contents (Elt F) → (⟨S800000, .i32⟩ : BufTy).Contents (Elt F)) v)

theorem e5 : (StableHlo.TRef.binary (.of main_arg1 : StableHlo.TRef sig ⟨S800000, .i32⟩) main_call3.v2 main_call3.v3 addi : HloOp τ sig (Elt F)) = StableHlo.binary main_arg1 main_call3_v2 main_call3_v3 (addi : (⟨S800000, .i32⟩ : BufTy).Contents (Elt F) → (⟨S800000, .i32⟩ : BufTy).Contents (Elt F) → (⟨S800000, .i32⟩ : BufTy).Contents (Elt F)) :=
  binary_congr _ _ _ _ _ _ _ _ _ _ _ (fun u v => cast_free₂ _ _ _ (addi : (⟨S800000, .i32⟩ : BufTy).Contents (Elt F) → (⟨S800000, .i32⟩ : BufTy).Contents (Elt F) → (⟨S800000, .i32⟩ : BufTy).Contents (Elt F)) u v)

theorem e6 : (StableHlo.TRef.ternary main_call3.v1 main_call3.v3 (.of main_arg1 : StableHlo.TRef sig ⟨S800000, .i32⟩) main_call3.call0.v0 select : HloOp τ sig (Elt F)) = StableHlo.ternary main_call3_v1 main_call3_v3 main_arg1 main_call3_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) :=
  ternary_congr _ _ _ _ _ _ _ _ _ _ _ _ _ _ (fun w u v => cast_free₃ _ _ _ _ (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) w u v)

theorem e7 : (StableHlo.TRef.unary main_call3.call0.v0 main_call3.v5 (broadcastInDim S800000x1 ![0] bcast_S800000_S800000x1_0) : HloOp τ sig (Elt F)) = StableHlo.unary main_call3_v4 main_call3_v5 (broadcastInDim S800000x1 ![0] bcast_S800000_S800000x1_0 : (⟨S800000, .i32⟩ : BufTy).Contents (Elt F) → (⟨S800000x1, .i32⟩ : BufTy).Contents (Elt F)) :=
  unary_congr _ _ _ _ _ _ _ _ (fun v => cast_free₁ _ _ (broadcastInDim S800000x1 ![0] bcast_S800000_S800000x1_0 : (⟨S800000, .i32⟩ : BufTy).Contents (Elt F) → (⟨S800000x1, .i32⟩ : BufTy).Contents (Elt F)) v)

theorem e8 : (StableHlo.TRef.nullary main_call3.c_1 (constantI S1 32 49999#32) : HloOp τ sig (Elt F)) = StableHlo.nullary main_call3_c_1 (constantI S1 32 49999#32) :=
  nullary_congr _ _ _ _ _ (cast_free₀ _ (constantI S1 32 49999#32 : (⟨S1, .i32⟩ : BufTy).Contents (Elt F)))

theorem e9 : (StableHlo.TRef.nullary main_call3.c_2 (constantI S_ 32 0#32) : HloOp τ sig (Elt F)) = StableHlo.nullary main_call3_c_2 (constantI S_ 32 0#32) :=
  nullary_congr _ _ _ _ _ (cast_free₀ _ (constantI S_ 32 0#32 : (⟨S_, .i32⟩ : BufTy).Contents (Elt F)))

theorem e10 : (StableHlo.TRef.unary main_call3.c_2 main_call3.v6 (broadcastInDim S800000x1 ![] bcast_S_S800000x1) : HloOp τ sig (Elt F)) = StableHlo.unary main_call3_c_2 main_call3_v6 (broadcastInDim S800000x1 ![] bcast_S_S800000x1 : (⟨S_, .i32⟩ : BufTy).Contents (Elt F) → (⟨S800000x1, .i32⟩ : BufTy).Contents (Elt F)) :=
  unary_congr _ _ _ _ _ _ _ _ (fun v => cast_free₁ _ _ (broadcastInDim S800000x1 ![] bcast_S_S800000x1 : (⟨S_, .i32⟩ : BufTy).Contents (Elt F) → (⟨S800000x1, .i32⟩ : BufTy).Contents (Elt F)) v)

theorem e11 : (StableHlo.TRef.binary main_call3.v5 main_call3.v6 main_call3.v7 (cmpi .sge) : HloOp τ sig (Elt F)) = StableHlo.binary main_call3_v5 main_call3_v6 main_call3_v7 (cmpi .sge : (⟨S800000x1, .i32⟩ : BufTy).Contents (Elt F) → (⟨S800000x1, .i32⟩ : BufTy).Contents (Elt F) → (⟨S800000x1, .i1⟩ : BufTy).Contents (Elt F)) :=
  binary_congr _ _ _ _ _ _ _ _ _ _ _ (fun u v => cast_free₂ _ _ _ (cmpi .sge : (⟨S800000x1, .i32⟩ : BufTy).Contents (Elt F) → (⟨S800000x1, .i32⟩ : BufTy).Contents (Elt F) → (⟨S800000x1, .i1⟩ : BufTy).Contents (Elt F)) u v)

theorem e12 : (StableHlo.TRef.unary main_call3.c_1 main_call3.v8 (broadcastInDim S1x1 ![1] bcast_S1_S1x1_1) : HloOp τ sig (Elt F)) = StableHlo.unary main_call3_c_1 main_call3_v8 (broadcastInDim S1x1 ![1] bcast_S1_S1x1_1 : (⟨S1, .i32⟩ : BufTy).Contents (Elt F) → (⟨S1x1, .i32⟩ : BufTy).Contents (Elt F)) :=
  unary_congr _ _ _ _ _ _ _ _ (fun v => cast_free₁ _ _ (broadcastInDim S1x1 ![1] bcast_S1_S1x1_1 : (⟨S1, .i32⟩ : BufTy).Contents (Elt F) → (⟨S1x1, .i32⟩ : BufTy).Contents (Elt F)) v)

theorem e13 : (StableHlo.TRef.unary main_call3.v8 main_call3.v9 (broadcastInDim S800000x1 ![0, 1] bcast_S1x1_S800000x1_0_1) : HloOp τ sig (Elt F)) = StableHlo.unary main_call3_v8 main_call3_v9 (broadcastInDim S800000x1 ![0, 1] bcast_S1x1_S800000x1_0_1 : (⟨S1x1, .i32⟩ : BufTy).Contents (Elt F) → (⟨S800000x1, .i32⟩ : BufTy).Contents (Elt F)) :=
  unary_congr _ _ _ _ _ _ _ _ (fun v => cast_free₁ _ _ (broadcastInDim S800000x1 ![0, 1] bcast_S1x1_S800000x1_0_1 : (⟨S1x1, .i32⟩ : BufTy).Contents (Elt F) → (⟨S800000x1, .i32⟩ : BufTy).Contents (Elt F)) v)

theorem e14 : (StableHlo.TRef.binary main_call3.v5 main_call3.v9 main_call3.v10 (cmpi .sle) : HloOp τ sig (Elt F)) = StableHlo.binary main_call3_v5 main_call3_v9 main_call3_v10 (cmpi .sle : (⟨S800000x1, .i32⟩ : BufTy).Contents (Elt F) → (⟨S800000x1, .i32⟩ : BufTy).Contents (Elt F) → (⟨S800000x1, .i1⟩ : BufTy).Contents (Elt F)) :=
  binary_congr _ _ _ _ _ _ _ _ _ _ _ (fun u v => cast_free₂ _ _ _ (cmpi .sle : (⟨S800000x1, .i32⟩ : BufTy).Contents (Elt F) → (⟨S800000x1, .i32⟩ : BufTy).Contents (Elt F) → (⟨S800000x1, .i1⟩ : BufTy).Contents (Elt F)) u v)

theorem e15 : (StableHlo.TRef.binary main_call3.v7 main_call3.v10 main_call3.v11 andi : HloOp τ sig (Elt F)) = StableHlo.binary main_call3_v7 main_call3_v10 main_call3_v11 (andi : (⟨S800000x1, .i1⟩ : BufTy).Contents (Elt F) → (⟨S800000x1, .i1⟩ : BufTy).Contents (Elt F) → (⟨S800000x1, .i1⟩ : BufTy).Contents (Elt F)) :=
  binary_congr _ _ _ _ _ _ _ _ _ _ _ (fun u v => cast_free₂ _ _ _ (andi : (⟨S800000x1, .i1⟩ : BufTy).Contents (Elt F) → (⟨S800000x1, .i1⟩ : BufTy).Contents (Elt F) → (⟨S800000x1, .i1⟩ : BufTy).Contents (Elt F)) u v)

theorem e16 : (StableHlo.TRef.nullary main_call3.c_3 (constantI S_ 1 1#1) : HloOp τ sig (Elt F)) = StableHlo.nullary main_call3_c_3 (constantI S_ 1 1#1) :=
  nullary_congr _ _ _ _ _ (cast_free₀ _ (constantI S_ 1 1#1 : (⟨S_, .i1⟩ : BufTy).Contents (Elt F)))

theorem e17 : (StableHlo.TRef.binary main_call3.v11 main_call3.c_3 main_call3.v12 (fun x v => Host.reduce IntOp.andi x v reducesTo_S800000x1_S800000_d1 h_S_) : HloOp τ sig (Elt F)) = StableHlo.binary main_call3_v11 main_call3_c_3 main_call3_v12 ((fun x v => Host.reduce IntOp.andi x v reducesTo_S800000x1_S800000_d1 h_S_) : (⟨S800000x1, .i1⟩ : BufTy).Contents (Elt F) → (⟨S_, .i1⟩ : BufTy).Contents (Elt F) → (⟨S800000, .i1⟩ : BufTy).Contents (Elt F)) :=
  binary_congr _ _ _ _ _ _ _ _ _ _ _ (fun u v => cast_free₂ _ _ _ (fun x v => Host.reduce IntOp.andi x v reducesTo_S800000x1_S800000_d1 h_S_ : (⟨S800000x1, .i1⟩ : BufTy).Contents (Elt F) → (⟨S_, .i1⟩ : BufTy).Contents (Elt F) → (⟨S800000, .i1⟩ : BufTy).Contents (Elt F)) u v)

theorem e18 : (StableHlo.TRef.binary (.of main_v50 : StableHlo.TRef sig ⟨S50000x128, .f32⟩) main_call3.v5 main_call3.v13 (fun x i => Host.gather gather_S50000x128_S800000x1_S800000x128_1_0_n_n_0_1_1128 x i) : HloOp τ sig (Elt F)) = StableHlo.binary main_v50 main_call3_v5 main_call3_v13 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) :=
  binary_congr _ _ _ _ _ _ _ _ _ _ _ (fun u v => cast_free₂ _ _ _ (fun x i => Host.gather gather_S50000x128_S800000x1_S800000x128_1_0_n_n_0_1_1128 x i : (⟨S50000x128, .f32⟩ : BufTy).Contents (Elt F) → (⟨S800000x1, .i32⟩ : BufTy).Contents (Elt F) → (⟨S800000x128, .f32⟩ : BufTy).Contents (Elt F)) u v)

theorem e19 : (StableHlo.TRef.unary main_call3.v12 main_call3.v14 (broadcastInDim S800000x128 ![0] bcast_S800000_S800000x128_0) : HloOp τ sig (Elt F)) = StableHlo.unary main_call3_v12 main_call3_v14 (broadcastInDim S800000x128 ![0] bcast_S800000_S800000x128_0 : (⟨S800000, .i1⟩ : BufTy).Contents (Elt F) → (⟨S800000x128, .i1⟩ : BufTy).Contents (Elt F)) :=
  unary_congr _ _ _ _ _ _ _ _ (fun v => cast_free₁ _ _ (broadcastInDim S800000x128 ![0] bcast_S800000_S800000x128_0 : (⟨S800000, .i1⟩ : BufTy).Contents (Elt F) → (⟨S800000x128, .i1⟩ : BufTy).Contents (Elt F)) v)

theorem e20 : (StableHlo.TRef.nullary main_call3.cst (constant S_ .f32 0x7FC00000#32) : HloOp τ sig (Elt F)) = StableHlo.nullary main_call3_cst (constant S_ .f32 0x7FC00000#32) :=
  nullary_congr _ _ _ _ _ (cast_free₀ _ (constant S_ .f32 0x7FC00000#32 : (⟨S_, .f32⟩ : BufTy).Contents (Elt F)))

theorem e21 : (StableHlo.TRef.unary main_call3.cst main_call3.v15 (broadcastInDim S800000x128 ![] bcast_S_S800000x128) : HloOp τ sig (Elt F)) = StableHlo.unary main_call3_cst main_call3_v15 (broadcastInDim S800000x128 ![] bcast_S_S800000x128 : (⟨S_, .f32⟩ : BufTy).Contents (Elt F) → (⟨S800000x128, .f32⟩ : BufTy).Contents (Elt F)) :=
  unary_congr _ _ _ _ _ _ _ _ (fun v => cast_free₁ _ _ (broadcastInDim S800000x128 ![] bcast_S_S800000x128 : (⟨S_, .f32⟩ : BufTy).Contents (Elt F) → (⟨S800000x128, .f32⟩ : BufTy).Contents (Elt F)) v)

theorem e22 : (StableHlo.TRef.ternary main_call3.v14 main_call3.v13 main_call3.v15 main_call3.v16 select : HloOp τ sig (Elt F)) = StableHlo.ternary main_call3_v14 main_call3_v13 main_call3_v15 main_v51 (select : (⟨S800000x128, .i1⟩ : BufTy).Contents (Elt F) → (⟨S800000x128, .f32⟩ : BufTy).Contents (Elt F) → (⟨S800000x128, .f32⟩ : BufTy).Contents (Elt F) → (⟨S800000x128, .f32⟩ : BufTy).Contents (Elt F)) :=
  ternary_congr _ _ _ _ _ _ _ _ _ _ _ _ _ _ (fun w u v => cast_free₃ _ _ _ _ (select : (⟨S800000x128, .i1⟩ : BufTy).Contents (Elt F) → (⟨S800000x128, .f32⟩ : BufTy).Contents (Elt F) → (⟨S800000x128, .f32⟩ : BufTy).Contents (Elt F) → (⟨S800000x128, .f32⟩ : BufTy).Contents (Elt F)) w u v)

theorem e42 : (StableHlo.TRef.nullary main_call4.cst (constant S_ .f32 0x00000000#32) : HloOp τ sig (Elt F)) = StableHlo.nullary main_call4_cst (constant S_ .f32 0x00000000#32) :=
  nullary_congr _ _ _ _ _ (cast_free₀ _ (constant S_ .f32 0x00000000#32 : (⟨S_, .f32⟩ : BufTy).Contents (Elt F)))

theorem e43 : (StableHlo.TRef.unary main_call4.cst main_call4.v0 (broadcastInDim S50000x128 ![] bcast_S_S50000x128) : HloOp τ sig (Elt F)) = StableHlo.unary main_call4_cst main_call4_v0 (broadcastInDim S50000x128 ![] bcast_S_S50000x128 : (⟨S_, .f32⟩ : BufTy).Contents (Elt F) → (⟨S50000x128, .f32⟩ : BufTy).Contents (Elt F)) :=
  unary_congr _ _ _ _ _ _ _ _ (fun v => cast_free₁ _ _ (broadcastInDim S50000x128 ![] bcast_S_S50000x128 : (⟨S_, .f32⟩ : BufTy).Contents (Elt F) → (⟨S50000x128, .f32⟩ : BufTy).Contents (Elt F)) v)

theorem e44 : (StableHlo.TRef.binary (.of main_v68 : StableHlo.TRef sig ⟨S50000x128, .f32⟩) main_call4.v0 main_call4.v1 maximumf : HloOp τ sig (Elt F)) = StableHlo.binary main_v68 main_call4_v0 main_v69 (maximumf : (⟨S50000x128, .f32⟩ : BufTy).Contents (Elt F) → (⟨S50000x128, .f32⟩ : BufTy).Contents (Elt F) → (⟨S50000x128, .f32⟩ : BufTy).Contents (Elt F)) :=
  binary_congr _ _ _ _ _ _ _ _ _ _ _ (fun u v => cast_free₂ _ _ _ (maximumf : (⟨S50000x128, .f32⟩ : BufTy).Contents (Elt F) → (⟨S50000x128, .f32⟩ : BufTy).Contents (Elt F) → (⟨S50000x128, .f32⟩ : BufTy).Contents (Elt F)) u v)

theorem e77 : (StableHlo.TRef.nullary main_call5.cst (constant S_ .f32 0x00000000#32) : HloOp τ sig (Elt F)) = StableHlo.nullary main_call5_cst (constant S_ .f32 0x00000000#32) :=
  nullary_congr _ _ _ _ _ (cast_free₀ _ (constant S_ .f32 0x00000000#32 : (⟨S_, .f32⟩ : BufTy).Contents (Elt F)))

theorem e78 : (StableHlo.TRef.unary main_call5.cst main_call5.v0 (broadcastInDim S50000x128 ![] bcast_S_S50000x128) : HloOp τ sig (Elt F)) = StableHlo.unary main_call5_cst main_call5_v0 (broadcastInDim S50000x128 ![] bcast_S_S50000x128 : (⟨S_, .f32⟩ : BufTy).Contents (Elt F) → (⟨S50000x128, .f32⟩ : BufTy).Contents (Elt F)) :=
  unary_congr _ _ _ _ _ _ _ _ (fun v => cast_free₁ _ _ (broadcastInDim S50000x128 ![] bcast_S_S50000x128 : (⟨S_, .f32⟩ : BufTy).Contents (Elt F) → (⟨S50000x128, .f32⟩ : BufTy).Contents (Elt F)) v)

theorem e79 : (StableHlo.TRef.binary (.of main_v100 : StableHlo.TRef sig ⟨S50000x128, .f32⟩) main_call5.v0 main_call5.v1 maximumf : HloOp τ sig (Elt F)) = StableHlo.binary main_v100 main_call5_v0 main_v101 (maximumf : (⟨S50000x128, .f32⟩ : BufTy).Contents (Elt F) → (⟨S50000x128, .f32⟩ : BufTy).Contents (Elt F) → (⟨S50000x128, .f32⟩ : BufTy).Contents (Elt F)) :=
  binary_congr _ _ _ _ _ _ _ _ _ _ _ (fun u v => cast_free₂ _ _ _ (maximumf : (⟨S50000x128, .f32⟩ : BufTy).Contents (Elt F) → (⟨S50000x128, .f32⟩ : BufTy).Contents (Elt F) → (⟨S50000x128, .f32⟩ : BufTy).Contents (Elt F)) u v)

abbrev cT : List (HloOp τ sig (Elt F)) :=
  [ StableHlo.nullary main_call3_c (constantI S_ 32 0#32),
    StableHlo.unary main_call3_c main_call3_v0 (broadcastInDim S800000 ![] bcast_S_S800000 : (⟨S_, .i32⟩ : BufTy).Contents (Elt F) → (⟨S800000, .i32⟩ : BufTy).Contents (Elt F)),
    StableHlo.binary main_arg1 main_call3_v0 main_call3_v1 (cmpi .slt : (⟨S800000, .i32⟩ : BufTy).Contents (Elt F) → (⟨S800000, .i32⟩ : BufTy).Contents (Elt F) → (⟨S800000, .i1⟩ : BufTy).Contents (Elt F)),
    StableHlo.nullary main_call3_c_0 (constantI S_ 32 50000#32),
    StableHlo.unary main_call3_c_0 main_call3_v2 (broadcastInDim S800000 ![] bcast_S_S800000 : (⟨S_, .i32⟩ : BufTy).Contents (Elt F) → (⟨S800000, .i32⟩ : BufTy).Contents (Elt F)),
    StableHlo.binary main_arg1 main_call3_v2 main_call3_v3 (addi : (⟨S800000, .i32⟩ : BufTy).Contents (Elt F) → (⟨S800000, .i32⟩ : BufTy).Contents (Elt F) → (⟨S800000, .i32⟩ : BufTy).Contents (Elt F)),
    StableHlo.ternary main_call3_v1 main_call3_v3 main_arg1 main_call3_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_call3_v4 main_call3_v5 (broadcastInDim S800000x1 ![0] bcast_S800000_S800000x1_0 : (⟨S800000, .i32⟩ : BufTy).Contents (Elt F) → (⟨S800000x1, .i32⟩ : BufTy).Contents (Elt F)),
    StableHlo.nullary main_call3_c_1 (constantI S1 32 49999#32),
    StableHlo.nullary main_call3_c_2 (constantI S_ 32 0#32),
    StableHlo.unary main_call3_c_2 main_call3_v6 (broadcastInDim S800000x1 ![] bcast_S_S800000x1 : (⟨S_, .i32⟩ : BufTy).Contents (Elt F) → (⟨S800000x1, .i32⟩ : BufTy).Contents (Elt F)),
    StableHlo.binary main_call3_v5 main_call3_v6 main_call3_v7 (cmpi .sge : (⟨S800000x1, .i32⟩ : BufTy).Contents (Elt F) → (⟨S800000x1, .i32⟩ : BufTy).Contents (Elt F) → (⟨S800000x1, .i1⟩ : BufTy).Contents (Elt F)),
    StableHlo.unary main_call3_c_1 main_call3_v8 (broadcastInDim S1x1 ![1] bcast_S1_S1x1_1 : (⟨S1, .i32⟩ : BufTy).Contents (Elt F) → (⟨S1x1, .i32⟩ : BufTy).Contents (Elt F)),
    StableHlo.unary main_call3_v8 main_call3_v9 (broadcastInDim S800000x1 ![0, 1] bcast_S1x1_S800000x1_0_1 : (⟨S1x1, .i32⟩ : BufTy).Contents (Elt F) → (⟨S800000x1, .i32⟩ : BufTy).Contents (Elt F)),
    StableHlo.binary main_call3_v5 main_call3_v9 main_call3_v10 (cmpi .sle : (⟨S800000x1, .i32⟩ : BufTy).Contents (Elt F) → (⟨S800000x1, .i32⟩ : BufTy).Contents (Elt F) → (⟨S800000x1, .i1⟩ : BufTy).Contents (Elt F)),
    StableHlo.binary main_call3_v7 main_call3_v10 main_call3_v11 (andi : (⟨S800000x1, .i1⟩ : BufTy).Contents (Elt F) → (⟨S800000x1, .i1⟩ : BufTy).Contents (Elt F) → (⟨S800000x1, .i1⟩ : BufTy).Contents (Elt F)),
    StableHlo.nullary main_call3_c_3 (constantI S_ 1 1#1),
    StableHlo.binary main_call3_v11 main_call3_c_3 main_call3_v12 ((fun x v => Host.reduce IntOp.andi x v reducesTo_S800000x1_S800000_d1 h_S_) : (⟨S800000x1, .i1⟩ : BufTy).Contents (Elt F) → (⟨S_, .i1⟩ : BufTy).Contents (Elt F) → (⟨S800000, .i1⟩ : BufTy).Contents (Elt F)),
    StableHlo.binary main_v50 main_call3_v5 main_call3_v13 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_call3_v12 main_call3_v14 (broadcastInDim S800000x128 ![0] bcast_S800000_S800000x128_0 : (⟨S800000, .i1⟩ : BufTy).Contents (Elt F) → (⟨S800000x128, .i1⟩ : BufTy).Contents (Elt F)),
    StableHlo.nullary main_call3_cst (constant S_ .f32 0x7FC00000#32),
    StableHlo.unary main_call3_cst main_call3_v15 (broadcastInDim S800000x128 ![] bcast_S_S800000x128 : (⟨S_, .f32⟩ : BufTy).Contents (Elt F) → (⟨S800000x128, .f32⟩ : BufTy).Contents (Elt F)),
    StableHlo.ternary main_call3_v14 main_call3_v13 main_call3_v15 main_v51 (select : (⟨S800000x128, .i1⟩ : BufTy).Contents (Elt F) → (⟨S800000x128, .f32⟩ : BufTy).Contents (Elt F) → (⟨S800000x128, .f32⟩ : BufTy).Contents (Elt F) → (⟨S800000x128, .f32⟩ : BufTy).Contents (Elt F)) ]

abbrev cA : List (HloOp τ sig (Elt F)) :=
  [ StableHlo.nullary main_cst_2 (constant S_ .f32 0x00000000#32),
    StableHlo.unary main_cst_2 main_v52 (broadcastInDim S50000x128 ![] bcast_S_S50000x128 : (⟨S_, .f32⟩ : BufTy).Contents (Elt F) → (⟨S50000x128, .f32⟩ : BufTy).Contents (Elt F)),
    StableHlo.unary main_arg2 main_v53 (broadcastInDim S800000x1 ![0] bcast_S800000_S800000x1_0 : (⟨S800000, .i32⟩ : BufTy).Contents (Elt F) → (⟨S800000x1, .i32⟩ : BufTy).Contents (Elt F)),
    StableHlo.ternary main_v52 main_v53 main_v51 main_v54 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg3 main_v55 ((extractStridedSlice S1 ![1] · slices_S5_S1_1) : (⟨S5, .f32⟩ : BufTy).Contents (Elt F) → (⟨S1, .f32⟩ : BufTy).Contents (Elt F)),
    StableHlo.reshape main_v55 main_v56 rfl shapeCasts_S1_S_,
    StableHlo.nullary main_cst_3 (constant S_ .f32 0x3F800000#32),
    StableHlo.binary main_cst_3 main_v56 main_v57 (addf : (⟨S_, .f32⟩ : BufTy).Contents (Elt F) → (⟨S_, .f32⟩ : BufTy).Contents (Elt F) → (⟨S_, .f32⟩ : BufTy).Contents (Elt F)),
    StableHlo.unary main_v57 main_v58 (broadcastInDim S50000x128 ![] bcast_S_S50000x128 : (⟨S_, .f32⟩ : BufTy).Contents (Elt F) → (⟨S50000x128, .f32⟩ : BufTy).Contents (Elt F)),
    StableHlo.binary main_v58 main_v50 main_v59 (mulf : (⟨S50000x128, .f32⟩ : BufTy).Contents (Elt F) → (⟨S50000x128, .f32⟩ : BufTy).Contents (Elt F) → (⟨S50000x128, .f32⟩ : BufTy).Contents (Elt F)),
    StableHlo.binary main_v54 main_v59 main_v60 (addf : (⟨S50000x128, .f32⟩ : BufTy).Contents (Elt F) → (⟨S50000x128, .f32⟩ : BufTy).Contents (Elt F) → (⟨S50000x128, .f32⟩ : BufTy).Contents (Elt F)),
    StableHlo.unary main_arg4 main_v61 ((extractStridedSlice S1x128x128 ![1, 0, 0] · slices_S5x128x128_S1x128x128_1_0_0) : (⟨S5x128x128, .f32⟩ : BufTy).Contents (Elt F) → (⟨S1x128x128, .f32⟩ : BufTy).Contents (Elt F)),
    StableHlo.reshape main_v61 main_v62 rfl shapeCasts_S1x128x128_S128x128,
    StableHlo.binary main_v60 main_v62 main_v63 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v64 ((extractStridedSlice S1x128 ![1, 0] · slices_S5x128_S1x128_1_0) : (⟨S5x128, .f32⟩ : BufTy).Contents (Elt F) → (⟨S1x128, .f32⟩ : BufTy).Contents (Elt F)),
    StableHlo.reshape main_v64 main_v65 rfl shapeCasts_S1x128_S128,
    StableHlo.unary main_v65 main_v66 (broadcastInDim S1x128 ![1] bcast_S128_S1x128_1 : (⟨S128, .f32⟩ : BufTy).Contents (Elt F) → (⟨S1x128, .f32⟩ : BufTy).Contents (Elt F)),
    StableHlo.unary main_v66 main_v67 (broadcastInDim S50000x128 ![0, 1] bcast_S1x128_S50000x128_0_1 : (⟨S1x128, .f32⟩ : BufTy).Contents (Elt F) → (⟨S50000x128, .f32⟩ : BufTy).Contents (Elt F)),
    StableHlo.binary main_v63 main_v67 main_v68 (addf : (⟨S50000x128, .f32⟩ : BufTy).Contents (Elt F) → (⟨S50000x128, .f32⟩ : BufTy).Contents (Elt F) → (⟨S50000x128, .f32⟩ : BufTy).Contents (Elt F)),
    StableHlo.nullary main_call4_cst (constant S_ .f32 0x00000000#32),
    StableHlo.unary main_call4_cst main_call4_v0 (broadcastInDim S50000x128 ![] bcast_S_S50000x128 : (⟨S_, .f32⟩ : BufTy).Contents (Elt F) → (⟨S50000x128, .f32⟩ : BufTy).Contents (Elt F)),
    StableHlo.binary main_v68 main_call4_v0 main_v69 (maximumf : (⟨S50000x128, .f32⟩ : BufTy).Contents (Elt F) → (⟨S50000x128, .f32⟩ : BufTy).Contents (Elt F) → (⟨S50000x128, .f32⟩ : BufTy).Contents (Elt F)) ]

abbrev cB : List (HloOp τ sig (Elt F)) :=
  [ StableHlo.unary main_arg6 main_v70 ((extractStridedSlice S1x128x128 ![1, 0, 0] · slices_S5x128x128_S1x128x128_1_0_0) : (⟨S5x128x128, .f32⟩ : BufTy).Contents (Elt F) → (⟨S1x128x128, .f32⟩ : BufTy).Contents (Elt F)),
    StableHlo.reshape main_v70 main_v71 rfl shapeCasts_S1x128x128_S128x128,
    StableHlo.binary main_v69 main_v71 main_v72 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v73 ((extractStridedSlice S1x128 ![1, 0] · slices_S5x128_S1x128_1_0) : (⟨S5x128, .f32⟩ : BufTy).Contents (Elt F) → (⟨S1x128, .f32⟩ : BufTy).Contents (Elt F)),
    StableHlo.reshape main_v73 main_v74 rfl shapeCasts_S1x128_S128,
    StableHlo.unary main_v74 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S50000x128 ![0, 1] bcast_S1x128_S50000x128_0_1 : (⟨S1x128, .f32⟩ : BufTy).Contents (Elt F) → (⟨S50000x128, .f32⟩ : BufTy).Contents (Elt F)),
    StableHlo.binary main_v72 main_v76 main_v77 (addf : (⟨S50000x128, .f32⟩ : BufTy).Contents (Elt F) → (⟨S50000x128, .f32⟩ : BufTy).Contents (Elt F) → (⟨S50000x128, .f32⟩ : BufTy).Contents (Elt F)),
    StableHlo.unary main_arg8 main_v78 ((extractStridedSlice S1x128 ![1, 0] · slices_S5x128_S1x128_1_0) : (⟨S5x128, .f32⟩ : BufTy).Contents (Elt F) → (⟨S1x128, .f32⟩ : BufTy).Contents (Elt F)),
    StableHlo.reshape main_v78 main_v79 rfl shapeCasts_S1x128_S128,
    StableHlo.unary main_arg10 main_v80 ((extractStridedSlice S1x128 ![1, 0] · slices_S5x128_S1x128_1_0) : (⟨S5x128, .f32⟩ : BufTy).Contents (Elt F) → (⟨S1x128, .f32⟩ : BufTy).Contents (Elt F)),
    StableHlo.reshape main_v80 main_v81 rfl shapeCasts_S1x128_S128,
    StableHlo.unary main_v81 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S50000x128 ![0, 1] bcast_S1x128_S50000x128_0_1 : (⟨S1x128, .f32⟩ : BufTy).Contents (Elt F) → (⟨S50000x128, .f32⟩ : BufTy).Contents (Elt F)),
    StableHlo.binary main_v77 main_v83 main_v84 (subf : (⟨S50000x128, .f32⟩ : BufTy).Contents (Elt F) → (⟨S50000x128, .f32⟩ : BufTy).Contents (Elt F) → (⟨S50000x128, .f32⟩ : BufTy).Contents (Elt F)),
    StableHlo.unary main_v79 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S50000x128 ![0, 1] bcast_S1x128_S50000x128_0_1 : (⟨S1x128, .f32⟩ : BufTy).Contents (Elt F) → (⟨S50000x128, .f32⟩ : BufTy).Contents (Elt F)),
    StableHlo.binary main_v86 main_v84 main_v87 (mulf : (⟨S50000x128, .f32⟩ : BufTy).Contents (Elt F) → (⟨S50000x128, .f32⟩ : BufTy).Contents (Elt F) → (⟨S50000x128, .f32⟩ : BufTy).Contents (Elt F)) ]

abbrev cC : List (HloOp τ sig (Elt F)) :=
  [ StableHlo.unary main_arg11 main_v88 ((extractStridedSlice S1x128 ![1, 0] · slices_S5x128_S1x128_1_0) : (⟨S5x128, .f32⟩ : BufTy).Contents (Elt F) → (⟨S1x128, .f32⟩ : BufTy).Contents (Elt F)),
    StableHlo.reshape main_v88 main_v89 rfl shapeCasts_S1x128_S128,
    StableHlo.nullary main_cst_4 (constant S_ .f32 0x3A83126F#32),
    StableHlo.unary main_cst_4 main_v90 (broadcastInDim S128 ![] bcast_S_S128 : (⟨S_, .f32⟩ : BufTy).Contents (Elt F) → (⟨S128, .f32⟩ : BufTy).Contents (Elt F)),
    StableHlo.binary main_v89 main_v90 main_v91 (addf : (⟨S128, .f32⟩ : BufTy).Contents (Elt F) → (⟨S128, .f32⟩ : BufTy).Contents (Elt F) → (⟨S128, .f32⟩ : BufTy).Contents (Elt F)),
    StableHlo.unary main_v91 main_v92 (Host.rsqrt : (⟨S128, .f32⟩ : BufTy).Contents (Elt F) → (⟨S128, .f32⟩ : BufTy).Contents (Elt F)),
    StableHlo.unary main_v92 main_v93 (broadcastInDim S1x128 ![1] bcast_S128_S1x128_1 : (⟨S128, .f32⟩ : BufTy).Contents (Elt F) → (⟨S1x128, .f32⟩ : BufTy).Contents (Elt F)),
    StableHlo.unary main_v93 main_v94 (broadcastInDim S50000x128 ![0, 1] bcast_S1x128_S50000x128_0_1 : (⟨S1x128, .f32⟩ : BufTy).Contents (Elt F) → (⟨S50000x128, .f32⟩ : BufTy).Contents (Elt F)),
    StableHlo.binary main_v87 main_v94 main_v95 (mulf : (⟨S50000x128, .f32⟩ : BufTy).Contents (Elt F) → (⟨S50000x128, .f32⟩ : BufTy).Contents (Elt F) → (⟨S50000x128, .f32⟩ : BufTy).Contents (Elt F)),
    StableHlo.unary main_arg9 main_v96 ((extractStridedSlice S1x128 ![1, 0] · slices_S5x128_S1x128_1_0) : (⟨S5x128, .f32⟩ : BufTy).Contents (Elt F) → (⟨S1x128, .f32⟩ : BufTy).Contents (Elt F)),
    StableHlo.reshape main_v96 main_v97 rfl shapeCasts_S1x128_S128,
    StableHlo.unary main_v97 main_v98 (broadcastInDim S1x128 ![1] bcast_S128_S1x128_1 : (⟨S128, .f32⟩ : BufTy).Contents (Elt F) → (⟨S1x128, .f32⟩ : BufTy).Contents (Elt F)),
    StableHlo.unary main_v98 main_v99 (broadcastInDim S50000x128 ![0, 1] bcast_S1x128_S50000x128_0_1 : (⟨S1x128, .f32⟩ : BufTy).Contents (Elt F) → (⟨S50000x128, .f32⟩ : BufTy).Contents (Elt F)),
    StableHlo.binary main_v95 main_v99 main_v100 (addf : (⟨S50000x128, .f32⟩ : BufTy).Contents (Elt F) → (⟨S50000x128, .f32⟩ : BufTy).Contents (Elt F) → (⟨S50000x128, .f32⟩ : BufTy).Contents (Elt F)),
    StableHlo.nullary main_call5_cst (constant S_ .f32 0x00000000#32),
    StableHlo.unary main_call5_cst main_call5_v0 (broadcastInDim S50000x128 ![] bcast_S_S50000x128 : (⟨S_, .f32⟩ : BufTy).Contents (Elt F) → (⟨S50000x128, .f32⟩ : BufTy).Contents (Elt F)),
    StableHlo.binary main_v100 main_call5_v0 main_v101 (maximumf : (⟨S50000x128, .f32⟩ : BufTy).Contents (Elt F) → (⟨S50000x128, .f32⟩ : BufTy).Contents (Elt F) → (⟨S50000x128, .f32⟩ : BufTy).Contents (Elt F)) ]

set_option maxRecDepth 16384 in
theorem split : (opsL1 : List (HloOp τ sig (Elt F))) = cT ++ (cA ++ (cB ++ cC)) :=
  (congrArg₂ List.cons e0 (congrArg₂ List.cons e1 (congrArg₂ List.cons e2 (congrArg₂ List.cons e3 (congrArg₂ List.cons e4 (congrArg₂ List.cons e5 (congrArg₂ List.cons e6 (congrArg₂ List.cons e7 (congrArg₂ List.cons e8 (congrArg₂ List.cons e9 (congrArg₂ List.cons e10 (congrArg₂ List.cons e11 (congrArg₂ List.cons e12 (congrArg₂ List.cons e13 (congrArg₂ List.cons e14 (congrArg₂ List.cons e15 (congrArg₂ List.cons e16 (congrArg₂ List.cons e17 (congrArg₂ List.cons e18 (congrArg₂ List.cons e19 (congrArg₂ List.cons e20 (congrArg₂ List.cons e21 (congrArg₂ List.cons e22 (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons e42 (congrArg₂ List.cons e43 (congrArg₂ List.cons e44 (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons e77 (congrArg₂ List.cons e78 (congrArg₂ List.cons e79 rfl))))))))))))))))))))))))))))))))))))))))))))))))))))))))))))))))))))))))))))))))

theorem after_split (V : Valuation τ sig (Elt F)) :
    after opsL1 V = after cC (after cB (after cA (after cT V))) := by
  rw [split, after_append cT, after_append cA, after_append cB]

abbrev cT_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v51]

set_option maxRecDepth 8192 in
theorem cT_writes : (cT : List (HloOp τ sig (Elt F))).Forall fun op =>
    op.writes ⊆ (cT_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

theorem cT_keep (W : Valuation τ sig (Elt F)) (r : Ref sig .tc) (h : r ∉ cT_W) :
    after cT W (Proc.devRef .tc r) = W (Proc.devRef .tc r) :=
  after_of_writes_sub cT W cT_writes h

abbrev cA_W : List (Ref sig .tc) := [main_cst_2, main_v52, main_v53, main_v54, main_v55, main_v56, main_cst_3, main_v57, main_v58, main_v59, main_v60, main_v61, main_v62, main_v63, main_v64, main_v65, main_v66, main_v67, main_v68, main_call4_cst, main_call4_v0, main_v69]

set_option maxRecDepth 8192 in
theorem cA_writes : (cA : List (HloOp τ sig (Elt F))).Forall fun op =>
    op.writes ⊆ (cA_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

theorem cA_keep (W : Valuation τ sig (Elt F)) (r : Ref sig .tc) (h : r ∉ cA_W) :
    after cA W (Proc.devRef .tc r) = W (Proc.devRef .tc r) :=
  after_of_writes_sub cA W cA_writes h

abbrev cB_W : List (Ref sig .tc) := [main_v70, main_v71, main_v72, main_v73, main_v74, main_v75, main_v76, main_v77, main_v78, main_v79, main_v80, main_v81, main_v82, main_v83, main_v84, main_v85, main_v86, main_v87]

set_option maxRecDepth 8192 in
theorem cB_writes : (cB : List (HloOp τ sig (Elt F))).Forall fun op =>
    op.writes ⊆ (cB_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

theorem cB_keep (W : Valuation τ sig (Elt F)) (r : Ref sig .tc) (h : r ∉ cB_W) :
    after cB W (Proc.devRef .tc r) = W (Proc.devRef .tc r) :=
  after_of_writes_sub cB W cB_writes h

abbrev cC_W : List (Ref sig .tc) := [main_v88, main_v89, main_cst_4, main_v90, main_v91, main_v92, main_v93, main_v94, main_v95, main_v96, main_v97, main_v98, main_v99, main_v100, main_call5_cst, main_call5_v0, main_v101]

set_option maxRecDepth 8192 in
theorem cC_writes : (cC : List (HloOp τ sig (Elt F))).Forall fun op =>
    op.writes ⊆ (cC_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

theorem cC_keep (W : Valuation τ sig (Elt F)) (r : Ref sig .tc) (h : r ∉ cC_W) :
    after cC W (Proc.devRef .tc r) = W (Proc.devRef .tc r) :=
  after_of_writes_sub cC W cC_writes h

attribute [local irreducible] Host.reduce Host.gather Host.scatterAdd in
set_option maxRecDepth 16384 in
set_option maxHeartbeats 4000000 in
theorem cT_read (W : Valuation τ sig (Elt F)) :
    after cT W (main_v51 : DevRef τ sig)
      = takeOut (W (main_v50 : DevRef τ sig)) (W (main_arg1 : DevRef τ sig)) := by
  after_results_simp
  rfl

attribute [local irreducible] Host.reduce Host.gather Host.scatterAdd in
set_option maxRecDepth 16384 in
set_option maxHeartbeats 4000000 in
theorem cA_read (W : Valuation τ sig (Elt F)) :
    after cA W (main_v69 : DevRef τ sig)
      = maximumf (addf (Host.dotGeneral dot_S50000x128_S128x128_S50000x128_1_0_0_1_n_n none (addf (Host.scatterAdd scatter_S50000x128_S800000x1_S800000x128_1_0_0_1 (broadcastInDim S50000x128 ![] bcast_S_S50000x128 (constant (F := F) S_ .f32 0x00000000#32)) (broadcastInDim S800000x1 ![0] bcast_S800000_S800000x1_0 (W (main_arg2 : DevRef τ sig))) (W (main_v51 : DevRef τ sig))) (mulf (broadcastInDim S50000x128 ![] bcast_S_S50000x128 (addf (constant (F := F) S_ .f32 0x3F800000#32) (shapeCast S_ (extractStridedSlice S1 ![1] (W (main_arg3 : DevRef τ sig)) slices_S5_S1_1) shapeCasts_S1_S_))) (W (main_v50 : DevRef τ sig)))) (shapeCast S128x128 (extractStridedSlice S1x128x128 ![1, 0, 0] (W (main_arg4 : DevRef τ sig)) slices_S5x128x128_S1x128x128_1_0_0) shapeCasts_S1x128x128_S128x128)) (broadcastInDim S50000x128 ![0, 1] bcast_S1x128_S50000x128_0_1 (broadcastInDim S1x128 ![1] bcast_S128_S1x128_1 (shapeCast S128 (extractStridedSlice S1x128 ![1, 0] (W (main_arg5 : DevRef τ sig)) slices_S5x128_S1x128_1_0) shapeCasts_S1x128_S128)))) (broadcastInDim S50000x128 ![] bcast_S_S50000x128 (constant (F := F) S_ .f32 0x00000000#32)) := by
  after_results_simp
  rfl

attribute [local irreducible] Host.reduce Host.gather Host.scatterAdd in
set_option maxRecDepth 16384 in
set_option maxHeartbeats 4000000 in
theorem cB_read (W : Valuation τ sig (Elt F)) :
    after cB W (main_v87 : DevRef τ sig)
      = mulf (broadcastInDim S50000x128 ![0, 1] bcast_S1x128_S50000x128_0_1 (broadcastInDim S1x128 ![1] bcast_S128_S1x128_1 (shapeCast S128 (extractStridedSlice S1x128 ![1, 0] (W (main_arg8 : DevRef τ sig)) slices_S5x128_S1x128_1_0) shapeCasts_S1x128_S128))) (subf (addf (Host.dotGeneral dot_S50000x128_S128x128_S50000x128_1_0_0_1_n_n none (W (main_v69 : DevRef τ sig)) (shapeCast S128x128 (extractStridedSlice S1x128x128 ![1, 0, 0] (W (main_arg6 : DevRef τ sig)) slices_S5x128x128_S1x128x128_1_0_0) shapeCasts_S1x128x128_S128x128)) (broadcastInDim S50000x128 ![0, 1] bcast_S1x128_S50000x128_0_1 (broadcastInDim S1x128 ![1] bcast_S128_S1x128_1 (shapeCast S128 (extractStridedSlice S1x128 ![1, 0] (W (main_arg7 : DevRef τ sig)) slices_S5x128_S1x128_1_0) shapeCasts_S1x128_S128)))) (broadcastInDim S50000x128 ![0, 1] bcast_S1x128_S50000x128_0_1 (broadcastInDim S1x128 ![1] bcast_S128_S1x128_1 (shapeCast S128 (extractStridedSlice S1x128 ![1, 0] (W (main_arg10 : DevRef τ sig)) slices_S5x128_S1x128_1_0) shapeCasts_S1x128_S128)))) := by
  after_results_simp
  rfl

attribute [local irreducible] Host.reduce Host.gather Host.scatterAdd in
set_option maxRecDepth 16384 in
set_option maxHeartbeats 4000000 in
theorem cC_read (W : Valuation τ sig (Elt F)) :
    after cC W (main_v101 : DevRef τ sig)
      = maximumf (addf (mulf (W (main_v87 : DevRef τ sig)) (broadcastInDim S50000x128 ![0, 1] bcast_S1x128_S50000x128_0_1 (broadcastInDim S1x128 ![1] bcast_S128_S1x128_1 (Host.rsqrt (addf (shapeCast S128 (extractStridedSlice S1x128 ![1, 0] (W (main_arg11 : DevRef τ sig)) slices_S5x128_S1x128_1_0) shapeCasts_S1x128_S128) (broadcastInDim S128 ![] bcast_S_S128 (constant (F := F) S_ .f32 0x3A83126F#32))))))) (broadcastInDim S50000x128 ![0, 1] bcast_S1x128_S50000x128_0_1 (broadcastInDim S1x128 ![1] bcast_S128_S1x128_1 (shapeCast S128 (extractStridedSlice S1x128 ![1, 0] (W (main_arg9 : DevRef τ sig)) slices_S5x128_S1x128_1_0) shapeCasts_S1x128_S128)))) (broadcastInDim S50000x128 ![] bcast_S_S50000x128 (constant (F := F) S_ .f32 0x00000000#32)) := by
  after_results_simp
  rfl

end L1

open L1 in
set_option maxRecDepth 16384 in
/-- Layer 1's result buffer after its operations, from any contents. -/
theorem read_L1 (V : Valuation τ sig (Elt F)) :
    after opsL1 V (main_v101 : DevRef τ sig)
      = layerOut ![1] slices_S5_S1_1 ![1, 0, 0] slices_S5x128x128_S1x128x128_1_0_0 ![1, 0] slices_S5x128_S1x128_1_0 (V (main_v50 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [after_split, cC_read,
    cB_keep _ main_arg11 (by decide),
    cA_keep _ main_arg11 (by decide),
    cT_keep _ main_arg11 (by decide),
    cB_read,
    cB_keep _ main_arg9 (by decide),
    cA_keep _ main_arg9 (by decide),
    cT_keep _ main_arg9 (by decide),
    cA_keep _ main_arg6 (by decide),
    cT_keep _ main_arg6 (by decide),
    cA_read,
    cA_keep _ main_arg7 (by decide),
    cT_keep _ main_arg7 (by decide),
    cA_keep _ main_arg8 (by decide),
    cT_keep _ main_arg8 (by decide),
    cA_keep _ main_arg10 (by decide),
    cT_keep _ main_arg10 (by decide),
    cT_keep _ main_arg2 (by decide),
    cT_read,
    cT_keep _ main_arg3 (by decide),
    cT_keep _ main_v50 (by decide),
    cT_keep _ main_arg4 (by decide),
    cT_keep _ main_arg5 (by decide)]
  rfl

end Cert.ReferenceIdeal.HandRun

end
-- ==== Proof.RefReadL2.lean ====
import proofs.«177667_j37366215475921_1_alg».proof.Proof.Gen.ReferenceIdeal
import Idealize.ShloMosaic.Lib.StableHlo.Run
import proofs.«177667_j37366215475921_1_alg».proof.Proof.RefOps
import proofs.«177667_j37366215475921_1_alg».proof.Proof.RefDefs

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! # Layer 2 read back

The layer's operations that were listed over typed references (the gather's and the two maxima's) are first shown
equal to the same builders over the buffers themselves — the changes of type around their functions are identities —,
so the layer is a list of eighty plain operations. It is read in four stretches — the gather, the pooled sum with the
first affine map and maximum, the second affine map with the centring, the scaling with the shift and the last
maximum —: what each stretch leaves in its last buffer from any contents, that it leaves every buffer it does not
write alone, and the four composed. -/

namespace L2

theorem e0 : (StableHlo.TRef.nullary main_call6.c (constantI S_ 32 0#32) : HloOp τ sig (Elt F)) = StableHlo.nullary main_call6_c (constantI S_ 32 0#32) :=
  nullary_congr _ _ _ _ _ (cast_free₀ _ (constantI S_ 32 0#32 : (⟨S_, .i32⟩ : BufTy).Contents (Elt F)))

theorem e1 : (StableHlo.TRef.unary main_call6.c main_call6.v0 (broadcastInDim S800000 ![] bcast_S_S800000) : HloOp τ sig (Elt F)) = StableHlo.unary main_call6_c main_call6_v0 (broadcastInDim S800000 ![] bcast_S_S800000 : (⟨S_, .i32⟩ : BufTy).Contents (Elt F) → (⟨S800000, .i32⟩ : BufTy).Contents (Elt F)) :=
  unary_congr _ _ _ _ _ _ _ _ (fun v => cast_free₁ _ _ (broadcastInDim S800000 ![] bcast_S_S800000 : (⟨S_, .i32⟩ : BufTy).Contents (Elt F) → (⟨S800000, .i32⟩ : BufTy).Contents (Elt F)) v)

theorem e2 : (StableHlo.TRef.binary (.of main_arg1 : StableHlo.TRef sig ⟨S800000, .i32⟩) main_call6.v0 main_call6.v1 (cmpi .slt) : HloOp τ sig (Elt F)) = StableHlo.binary main_arg1 main_call6_v0 main_call6_v1 (cmpi .slt : (⟨S800000, .i32⟩ : BufTy).Contents (Elt F) → (⟨S800000, .i32⟩ : BufTy).Contents (Elt F) → (⟨S800000, .i1⟩ : BufTy).Contents (Elt F)) :=
  binary_congr _ _ _ _ _ _ _ _ _ _ _ (fun u v => cast_free₂ _ _ _ (cmpi .slt : (⟨S800000, .i32⟩ : BufTy).Contents (Elt F) → (⟨S800000, .i32⟩ : BufTy).Contents (Elt F) → (⟨S800000, .i1⟩ : BufTy).Contents (Elt F)) u v)

theorem e3 : (StableHlo.TRef.nullary main_call6.c_0 (constantI S_ 32 50000#32) : HloOp τ sig (Elt F)) = StableHlo.nullary main_call6_c_0 (constantI S_ 32 50000#32) :=
  nullary_congr _ _ _ _ _ (cast_free₀ _ (constantI S_ 32 50000#32 : (⟨S_, .i32⟩ : BufTy).Contents (Elt F)))

theorem e4 : (StableHlo.TRef.unary main_call6.c_0 main_call6.v2 (broadcastInDim S800000 ![] bcast_S_S800000) : HloOp τ sig (Elt F)) = StableHlo.unary main_call6_c_0 main_call6_v2 (broadcastInDim S800000 ![] bcast_S_S800000 : (⟨S_, .i32⟩ : BufTy).Contents (Elt F) → (⟨S800000, .i32⟩ : BufTy).Contents (Elt F)) :=
  unary_congr _ _ _ _ _ _ _ _ (fun v => cast_free₁ _ _ (broadcastInDim S800000 ![] bcast_S_S800000 : (⟨S_, .i32⟩ : BufTy).Contents (Elt F) → (⟨S800000, .i32⟩ : BufTy).Contents (Elt F)) v)

theorem e5 : (StableHlo.TRef.binary (.of main_arg1 : StableHlo.TRef sig ⟨S800000, .i32⟩) main_call6.v2 main_call6.v3 addi : HloOp τ sig (Elt F)) = StableHlo.binary main_arg1 main_call6_v2 main_call6_v3 (addi : (⟨S800000, .i32⟩ : BufTy).Contents (Elt F) → (⟨S800000, .i32⟩ : BufTy).Contents (Elt F) → (⟨S800000, .i32⟩ : BufTy).Contents (Elt F)) :=
  binary_congr _ _ _ _ _ _ _ _ _ _ _ (fun u v => cast_free₂ _ _ _ (addi : (⟨S800000, .i32⟩ : BufTy).Contents (Elt F) → (⟨S800000, .i32⟩ : BufTy).Contents (Elt F) → (⟨S800000, .i32⟩ : BufTy).Contents (Elt F)) u v)

theorem e6 : (StableHlo.TRef.ternary main_call6.v1 main_call6.v3 (.of main_arg1 : StableHlo.TRef sig ⟨S800000, .i32⟩) main_call6.call0.v0 select : HloOp τ sig (Elt F)) = StableHlo.ternary main_call6_v1 main_call6_v3 main_arg1 main_call6_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) :=
  ternary_congr _ _ _ _ _ _ _ _ _ _ _ _ _ _ (fun w u v => cast_free₃ _ _ _ _ (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) w u v)

theorem e7 : (StableHlo.TRef.unary main_call6.call0.v0 main_call6.v5 (broadcastInDim S800000x1 ![0] bcast_S800000_S800000x1_0) : HloOp τ sig (Elt F)) = StableHlo.unary main_call6_v4 main_call6_v5 (broadcastInDim S800000x1 ![0] bcast_S800000_S800000x1_0 : (⟨S800000, .i32⟩ : BufTy).Contents (Elt F) → (⟨S800000x1, .i32⟩ : BufTy).Contents (Elt F)) :=
  unary_congr _ _ _ _ _ _ _ _ (fun v => cast_free₁ _ _ (broadcastInDim S800000x1 ![0] bcast_S800000_S800000x1_0 : (⟨S800000, .i32⟩ : BufTy).Contents (Elt F) → (⟨S800000x1, .i32⟩ : BufTy).Contents (Elt F)) v)

theorem e8 : (StableHlo.TRef.nullary main_call6.c_1 (constantI S1 32 49999#32) : HloOp τ sig (Elt F)) = StableHlo.nullary main_call6_c_1 (constantI S1 32 49999#32) :=
  nullary_congr _ _ _ _ _ (cast_free₀ _ (constantI S1 32 49999#32 : (⟨S1, .i32⟩ : BufTy).Contents (Elt F)))

theorem e9 : (StableHlo.TRef.nullary main_call6.c_2 (constantI S_ 32 0#32) : HloOp τ sig (Elt F)) = StableHlo.nullary main_call6_c_2 (constantI S_ 32 0#32) :=
  nullary_congr _ _ _ _ _ (cast_free₀ _ (constantI S_ 32 0#32 : (⟨S_, .i32⟩ : BufTy).Contents (Elt F)))

theorem e10 : (StableHlo.TRef.unary main_call6.c_2 main_call6.v6 (broadcastInDim S800000x1 ![] bcast_S_S800000x1) : HloOp τ sig (Elt F)) = StableHlo.unary main_call6_c_2 main_call6_v6 (broadcastInDim S800000x1 ![] bcast_S_S800000x1 : (⟨S_, .i32⟩ : BufTy).Contents (Elt F) → (⟨S800000x1, .i32⟩ : BufTy).Contents (Elt F)) :=
  unary_congr _ _ _ _ _ _ _ _ (fun v => cast_free₁ _ _ (broadcastInDim S800000x1 ![] bcast_S_S800000x1 : (⟨S_, .i32⟩ : BufTy).Contents (Elt F) → (⟨S800000x1, .i32⟩ : BufTy).Contents (Elt F)) v)

theorem e11 : (StableHlo.TRef.binary main_call6.v5 main_call6.v6 main_call6.v7 (cmpi .sge) : HloOp τ sig (Elt F)) = StableHlo.binary main_call6_v5 main_call6_v6 main_call6_v7 (cmpi .sge : (⟨S800000x1, .i32⟩ : BufTy).Contents (Elt F) → (⟨S800000x1, .i32⟩ : BufTy).Contents (Elt F) → (⟨S800000x1, .i1⟩ : BufTy).Contents (Elt F)) :=
  binary_congr _ _ _ _ _ _ _ _ _ _ _ (fun u v => cast_free₂ _ _ _ (cmpi .sge : (⟨S800000x1, .i32⟩ : BufTy).Contents (Elt F) → (⟨S800000x1, .i32⟩ : BufTy).Contents (Elt F) → (⟨S800000x1, .i1⟩ : BufTy).Contents (Elt F)) u v)

theorem e12 : (StableHlo.TRef.unary main_call6.c_1 main_call6.v8 (broadcastInDim S1x1 ![1] bcast_S1_S1x1_1) : HloOp τ sig (Elt F)) = StableHlo.unary main_call6_c_1 main_call6_v8 (broadcastInDim S1x1 ![1] bcast_S1_S1x1_1 : (⟨S1, .i32⟩ : BufTy).Contents (Elt F) → (⟨S1x1, .i32⟩ : BufTy).Contents (Elt F)) :=
  unary_congr _ _ _ _ _ _ _ _ (fun v => cast_free₁ _ _ (broadcastInDim S1x1 ![1] bcast_S1_S1x1_1 : (⟨S1, .i32⟩ : BufTy).Contents (Elt F) → (⟨S1x1, .i32⟩ : BufTy).Contents (Elt F)) v)

theorem e13 : (StableHlo.TRef.unary main_call6.v8 main_call6.v9 (broadcastInDim S800000x1 ![0, 1] bcast_S1x1_S800000x1_0_1) : HloOp τ sig (Elt F)) = StableHlo.unary main_call6_v8 main_call6_v9 (broadcastInDim S800000x1 ![0, 1] bcast_S1x1_S800000x1_0_1 : (⟨S1x1, .i32⟩ : BufTy).Contents (Elt F) → (⟨S800000x1, .i32⟩ : BufTy).Contents (Elt F)) :=
  unary_congr _ _ _ _ _ _ _ _ (fun v => cast_free₁ _ _ (broadcastInDim S800000x1 ![0, 1] bcast_S1x1_S800000x1_0_1 : (⟨S1x1, .i32⟩ : BufTy).Contents (Elt F) → (⟨S800000x1, .i32⟩ : BufTy).Contents (Elt F)) v)

theorem e14 : (StableHlo.TRef.binary main_call6.v5 main_call6.v9 main_call6.v10 (cmpi .sle) : HloOp τ sig (Elt F)) = StableHlo.binary main_call6_v5 main_call6_v9 main_call6_v10 (cmpi .sle : (⟨S800000x1, .i32⟩ : BufTy).Contents (Elt F) → (⟨S800000x1, .i32⟩ : BufTy).Contents (Elt F) → (⟨S800000x1, .i1⟩ : BufTy).Contents (Elt F)) :=
  binary_congr _ _ _ _ _ _ _ _ _ _ _ (fun u v => cast_free₂ _ _ _ (cmpi .sle : (⟨S800000x1, .i32⟩ : BufTy).Contents (Elt F) → (⟨S800000x1, .i32⟩ : BufTy).Contents (Elt F) → (⟨S800000x1, .i1⟩ : BufTy).Contents (Elt F)) u v)

theorem e15 : (StableHlo.TRef.binary main_call6.v7 main_call6.v10 main_call6.v11 andi : HloOp τ sig (Elt F)) = StableHlo.binary main_call6_v7 main_call6_v10 main_call6_v11 (andi : (⟨S800000x1, .i1⟩ : BufTy).Contents (Elt F) → (⟨S800000x1, .i1⟩ : BufTy).Contents (Elt F) → (⟨S800000x1, .i1⟩ : BufTy).Contents (Elt F)) :=
  binary_congr _ _ _ _ _ _ _ _ _ _ _ (fun u v => cast_free₂ _ _ _ (andi : (⟨S800000x1, .i1⟩ : BufTy).Contents (Elt F) → (⟨S800000x1, .i1⟩ : BufTy).Contents (Elt F) → (⟨S800000x1, .i1⟩ : BufTy).Contents (Elt F)) u v)

theorem e16 : (StableHlo.TRef.nullary main_call6.c_3 (constantI S_ 1 1#1) : HloOp τ sig (Elt F)) = StableHlo.nullary main_call6_c_3 (constantI S_ 1 1#1) :=
  nullary_congr _ _ _ _ _ (cast_free₀ _ (constantI S_ 1 1#1 : (⟨S_, .i1⟩ : BufTy).Contents (Elt F)))

theorem e17 : (StableHlo.TRef.binary main_call6.v11 main_call6.c_3 main_call6.v12 (fun x v => Host.reduce IntOp.andi x v reducesTo_S800000x1_S800000_d1 h_S_) : HloOp τ sig (Elt F)) = StableHlo.binary main_call6_v11 main_call6_c_3 main_call6_v12 ((fun x v => Host.reduce IntOp.andi x v reducesTo_S800000x1_S800000_d1 h_S_) : (⟨S800000x1, .i1⟩ : BufTy).Contents (Elt F) → (⟨S_, .i1⟩ : BufTy).Contents (Elt F) → (⟨S800000, .i1⟩ : BufTy).Contents (Elt F)) :=
  binary_congr _ _ _ _ _ _ _ _ _ _ _ (fun u v => cast_free₂ _ _ _ (fun x v => Host.reduce IntOp.andi x v reducesTo_S800000x1_S800000_d1 h_S_ : (⟨S800000x1, .i1⟩ : BufTy).Contents (Elt F) → (⟨S_, .i1⟩ : BufTy).Contents (Elt F) → (⟨S800000, .i1⟩ : BufTy).Contents (Elt F)) u v)

theorem e18 : (StableHlo.TRef.binary (.of main_v101 : StableHlo.TRef sig ⟨S50000x128, .f32⟩) main_call6.v5 main_call6.v13 (fun x i => Host.gather gather_S50000x128_S800000x1_S800000x128_1_0_n_n_0_1_1128 x i) : HloOp τ sig (Elt F)) = StableHlo.binary main_v101 main_call6_v5 main_call6_v13 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) :=
  binary_congr _ _ _ _ _ _ _ _ _ _ _ (fun u v => cast_free₂ _ _ _ (fun x i => Host.gather gather_S50000x128_S800000x1_S800000x128_1_0_n_n_0_1_1128 x i : (⟨S50000x128, .f32⟩ : BufTy).Contents (Elt F) → (⟨S800000x1, .i32⟩ : BufTy).Contents (Elt F) → (⟨S800000x128, .f32⟩ : BufTy).Contents (Elt F)) u v)

theorem e19 : (StableHlo.TRef.unary main_call6.v12 main_call6.v14 (broadcastInDim S800000x128 ![0] bcast_S800000_S800000x128_0) : HloOp τ sig (Elt F)) = StableHlo.unary main_call6_v12 main_call6_v14 (broadcastInDim S800000x128 ![0] bcast_S800000_S800000x128_0 : (⟨S800000, .i1⟩ : BufTy).Contents (Elt F) → (⟨S800000x128, .i1⟩ : BufTy).Contents (Elt F)) :=
  unary_congr _ _ _ _ _ _ _ _ (fun v => cast_free₁ _ _ (broadcastInDim S800000x128 ![0] bcast_S800000_S800000x128_0 : (⟨S800000, .i1⟩ : BufTy).Contents (Elt F) → (⟨S800000x128, .i1⟩ : BufTy).Contents (Elt F)) v)

theorem e20 : (StableHlo.TRef.nullary main_call6.cst (constant S_ .f32 0x7FC00000#32) : HloOp τ sig (Elt F)) = StableHlo.nullary main_call6_cst (constant S_ .f32 0x7FC00000#32) :=
  nullary_congr _ _ _ _ _ (cast_free₀ _ (constant S_ .f32 0x7FC00000#32 : (⟨S_, .f32⟩ : BufTy).Contents (Elt F)))

theorem e21 : (StableHlo.TRef.unary main_call6.cst main_call6.v15 (broadcastInDim S800000x128 ![] bcast_S_S800000x128) : HloOp τ sig (Elt F)) = StableHlo.unary main_call6_cst main_call6_v15 (broadcastInDim S800000x128 ![] bcast_S_S800000x128 : (⟨S_, .f32⟩ : BufTy).Contents (Elt F) → (⟨S800000x128, .f32⟩ : BufTy).Contents (Elt F)) :=
  unary_congr _ _ _ _ _ _ _ _ (fun v => cast_free₁ _ _ (broadcastInDim S800000x128 ![] bcast_S_S800000x128 : (⟨S_, .f32⟩ : BufTy).Contents (Elt F) → (⟨S800000x128, .f32⟩ : BufTy).Contents (Elt F)) v)

theorem e22 : (StableHlo.TRef.ternary main_call6.v14 main_call6.v13 main_call6.v15 main_call6.v16 select : HloOp τ sig (Elt F)) = StableHlo.ternary main_call6_v14 main_call6_v13 main_call6_v15 main_v102 (select : (⟨S800000x128, .i1⟩ : BufTy).Contents (Elt F) → (⟨S800000x128, .f32⟩ : BufTy).Contents (Elt F) → (⟨S800000x128, .f32⟩ : BufTy).Contents (Elt F) → (⟨S800000x128, .f32⟩ : BufTy).Contents (Elt F)) :=
  ternary_congr _ _ _ _ _ _ _ _ _ _ _ _ _ _ (fun w u v => cast_free₃ _ _ _ _ (select : (⟨S800000x128, .i1⟩ : BufTy).Contents (Elt F) → (⟨S800000x128, .f32⟩ : BufTy).Contents (Elt F) → (⟨S800000x128, .f32⟩ : BufTy).Contents (Elt F) → (⟨S800000x128, .f32⟩ : BufTy).Contents (Elt F)) w u v)

theorem e42 : (StableHlo.TRef.nullary main_call7.cst (constant S_ .f32 0x00000000#32) : HloOp τ sig (Elt F)) = StableHlo.nullary main_call7_cst (constant S_ .f32 0x00000000#32) :=
  nullary_congr _ _ _ _ _ (cast_free₀ _ (constant S_ .f32 0x00000000#32 : (⟨S_, .f32⟩ : BufTy).Contents (Elt F)))

theorem e43 : (StableHlo.TRef.unary main_call7.cst main_call7.v0 (broadcastInDim S50000x128 ![] bcast_S_S50000x128) : HloOp τ sig (Elt F)) = StableHlo.unary main_call7_cst main_call7_v0 (broadcastInDim S50000x128 ![] bcast_S_S50000x128 : (⟨S_, .f32⟩ : BufTy).Contents (Elt F) → (⟨S50000x128, .f32⟩ : BufTy).Contents (Elt F)) :=
  unary_congr _ _ _ _ _ _ _ _ (fun v => cast_free₁ _ _ (broadcastInDim S50000x128 ![] bcast_S_S50000x128 : (⟨S_, .f32⟩ : BufTy).Contents (Elt F) → (⟨S50000x128, .f32⟩ : BufTy).Contents (Elt F)) v)

theorem e44 : (StableHlo.TRef.binary (.of main_v119 : StableHlo.TRef sig ⟨S50000x128, .f32⟩) main_call7.v0 main_call7.v1 maximumf : HloOp τ sig (Elt F)) = StableHlo.binary main_v119 main_call7_v0 main_v120 (maximumf : (⟨S50000x128, .f32⟩ : BufTy).Contents (Elt F) → (⟨S50000x128, .f32⟩ : BufTy).Contents (Elt F) → (⟨S50000x128, .f32⟩ : BufTy).Contents (Elt F)) :=
  binary_congr _ _ _ _ _ _ _ _ _ _ _ (fun u v => cast_free₂ _ _ _ (maximumf : (⟨S50000x128, .f32⟩ : BufTy).Contents (Elt F) → (⟨S50000x128, .f32⟩ : BufTy).Contents (Elt F) → (⟨S50000x128, .f32⟩ : BufTy).Contents (Elt F)) u v)

theorem e77 : (StableHlo.TRef.nullary main_call8.cst (constant S_ .f32 0x00000000#32) : HloOp τ sig (Elt F)) = StableHlo.nullary main_call8_cst (constant S_ .f32 0x00000000#32) :=
  nullary_congr _ _ _ _ _ (cast_free₀ _ (constant S_ .f32 0x00000000#32 : (⟨S_, .f32⟩ : BufTy).Contents (Elt F)))

theorem e78 : (StableHlo.TRef.unary main_call8.cst main_call8.v0 (broadcastInDim S50000x128 ![] bcast_S_S50000x128) : HloOp τ sig (Elt F)) = StableHlo.unary main_call8_cst main_call8_v0 (broadcastInDim S50000x128 ![] bcast_S_S50000x128 : (⟨S_, .f32⟩ : BufTy).Contents (Elt F) → (⟨S50000x128, .f32⟩ : BufTy).Contents (Elt F)) :=
  unary_congr _ _ _ _ _ _ _ _ (fun v => cast_free₁ _ _ (broadcastInDim S50000x128 ![] bcast_S_S50000x128 : (⟨S_, .f32⟩ : BufTy).Contents (Elt F) → (⟨S50000x128, .f32⟩ : BufTy).Contents (Elt F)) v)

theorem e79 : (StableHlo.TRef.binary (.of main_v151 : StableHlo.TRef sig ⟨S50000x128, .f32⟩) main_call8.v0 main_call8.v1 maximumf : HloOp τ sig (Elt F)) = StableHlo.binary main_v151 main_call8_v0 main_v152 (maximumf : (⟨S50000x128, .f32⟩ : BufTy).Contents (Elt F) → (⟨S50000x128, .f32⟩ : BufTy).Contents (Elt F) → (⟨S50000x128, .f32⟩ : BufTy).Contents (Elt F)) :=
  binary_congr _ _ _ _ _ _ _ _ _ _ _ (fun u v => cast_free₂ _ _ _ (maximumf : (⟨S50000x128, .f32⟩ : BufTy).Contents (Elt F) → (⟨S50000x128, .f32⟩ : BufTy).Contents (Elt F) → (⟨S50000x128, .f32⟩ : BufTy).Contents (Elt F)) u v)

abbrev cT : List (HloOp τ sig (Elt F)) :=
  [ StableHlo.nullary main_call6_c (constantI S_ 32 0#32),
    StableHlo.unary main_call6_c main_call6_v0 (broadcastInDim S800000 ![] bcast_S_S800000 : (⟨S_, .i32⟩ : BufTy).Contents (Elt F) → (⟨S800000, .i32⟩ : BufTy).Contents (Elt F)),
    StableHlo.binary main_arg1 main_call6_v0 main_call6_v1 (cmpi .slt : (⟨S800000, .i32⟩ : BufTy).Contents (Elt F) → (⟨S800000, .i32⟩ : BufTy).Contents (Elt F) → (⟨S800000, .i1⟩ : BufTy).Contents (Elt F)),
    StableHlo.nullary main_call6_c_0 (constantI S_ 32 50000#32),
    StableHlo.unary main_call6_c_0 main_call6_v2 (broadcastInDim S800000 ![] bcast_S_S800000 : (⟨S_, .i32⟩ : BufTy).Contents (Elt F) → (⟨S800000, .i32⟩ : BufTy).Contents (Elt F)),
    StableHlo.binary main_arg1 main_call6_v2 main_call6_v3 (addi : (⟨S800000, .i32⟩ : BufTy).Contents (Elt F) → (⟨S800000, .i32⟩ : BufTy).Contents (Elt F) → (⟨S800000, .i32⟩ : BufTy).Contents (Elt F)),
    StableHlo.ternary main_call6_v1 main_call6_v3 main_arg1 main_call6_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_call6_v4 main_call6_v5 (broadcastInDim S800000x1 ![0] bcast_S800000_S800000x1_0 : (⟨S800000, .i32⟩ : BufTy).Contents (Elt F) → (⟨S800000x1, .i32⟩ : BufTy).Contents (Elt F)),
    StableHlo.nullary main_call6_c_1 (constantI S1 32 49999#32),
    StableHlo.nullary main_call6_c_2 (constantI S_ 32 0#32),
    StableHlo.unary main_call6_c_2 main_call6_v6 (broadcastInDim S800000x1 ![] bcast_S_S800000x1 : (⟨S_, .i32⟩ : BufTy).Contents (Elt F) → (⟨S800000x1, .i32⟩ : BufTy).Contents (Elt F)),
    StableHlo.binary main_call6_v5 main_call6_v6 main_call6_v7 (cmpi .sge : (⟨S800000x1, .i32⟩ : BufTy).Contents (Elt F) → (⟨S800000x1, .i32⟩ : BufTy).Contents (Elt F) → (⟨S800000x1, .i1⟩ : BufTy).Contents (Elt F)),
    StableHlo.unary main_call6_c_1 main_call6_v8 (broadcastInDim S1x1 ![1] bcast_S1_S1x1_1 : (⟨S1, .i32⟩ : BufTy).Contents (Elt F) → (⟨S1x1, .i32⟩ : BufTy).Contents (Elt F)),
    StableHlo.unary main_call6_v8 main_call6_v9 (broadcastInDim S800000x1 ![0, 1] bcast_S1x1_S800000x1_0_1 : (⟨S1x1, .i32⟩ : BufTy).Contents (Elt F) → (⟨S800000x1, .i32⟩ : BufTy).Contents (Elt F)),
    StableHlo.binary main_call6_v5 main_call6_v9 main_call6_v10 (cmpi .sle : (⟨S800000x1, .i32⟩ : BufTy).Contents (Elt F) → (⟨S800000x1, .i32⟩ : BufTy).Contents (Elt F) → (⟨S800000x1, .i1⟩ : BufTy).Contents (Elt F)),
    StableHlo.binary main_call6_v7 main_call6_v10 main_call6_v11 (andi : (⟨S800000x1, .i1⟩ : BufTy).Contents (Elt F) → (⟨S800000x1, .i1⟩ : BufTy).Contents (Elt F) → (⟨S800000x1, .i1⟩ : BufTy).Contents (Elt F)),
    StableHlo.nullary main_call6_c_3 (constantI S_ 1 1#1),
    StableHlo.binary main_call6_v11 main_call6_c_3 main_call6_v12 ((fun x v => Host.reduce IntOp.andi x v reducesTo_S800000x1_S800000_d1 h_S_) : (⟨S800000x1, .i1⟩ : BufTy).Contents (Elt F) → (⟨S_, .i1⟩ : BufTy).Contents (Elt F) → (⟨S800000, .i1⟩ : BufTy).Contents (Elt F)),
    StableHlo.binary main_v101 main_call6_v5 main_call6_v13 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_call6_v12 main_call6_v14 (broadcastInDim S800000x128 ![0] bcast_S800000_S800000x128_0 : (⟨S800000, .i1⟩ : BufTy).Contents (Elt F) → (⟨S800000x128, .i1⟩ : BufTy).Contents (Elt F)),
    StableHlo.nullary main_call6_cst (constant S_ .f32 0x7FC00000#32),
    StableHlo.unary main_call6_cst main_call6_v15 (broadcastInDim S800000x128 ![] bcast_S_S800000x128 : (⟨S_, .f32⟩ : BufTy).Contents (Elt F) → (⟨S800000x128, .f32⟩ : BufTy).Contents (Elt F)),
    StableHlo.ternary main_call6_v14 main_call6_v13 main_call6_v15 main_v102 (select : (⟨S800000x128, .i1⟩ : BufTy).Contents (Elt F) → (⟨S800000x128, .f32⟩ : BufTy).Contents (Elt F) → (⟨S800000x128, .f32⟩ : BufTy).Contents (Elt F) → (⟨S800000x128, .f32⟩ : BufTy).Contents (Elt F)) ]

abbrev cA : List (HloOp τ sig (Elt F)) :=
  [ StableHlo.nullary main_cst_5 (constant S_ .f32 0x00000000#32),
    StableHlo.unary main_cst_5 main_v103 (broadcastInDim S50000x128 ![] bcast_S_S50000x128 : (⟨S_, .f32⟩ : BufTy).Contents (Elt F) → (⟨S50000x128, .f32⟩ : BufTy).Contents (Elt F)),
    StableHlo.unary main_arg2 main_v104 (broadcastInDim S800000x1 ![0] bcast_S800000_S800000x1_0 : (⟨S800000, .i32⟩ : BufTy).Contents (Elt F) → (⟨S800000x1, .i32⟩ : BufTy).Contents (Elt F)),
    StableHlo.ternary main_v103 main_v104 main_v102 main_v105 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg3 main_v106 ((extractStridedSlice S1 ![2] · slices_S5_S1_2) : (⟨S5, .f32⟩ : BufTy).Contents (Elt F) → (⟨S1, .f32⟩ : BufTy).Contents (Elt F)),
    StableHlo.reshape main_v106 main_v107 rfl shapeCasts_S1_S_,
    StableHlo.nullary main_cst_6 (constant S_ .f32 0x3F800000#32),
    StableHlo.binary main_cst_6 main_v107 main_v108 (addf : (⟨S_, .f32⟩ : BufTy).Contents (Elt F) → (⟨S_, .f32⟩ : BufTy).Contents (Elt F) → (⟨S_, .f32⟩ : BufTy).Contents (Elt F)),
    StableHlo.unary main_v108 main_v109 (broadcastInDim S50000x128 ![] bcast_S_S50000x128 : (⟨S_, .f32⟩ : BufTy).Contents (Elt F) → (⟨S50000x128, .f32⟩ : BufTy).Contents (Elt F)),
    StableHlo.binary main_v109 main_v101 main_v110 (mulf : (⟨S50000x128, .f32⟩ : BufTy).Contents (Elt F) → (⟨S50000x128, .f32⟩ : BufTy).Contents (Elt F) → (⟨S50000x128, .f32⟩ : BufTy).Contents (Elt F)),
    StableHlo.binary main_v105 main_v110 main_v111 (addf : (⟨S50000x128, .f32⟩ : BufTy).Contents (Elt F) → (⟨S50000x128, .f32⟩ : BufTy).Contents (Elt F) → (⟨S50000x128, .f32⟩ : BufTy).Contents (Elt F)),
    StableHlo.unary main_arg4 main_v112 ((extractStridedSlice S1x128x128 ![2, 0, 0] · slices_S5x128x128_S1x128x128_2_0_0) : (⟨S5x128x128, .f32⟩ : BufTy).Contents (Elt F) → (⟨S1x128x128, .f32⟩ : BufTy).Contents (Elt F)),
    StableHlo.reshape main_v112 main_v113 rfl shapeCasts_S1x128x128_S128x128,
    StableHlo.binary main_v111 main_v113 main_v114 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v115 ((extractStridedSlice S1x128 ![2, 0] · slices_S5x128_S1x128_2_0) : (⟨S5x128, .f32⟩ : BufTy).Contents (Elt F) → (⟨S1x128, .f32⟩ : BufTy).Contents (Elt F)),
    StableHlo.reshape main_v115 main_v116 rfl shapeCasts_S1x128_S128,
    StableHlo.unary main_v116 main_v117 (broadcastInDim S1x128 ![1] bcast_S128_S1x128_1 : (⟨S128, .f32⟩ : BufTy).Contents (Elt F) → (⟨S1x128, .f32⟩ : BufTy).Contents (Elt F)),
    StableHlo.unary main_v117 main_v118 (broadcastInDim S50000x128 ![0, 1] bcast_S1x128_S50000x128_0_1 : (⟨S1x128, .f32⟩ : BufTy).Contents (Elt F) → (⟨S50000x128, .f32⟩ : BufTy).Contents (Elt F)),
    StableHlo.binary main_v114 main_v118 main_v119 (addf : (⟨S50000x128, .f32⟩ : BufTy).Contents (Elt F) → (⟨S50000x128, .f32⟩ : BufTy).Contents (Elt F) → (⟨S50000x128, .f32⟩ : BufTy).Contents (Elt F)),
    StableHlo.nullary main_call7_cst (constant S_ .f32 0x00000000#32),
    StableHlo.unary main_call7_cst main_call7_v0 (broadcastInDim S50000x128 ![] bcast_S_S50000x128 : (⟨S_, .f32⟩ : BufTy).Contents (Elt F) → (⟨S50000x128, .f32⟩ : BufTy).Contents (Elt F)),
    StableHlo.binary main_v119 main_call7_v0 main_v120 (maximumf : (⟨S50000x128, .f32⟩ : BufTy).Contents (Elt F) → (⟨S50000x128, .f32⟩ : BufTy).Contents (Elt F) → (⟨S50000x128, .f32⟩ : BufTy).Contents (Elt F)) ]

abbrev cB : List (HloOp τ sig (Elt F)) :=
  [ StableHlo.unary main_arg6 main_v121 ((extractStridedSlice S1x128x128 ![2, 0, 0] · slices_S5x128x128_S1x128x128_2_0_0) : (⟨S5x128x128, .f32⟩ : BufTy).Contents (Elt F) → (⟨S1x128x128, .f32⟩ : BufTy).Contents (Elt F)),
    StableHlo.reshape main_v121 main_v122 rfl shapeCasts_S1x128x128_S128x128,
    StableHlo.binary main_v120 main_v122 main_v123 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v124 ((extractStridedSlice S1x128 ![2, 0] · slices_S5x128_S1x128_2_0) : (⟨S5x128, .f32⟩ : BufTy).Contents (Elt F) → (⟨S1x128, .f32⟩ : BufTy).Contents (Elt F)),
    StableHlo.reshape main_v124 main_v125 rfl shapeCasts_S1x128_S128,
    StableHlo.unary main_v125 main_v126 (broadcastInDim S1x128 ![1] bcast_S128_S1x128_1 : (⟨S128, .f32⟩ : BufTy).Contents (Elt F) → (⟨S1x128, .f32⟩ : BufTy).Contents (Elt F)),
    StableHlo.unary main_v126 main_v127 (broadcastInDim S50000x128 ![0, 1] bcast_S1x128_S50000x128_0_1 : (⟨S1x128, .f32⟩ : BufTy).Contents (Elt F) → (⟨S50000x128, .f32⟩ : BufTy).Contents (Elt F)),
    StableHlo.binary main_v123 main_v127 main_v128 (addf : (⟨S50000x128, .f32⟩ : BufTy).Contents (Elt F) → (⟨S50000x128, .f32⟩ : BufTy).Contents (Elt F) → (⟨S50000x128, .f32⟩ : BufTy).Contents (Elt F)),
    StableHlo.unary main_arg8 main_v129 ((extractStridedSlice S1x128 ![2, 0] · slices_S5x128_S1x128_2_0) : (⟨S5x128, .f32⟩ : BufTy).Contents (Elt F) → (⟨S1x128, .f32⟩ : BufTy).Contents (Elt F)),
    StableHlo.reshape main_v129 main_v130 rfl shapeCasts_S1x128_S128,
    StableHlo.unary main_arg10 main_v131 ((extractStridedSlice S1x128 ![2, 0] · slices_S5x128_S1x128_2_0) : (⟨S5x128, .f32⟩ : BufTy).Contents (Elt F) → (⟨S1x128, .f32⟩ : BufTy).Contents (Elt F)),
    StableHlo.reshape main_v131 main_v132 rfl shapeCasts_S1x128_S128,
    StableHlo.unary main_v132 main_v133 (broadcastInDim S1x128 ![1] bcast_S128_S1x128_1 : (⟨S128, .f32⟩ : BufTy).Contents (Elt F) → (⟨S1x128, .f32⟩ : BufTy).Contents (Elt F)),
    StableHlo.unary main_v133 main_v134 (broadcastInDim S50000x128 ![0, 1] bcast_S1x128_S50000x128_0_1 : (⟨S1x128, .f32⟩ : BufTy).Contents (Elt F) → (⟨S50000x128, .f32⟩ : BufTy).Contents (Elt F)),
    StableHlo.binary main_v128 main_v134 main_v135 (subf : (⟨S50000x128, .f32⟩ : BufTy).Contents (Elt F) → (⟨S50000x128, .f32⟩ : BufTy).Contents (Elt F) → (⟨S50000x128, .f32⟩ : BufTy).Contents (Elt F)),
    StableHlo.unary main_v130 main_v136 (broadcastInDim S1x128 ![1] bcast_S128_S1x128_1 : (⟨S128, .f32⟩ : BufTy).Contents (Elt F) → (⟨S1x128, .f32⟩ : BufTy).Contents (Elt F)),
    StableHlo.unary main_v136 main_v137 (broadcastInDim S50000x128 ![0, 1] bcast_S1x128_S50000x128_0_1 : (⟨S1x128, .f32⟩ : BufTy).Contents (Elt F) → (⟨S50000x128, .f32⟩ : BufTy).Contents (Elt F)),
    StableHlo.binary main_v137 main_v135 main_v138 (mulf : (⟨S50000x128, .f32⟩ : BufTy).Contents (Elt F) → (⟨S50000x128, .f32⟩ : BufTy).Contents (Elt F) → (⟨S50000x128, .f32⟩ : BufTy).Contents (Elt F)) ]

abbrev cC : List (HloOp τ sig (Elt F)) :=
  [ StableHlo.unary main_arg11 main_v139 ((extractStridedSlice S1x128 ![2, 0] · slices_S5x128_S1x128_2_0) : (⟨S5x128, .f32⟩ : BufTy).Contents (Elt F) → (⟨S1x128, .f32⟩ : BufTy).Contents (Elt F)),
    StableHlo.reshape main_v139 main_v140 rfl shapeCasts_S1x128_S128,
    StableHlo.nullary main_cst_7 (constant S_ .f32 0x3A83126F#32),
    StableHlo.unary main_cst_7 main_v141 (broadcastInDim S128 ![] bcast_S_S128 : (⟨S_, .f32⟩ : BufTy).Contents (Elt F) → (⟨S128, .f32⟩ : BufTy).Contents (Elt F)),
    StableHlo.binary main_v140 main_v141 main_v142 (addf : (⟨S128, .f32⟩ : BufTy).Contents (Elt F) → (⟨S128, .f32⟩ : BufTy).Contents (Elt F) → (⟨S128, .f32⟩ : BufTy).Contents (Elt F)),
    StableHlo.unary main_v142 main_v143 (Host.rsqrt : (⟨S128, .f32⟩ : BufTy).Contents (Elt F) → (⟨S128, .f32⟩ : BufTy).Contents (Elt F)),
    StableHlo.unary main_v143 main_v144 (broadcastInDim S1x128 ![1] bcast_S128_S1x128_1 : (⟨S128, .f32⟩ : BufTy).Contents (Elt F) → (⟨S1x128, .f32⟩ : BufTy).Contents (Elt F)),
    StableHlo.unary main_v144 main_v145 (broadcastInDim S50000x128 ![0, 1] bcast_S1x128_S50000x128_0_1 : (⟨S1x128, .f32⟩ : BufTy).Contents (Elt F) → (⟨S50000x128, .f32⟩ : BufTy).Contents (Elt F)),
    StableHlo.binary main_v138 main_v145 main_v146 (mulf : (⟨S50000x128, .f32⟩ : BufTy).Contents (Elt F) → (⟨S50000x128, .f32⟩ : BufTy).Contents (Elt F) → (⟨S50000x128, .f32⟩ : BufTy).Contents (Elt F)),
    StableHlo.unary main_arg9 main_v147 ((extractStridedSlice S1x128 ![2, 0] · slices_S5x128_S1x128_2_0) : (⟨S5x128, .f32⟩ : BufTy).Contents (Elt F) → (⟨S1x128, .f32⟩ : BufTy).Contents (Elt F)),
    StableHlo.reshape main_v147 main_v148 rfl shapeCasts_S1x128_S128,
    StableHlo.unary main_v148 main_v149 (broadcastInDim S1x128 ![1] bcast_S128_S1x128_1 : (⟨S128, .f32⟩ : BufTy).Contents (Elt F) → (⟨S1x128, .f32⟩ : BufTy).Contents (Elt F)),
    StableHlo.unary main_v149 main_v150 (broadcastInDim S50000x128 ![0, 1] bcast_S1x128_S50000x128_0_1 : (⟨S1x128, .f32⟩ : BufTy).Contents (Elt F) → (⟨S50000x128, .f32⟩ : BufTy).Contents (Elt F)),
    StableHlo.binary main_v146 main_v150 main_v151 (addf : (⟨S50000x128, .f32⟩ : BufTy).Contents (Elt F) → (⟨S50000x128, .f32⟩ : BufTy).Contents (Elt F) → (⟨S50000x128, .f32⟩ : BufTy).Contents (Elt F)),
    StableHlo.nullary main_call8_cst (constant S_ .f32 0x00000000#32),
    StableHlo.unary main_call8_cst main_call8_v0 (broadcastInDim S50000x128 ![] bcast_S_S50000x128 : (⟨S_, .f32⟩ : BufTy).Contents (Elt F) → (⟨S50000x128, .f32⟩ : BufTy).Contents (Elt F)),
    StableHlo.binary main_v151 main_call8_v0 main_v152 (maximumf : (⟨S50000x128, .f32⟩ : BufTy).Contents (Elt F) → (⟨S50000x128, .f32⟩ : BufTy).Contents (Elt F) → (⟨S50000x128, .f32⟩ : BufTy).Contents (Elt F)) ]

set_option maxRecDepth 16384 in
theorem split : (opsL2 : List (HloOp τ sig (Elt F))) = cT ++ (cA ++ (cB ++ cC)) :=
  (congrArg₂ List.cons e0 (congrArg₂ List.cons e1 (congrArg₂ List.cons e2 (congrArg₂ List.cons e3 (congrArg₂ List.cons e4 (congrArg₂ List.cons e5 (congrArg₂ List.cons e6 (congrArg₂ List.cons e7 (congrArg₂ List.cons e8 (congrArg₂ List.cons e9 (congrArg₂ List.cons e10 (congrArg₂ List.cons e11 (congrArg₂ List.cons e12 (congrArg₂ List.cons e13 (congrArg₂ List.cons e14 (congrArg₂ List.cons e15 (congrArg₂ List.cons e16 (congrArg₂ List.cons e17 (congrArg₂ List.cons e18 (congrArg₂ List.cons e19 (congrArg₂ List.cons e20 (congrArg₂ List.cons e21 (congrArg₂ List.cons e22 (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons e42 (congrArg₂ List.cons e43 (congrArg₂ List.cons e44 (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons e77 (congrArg₂ List.cons e78 (congrArg₂ List.cons e79 rfl))))))))))))))))))))))))))))))))))))))))))))))))))))))))))))))))))))))))))))))))

theorem after_split (V : Valuation τ sig (Elt F)) :
    after opsL2 V = after cC (after cB (after cA (after cT V))) := by
  rw [split, after_append cT, after_append cA, after_append cB]

abbrev cT_W : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v102]

set_option maxRecDepth 8192 in
theorem cT_writes : (cT : List (HloOp τ sig (Elt F))).Forall fun op =>
    op.writes ⊆ (cT_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

theorem cT_keep (W : Valuation τ sig (Elt F)) (r : Ref sig .tc) (h : r ∉ cT_W) :
    after cT W (Proc.devRef .tc r) = W (Proc.devRef .tc r) :=
  after_of_writes_sub cT W cT_writes h

abbrev cA_W : List (Ref sig .tc) := [main_cst_5, main_v103, main_v104, main_v105, main_v106, main_v107, main_cst_6, main_v108, main_v109, main_v110, main_v111, main_v112, main_v113, main_v114, main_v115, main_v116, main_v117, main_v118, main_v119, main_call7_cst, main_call7_v0, main_v120]

set_option maxRecDepth 8192 in
theorem cA_writes : (cA : List (HloOp τ sig (Elt F))).Forall fun op =>
    op.writes ⊆ (cA_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

theorem cA_keep (W : Valuation τ sig (Elt F)) (r : Ref sig .tc) (h : r ∉ cA_W) :
    after cA W (Proc.devRef .tc r) = W (Proc.devRef .tc r) :=
  after_of_writes_sub cA W cA_writes h

abbrev cB_W : List (Ref sig .tc) := [main_v121, main_v122, main_v123, main_v124, main_v125, main_v126, main_v127, main_v128, main_v129, main_v130, main_v131, main_v132, main_v133, main_v134, main_v135, main_v136, main_v137, main_v138]

set_option maxRecDepth 8192 in
theorem cB_writes : (cB : List (HloOp τ sig (Elt F))).Forall fun op =>
    op.writes ⊆ (cB_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

theorem cB_keep (W : Valuation τ sig (Elt F)) (r : Ref sig .tc) (h : r ∉ cB_W) :
    after cB W (Proc.devRef .tc r) = W (Proc.devRef .tc r) :=
  after_of_writes_sub cB W cB_writes h

abbrev cC_W : List (Ref sig .tc) := [main_v139, main_v140, main_cst_7, main_v141, main_v142, main_v143, main_v144, main_v145, main_v146, main_v147, main_v148, main_v149, main_v150, main_v151, main_call8_cst, main_call8_v0, main_v152]

set_option maxRecDepth 8192 in
theorem cC_writes : (cC : List (HloOp τ sig (Elt F))).Forall fun op =>
    op.writes ⊆ (cC_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

theorem cC_keep (W : Valuation τ sig (Elt F)) (r : Ref sig .tc) (h : r ∉ cC_W) :
    after cC W (Proc.devRef .tc r) = W (Proc.devRef .tc r) :=
  after_of_writes_sub cC W cC_writes h

attribute [local irreducible] Host.reduce Host.gather Host.scatterAdd in
set_option maxRecDepth 16384 in
set_option maxHeartbeats 4000000 in
theorem cT_read (W : Valuation τ sig (Elt F)) :
    after cT W (main_v102 : DevRef τ sig)
      = takeOut (W (main_v101 : DevRef τ sig)) (W (main_arg1 : DevRef τ sig)) := by
  after_results_simp
  rfl

attribute [local irreducible] Host.reduce Host.gather Host.scatterAdd in
set_option maxRecDepth 16384 in
set_option maxHeartbeats 4000000 in
theorem cA_read (W : Valuation τ sig (Elt F)) :
    after cA W (main_v120 : DevRef τ sig)
      = maximumf (addf (Host.dotGeneral dot_S50000x128_S128x128_S50000x128_1_0_0_1_n_n none (addf (Host.scatterAdd scatter_S50000x128_S800000x1_S800000x128_1_0_0_1 (broadcastInDim S50000x128 ![] bcast_S_S50000x128 (constant (F := F) S_ .f32 0x00000000#32)) (broadcastInDim S800000x1 ![0] bcast_S800000_S800000x1_0 (W (main_arg2 : DevRef τ sig))) (W (main_v102 : DevRef τ sig))) (mulf (broadcastInDim S50000x128 ![] bcast_S_S50000x128 (addf (constant (F := F) S_ .f32 0x3F800000#32) (shapeCast S_ (extractStridedSlice S1 ![2] (W (main_arg3 : DevRef τ sig)) slices_S5_S1_2) shapeCasts_S1_S_))) (W (main_v101 : DevRef τ sig)))) (shapeCast S128x128 (extractStridedSlice S1x128x128 ![2, 0, 0] (W (main_arg4 : DevRef τ sig)) slices_S5x128x128_S1x128x128_2_0_0) shapeCasts_S1x128x128_S128x128)) (broadcastInDim S50000x128 ![0, 1] bcast_S1x128_S50000x128_0_1 (broadcastInDim S1x128 ![1] bcast_S128_S1x128_1 (shapeCast S128 (extractStridedSlice S1x128 ![2, 0] (W (main_arg5 : DevRef τ sig)) slices_S5x128_S1x128_2_0) shapeCasts_S1x128_S128)))) (broadcastInDim S50000x128 ![] bcast_S_S50000x128 (constant (F := F) S_ .f32 0x00000000#32)) := by
  after_results_simp
  rfl

attribute [local irreducible] Host.reduce Host.gather Host.scatterAdd in
set_option maxRecDepth 16384 in
set_option maxHeartbeats 4000000 in
theorem cB_read (W : Valuation τ sig (Elt F)) :
    after cB W (main_v138 : DevRef τ sig)
      = mulf (broadcastInDim S50000x128 ![0, 1] bcast_S1x128_S50000x128_0_1 (broadcastInDim S1x128 ![1] bcast_S128_S1x128_1 (shapeCast S128 (extractStridedSlice S1x128 ![2, 0] (W (main_arg8 : DevRef τ sig)) slices_S5x128_S1x128_2_0) shapeCasts_S1x128_S128))) (subf (addf (Host.dotGeneral dot_S50000x128_S128x128_S50000x128_1_0_0_1_n_n none (W (main_v120 : DevRef τ sig)) (shapeCast S128x128 (extractStridedSlice S1x128x128 ![2, 0, 0] (W (main_arg6 : DevRef τ sig)) slices_S5x128x128_S1x128x128_2_0_0) shapeCasts_S1x128x128_S128x128)) (broadcastInDim S50000x128 ![0, 1] bcast_S1x128_S50000x128_0_1 (broadcastInDim S1x128 ![1] bcast_S128_S1x128_1 (shapeCast S128 (extractStridedSlice S1x128 ![2, 0] (W (main_arg7 : DevRef τ sig)) slices_S5x128_S1x128_2_0) shapeCasts_S1x128_S128)))) (broadcastInDim S50000x128 ![0, 1] bcast_S1x128_S50000x128_0_1 (broadcastInDim S1x128 ![1] bcast_S128_S1x128_1 (shapeCast S128 (extractStridedSlice S1x128 ![2, 0] (W (main_arg10 : DevRef τ sig)) slices_S5x128_S1x128_2_0) shapeCasts_S1x128_S128)))) := by
  after_results_simp
  rfl

attribute [local irreducible] Host.reduce Host.gather Host.scatterAdd in
set_option maxRecDepth 16384 in
set_option maxHeartbeats 4000000 in
theorem cC_read (W : Valuation τ sig (Elt F)) :
    after cC W (main_v152 : DevRef τ sig)
      = maximumf (addf (mulf (W (main_v138 : DevRef τ sig)) (broadcastInDim S50000x128 ![0, 1] bcast_S1x128_S50000x128_0_1 (broadcastInDim S1x128 ![1] bcast_S128_S1x128_1 (Host.rsqrt (addf (shapeCast S128 (extractStridedSlice S1x128 ![2, 0] (W (main_arg11 : DevRef τ sig)) slices_S5x128_S1x128_2_0) shapeCasts_S1x128_S128) (broadcastInDim S128 ![] bcast_S_S128 (constant (F := F) S_ .f32 0x3A83126F#32))))))) (broadcastInDim S50000x128 ![0, 1] bcast_S1x128_S50000x128_0_1 (broadcastInDim S1x128 ![1] bcast_S128_S1x128_1 (shapeCast S128 (extractStridedSlice S1x128 ![2, 0] (W (main_arg9 : DevRef τ sig)) slices_S5x128_S1x128_2_0) shapeCasts_S1x128_S128)))) (broadcastInDim S50000x128 ![] bcast_S_S50000x128 (constant (F := F) S_ .f32 0x00000000#32)) := by
  after_results_simp
  rfl

end L2

open L2 in
set_option maxRecDepth 16384 in
/-- Layer 2's result buffer after its operations, from any contents. -/
theorem read_L2 (V : Valuation τ sig (Elt F)) :
    after opsL2 V (main_v152 : DevRef τ sig)
      = layerOut ![2] slices_S5_S1_2 ![2, 0, 0] slices_S5x128x128_S1x128x128_2_0_0 ![2, 0] slices_S5x128_S1x128_2_0 (V (main_v101 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [after_split, cC_read,
    cB_keep _ main_arg11 (by decide),
    cA_keep _ main_arg11 (by decide),
    cT_keep _ main_arg11 (by decide),
    cB_read,
    cB_keep _ main_arg9 (by decide),
    cA_keep _ main_arg9 (by decide),
    cT_keep _ main_arg9 (by decide),
    cA_keep _ main_arg6 (by decide),
    cT_keep _ main_arg6 (by decide),
    cA_read,
    cA_keep _ main_arg7 (by decide),
    cT_keep _ main_arg7 (by decide),
    cA_keep _ main_arg8 (by decide),
    cT_keep _ main_arg8 (by decide),
    cA_keep _ main_arg10 (by decide),
    cT_keep _ main_arg10 (by decide),
    cT_keep _ main_arg2 (by decide),
    cT_read,
    cT_keep _ main_arg3 (by decide),
    cT_keep _ main_v101 (by decide),
    cT_keep _ main_arg4 (by decide),
    cT_keep _ main_arg5 (by decide)]
  rfl

end Cert.ReferenceIdeal.HandRun

end
-- ==== Proof.RefReadL3.lean ====
import proofs.«177667_j37366215475921_1_alg».proof.Proof.Gen.ReferenceIdeal
import Idealize.ShloMosaic.Lib.StableHlo.Run
import proofs.«177667_j37366215475921_1_alg».proof.Proof.RefOps
import proofs.«177667_j37366215475921_1_alg».proof.Proof.RefDefs

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! # Layer 3 read back

The layer's operations that were listed over typed references (the gather's and the two maxima's) are first shown
equal to the same builders over the buffers themselves — the changes of type around their functions are identities —,
so the layer is a list of eighty plain operations. It is read in four stretches — the gather, the pooled sum with the
first affine map and maximum, the second affine map with the centring, the scaling with the shift and the last
maximum —: what each stretch leaves in its last buffer from any contents, that it leaves every buffer it does not
write alone, and the four composed. -/

namespace L3

theorem e0 : (StableHlo.TRef.nullary main_call9.c (constantI S_ 32 0#32) : HloOp τ sig (Elt F)) = StableHlo.nullary main_call9_c (constantI S_ 32 0#32) :=
  nullary_congr _ _ _ _ _ (cast_free₀ _ (constantI S_ 32 0#32 : (⟨S_, .i32⟩ : BufTy).Contents (Elt F)))

theorem e1 : (StableHlo.TRef.unary main_call9.c main_call9.v0 (broadcastInDim S800000 ![] bcast_S_S800000) : HloOp τ sig (Elt F)) = StableHlo.unary main_call9_c main_call9_v0 (broadcastInDim S800000 ![] bcast_S_S800000 : (⟨S_, .i32⟩ : BufTy).Contents (Elt F) → (⟨S800000, .i32⟩ : BufTy).Contents (Elt F)) :=
  unary_congr _ _ _ _ _ _ _ _ (fun v => cast_free₁ _ _ (broadcastInDim S800000 ![] bcast_S_S800000 : (⟨S_, .i32⟩ : BufTy).Contents (Elt F) → (⟨S800000, .i32⟩ : BufTy).Contents (Elt F)) v)

theorem e2 : (StableHlo.TRef.binary (.of main_arg1 : StableHlo.TRef sig ⟨S800000, .i32⟩) main_call9.v0 main_call9.v1 (cmpi .slt) : HloOp τ sig (Elt F)) = StableHlo.binary main_arg1 main_call9_v0 main_call9_v1 (cmpi .slt : (⟨S800000, .i32⟩ : BufTy).Contents (Elt F) → (⟨S800000, .i32⟩ : BufTy).Contents (Elt F) → (⟨S800000, .i1⟩ : BufTy).Contents (Elt F)) :=
  binary_congr _ _ _ _ _ _ _ _ _ _ _ (fun u v => cast_free₂ _ _ _ (cmpi .slt : (⟨S800000, .i32⟩ : BufTy).Contents (Elt F) → (⟨S800000, .i32⟩ : BufTy).Contents (Elt F) → (⟨S800000, .i1⟩ : BufTy).Contents (Elt F)) u v)

theorem e3 : (StableHlo.TRef.nullary main_call9.c_0 (constantI S_ 32 50000#32) : HloOp τ sig (Elt F)) = StableHlo.nullary main_call9_c_0 (constantI S_ 32 50000#32) :=
  nullary_congr _ _ _ _ _ (cast_free₀ _ (constantI S_ 32 50000#32 : (⟨S_, .i32⟩ : BufTy).Contents (Elt F)))

theorem e4 : (StableHlo.TRef.unary main_call9.c_0 main_call9.v2 (broadcastInDim S800000 ![] bcast_S_S800000) : HloOp τ sig (Elt F)) = StableHlo.unary main_call9_c_0 main_call9_v2 (broadcastInDim S800000 ![] bcast_S_S800000 : (⟨S_, .i32⟩ : BufTy).Contents (Elt F) → (⟨S800000, .i32⟩ : BufTy).Contents (Elt F)) :=
  unary_congr _ _ _ _ _ _ _ _ (fun v => cast_free₁ _ _ (broadcastInDim S800000 ![] bcast_S_S800000 : (⟨S_, .i32⟩ : BufTy).Contents (Elt F) → (⟨S800000, .i32⟩ : BufTy).Contents (Elt F)) v)

theorem e5 : (StableHlo.TRef.binary (.of main_arg1 : StableHlo.TRef sig ⟨S800000, .i32⟩) main_call9.v2 main_call9.v3 addi : HloOp τ sig (Elt F)) = StableHlo.binary main_arg1 main_call9_v2 main_call9_v3 (addi : (⟨S800000, .i32⟩ : BufTy).Contents (Elt F) → (⟨S800000, .i32⟩ : BufTy).Contents (Elt F) → (⟨S800000, .i32⟩ : BufTy).Contents (Elt F)) :=
  binary_congr _ _ _ _ _ _ _ _ _ _ _ (fun u v => cast_free₂ _ _ _ (addi : (⟨S800000, .i32⟩ : BufTy).Contents (Elt F) → (⟨S800000, .i32⟩ : BufTy).Contents (Elt F) → (⟨S800000, .i32⟩ : BufTy).Contents (Elt F)) u v)

theorem e6 : (StableHlo.TRef.ternary main_call9.v1 main_call9.v3 (.of main_arg1 : StableHlo.TRef sig ⟨S800000, .i32⟩) main_call9.call0.v0 select : HloOp τ sig (Elt F)) = StableHlo.ternary main_call9_v1 main_call9_v3 main_arg1 main_call9_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) :=
  ternary_congr _ _ _ _ _ _ _ _ _ _ _ _ _ _ (fun w u v => cast_free₃ _ _ _ _ (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) w u v)

theorem e7 : (StableHlo.TRef.unary main_call9.call0.v0 main_call9.v5 (broadcastInDim S800000x1 ![0] bcast_S800000_S800000x1_0) : HloOp τ sig (Elt F)) = StableHlo.unary main_call9_v4 main_call9_v5 (broadcastInDim S800000x1 ![0] bcast_S800000_S800000x1_0 : (⟨S800000, .i32⟩ : BufTy).Contents (Elt F) → (⟨S800000x1, .i32⟩ : BufTy).Contents (Elt F)) :=
  unary_congr _ _ _ _ _ _ _ _ (fun v => cast_free₁ _ _ (broadcastInDim S800000x1 ![0] bcast_S800000_S800000x1_0 : (⟨S800000, .i32⟩ : BufTy).Contents (Elt F) → (⟨S800000x1, .i32⟩ : BufTy).Contents (Elt F)) v)

theorem e8 : (StableHlo.TRef.nullary main_call9.c_1 (constantI S1 32 49999#32) : HloOp τ sig (Elt F)) = StableHlo.nullary main_call9_c_1 (constantI S1 32 49999#32) :=
  nullary_congr _ _ _ _ _ (cast_free₀ _ (constantI S1 32 49999#32 : (⟨S1, .i32⟩ : BufTy).Contents (Elt F)))

theorem e9 : (StableHlo.TRef.nullary main_call9.c_2 (constantI S_ 32 0#32) : HloOp τ sig (Elt F)) = StableHlo.nullary main_call9_c_2 (constantI S_ 32 0#32) :=
  nullary_congr _ _ _ _ _ (cast_free₀ _ (constantI S_ 32 0#32 : (⟨S_, .i32⟩ : BufTy).Contents (Elt F)))

theorem e10 : (StableHlo.TRef.unary main_call9.c_2 main_call9.v6 (broadcastInDim S800000x1 ![] bcast_S_S800000x1) : HloOp τ sig (Elt F)) = StableHlo.unary main_call9_c_2 main_call9_v6 (broadcastInDim S800000x1 ![] bcast_S_S800000x1 : (⟨S_, .i32⟩ : BufTy).Contents (Elt F) → (⟨S800000x1, .i32⟩ : BufTy).Contents (Elt F)) :=
  unary_congr _ _ _ _ _ _ _ _ (fun v => cast_free₁ _ _ (broadcastInDim S800000x1 ![] bcast_S_S800000x1 : (⟨S_, .i32⟩ : BufTy).Contents (Elt F) → (⟨S800000x1, .i32⟩ : BufTy).Contents (Elt F)) v)

theorem e11 : (StableHlo.TRef.binary main_call9.v5 main_call9.v6 main_call9.v7 (cmpi .sge) : HloOp τ sig (Elt F)) = StableHlo.binary main_call9_v5 main_call9_v6 main_call9_v7 (cmpi .sge : (⟨S800000x1, .i32⟩ : BufTy).Contents (Elt F) → (⟨S800000x1, .i32⟩ : BufTy).Contents (Elt F) → (⟨S800000x1, .i1⟩ : BufTy).Contents (Elt F)) :=
  binary_congr _ _ _ _ _ _ _ _ _ _ _ (fun u v => cast_free₂ _ _ _ (cmpi .sge : (⟨S800000x1, .i32⟩ : BufTy).Contents (Elt F) → (⟨S800000x1, .i32⟩ : BufTy).Contents (Elt F) → (⟨S800000x1, .i1⟩ : BufTy).Contents (Elt F)) u v)

theorem e12 : (StableHlo.TRef.unary main_call9.c_1 main_call9.v8 (broadcastInDim S1x1 ![1] bcast_S1_S1x1_1) : HloOp τ sig (Elt F)) = StableHlo.unary main_call9_c_1 main_call9_v8 (broadcastInDim S1x1 ![1] bcast_S1_S1x1_1 : (⟨S1, .i32⟩ : BufTy).Contents (Elt F) → (⟨S1x1, .i32⟩ : BufTy).Contents (Elt F)) :=
  unary_congr _ _ _ _ _ _ _ _ (fun v => cast_free₁ _ _ (broadcastInDim S1x1 ![1] bcast_S1_S1x1_1 : (⟨S1, .i32⟩ : BufTy).Contents (Elt F) → (⟨S1x1, .i32⟩ : BufTy).Contents (Elt F)) v)

theorem e13 : (StableHlo.TRef.unary main_call9.v8 main_call9.v9 (broadcastInDim S800000x1 ![0, 1] bcast_S1x1_S800000x1_0_1) : HloOp τ sig (Elt F)) = StableHlo.unary main_call9_v8 main_call9_v9 (broadcastInDim S800000x1 ![0, 1] bcast_S1x1_S800000x1_0_1 : (⟨S1x1, .i32⟩ : BufTy).Contents (Elt F) → (⟨S800000x1, .i32⟩ : BufTy).Contents (Elt F)) :=
  unary_congr _ _ _ _ _ _ _ _ (fun v => cast_free₁ _ _ (broadcastInDim S800000x1 ![0, 1] bcast_S1x1_S800000x1_0_1 : (⟨S1x1, .i32⟩ : BufTy).Contents (Elt F) → (⟨S800000x1, .i32⟩ : BufTy).Contents (Elt F)) v)

theorem e14 : (StableHlo.TRef.binary main_call9.v5 main_call9.v9 main_call9.v10 (cmpi .sle) : HloOp τ sig (Elt F)) = StableHlo.binary main_call9_v5 main_call9_v9 main_call9_v10 (cmpi .sle : (⟨S800000x1, .i32⟩ : BufTy).Contents (Elt F) → (⟨S800000x1, .i32⟩ : BufTy).Contents (Elt F) → (⟨S800000x1, .i1⟩ : BufTy).Contents (Elt F)) :=
  binary_congr _ _ _ _ _ _ _ _ _ _ _ (fun u v => cast_free₂ _ _ _ (cmpi .sle : (⟨S800000x1, .i32⟩ : BufTy).Contents (Elt F) → (⟨S800000x1, .i32⟩ : BufTy).Contents (Elt F) → (⟨S800000x1, .i1⟩ : BufTy).Contents (Elt F)) u v)

theorem e15 : (StableHlo.TRef.binary main_call9.v7 main_call9.v10 main_call9.v11 andi : HloOp τ sig (Elt F)) = StableHlo.binary main_call9_v7 main_call9_v10 main_call9_v11 (andi : (⟨S800000x1, .i1⟩ : BufTy).Contents (Elt F) → (⟨S800000x1, .i1⟩ : BufTy).Contents (Elt F) → (⟨S800000x1, .i1⟩ : BufTy).Contents (Elt F)) :=
  binary_congr _ _ _ _ _ _ _ _ _ _ _ (fun u v => cast_free₂ _ _ _ (andi : (⟨S800000x1, .i1⟩ : BufTy).Contents (Elt F) → (⟨S800000x1, .i1⟩ : BufTy).Contents (Elt F) → (⟨S800000x1, .i1⟩ : BufTy).Contents (Elt F)) u v)

theorem e16 : (StableHlo.TRef.nullary main_call9.c_3 (constantI S_ 1 1#1) : HloOp τ sig (Elt F)) = StableHlo.nullary main_call9_c_3 (constantI S_ 1 1#1) :=
  nullary_congr _ _ _ _ _ (cast_free₀ _ (constantI S_ 1 1#1 : (⟨S_, .i1⟩ : BufTy).Contents (Elt F)))

theorem e17 : (StableHlo.TRef.binary main_call9.v11 main_call9.c_3 main_call9.v12 (fun x v => Host.reduce IntOp.andi x v reducesTo_S800000x1_S800000_d1 h_S_) : HloOp τ sig (Elt F)) = StableHlo.binary main_call9_v11 main_call9_c_3 main_call9_v12 ((fun x v => Host.reduce IntOp.andi x v reducesTo_S800000x1_S800000_d1 h_S_) : (⟨S800000x1, .i1⟩ : BufTy).Contents (Elt F) → (⟨S_, .i1⟩ : BufTy).Contents (Elt F) → (⟨S800000, .i1⟩ : BufTy).Contents (Elt F)) :=
  binary_congr _ _ _ _ _ _ _ _ _ _ _ (fun u v => cast_free₂ _ _ _ (fun x v => Host.reduce IntOp.andi x v reducesTo_S800000x1_S800000_d1 h_S_ : (⟨S800000x1, .i1⟩ : BufTy).Contents (Elt F) → (⟨S_, .i1⟩ : BufTy).Contents (Elt F) → (⟨S800000, .i1⟩ : BufTy).Contents (Elt F)) u v)

theorem e18 : (StableHlo.TRef.binary (.of main_v152 : StableHlo.TRef sig ⟨S50000x128, .f32⟩) main_call9.v5 main_call9.v13 (fun x i => Host.gather gather_S50000x128_S800000x1_S800000x128_1_0_n_n_0_1_1128 x i) : HloOp τ sig (Elt F)) = StableHlo.binary main_v152 main_call9_v5 main_call9_v13 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) :=
  binary_congr _ _ _ _ _ _ _ _ _ _ _ (fun u v => cast_free₂ _ _ _ (fun x i => Host.gather gather_S50000x128_S800000x1_S800000x128_1_0_n_n_0_1_1128 x i : (⟨S50000x128, .f32⟩ : BufTy).Contents (Elt F) → (⟨S800000x1, .i32⟩ : BufTy).Contents (Elt F) → (⟨S800000x128, .f32⟩ : BufTy).Contents (Elt F)) u v)

theorem e19 : (StableHlo.TRef.unary main_call9.v12 main_call9.v14 (broadcastInDim S800000x128 ![0] bcast_S800000_S800000x128_0) : HloOp τ sig (Elt F)) = StableHlo.unary main_call9_v12 main_call9_v14 (broadcastInDim S800000x128 ![0] bcast_S800000_S800000x128_0 : (⟨S800000, .i1⟩ : BufTy).Contents (Elt F) → (⟨S800000x128, .i1⟩ : BufTy).Contents (Elt F)) :=
  unary_congr _ _ _ _ _ _ _ _ (fun v => cast_free₁ _ _ (broadcastInDim S800000x128 ![0] bcast_S800000_S800000x128_0 : (⟨S800000, .i1⟩ : BufTy).Contents (Elt F) → (⟨S800000x128, .i1⟩ : BufTy).Contents (Elt F)) v)

theorem e20 : (StableHlo.TRef.nullary main_call9.cst (constant S_ .f32 0x7FC00000#32) : HloOp τ sig (Elt F)) = StableHlo.nullary main_call9_cst (constant S_ .f32 0x7FC00000#32) :=
  nullary_congr _ _ _ _ _ (cast_free₀ _ (constant S_ .f32 0x7FC00000#32 : (⟨S_, .f32⟩ : BufTy).Contents (Elt F)))

theorem e21 : (StableHlo.TRef.unary main_call9.cst main_call9.v15 (broadcastInDim S800000x128 ![] bcast_S_S800000x128) : HloOp τ sig (Elt F)) = StableHlo.unary main_call9_cst main_call9_v15 (broadcastInDim S800000x128 ![] bcast_S_S800000x128 : (⟨S_, .f32⟩ : BufTy).Contents (Elt F) → (⟨S800000x128, .f32⟩ : BufTy).Contents (Elt F)) :=
  unary_congr _ _ _ _ _ _ _ _ (fun v => cast_free₁ _ _ (broadcastInDim S800000x128 ![] bcast_S_S800000x128 : (⟨S_, .f32⟩ : BufTy).Contents (Elt F) → (⟨S800000x128, .f32⟩ : BufTy).Contents (Elt F)) v)

theorem e22 : (StableHlo.TRef.ternary main_call9.v14 main_call9.v13 main_call9.v15 main_call9.v16 select : HloOp τ sig (Elt F)) = StableHlo.ternary main_call9_v14 main_call9_v13 main_call9_v15 main_v153 (select : (⟨S800000x128, .i1⟩ : BufTy).Contents (Elt F) → (⟨S800000x128, .f32⟩ : BufTy).Contents (Elt F) → (⟨S800000x128, .f32⟩ : BufTy).Contents (Elt F) → (⟨S800000x128, .f32⟩ : BufTy).Contents (Elt F)) :=
  ternary_congr _ _ _ _ _ _ _ _ _ _ _ _ _ _ (fun w u v => cast_free₃ _ _ _ _ (select : (⟨S800000x128, .i1⟩ : BufTy).Contents (Elt F) → (⟨S800000x128, .f32⟩ : BufTy).Contents (Elt F) → (⟨S800000x128, .f32⟩ : BufTy).Contents (Elt F) → (⟨S800000x128, .f32⟩ : BufTy).Contents (Elt F)) w u v)

theorem e42 : (StableHlo.TRef.nullary main_call10.cst (constant S_ .f32 0x00000000#32) : HloOp τ sig (Elt F)) = StableHlo.nullary main_call10_cst (constant S_ .f32 0x00000000#32) :=
  nullary_congr _ _ _ _ _ (cast_free₀ _ (constant S_ .f32 0x00000000#32 : (⟨S_, .f32⟩ : BufTy).Contents (Elt F)))

theorem e43 : (StableHlo.TRef.unary main_call10.cst main_call10.v0 (broadcastInDim S50000x128 ![] bcast_S_S50000x128) : HloOp τ sig (Elt F)) = StableHlo.unary main_call10_cst main_call10_v0 (broadcastInDim S50000x128 ![] bcast_S_S50000x128 : (⟨S_, .f32⟩ : BufTy).Contents (Elt F) → (⟨S50000x128, .f32⟩ : BufTy).Contents (Elt F)) :=
  unary_congr _ _ _ _ _ _ _ _ (fun v => cast_free₁ _ _ (broadcastInDim S50000x128 ![] bcast_S_S50000x128 : (⟨S_, .f32⟩ : BufTy).Contents (Elt F) → (⟨S50000x128, .f32⟩ : BufTy).Contents (Elt F)) v)

theorem e44 : (StableHlo.TRef.binary (.of main_v170 : StableHlo.TRef sig ⟨S50000x128, .f32⟩) main_call10.v0 main_call10.v1 maximumf : HloOp τ sig (Elt F)) = StableHlo.binary main_v170 main_call10_v0 main_v171 (maximumf : (⟨S50000x128, .f32⟩ : BufTy).Contents (Elt F) → (⟨S50000x128, .f32⟩ : BufTy).Contents (Elt F) → (⟨S50000x128, .f32⟩ : BufTy).Contents (Elt F)) :=
  binary_congr _ _ _ _ _ _ _ _ _ _ _ (fun u v => cast_free₂ _ _ _ (maximumf : (⟨S50000x128, .f32⟩ : BufTy).Contents (Elt F) → (⟨S50000x128, .f32⟩ : BufTy).Contents (Elt F) → (⟨S50000x128, .f32⟩ : BufTy).Contents (Elt F)) u v)

theorem e77 : (StableHlo.TRef.nullary main_call11.cst (constant S_ .f32 0x00000000#32) : HloOp τ sig (Elt F)) = StableHlo.nullary main_call11_cst (constant S_ .f32 0x00000000#32) :=
  nullary_congr _ _ _ _ _ (cast_free₀ _ (constant S_ .f32 0x00000000#32 : (⟨S_, .f32⟩ : BufTy).Contents (Elt F)))

theorem e78 : (StableHlo.TRef.unary main_call11.cst main_call11.v0 (broadcastInDim S50000x128 ![] bcast_S_S50000x128) : HloOp τ sig (Elt F)) = StableHlo.unary main_call11_cst main_call11_v0 (broadcastInDim S50000x128 ![] bcast_S_S50000x128 : (⟨S_, .f32⟩ : BufTy).Contents (Elt F) → (⟨S50000x128, .f32⟩ : BufTy).Contents (Elt F)) :=
  unary_congr _ _ _ _ _ _ _ _ (fun v => cast_free₁ _ _ (broadcastInDim S50000x128 ![] bcast_S_S50000x128 : (⟨S_, .f32⟩ : BufTy).Contents (Elt F) → (⟨S50000x128, .f32⟩ : BufTy).Contents (Elt F)) v)

theorem e79 : (StableHlo.TRef.binary (.of main_v202 : StableHlo.TRef sig ⟨S50000x128, .f32⟩) main_call11.v0 main_call11.v1 maximumf : HloOp τ sig (Elt F)) = StableHlo.binary main_v202 main_call11_v0 main_v203 (maximumf : (⟨S50000x128, .f32⟩ : BufTy).Contents (Elt F) → (⟨S50000x128, .f32⟩ : BufTy).Contents (Elt F) → (⟨S50000x128, .f32⟩ : BufTy).Contents (Elt F)) :=
  binary_congr _ _ _ _ _ _ _ _ _ _ _ (fun u v => cast_free₂ _ _ _ (maximumf : (⟨S50000x128, .f32⟩ : BufTy).Contents (Elt F) → (⟨S50000x128, .f32⟩ : BufTy).Contents (Elt F) → (⟨S50000x128, .f32⟩ : BufTy).Contents (Elt F)) u v)

abbrev cT : List (HloOp τ sig (Elt F)) :=
  [ StableHlo.nullary main_call9_c (constantI S_ 32 0#32),
    StableHlo.unary main_call9_c main_call9_v0 (broadcastInDim S800000 ![] bcast_S_S800000 : (⟨S_, .i32⟩ : BufTy).Contents (Elt F) → (⟨S800000, .i32⟩ : BufTy).Contents (Elt F)),
    StableHlo.binary main_arg1 main_call9_v0 main_call9_v1 (cmpi .slt : (⟨S800000, .i32⟩ : BufTy).Contents (Elt F) → (⟨S800000, .i32⟩ : BufTy).Contents (Elt F) → (⟨S800000, .i1⟩ : BufTy).Contents (Elt F)),
    StableHlo.nullary main_call9_c_0 (constantI S_ 32 50000#32),
    StableHlo.unary main_call9_c_0 main_call9_v2 (broadcastInDim S800000 ![] bcast_S_S800000 : (⟨S_, .i32⟩ : BufTy).Contents (Elt F) → (⟨S800000, .i32⟩ : BufTy).Contents (Elt F)),
    StableHlo.binary main_arg1 main_call9_v2 main_call9_v3 (addi : (⟨S800000, .i32⟩ : BufTy).Contents (Elt F) → (⟨S800000, .i32⟩ : BufTy).Contents (Elt F) → (⟨S800000, .i32⟩ : BufTy).Contents (Elt F)),
    StableHlo.ternary main_call9_v1 main_call9_v3 main_arg1 main_call9_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_call9_v4 main_call9_v5 (broadcastInDim S800000x1 ![0] bcast_S800000_S800000x1_0 : (⟨S800000, .i32⟩ : BufTy).Contents (Elt F) → (⟨S800000x1, .i32⟩ : BufTy).Contents (Elt F)),
    StableHlo.nullary main_call9_c_1 (constantI S1 32 49999#32),
    StableHlo.nullary main_call9_c_2 (constantI S_ 32 0#32),
    StableHlo.unary main_call9_c_2 main_call9_v6 (broadcastInDim S800000x1 ![] bcast_S_S800000x1 : (⟨S_, .i32⟩ : BufTy).Contents (Elt F) → (⟨S800000x1, .i32⟩ : BufTy).Contents (Elt F)),
    StableHlo.binary main_call9_v5 main_call9_v6 main_call9_v7 (cmpi .sge : (⟨S800000x1, .i32⟩ : BufTy).Contents (Elt F) → (⟨S800000x1, .i32⟩ : BufTy).Contents (Elt F) → (⟨S800000x1, .i1⟩ : BufTy).Contents (Elt F)),
    StableHlo.unary main_call9_c_1 main_call9_v8 (broadcastInDim S1x1 ![1] bcast_S1_S1x1_1 : (⟨S1, .i32⟩ : BufTy).Contents (Elt F) → (⟨S1x1, .i32⟩ : BufTy).Contents (Elt F)),
    StableHlo.unary main_call9_v8 main_call9_v9 (broadcastInDim S800000x1 ![0, 1] bcast_S1x1_S800000x1_0_1 : (⟨S1x1, .i32⟩ : BufTy).Contents (Elt F) → (⟨S800000x1, .i32⟩ : BufTy).Contents (Elt F)),
    StableHlo.binary main_call9_v5 main_call9_v9 main_call9_v10 (cmpi .sle : (⟨S800000x1, .i32⟩ : BufTy).Contents (Elt F) → (⟨S800000x1, .i32⟩ : BufTy).Contents (Elt F) → (⟨S800000x1, .i1⟩ : BufTy).Contents (Elt F)),
    StableHlo.binary main_call9_v7 main_call9_v10 main_call9_v11 (andi : (⟨S800000x1, .i1⟩ : BufTy).Contents (Elt F) → (⟨S800000x1, .i1⟩ : BufTy).Contents (Elt F) → (⟨S800000x1, .i1⟩ : BufTy).Contents (Elt F)),
    StableHlo.nullary main_call9_c_3 (constantI S_ 1 1#1),
    StableHlo.binary main_call9_v11 main_call9_c_3 main_call9_v12 ((fun x v => Host.reduce IntOp.andi x v reducesTo_S800000x1_S800000_d1 h_S_) : (⟨S800000x1, .i1⟩ : BufTy).Contents (Elt F) → (⟨S_, .i1⟩ : BufTy).Contents (Elt F) → (⟨S800000, .i1⟩ : BufTy).Contents (Elt F)),
    StableHlo.binary main_v152 main_call9_v5 main_call9_v13 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_call9_v12 main_call9_v14 (broadcastInDim S800000x128 ![0] bcast_S800000_S800000x128_0 : (⟨S800000, .i1⟩ : BufTy).Contents (Elt F) → (⟨S800000x128, .i1⟩ : BufTy).Contents (Elt F)),
    StableHlo.nullary main_call9_cst (constant S_ .f32 0x7FC00000#32),
    StableHlo.unary main_call9_cst main_call9_v15 (broadcastInDim S800000x128 ![] bcast_S_S800000x128 : (⟨S_, .f32⟩ : BufTy).Contents (Elt F) → (⟨S800000x128, .f32⟩ : BufTy).Contents (Elt F)),
    StableHlo.ternary main_call9_v14 main_call9_v13 main_call9_v15 main_v153 (select : (⟨S800000x128, .i1⟩ : BufTy).Contents (Elt F) → (⟨S800000x128, .f32⟩ : BufTy).Contents (Elt F) → (⟨S800000x128, .f32⟩ : BufTy).Contents (Elt F) → (⟨S800000x128, .f32⟩ : BufTy).Contents (Elt F)) ]

abbrev cA : List (HloOp τ sig (Elt F)) :=
  [ StableHlo.nullary main_cst_8 (constant S_ .f32 0x00000000#32),
    StableHlo.unary main_cst_8 main_v154 (broadcastInDim S50000x128 ![] bcast_S_S50000x128 : (⟨S_, .f32⟩ : BufTy).Contents (Elt F) → (⟨S50000x128, .f32⟩ : BufTy).Contents (Elt F)),
    StableHlo.unary main_arg2 main_v155 (broadcastInDim S800000x1 ![0] bcast_S800000_S800000x1_0 : (⟨S800000, .i32⟩ : BufTy).Contents (Elt F) → (⟨S800000x1, .i32⟩ : BufTy).Contents (Elt F)),
    StableHlo.ternary main_v154 main_v155 main_v153 main_v156 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg3 main_v157 ((extractStridedSlice S1 ![3] · slices_S5_S1_3) : (⟨S5, .f32⟩ : BufTy).Contents (Elt F) → (⟨S1, .f32⟩ : BufTy).Contents (Elt F)),
    StableHlo.reshape main_v157 main_v158 rfl shapeCasts_S1_S_,
    StableHlo.nullary main_cst_9 (constant S_ .f32 0x3F800000#32),
    StableHlo.binary main_cst_9 main_v158 main_v159 (addf : (⟨S_, .f32⟩ : BufTy).Contents (Elt F) → (⟨S_, .f32⟩ : BufTy).Contents (Elt F) → (⟨S_, .f32⟩ : BufTy).Contents (Elt F)),
    StableHlo.unary main_v159 main_v160 (broadcastInDim S50000x128 ![] bcast_S_S50000x128 : (⟨S_, .f32⟩ : BufTy).Contents (Elt F) → (⟨S50000x128, .f32⟩ : BufTy).Contents (Elt F)),
    StableHlo.binary main_v160 main_v152 main_v161 (mulf : (⟨S50000x128, .f32⟩ : BufTy).Contents (Elt F) → (⟨S50000x128, .f32⟩ : BufTy).Contents (Elt F) → (⟨S50000x128, .f32⟩ : BufTy).Contents (Elt F)),
    StableHlo.binary main_v156 main_v161 main_v162 (addf : (⟨S50000x128, .f32⟩ : BufTy).Contents (Elt F) → (⟨S50000x128, .f32⟩ : BufTy).Contents (Elt F) → (⟨S50000x128, .f32⟩ : BufTy).Contents (Elt F)),
    StableHlo.unary main_arg4 main_v163 ((extractStridedSlice S1x128x128 ![3, 0, 0] · slices_S5x128x128_S1x128x128_3_0_0) : (⟨S5x128x128, .f32⟩ : BufTy).Contents (Elt F) → (⟨S1x128x128, .f32⟩ : BufTy).Contents (Elt F)),
    StableHlo.reshape main_v163 main_v164 rfl shapeCasts_S1x128x128_S128x128,
    StableHlo.binary main_v162 main_v164 main_v165 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v166 ((extractStridedSlice S1x128 ![3, 0] · slices_S5x128_S1x128_3_0) : (⟨S5x128, .f32⟩ : BufTy).Contents (Elt F) → (⟨S1x128, .f32⟩ : BufTy).Contents (Elt F)),
    StableHlo.reshape main_v166 main_v167 rfl shapeCasts_S1x128_S128,
    StableHlo.unary main_v167 main_v168 (broadcastInDim S1x128 ![1] bcast_S128_S1x128_1 : (⟨S128, .f32⟩ : BufTy).Contents (Elt F) → (⟨S1x128, .f32⟩ : BufTy).Contents (Elt F)),
    StableHlo.unary main_v168 main_v169 (broadcastInDim S50000x128 ![0, 1] bcast_S1x128_S50000x128_0_1 : (⟨S1x128, .f32⟩ : BufTy).Contents (Elt F) → (⟨S50000x128, .f32⟩ : BufTy).Contents (Elt F)),
    StableHlo.binary main_v165 main_v169 main_v170 (addf : (⟨S50000x128, .f32⟩ : BufTy).Contents (Elt F) → (⟨S50000x128, .f32⟩ : BufTy).Contents (Elt F) → (⟨S50000x128, .f32⟩ : BufTy).Contents (Elt F)),
    StableHlo.nullary main_call10_cst (constant S_ .f32 0x00000000#32),
    StableHlo.unary main_call10_cst main_call10_v0 (broadcastInDim S50000x128 ![] bcast_S_S50000x128 : (⟨S_, .f32⟩ : BufTy).Contents (Elt F) → (⟨S50000x128, .f32⟩ : BufTy).Contents (Elt F)),
    StableHlo.binary main_v170 main_call10_v0 main_v171 (maximumf : (⟨S50000x128, .f32⟩ : BufTy).Contents (Elt F) → (⟨S50000x128, .f32⟩ : BufTy).Contents (Elt F) → (⟨S50000x128, .f32⟩ : BufTy).Contents (Elt F)) ]

abbrev cB : List (HloOp τ sig (Elt F)) :=
  [ StableHlo.unary main_arg6 main_v172 ((extractStridedSlice S1x128x128 ![3, 0, 0] · slices_S5x128x128_S1x128x128_3_0_0) : (⟨S5x128x128, .f32⟩ : BufTy).Contents (Elt F) → (⟨S1x128x128, .f32⟩ : BufTy).Contents (Elt F)),
    StableHlo.reshape main_v172 main_v173 rfl shapeCasts_S1x128x128_S128x128,
    StableHlo.binary main_v171 main_v173 main_v174 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v175 ((extractStridedSlice S1x128 ![3, 0] · slices_S5x128_S1x128_3_0) : (⟨S5x128, .f32⟩ : BufTy).Contents (Elt F) → (⟨S1x128, .f32⟩ : BufTy).Contents (Elt F)),
    StableHlo.reshape main_v175 main_v176 rfl shapeCasts_S1x128_S128,
    StableHlo.unary main_v176 main_v177 (broadcastInDim S1x128 ![1] bcast_S128_S1x128_1 : (⟨S128, .f32⟩ : BufTy).Contents (Elt F) → (⟨S1x128, .f32⟩ : BufTy).Contents (Elt F)),
    StableHlo.unary main_v177 main_v178 (broadcastInDim S50000x128 ![0, 1] bcast_S1x128_S50000x128_0_1 : (⟨S1x128, .f32⟩ : BufTy).Contents (Elt F) → (⟨S50000x128, .f32⟩ : BufTy).Contents (Elt F)),
    StableHlo.binary main_v174 main_v178 main_v179 (addf : (⟨S50000x128, .f32⟩ : BufTy).Contents (Elt F) → (⟨S50000x128, .f32⟩ : BufTy).Contents (Elt F) → (⟨S50000x128, .f32⟩ : BufTy).Contents (Elt F)),
    StableHlo.unary main_arg8 main_v180 ((extractStridedSlice S1x128 ![3, 0] · slices_S5x128_S1x128_3_0) : (⟨S5x128, .f32⟩ : BufTy).Contents (Elt F) → (⟨S1x128, .f32⟩ : BufTy).Contents (Elt F)),
    StableHlo.reshape main_v180 main_v181 rfl shapeCasts_S1x128_S128,
    StableHlo.unary main_arg10 main_v182 ((extractStridedSlice S1x128 ![3, 0] · slices_S5x128_S1x128_3_0) : (⟨S5x128, .f32⟩ : BufTy).Contents (Elt F) → (⟨S1x128, .f32⟩ : BufTy).Contents (Elt F)),
    StableHlo.reshape main_v182 main_v183 rfl shapeCasts_S1x128_S128,
    StableHlo.unary main_v183 main_v184 (broadcastInDim S1x128 ![1] bcast_S128_S1x128_1 : (⟨S128, .f32⟩ : BufTy).Contents (Elt F) → (⟨S1x128, .f32⟩ : BufTy).Contents (Elt F)),
    StableHlo.unary main_v184 main_v185 (broadcastInDim S50000x128 ![0, 1] bcast_S1x128_S50000x128_0_1 : (⟨S1x128, .f32⟩ : BufTy).Contents (Elt F) → (⟨S50000x128, .f32⟩ : BufTy).Contents (Elt F)),
    StableHlo.binary main_v179 main_v185 main_v186 (subf : (⟨S50000x128, .f32⟩ : BufTy).Contents (Elt F) → (⟨S50000x128, .f32⟩ : BufTy).Contents (Elt F) → (⟨S50000x128, .f32⟩ : BufTy).Contents (Elt F)),
    StableHlo.unary main_v181 main_v187 (broadcastInDim S1x128 ![1] bcast_S128_S1x128_1 : (⟨S128, .f32⟩ : BufTy).Contents (Elt F) → (⟨S1x128, .f32⟩ : BufTy).Contents (Elt F)),
    StableHlo.unary main_v187 main_v188 (broadcastInDim S50000x128 ![0, 1] bcast_S1x128_S50000x128_0_1 : (⟨S1x128, .f32⟩ : BufTy).Contents (Elt F) → (⟨S50000x128, .f32⟩ : BufTy).Contents (Elt F)),
    StableHlo.binary main_v188 main_v186 main_v189 (mulf : (⟨S50000x128, .f32⟩ : BufTy).Contents (Elt F) → (⟨S50000x128, .f32⟩ : BufTy).Contents (Elt F) → (⟨S50000x128, .f32⟩ : BufTy).Contents (Elt F)) ]

abbrev cC : List (HloOp τ sig (Elt F)) :=
  [ StableHlo.unary main_arg11 main_v190 ((extractStridedSlice S1x128 ![3, 0] · slices_S5x128_S1x128_3_0) : (⟨S5x128, .f32⟩ : BufTy).Contents (Elt F) → (⟨S1x128, .f32⟩ : BufTy).Contents (Elt F)),
    StableHlo.reshape main_v190 main_v191 rfl shapeCasts_S1x128_S128,
    StableHlo.nullary main_cst_10 (constant S_ .f32 0x3A83126F#32),
    StableHlo.unary main_cst_10 main_v192 (broadcastInDim S128 ![] bcast_S_S128 : (⟨S_, .f32⟩ : BufTy).Contents (Elt F) → (⟨S128, .f32⟩ : BufTy).Contents (Elt F)),
    StableHlo.binary main_v191 main_v192 main_v193 (addf : (⟨S128, .f32⟩ : BufTy).Contents (Elt F) → (⟨S128, .f32⟩ : BufTy).Contents (Elt F) → (⟨S128, .f32⟩ : BufTy).Contents (Elt F)),
    StableHlo.unary main_v193 main_v194 (Host.rsqrt : (⟨S128, .f32⟩ : BufTy).Contents (Elt F) → (⟨S128, .f32⟩ : BufTy).Contents (Elt F)),
    StableHlo.unary main_v194 main_v195 (broadcastInDim S1x128 ![1] bcast_S128_S1x128_1 : (⟨S128, .f32⟩ : BufTy).Contents (Elt F) → (⟨S1x128, .f32⟩ : BufTy).Contents (Elt F)),
    StableHlo.unary main_v195 main_v196 (broadcastInDim S50000x128 ![0, 1] bcast_S1x128_S50000x128_0_1 : (⟨S1x128, .f32⟩ : BufTy).Contents (Elt F) → (⟨S50000x128, .f32⟩ : BufTy).Contents (Elt F)),
    StableHlo.binary main_v189 main_v196 main_v197 (mulf : (⟨S50000x128, .f32⟩ : BufTy).Contents (Elt F) → (⟨S50000x128, .f32⟩ : BufTy).Contents (Elt F) → (⟨S50000x128, .f32⟩ : BufTy).Contents (Elt F)),
    StableHlo.unary main_arg9 main_v198 ((extractStridedSlice S1x128 ![3, 0] · slices_S5x128_S1x128_3_0) : (⟨S5x128, .f32⟩ : BufTy).Contents (Elt F) → (⟨S1x128, .f32⟩ : BufTy).Contents (Elt F)),
    StableHlo.reshape main_v198 main_v199 rfl shapeCasts_S1x128_S128,
    StableHlo.unary main_v199 main_v200 (broadcastInDim S1x128 ![1] bcast_S128_S1x128_1 : (⟨S128, .f32⟩ : BufTy).Contents (Elt F) → (⟨S1x128, .f32⟩ : BufTy).Contents (Elt F)),
    StableHlo.unary main_v200 main_v201 (broadcastInDim S50000x128 ![0, 1] bcast_S1x128_S50000x128_0_1 : (⟨S1x128, .f32⟩ : BufTy).Contents (Elt F) → (⟨S50000x128, .f32⟩ : BufTy).Contents (Elt F)),
    StableHlo.binary main_v197 main_v201 main_v202 (addf : (⟨S50000x128, .f32⟩ : BufTy).Contents (Elt F) → (⟨S50000x128, .f32⟩ : BufTy).Contents (Elt F) → (⟨S50000x128, .f32⟩ : BufTy).Contents (Elt F)),
    StableHlo.nullary main_call11_cst (constant S_ .f32 0x00000000#32),
    StableHlo.unary main_call11_cst main_call11_v0 (broadcastInDim S50000x128 ![] bcast_S_S50000x128 : (⟨S_, .f32⟩ : BufTy).Contents (Elt F) → (⟨S50000x128, .f32⟩ : BufTy).Contents (Elt F)),
    StableHlo.binary main_v202 main_call11_v0 main_v203 (maximumf : (⟨S50000x128, .f32⟩ : BufTy).Contents (Elt F) → (⟨S50000x128, .f32⟩ : BufTy).Contents (Elt F) → (⟨S50000x128, .f32⟩ : BufTy).Contents (Elt F)) ]

set_option maxRecDepth 16384 in
theorem split : (opsL3 : List (HloOp τ sig (Elt F))) = cT ++ (cA ++ (cB ++ cC)) :=
  (congrArg₂ List.cons e0 (congrArg₂ List.cons e1 (congrArg₂ List.cons e2 (congrArg₂ List.cons e3 (congrArg₂ List.cons e4 (congrArg₂ List.cons e5 (congrArg₂ List.cons e6 (congrArg₂ List.cons e7 (congrArg₂ List.cons e8 (congrArg₂ List.cons e9 (congrArg₂ List.cons e10 (congrArg₂ List.cons e11 (congrArg₂ List.cons e12 (congrArg₂ List.cons e13 (congrArg₂ List.cons e14 (congrArg₂ List.cons e15 (congrArg₂ List.cons e16 (congrArg₂ List.cons e17 (congrArg₂ List.cons e18 (congrArg₂ List.cons e19 (congrArg₂ List.cons e20 (congrArg₂ List.cons e21 (congrArg₂ List.cons e22 (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons e42 (congrArg₂ List.cons e43 (congrArg₂ List.cons e44 (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons e77 (congrArg₂ List.cons e78 (congrArg₂ List.cons e79 rfl))))))))))))))))))))))))))))))))))))))))))))))))))))))))))))))))))))))))))))))))

theorem after_split (V : Valuation τ sig (Elt F)) :
    after opsL3 V = after cC (after cB (after cA (after cT V))) := by
  rw [split, after_append cT, after_append cA, after_append cB]

abbrev cT_W : List (Ref sig .tc) := [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_v14, main_call9_cst, main_call9_v15, main_v153]

set_option maxRecDepth 8192 in
theorem cT_writes : (cT : List (HloOp τ sig (Elt F))).Forall fun op =>
    op.writes ⊆ (cT_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

theorem cT_keep (W : Valuation τ sig (Elt F)) (r : Ref sig .tc) (h : r ∉ cT_W) :
    after cT W (Proc.devRef .tc r) = W (Proc.devRef .tc r) :=
  after_of_writes_sub cT W cT_writes h

abbrev cA_W : List (Ref sig .tc) := [main_cst_8, main_v154, main_v155, main_v156, main_v157, main_v158, main_cst_9, main_v159, main_v160, main_v161, main_v162, main_v163, main_v164, main_v165, main_v166, main_v167, main_v168, main_v169, main_v170, main_call10_cst, main_call10_v0, main_v171]

set_option maxRecDepth 8192 in
theorem cA_writes : (cA : List (HloOp τ sig (Elt F))).Forall fun op =>
    op.writes ⊆ (cA_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

theorem cA_keep (W : Valuation τ sig (Elt F)) (r : Ref sig .tc) (h : r ∉ cA_W) :
    after cA W (Proc.devRef .tc r) = W (Proc.devRef .tc r) :=
  after_of_writes_sub cA W cA_writes h

abbrev cB_W : List (Ref sig .tc) := [main_v172, main_v173, main_v174, main_v175, main_v176, main_v177, main_v178, main_v179, main_v180, main_v181, main_v182, main_v183, main_v184, main_v185, main_v186, main_v187, main_v188, main_v189]

set_option maxRecDepth 8192 in
theorem cB_writes : (cB : List (HloOp τ sig (Elt F))).Forall fun op =>
    op.writes ⊆ (cB_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

theorem cB_keep (W : Valuation τ sig (Elt F)) (r : Ref sig .tc) (h : r ∉ cB_W) :
    after cB W (Proc.devRef .tc r) = W (Proc.devRef .tc r) :=
  after_of_writes_sub cB W cB_writes h

abbrev cC_W : List (Ref sig .tc) := [main_v190, main_v191, main_cst_10, main_v192, main_v193, main_v194, main_v195, main_v196, main_v197, main_v198, main_v199, main_v200, main_v201, main_v202, main_call11_cst, main_call11_v0, main_v203]

set_option maxRecDepth 8192 in
theorem cC_writes : (cC : List (HloOp τ sig (Elt F))).Forall fun op =>
    op.writes ⊆ (cC_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

theorem cC_keep (W : Valuation τ sig (Elt F)) (r : Ref sig .tc) (h : r ∉ cC_W) :
    after cC W (Proc.devRef .tc r) = W (Proc.devRef .tc r) :=
  after_of_writes_sub cC W cC_writes h

attribute [local irreducible] Host.reduce Host.gather Host.scatterAdd in
set_option maxRecDepth 16384 in
set_option maxHeartbeats 4000000 in
theorem cT_read (W : Valuation τ sig (Elt F)) :
    after cT W (main_v153 : DevRef τ sig)
      = takeOut (W (main_v152 : DevRef τ sig)) (W (main_arg1 : DevRef τ sig)) := by
  after_results_simp
  rfl

attribute [local irreducible] Host.reduce Host.gather Host.scatterAdd in
set_option maxRecDepth 16384 in
set_option maxHeartbeats 4000000 in
theorem cA_read (W : Valuation τ sig (Elt F)) :
    after cA W (main_v171 : DevRef τ sig)
      = maximumf (addf (Host.dotGeneral dot_S50000x128_S128x128_S50000x128_1_0_0_1_n_n none (addf (Host.scatterAdd scatter_S50000x128_S800000x1_S800000x128_1_0_0_1 (broadcastInDim S50000x128 ![] bcast_S_S50000x128 (constant (F := F) S_ .f32 0x00000000#32)) (broadcastInDim S800000x1 ![0] bcast_S800000_S800000x1_0 (W (main_arg2 : DevRef τ sig))) (W (main_v153 : DevRef τ sig))) (mulf (broadcastInDim S50000x128 ![] bcast_S_S50000x128 (addf (constant (F := F) S_ .f32 0x3F800000#32) (shapeCast S_ (extractStridedSlice S1 ![3] (W (main_arg3 : DevRef τ sig)) slices_S5_S1_3) shapeCasts_S1_S_))) (W (main_v152 : DevRef τ sig)))) (shapeCast S128x128 (extractStridedSlice S1x128x128 ![3, 0, 0] (W (main_arg4 : DevRef τ sig)) slices_S5x128x128_S1x128x128_3_0_0) shapeCasts_S1x128x128_S128x128)) (broadcastInDim S50000x128 ![0, 1] bcast_S1x128_S50000x128_0_1 (broadcastInDim S1x128 ![1] bcast_S128_S1x128_1 (shapeCast S128 (extractStridedSlice S1x128 ![3, 0] (W (main_arg5 : DevRef τ sig)) slices_S5x128_S1x128_3_0) shapeCasts_S1x128_S128)))) (broadcastInDim S50000x128 ![] bcast_S_S50000x128 (constant (F := F) S_ .f32 0x00000000#32)) := by
  after_results_simp
  rfl

attribute [local irreducible] Host.reduce Host.gather Host.scatterAdd in
set_option maxRecDepth 16384 in
set_option maxHeartbeats 4000000 in
theorem cB_read (W : Valuation τ sig (Elt F)) :
    after cB W (main_v189 : DevRef τ sig)
      = mulf (broadcastInDim S50000x128 ![0, 1] bcast_S1x128_S50000x128_0_1 (broadcastInDim S1x128 ![1] bcast_S128_S1x128_1 (shapeCast S128 (extractStridedSlice S1x128 ![3, 0] (W (main_arg8 : DevRef τ sig)) slices_S5x128_S1x128_3_0) shapeCasts_S1x128_S128))) (subf (addf (Host.dotGeneral dot_S50000x128_S128x128_S50000x128_1_0_0_1_n_n none (W (main_v171 : DevRef τ sig)) (shapeCast S128x128 (extractStridedSlice S1x128x128 ![3, 0, 0] (W (main_arg6 : DevRef τ sig)) slices_S5x128x128_S1x128x128_3_0_0) shapeCasts_S1x128x128_S128x128)) (broadcastInDim S50000x128 ![0, 1] bcast_S1x128_S50000x128_0_1 (broadcastInDim S1x128 ![1] bcast_S128_S1x128_1 (shapeCast S128 (extractStridedSlice S1x128 ![3, 0] (W (main_arg7 : DevRef τ sig)) slices_S5x128_S1x128_3_0) shapeCasts_S1x128_S128)))) (broadcastInDim S50000x128 ![0, 1] bcast_S1x128_S50000x128_0_1 (broadcastInDim S1x128 ![1] bcast_S128_S1x128_1 (shapeCast S128 (extractStridedSlice S1x128 ![3, 0] (W (main_arg10 : DevRef τ sig)) slices_S5x128_S1x128_3_0) shapeCasts_S1x128_S128)))) := by
  after_results_simp
  rfl

attribute [local irreducible] Host.reduce Host.gather Host.scatterAdd in
set_option maxRecDepth 16384 in
set_option maxHeartbeats 4000000 in
theorem cC_read (W : Valuation τ sig (Elt F)) :
    after cC W (main_v203 : DevRef τ sig)
      = maximumf (addf (mulf (W (main_v189 : DevRef τ sig)) (broadcastInDim S50000x128 ![0, 1] bcast_S1x128_S50000x128_0_1 (broadcastInDim S1x128 ![1] bcast_S128_S1x128_1 (Host.rsqrt (addf (shapeCast S128 (extractStridedSlice S1x128 ![3, 0] (W (main_arg11 : DevRef τ sig)) slices_S5x128_S1x128_3_0) shapeCasts_S1x128_S128) (broadcastInDim S128 ![] bcast_S_S128 (constant (F := F) S_ .f32 0x3A83126F#32))))))) (broadcastInDim S50000x128 ![0, 1] bcast_S1x128_S50000x128_0_1 (broadcastInDim S1x128 ![1] bcast_S128_S1x128_1 (shapeCast S128 (extractStridedSlice S1x128 ![3, 0] (W (main_arg9 : DevRef τ sig)) slices_S5x128_S1x128_3_0) shapeCasts_S1x128_S128)))) (broadcastInDim S50000x128 ![] bcast_S_S50000x128 (constant (F := F) S_ .f32 0x00000000#32)) := by
  after_results_simp
  rfl

end L3

open L3 in
set_option maxRecDepth 16384 in
/-- Layer 3's result buffer after its operations, from any contents. -/
theorem read_L3 (V : Valuation τ sig (Elt F)) :
    after opsL3 V (main_v203 : DevRef τ sig)
      = layerOut ![3] slices_S5_S1_3 ![3, 0, 0] slices_S5x128x128_S1x128x128_3_0_0 ![3, 0] slices_S5x128_S1x128_3_0 (V (main_v152 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [after_split, cC_read,
    cB_keep _ main_arg11 (by decide),
    cA_keep _ main_arg11 (by decide),
    cT_keep _ main_arg11 (by decide),
    cB_read,
    cB_keep _ main_arg9 (by decide),
    cA_keep _ main_arg9 (by decide),
    cT_keep _ main_arg9 (by decide),
    cA_keep _ main_arg6 (by decide),
    cT_keep _ main_arg6 (by decide),
    cA_read,
    cA_keep _ main_arg7 (by decide),
    cT_keep _ main_arg7 (by decide),
    cA_keep _ main_arg8 (by decide),
    cT_keep _ main_arg8 (by decide),
    cA_keep _ main_arg10 (by decide),
    cT_keep _ main_arg10 (by decide),
    cT_keep _ main_arg2 (by decide),
    cT_read,
    cT_keep _ main_arg3 (by decide),
    cT_keep _ main_v152 (by decide),
    cT_keep _ main_arg4 (by decide),
    cT_keep _ main_arg5 (by decide)]
  rfl

end Cert.ReferenceIdeal.HandRun

end
-- ==== Proof.RefReadL4.lean ====
import proofs.«177667_j37366215475921_1_alg».proof.Proof.Gen.ReferenceIdeal
import Idealize.ShloMosaic.Lib.StableHlo.Run
import proofs.«177667_j37366215475921_1_alg».proof.Proof.RefOps
import proofs.«177667_j37366215475921_1_alg».proof.Proof.RefDefs

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! # Layer 4 read back

The layer's operations that were listed over typed references (the gather's and the two maxima's) are first shown
equal to the same builders over the buffers themselves — the changes of type around their functions are identities —,
so the layer is a list of eighty plain operations. It is read in four stretches — the gather, the pooled sum with the
first affine map and maximum, the second affine map with the centring, the scaling with the shift and the last
maximum —: what each stretch leaves in its last buffer from any contents, that it leaves every buffer it does not
write alone, and the four composed. -/

namespace L4

theorem e0 : (StableHlo.TRef.nullary main_call12.c (constantI S_ 32 0#32) : HloOp τ sig (Elt F)) = StableHlo.nullary main_call12_c (constantI S_ 32 0#32) :=
  nullary_congr _ _ _ _ _ (cast_free₀ _ (constantI S_ 32 0#32 : (⟨S_, .i32⟩ : BufTy).Contents (Elt F)))

theorem e1 : (StableHlo.TRef.unary main_call12.c main_call12.v0 (broadcastInDim S800000 ![] bcast_S_S800000) : HloOp τ sig (Elt F)) = StableHlo.unary main_call12_c main_call12_v0 (broadcastInDim S800000 ![] bcast_S_S800000 : (⟨S_, .i32⟩ : BufTy).Contents (Elt F) → (⟨S800000, .i32⟩ : BufTy).Contents (Elt F)) :=
  unary_congr _ _ _ _ _ _ _ _ (fun v => cast_free₁ _ _ (broadcastInDim S800000 ![] bcast_S_S800000 : (⟨S_, .i32⟩ : BufTy).Contents (Elt F) → (⟨S800000, .i32⟩ : BufTy).Contents (Elt F)) v)

theorem e2 : (StableHlo.TRef.binary (.of main_arg1 : StableHlo.TRef sig ⟨S800000, .i32⟩) main_call12.v0 main_call12.v1 (cmpi .slt) : HloOp τ sig (Elt F)) = StableHlo.binary main_arg1 main_call12_v0 main_call12_v1 (cmpi .slt : (⟨S800000, .i32⟩ : BufTy).Contents (Elt F) → (⟨S800000, .i32⟩ : BufTy).Contents (Elt F) → (⟨S800000, .i1⟩ : BufTy).Contents (Elt F)) :=
  binary_congr _ _ _ _ _ _ _ _ _ _ _ (fun u v => cast_free₂ _ _ _ (cmpi .slt : (⟨S800000, .i32⟩ : BufTy).Contents (Elt F) → (⟨S800000, .i32⟩ : BufTy).Contents (Elt F) → (⟨S800000, .i1⟩ : BufTy).Contents (Elt F)) u v)

theorem e3 : (StableHlo.TRef.nullary main_call12.c_0 (constantI S_ 32 50000#32) : HloOp τ sig (Elt F)) = StableHlo.nullary main_call12_c_0 (constantI S_ 32 50000#32) :=
  nullary_congr _ _ _ _ _ (cast_free₀ _ (constantI S_ 32 50000#32 : (⟨S_, .i32⟩ : BufTy).Contents (Elt F)))

theorem e4 : (StableHlo.TRef.unary main_call12.c_0 main_call12.v2 (broadcastInDim S800000 ![] bcast_S_S800000) : HloOp τ sig (Elt F)) = StableHlo.unary main_call12_c_0 main_call12_v2 (broadcastInDim S800000 ![] bcast_S_S800000 : (⟨S_, .i32⟩ : BufTy).Contents (Elt F) → (⟨S800000, .i32⟩ : BufTy).Contents (Elt F)) :=
  unary_congr _ _ _ _ _ _ _ _ (fun v => cast_free₁ _ _ (broadcastInDim S800000 ![] bcast_S_S800000 : (⟨S_, .i32⟩ : BufTy).Contents (Elt F) → (⟨S800000, .i32⟩ : BufTy).Contents (Elt F)) v)

theorem e5 : (StableHlo.TRef.binary (.of main_arg1 : StableHlo.TRef sig ⟨S800000, .i32⟩) main_call12.v2 main_call12.v3 addi : HloOp τ sig (Elt F)) = StableHlo.binary main_arg1 main_call12_v2 main_call12_v3 (addi : (⟨S800000, .i32⟩ : BufTy).Contents (Elt F) → (⟨S800000, .i32⟩ : BufTy).Contents (Elt F) → (⟨S800000, .i32⟩ : BufTy).Contents (Elt F)) :=
  binary_congr _ _ _ _ _ _ _ _ _ _ _ (fun u v => cast_free₂ _ _ _ (addi : (⟨S800000, .i32⟩ : BufTy).Contents (Elt F) → (⟨S800000, .i32⟩ : BufTy).Contents (Elt F) → (⟨S800000, .i32⟩ : BufTy).Contents (Elt F)) u v)

theorem e6 : (StableHlo.TRef.ternary main_call12.v1 main_call12.v3 (.of main_arg1 : StableHlo.TRef sig ⟨S800000, .i32⟩) main_call12.call0.v0 select : HloOp τ sig (Elt F)) = StableHlo.ternary main_call12_v1 main_call12_v3 main_arg1 main_call12_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) :=
  ternary_congr _ _ _ _ _ _ _ _ _ _ _ _ _ _ (fun w u v => cast_free₃ _ _ _ _ (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) w u v)

theorem e7 : (StableHlo.TRef.unary main_call12.call0.v0 main_call12.v5 (broadcastInDim S800000x1 ![0] bcast_S800000_S800000x1_0) : HloOp τ sig (Elt F)) = StableHlo.unary main_call12_v4 main_call12_v5 (broadcastInDim S800000x1 ![0] bcast_S800000_S800000x1_0 : (⟨S800000, .i32⟩ : BufTy).Contents (Elt F) → (⟨S800000x1, .i32⟩ : BufTy).Contents (Elt F)) :=
  unary_congr _ _ _ _ _ _ _ _ (fun v => cast_free₁ _ _ (broadcastInDim S800000x1 ![0] bcast_S800000_S800000x1_0 : (⟨S800000, .i32⟩ : BufTy).Contents (Elt F) → (⟨S800000x1, .i32⟩ : BufTy).Contents (Elt F)) v)

theorem e8 : (StableHlo.TRef.nullary main_call12.c_1 (constantI S1 32 49999#32) : HloOp τ sig (Elt F)) = StableHlo.nullary main_call12_c_1 (constantI S1 32 49999#32) :=
  nullary_congr _ _ _ _ _ (cast_free₀ _ (constantI S1 32 49999#32 : (⟨S1, .i32⟩ : BufTy).Contents (Elt F)))

theorem e9 : (StableHlo.TRef.nullary main_call12.c_2 (constantI S_ 32 0#32) : HloOp τ sig (Elt F)) = StableHlo.nullary main_call12_c_2 (constantI S_ 32 0#32) :=
  nullary_congr _ _ _ _ _ (cast_free₀ _ (constantI S_ 32 0#32 : (⟨S_, .i32⟩ : BufTy).Contents (Elt F)))

theorem e10 : (StableHlo.TRef.unary main_call12.c_2 main_call12.v6 (broadcastInDim S800000x1 ![] bcast_S_S800000x1) : HloOp τ sig (Elt F)) = StableHlo.unary main_call12_c_2 main_call12_v6 (broadcastInDim S800000x1 ![] bcast_S_S800000x1 : (⟨S_, .i32⟩ : BufTy).Contents (Elt F) → (⟨S800000x1, .i32⟩ : BufTy).Contents (Elt F)) :=
  unary_congr _ _ _ _ _ _ _ _ (fun v => cast_free₁ _ _ (broadcastInDim S800000x1 ![] bcast_S_S800000x1 : (⟨S_, .i32⟩ : BufTy).Contents (Elt F) → (⟨S800000x1, .i32⟩ : BufTy).Contents (Elt F)) v)

theorem e11 : (StableHlo.TRef.binary main_call12.v5 main_call12.v6 main_call12.v7 (cmpi .sge) : HloOp τ sig (Elt F)) = StableHlo.binary main_call12_v5 main_call12_v6 main_call12_v7 (cmpi .sge : (⟨S800000x1, .i32⟩ : BufTy).Contents (Elt F) → (⟨S800000x1, .i32⟩ : BufTy).Contents (Elt F) → (⟨S800000x1, .i1⟩ : BufTy).Contents (Elt F)) :=
  binary_congr _ _ _ _ _ _ _ _ _ _ _ (fun u v => cast_free₂ _ _ _ (cmpi .sge : (⟨S800000x1, .i32⟩ : BufTy).Contents (Elt F) → (⟨S800000x1, .i32⟩ : BufTy).Contents (Elt F) → (⟨S800000x1, .i1⟩ : BufTy).Contents (Elt F)) u v)

theorem e12 : (StableHlo.TRef.unary main_call12.c_1 main_call12.v8 (broadcastInDim S1x1 ![1] bcast_S1_S1x1_1) : HloOp τ sig (Elt F)) = StableHlo.unary main_call12_c_1 main_call12_v8 (broadcastInDim S1x1 ![1] bcast_S1_S1x1_1 : (⟨S1, .i32⟩ : BufTy).Contents (Elt F) → (⟨S1x1, .i32⟩ : BufTy).Contents (Elt F)) :=
  unary_congr _ _ _ _ _ _ _ _ (fun v => cast_free₁ _ _ (broadcastInDim S1x1 ![1] bcast_S1_S1x1_1 : (⟨S1, .i32⟩ : BufTy).Contents (Elt F) → (⟨S1x1, .i32⟩ : BufTy).Contents (Elt F)) v)

theorem e13 : (StableHlo.TRef.unary main_call12.v8 main_call12.v9 (broadcastInDim S800000x1 ![0, 1] bcast_S1x1_S800000x1_0_1) : HloOp τ sig (Elt F)) = StableHlo.unary main_call12_v8 main_call12_v9 (broadcastInDim S800000x1 ![0, 1] bcast_S1x1_S800000x1_0_1 : (⟨S1x1, .i32⟩ : BufTy).Contents (Elt F) → (⟨S800000x1, .i32⟩ : BufTy).Contents (Elt F)) :=
  unary_congr _ _ _ _ _ _ _ _ (fun v => cast_free₁ _ _ (broadcastInDim S800000x1 ![0, 1] bcast_S1x1_S800000x1_0_1 : (⟨S1x1, .i32⟩ : BufTy).Contents (Elt F) → (⟨S800000x1, .i32⟩ : BufTy).Contents (Elt F)) v)

theorem e14 : (StableHlo.TRef.binary main_call12.v5 main_call12.v9 main_call12.v10 (cmpi .sle) : HloOp τ sig (Elt F)) = StableHlo.binary main_call12_v5 main_call12_v9 main_call12_v10 (cmpi .sle : (⟨S800000x1, .i32⟩ : BufTy).Contents (Elt F) → (⟨S800000x1, .i32⟩ : BufTy).Contents (Elt F) → (⟨S800000x1, .i1⟩ : BufTy).Contents (Elt F)) :=
  binary_congr _ _ _ _ _ _ _ _ _ _ _ (fun u v => cast_free₂ _ _ _ (cmpi .sle : (⟨S800000x1, .i32⟩ : BufTy).Contents (Elt F) → (⟨S800000x1, .i32⟩ : BufTy).Contents (Elt F) → (⟨S800000x1, .i1⟩ : BufTy).Contents (Elt F)) u v)

theorem e15 : (StableHlo.TRef.binary main_call12.v7 main_call12.v10 main_call12.v11 andi : HloOp τ sig (Elt F)) = StableHlo.binary main_call12_v7 main_call12_v10 main_call12_v11 (andi : (⟨S800000x1, .i1⟩ : BufTy).Contents (Elt F) → (⟨S800000x1, .i1⟩ : BufTy).Contents (Elt F) → (⟨S800000x1, .i1⟩ : BufTy).Contents (Elt F)) :=
  binary_congr _ _ _ _ _ _ _ _ _ _ _ (fun u v => cast_free₂ _ _ _ (andi : (⟨S800000x1, .i1⟩ : BufTy).Contents (Elt F) → (⟨S800000x1, .i1⟩ : BufTy).Contents (Elt F) → (⟨S800000x1, .i1⟩ : BufTy).Contents (Elt F)) u v)

theorem e16 : (StableHlo.TRef.nullary main_call12.c_3 (constantI S_ 1 1#1) : HloOp τ sig (Elt F)) = StableHlo.nullary main_call12_c_3 (constantI S_ 1 1#1) :=
  nullary_congr _ _ _ _ _ (cast_free₀ _ (constantI S_ 1 1#1 : (⟨S_, .i1⟩ : BufTy).Contents (Elt F)))

theorem e17 : (StableHlo.TRef.binary main_call12.v11 main_call12.c_3 main_call12.v12 (fun x v => Host.reduce IntOp.andi x v reducesTo_S800000x1_S800000_d1 h_S_) : HloOp τ sig (Elt F)) = StableHlo.binary main_call12_v11 main_call12_c_3 main_call12_v12 ((fun x v => Host.reduce IntOp.andi x v reducesTo_S800000x1_S800000_d1 h_S_) : (⟨S800000x1, .i1⟩ : BufTy).Contents (Elt F) → (⟨S_, .i1⟩ : BufTy).Contents (Elt F) → (⟨S800000, .i1⟩ : BufTy).Contents (Elt F)) :=
  binary_congr _ _ _ _ _ _ _ _ _ _ _ (fun u v => cast_free₂ _ _ _ (fun x v => Host.reduce IntOp.andi x v reducesTo_S800000x1_S800000_d1 h_S_ : (⟨S800000x1, .i1⟩ : BufTy).Contents (Elt F) → (⟨S_, .i1⟩ : BufTy).Contents (Elt F) → (⟨S800000, .i1⟩ : BufTy).Contents (Elt F)) u v)

theorem e18 : (StableHlo.TRef.binary (.of main_v203 : StableHlo.TRef sig ⟨S50000x128, .f32⟩) main_call12.v5 main_call12.v13 (fun x i => Host.gather gather_S50000x128_S800000x1_S800000x128_1_0_n_n_0_1_1128 x i) : HloOp τ sig (Elt F)) = StableHlo.binary main_v203 main_call12_v5 main_call12_v13 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) :=
  binary_congr _ _ _ _ _ _ _ _ _ _ _ (fun u v => cast_free₂ _ _ _ (fun x i => Host.gather gather_S50000x128_S800000x1_S800000x128_1_0_n_n_0_1_1128 x i : (⟨S50000x128, .f32⟩ : BufTy).Contents (Elt F) → (⟨S800000x1, .i32⟩ : BufTy).Contents (Elt F) → (⟨S800000x128, .f32⟩ : BufTy).Contents (Elt F)) u v)

theorem e19 : (StableHlo.TRef.unary main_call12.v12 main_call12.v14 (broadcastInDim S800000x128 ![0] bcast_S800000_S800000x128_0) : HloOp τ sig (Elt F)) = StableHlo.unary main_call12_v12 main_call12_v14 (broadcastInDim S800000x128 ![0] bcast_S800000_S800000x128_0 : (⟨S800000, .i1⟩ : BufTy).Contents (Elt F) → (⟨S800000x128, .i1⟩ : BufTy).Contents (Elt F)) :=
  unary_congr _ _ _ _ _ _ _ _ (fun v => cast_free₁ _ _ (broadcastInDim S800000x128 ![0] bcast_S800000_S800000x128_0 : (⟨S800000, .i1⟩ : BufTy).Contents (Elt F) → (⟨S800000x128, .i1⟩ : BufTy).Contents (Elt F)) v)

theorem e20 : (StableHlo.TRef.nullary main_call12.cst (constant S_ .f32 0x7FC00000#32) : HloOp τ sig (Elt F)) = StableHlo.nullary main_call12_cst (constant S_ .f32 0x7FC00000#32) :=
  nullary_congr _ _ _ _ _ (cast_free₀ _ (constant S_ .f32 0x7FC00000#32 : (⟨S_, .f32⟩ : BufTy).Contents (Elt F)))

theorem e21 : (StableHlo.TRef.unary main_call12.cst main_call12.v15 (broadcastInDim S800000x128 ![] bcast_S_S800000x128) : HloOp τ sig (Elt F)) = StableHlo.unary main_call12_cst main_call12_v15 (broadcastInDim S800000x128 ![] bcast_S_S800000x128 : (⟨S_, .f32⟩ : BufTy).Contents (Elt F) → (⟨S800000x128, .f32⟩ : BufTy).Contents (Elt F)) :=
  unary_congr _ _ _ _ _ _ _ _ (fun v => cast_free₁ _ _ (broadcastInDim S800000x128 ![] bcast_S_S800000x128 : (⟨S_, .f32⟩ : BufTy).Contents (Elt F) → (⟨S800000x128, .f32⟩ : BufTy).Contents (Elt F)) v)

theorem e22 : (StableHlo.TRef.ternary main_call12.v14 main_call12.v13 main_call12.v15 main_call12.v16 select : HloOp τ sig (Elt F)) = StableHlo.ternary main_call12_v14 main_call12_v13 main_call12_v15 main_v204 (select : (⟨S800000x128, .i1⟩ : BufTy).Contents (Elt F) → (⟨S800000x128, .f32⟩ : BufTy).Contents (Elt F) → (⟨S800000x128, .f32⟩ : BufTy).Contents (Elt F) → (⟨S800000x128, .f32⟩ : BufTy).Contents (Elt F)) :=
  ternary_congr _ _ _ _ _ _ _ _ _ _ _ _ _ _ (fun w u v => cast_free₃ _ _ _ _ (select : (⟨S800000x128, .i1⟩ : BufTy).Contents (Elt F) → (⟨S800000x128, .f32⟩ : BufTy).Contents (Elt F) → (⟨S800000x128, .f32⟩ : BufTy).Contents (Elt F) → (⟨S800000x128, .f32⟩ : BufTy).Contents (Elt F)) w u v)

theorem e42 : (StableHlo.TRef.nullary main_call13.cst (constant S_ .f32 0x00000000#32) : HloOp τ sig (Elt F)) = StableHlo.nullary main_call13_cst (constant S_ .f32 0x00000000#32) :=
  nullary_congr _ _ _ _ _ (cast_free₀ _ (constant S_ .f32 0x00000000#32 : (⟨S_, .f32⟩ : BufTy).Contents (Elt F)))

theorem e43 : (StableHlo.TRef.unary main_call13.cst main_call13.v0 (broadcastInDim S50000x128 ![] bcast_S_S50000x128) : HloOp τ sig (Elt F)) = StableHlo.unary main_call13_cst main_call13_v0 (broadcastInDim S50000x128 ![] bcast_S_S50000x128 : (⟨S_, .f32⟩ : BufTy).Contents (Elt F) → (⟨S50000x128, .f32⟩ : BufTy).Contents (Elt F)) :=
  unary_congr _ _ _ _ _ _ _ _ (fun v => cast_free₁ _ _ (broadcastInDim S50000x128 ![] bcast_S_S50000x128 : (⟨S_, .f32⟩ : BufTy).Contents (Elt F) → (⟨S50000x128, .f32⟩ : BufTy).Contents (Elt F)) v)

theorem e44 : (StableHlo.TRef.binary (.of main_v221 : StableHlo.TRef sig ⟨S50000x128, .f32⟩) main_call13.v0 main_call13.v1 maximumf : HloOp τ sig (Elt F)) = StableHlo.binary main_v221 main_call13_v0 main_v222 (maximumf : (⟨S50000x128, .f32⟩ : BufTy).Contents (Elt F) → (⟨S50000x128, .f32⟩ : BufTy).Contents (Elt F) → (⟨S50000x128, .f32⟩ : BufTy).Contents (Elt F)) :=
  binary_congr _ _ _ _ _ _ _ _ _ _ _ (fun u v => cast_free₂ _ _ _ (maximumf : (⟨S50000x128, .f32⟩ : BufTy).Contents (Elt F) → (⟨S50000x128, .f32⟩ : BufTy).Contents (Elt F) → (⟨S50000x128, .f32⟩ : BufTy).Contents (Elt F)) u v)

theorem e77 : (StableHlo.TRef.nullary main_call14.cst (constant S_ .f32 0x00000000#32) : HloOp τ sig (Elt F)) = StableHlo.nullary main_call14_cst (constant S_ .f32 0x00000000#32) :=
  nullary_congr _ _ _ _ _ (cast_free₀ _ (constant S_ .f32 0x00000000#32 : (⟨S_, .f32⟩ : BufTy).Contents (Elt F)))

theorem e78 : (StableHlo.TRef.unary main_call14.cst main_call14.v0 (broadcastInDim S50000x128 ![] bcast_S_S50000x128) : HloOp τ sig (Elt F)) = StableHlo.unary main_call14_cst main_call14_v0 (broadcastInDim S50000x128 ![] bcast_S_S50000x128 : (⟨S_, .f32⟩ : BufTy).Contents (Elt F) → (⟨S50000x128, .f32⟩ : BufTy).Contents (Elt F)) :=
  unary_congr _ _ _ _ _ _ _ _ (fun v => cast_free₁ _ _ (broadcastInDim S50000x128 ![] bcast_S_S50000x128 : (⟨S_, .f32⟩ : BufTy).Contents (Elt F) → (⟨S50000x128, .f32⟩ : BufTy).Contents (Elt F)) v)

theorem e79 : (StableHlo.TRef.binary (.of main_v253 : StableHlo.TRef sig ⟨S50000x128, .f32⟩) main_call14.v0 main_call14.v1 maximumf : HloOp τ sig (Elt F)) = StableHlo.binary main_v253 main_call14_v0 main_v254 (maximumf : (⟨S50000x128, .f32⟩ : BufTy).Contents (Elt F) → (⟨S50000x128, .f32⟩ : BufTy).Contents (Elt F) → (⟨S50000x128, .f32⟩ : BufTy).Contents (Elt F)) :=
  binary_congr _ _ _ _ _ _ _ _ _ _ _ (fun u v => cast_free₂ _ _ _ (maximumf : (⟨S50000x128, .f32⟩ : BufTy).Contents (Elt F) → (⟨S50000x128, .f32⟩ : BufTy).Contents (Elt F) → (⟨S50000x128, .f32⟩ : BufTy).Contents (Elt F)) u v)

abbrev cT : List (HloOp τ sig (Elt F)) :=
  [ StableHlo.nullary main_call12_c (constantI S_ 32 0#32),
    StableHlo.unary main_call12_c main_call12_v0 (broadcastInDim S800000 ![] bcast_S_S800000 : (⟨S_, .i32⟩ : BufTy).Contents (Elt F) → (⟨S800000, .i32⟩ : BufTy).Contents (Elt F)),
    StableHlo.binary main_arg1 main_call12_v0 main_call12_v1 (cmpi .slt : (⟨S800000, .i32⟩ : BufTy).Contents (Elt F) → (⟨S800000, .i32⟩ : BufTy).Contents (Elt F) → (⟨S800000, .i1⟩ : BufTy).Contents (Elt F)),
    StableHlo.nullary main_call12_c_0 (constantI S_ 32 50000#32),
    StableHlo.unary main_call12_c_0 main_call12_v2 (broadcastInDim S800000 ![] bcast_S_S800000 : (⟨S_, .i32⟩ : BufTy).Contents (Elt F) → (⟨S800000, .i32⟩ : BufTy).Contents (Elt F)),
    StableHlo.binary main_arg1 main_call12_v2 main_call12_v3 (addi : (⟨S800000, .i32⟩ : BufTy).Contents (Elt F) → (⟨S800000, .i32⟩ : BufTy).Contents (Elt F) → (⟨S800000, .i32⟩ : BufTy).Contents (Elt F)),
    StableHlo.ternary main_call12_v1 main_call12_v3 main_arg1 main_call12_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_call12_v4 main_call12_v5 (broadcastInDim S800000x1 ![0] bcast_S800000_S800000x1_0 : (⟨S800000, .i32⟩ : BufTy).Contents (Elt F) → (⟨S800000x1, .i32⟩ : BufTy).Contents (Elt F)),
    StableHlo.nullary main_call12_c_1 (constantI S1 32 49999#32),
    StableHlo.nullary main_call12_c_2 (constantI S_ 32 0#32),
    StableHlo.unary main_call12_c_2 main_call12_v6 (broadcastInDim S800000x1 ![] bcast_S_S800000x1 : (⟨S_, .i32⟩ : BufTy).Contents (Elt F) → (⟨S800000x1, .i32⟩ : BufTy).Contents (Elt F)),
    StableHlo.binary main_call12_v5 main_call12_v6 main_call12_v7 (cmpi .sge : (⟨S800000x1, .i32⟩ : BufTy).Contents (Elt F) → (⟨S800000x1, .i32⟩ : BufTy).Contents (Elt F) → (⟨S800000x1, .i1⟩ : BufTy).Contents (Elt F)),
    StableHlo.unary main_call12_c_1 main_call12_v8 (broadcastInDim S1x1 ![1] bcast_S1_S1x1_1 : (⟨S1, .i32⟩ : BufTy).Contents (Elt F) → (⟨S1x1, .i32⟩ : BufTy).Contents (Elt F)),
    StableHlo.unary main_call12_v8 main_call12_v9 (broadcastInDim S800000x1 ![0, 1] bcast_S1x1_S800000x1_0_1 : (⟨S1x1, .i32⟩ : BufTy).Contents (Elt F) → (⟨S800000x1, .i32⟩ : BufTy).Contents (Elt F)),
    StableHlo.binary main_call12_v5 main_call12_v9 main_call12_v10 (cmpi .sle : (⟨S800000x1, .i32⟩ : BufTy).Contents (Elt F) → (⟨S800000x1, .i32⟩ : BufTy).Contents (Elt F) → (⟨S800000x1, .i1⟩ : BufTy).Contents (Elt F)),
    StableHlo.binary main_call12_v7 main_call12_v10 main_call12_v11 (andi : (⟨S800000x1, .i1⟩ : BufTy).Contents (Elt F) → (⟨S800000x1, .i1⟩ : BufTy).Contents (Elt F) → (⟨S800000x1, .i1⟩ : BufTy).Contents (Elt F)),
    StableHlo.nullary main_call12_c_3 (constantI S_ 1 1#1),
    StableHlo.binary main_call12_v11 main_call12_c_3 main_call12_v12 ((fun x v => Host.reduce IntOp.andi x v reducesTo_S800000x1_S800000_d1 h_S_) : (⟨S800000x1, .i1⟩ : BufTy).Contents (Elt F) → (⟨S_, .i1⟩ : BufTy).Contents (Elt F) → (⟨S800000, .i1⟩ : BufTy).Contents (Elt F)),
    StableHlo.binary main_v203 main_call12_v5 main_call12_v13 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_call12_v12 main_call12_v14 (broadcastInDim S800000x128 ![0] bcast_S800000_S800000x128_0 : (⟨S800000, .i1⟩ : BufTy).Contents (Elt F) → (⟨S800000x128, .i1⟩ : BufTy).Contents (Elt F)),
    StableHlo.nullary main_call12_cst (constant S_ .f32 0x7FC00000#32),
    StableHlo.unary main_call12_cst main_call12_v15 (broadcastInDim S800000x128 ![] bcast_S_S800000x128 : (⟨S_, .f32⟩ : BufTy).Contents (Elt F) → (⟨S800000x128, .f32⟩ : BufTy).Contents (Elt F)),
    StableHlo.ternary main_call12_v14 main_call12_v13 main_call12_v15 main_v204 (select : (⟨S800000x128, .i1⟩ : BufTy).Contents (Elt F) → (⟨S800000x128, .f32⟩ : BufTy).Contents (Elt F) → (⟨S800000x128, .f32⟩ : BufTy).Contents (Elt F) → (⟨S800000x128, .f32⟩ : BufTy).Contents (Elt F)) ]

abbrev cA : List (HloOp τ sig (Elt F)) :=
  [ StableHlo.nullary main_cst_11 (constant S_ .f32 0x00000000#32),
    StableHlo.unary main_cst_11 main_v205 (broadcastInDim S50000x128 ![] bcast_S_S50000x128 : (⟨S_, .f32⟩ : BufTy).Contents (Elt F) → (⟨S50000x128, .f32⟩ : BufTy).Contents (Elt F)),
    StableHlo.unary main_arg2 main_v206 (broadcastInDim S800000x1 ![0] bcast_S800000_S800000x1_0 : (⟨S800000, .i32⟩ : BufTy).Contents (Elt F) → (⟨S800000x1, .i32⟩ : BufTy).Contents (Elt F)),
    StableHlo.ternary main_v205 main_v206 main_v204 main_v207 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg3 main_v208 ((extractStridedSlice S1 ![4] · slices_S5_S1_4) : (⟨S5, .f32⟩ : BufTy).Contents (Elt F) → (⟨S1, .f32⟩ : BufTy).Contents (Elt F)),
    StableHlo.reshape main_v208 main_v209 rfl shapeCasts_S1_S_,
    StableHlo.nullary main_cst_12 (constant S_ .f32 0x3F800000#32),
    StableHlo.binary main_cst_12 main_v209 main_v210 (addf : (⟨S_, .f32⟩ : BufTy).Contents (Elt F) → (⟨S_, .f32⟩ : BufTy).Contents (Elt F) → (⟨S_, .f32⟩ : BufTy).Contents (Elt F)),
    StableHlo.unary main_v210 main_v211 (broadcastInDim S50000x128 ![] bcast_S_S50000x128 : (⟨S_, .f32⟩ : BufTy).Contents (Elt F) → (⟨S50000x128, .f32⟩ : BufTy).Contents (Elt F)),
    StableHlo.binary main_v211 main_v203 main_v212 (mulf : (⟨S50000x128, .f32⟩ : BufTy).Contents (Elt F) → (⟨S50000x128, .f32⟩ : BufTy).Contents (Elt F) → (⟨S50000x128, .f32⟩ : BufTy).Contents (Elt F)),
    StableHlo.binary main_v207 main_v212 main_v213 (addf : (⟨S50000x128, .f32⟩ : BufTy).Contents (Elt F) → (⟨S50000x128, .f32⟩ : BufTy).Contents (Elt F) → (⟨S50000x128, .f32⟩ : BufTy).Contents (Elt F)),
    StableHlo.unary main_arg4 main_v214 ((extractStridedSlice S1x128x128 ![4, 0, 0] · slices_S5x128x128_S1x128x128_4_0_0) : (⟨S5x128x128, .f32⟩ : BufTy).Contents (Elt F) → (⟨S1x128x128, .f32⟩ : BufTy).Contents (Elt F)),
    StableHlo.reshape main_v214 main_v215 rfl shapeCasts_S1x128x128_S128x128,
    StableHlo.binary main_v213 main_v215 main_v216 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v217 ((extractStridedSlice S1x128 ![4, 0] · slices_S5x128_S1x128_4_0) : (⟨S5x128, .f32⟩ : BufTy).Contents (Elt F) → (⟨S1x128, .f32⟩ : BufTy).Contents (Elt F)),
    StableHlo.reshape main_v217 main_v218 rfl shapeCasts_S1x128_S128,
    StableHlo.unary main_v218 main_v219 (broadcastInDim S1x128 ![1] bcast_S128_S1x128_1 : (⟨S128, .f32⟩ : BufTy).Contents (Elt F) → (⟨S1x128, .f32⟩ : BufTy).Contents (Elt F)),
    StableHlo.unary main_v219 main_v220 (broadcastInDim S50000x128 ![0, 1] bcast_S1x128_S50000x128_0_1 : (⟨S1x128, .f32⟩ : BufTy).Contents (Elt F) → (⟨S50000x128, .f32⟩ : BufTy).Contents (Elt F)),
    StableHlo.binary main_v216 main_v220 main_v221 (addf : (⟨S50000x128, .f32⟩ : BufTy).Contents (Elt F) → (⟨S50000x128, .f32⟩ : BufTy).Contents (Elt F) → (⟨S50000x128, .f32⟩ : BufTy).Contents (Elt F)),
    StableHlo.nullary main_call13_cst (constant S_ .f32 0x00000000#32),
    StableHlo.unary main_call13_cst main_call13_v0 (broadcastInDim S50000x128 ![] bcast_S_S50000x128 : (⟨S_, .f32⟩ : BufTy).Contents (Elt F) → (⟨S50000x128, .f32⟩ : BufTy).Contents (Elt F)),
    StableHlo.binary main_v221 main_call13_v0 main_v222 (maximumf : (⟨S50000x128, .f32⟩ : BufTy).Contents (Elt F) → (⟨S50000x128, .f32⟩ : BufTy).Contents (Elt F) → (⟨S50000x128, .f32⟩ : BufTy).Contents (Elt F)) ]

abbrev cB : List (HloOp τ sig (Elt F)) :=
  [ StableHlo.unary main_arg6 main_v223 ((extractStridedSlice S1x128x128 ![4, 0, 0] · slices_S5x128x128_S1x128x128_4_0_0) : (⟨S5x128x128, .f32⟩ : BufTy).Contents (Elt F) → (⟨S1x128x128, .f32⟩ : BufTy).Contents (Elt F)),
    StableHlo.reshape main_v223 main_v224 rfl shapeCasts_S1x128x128_S128x128,
    StableHlo.binary main_v222 main_v224 main_v225 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v226 ((extractStridedSlice S1x128 ![4, 0] · slices_S5x128_S1x128_4_0) : (⟨S5x128, .f32⟩ : BufTy).Contents (Elt F) → (⟨S1x128, .f32⟩ : BufTy).Contents (Elt F)),
    StableHlo.reshape main_v226 main_v227 rfl shapeCasts_S1x128_S128,
    StableHlo.unary main_v227 main_v228 (broadcastInDim S1x128 ![1] bcast_S128_S1x128_1 : (⟨S128, .f32⟩ : BufTy).Contents (Elt F) → (⟨S1x128, .f32⟩ : BufTy).Contents (Elt F)),
    StableHlo.unary main_v228 main_v229 (broadcastInDim S50000x128 ![0, 1] bcast_S1x128_S50000x128_0_1 : (⟨S1x128, .f32⟩ : BufTy).Contents (Elt F) → (⟨S50000x128, .f32⟩ : BufTy).Contents (Elt F)),
    StableHlo.binary main_v225 main_v229 main_v230 (addf : (⟨S50000x128, .f32⟩ : BufTy).Contents (Elt F) → (⟨S50000x128, .f32⟩ : BufTy).Contents (Elt F) → (⟨S50000x128, .f32⟩ : BufTy).Contents (Elt F)),
    StableHlo.unary main_arg8 main_v231 ((extractStridedSlice S1x128 ![4, 0] · slices_S5x128_S1x128_4_0) : (⟨S5x128, .f32⟩ : BufTy).Contents (Elt F) → (⟨S1x128, .f32⟩ : BufTy).Contents (Elt F)),
    StableHlo.reshape main_v231 main_v232 rfl shapeCasts_S1x128_S128,
    StableHlo.unary main_arg10 main_v233 ((extractStridedSlice S1x128 ![4, 0] · slices_S5x128_S1x128_4_0) : (⟨S5x128, .f32⟩ : BufTy).Contents (Elt F) → (⟨S1x128, .f32⟩ : BufTy).Contents (Elt F)),
    StableHlo.reshape main_v233 main_v234 rfl shapeCasts_S1x128_S128,
    StableHlo.unary main_v234 main_v235 (broadcastInDim S1x128 ![1] bcast_S128_S1x128_1 : (⟨S128, .f32⟩ : BufTy).Contents (Elt F) → (⟨S1x128, .f32⟩ : BufTy).Contents (Elt F)),
    StableHlo.unary main_v235 main_v236 (broadcastInDim S50000x128 ![0, 1] bcast_S1x128_S50000x128_0_1 : (⟨S1x128, .f32⟩ : BufTy).Contents (Elt F) → (⟨S50000x128, .f32⟩ : BufTy).Contents (Elt F)),
    StableHlo.binary main_v230 main_v236 main_v237 (subf : (⟨S50000x128, .f32⟩ : BufTy).Contents (Elt F) → (⟨S50000x128, .f32⟩ : BufTy).Contents (Elt F) → (⟨S50000x128, .f32⟩ : BufTy).Contents (Elt F)),
    StableHlo.unary main_v232 main_v238 (broadcastInDim S1x128 ![1] bcast_S128_S1x128_1 : (⟨S128, .f32⟩ : BufTy).Contents (Elt F) → (⟨S1x128, .f32⟩ : BufTy).Contents (Elt F)),
    StableHlo.unary main_v238 main_v239 (broadcastInDim S50000x128 ![0, 1] bcast_S1x128_S50000x128_0_1 : (⟨S1x128, .f32⟩ : BufTy).Contents (Elt F) → (⟨S50000x128, .f32⟩ : BufTy).Contents (Elt F)),
    StableHlo.binary main_v239 main_v237 main_v240 (mulf : (⟨S50000x128, .f32⟩ : BufTy).Contents (Elt F) → (⟨S50000x128, .f32⟩ : BufTy).Contents (Elt F) → (⟨S50000x128, .f32⟩ : BufTy).Contents (Elt F)) ]

abbrev cC : List (HloOp τ sig (Elt F)) :=
  [ StableHlo.unary main_arg11 main_v241 ((extractStridedSlice S1x128 ![4, 0] · slices_S5x128_S1x128_4_0) : (⟨S5x128, .f32⟩ : BufTy).Contents (Elt F) → (⟨S1x128, .f32⟩ : BufTy).Contents (Elt F)),
    StableHlo.reshape main_v241 main_v242 rfl shapeCasts_S1x128_S128,
    StableHlo.nullary main_cst_13 (constant S_ .f32 0x3A83126F#32),
    StableHlo.unary main_cst_13 main_v243 (broadcastInDim S128 ![] bcast_S_S128 : (⟨S_, .f32⟩ : BufTy).Contents (Elt F) → (⟨S128, .f32⟩ : BufTy).Contents (Elt F)),
    StableHlo.binary main_v242 main_v243 main_v244 (addf : (⟨S128, .f32⟩ : BufTy).Contents (Elt F) → (⟨S128, .f32⟩ : BufTy).Contents (Elt F) → (⟨S128, .f32⟩ : BufTy).Contents (Elt F)),
    StableHlo.unary main_v244 main_v245 (Host.rsqrt : (⟨S128, .f32⟩ : BufTy).Contents (Elt F) → (⟨S128, .f32⟩ : BufTy).Contents (Elt F)),
    StableHlo.unary main_v245 main_v246 (broadcastInDim S1x128 ![1] bcast_S128_S1x128_1 : (⟨S128, .f32⟩ : BufTy).Contents (Elt F) → (⟨S1x128, .f32⟩ : BufTy).Contents (Elt F)),
    StableHlo.unary main_v246 main_v247 (broadcastInDim S50000x128 ![0, 1] bcast_S1x128_S50000x128_0_1 : (⟨S1x128, .f32⟩ : BufTy).Contents (Elt F) → (⟨S50000x128, .f32⟩ : BufTy).Contents (Elt F)),
    StableHlo.binary main_v240 main_v247 main_v248 (mulf : (⟨S50000x128, .f32⟩ : BufTy).Contents (Elt F) → (⟨S50000x128, .f32⟩ : BufTy).Contents (Elt F) → (⟨S50000x128, .f32⟩ : BufTy).Contents (Elt F)),
    StableHlo.unary main_arg9 main_v249 ((extractStridedSlice S1x128 ![4, 0] · slices_S5x128_S1x128_4_0) : (⟨S5x128, .f32⟩ : BufTy).Contents (Elt F) → (⟨S1x128, .f32⟩ : BufTy).Contents (Elt F)),
    StableHlo.reshape main_v249 main_v250 rfl shapeCasts_S1x128_S128,
    StableHlo.unary main_v250 main_v251 (broadcastInDim S1x128 ![1] bcast_S128_S1x128_1 : (⟨S128, .f32⟩ : BufTy).Contents (Elt F) → (⟨S1x128, .f32⟩ : BufTy).Contents (Elt F)),
    StableHlo.unary main_v251 main_v252 (broadcastInDim S50000x128 ![0, 1] bcast_S1x128_S50000x128_0_1 : (⟨S1x128, .f32⟩ : BufTy).Contents (Elt F) → (⟨S50000x128, .f32⟩ : BufTy).Contents (Elt F)),
    StableHlo.binary main_v248 main_v252 main_v253 (addf : (⟨S50000x128, .f32⟩ : BufTy).Contents (Elt F) → (⟨S50000x128, .f32⟩ : BufTy).Contents (Elt F) → (⟨S50000x128, .f32⟩ : BufTy).Contents (Elt F)),
    StableHlo.nullary main_call14_cst (constant S_ .f32 0x00000000#32),
    StableHlo.unary main_call14_cst main_call14_v0 (broadcastInDim S50000x128 ![] bcast_S_S50000x128 : (⟨S_, .f32⟩ : BufTy).Contents (Elt F) → (⟨S50000x128, .f32⟩ : BufTy).Contents (Elt F)),
    StableHlo.binary main_v253 main_call14_v0 main_v254 (maximumf : (⟨S50000x128, .f32⟩ : BufTy).Contents (Elt F) → (⟨S50000x128, .f32⟩ : BufTy).Contents (Elt F) → (⟨S50000x128, .f32⟩ : BufTy).Contents (Elt F)) ]

set_option maxRecDepth 16384 in
theorem split : (opsL4 : List (HloOp τ sig (Elt F))) = cT ++ (cA ++ (cB ++ cC)) :=
  (congrArg₂ List.cons e0 (congrArg₂ List.cons e1 (congrArg₂ List.cons e2 (congrArg₂ List.cons e3 (congrArg₂ List.cons e4 (congrArg₂ List.cons e5 (congrArg₂ List.cons e6 (congrArg₂ List.cons e7 (congrArg₂ List.cons e8 (congrArg₂ List.cons e9 (congrArg₂ List.cons e10 (congrArg₂ List.cons e11 (congrArg₂ List.cons e12 (congrArg₂ List.cons e13 (congrArg₂ List.cons e14 (congrArg₂ List.cons e15 (congrArg₂ List.cons e16 (congrArg₂ List.cons e17 (congrArg₂ List.cons e18 (congrArg₂ List.cons e19 (congrArg₂ List.cons e20 (congrArg₂ List.cons e21 (congrArg₂ List.cons e22 (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons e42 (congrArg₂ List.cons e43 (congrArg₂ List.cons e44 (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons e77 (congrArg₂ List.cons e78 (congrArg₂ List.cons e79 rfl))))))))))))))))))))))))))))))))))))))))))))))))))))))))))))))))))))))))))))))))

theorem after_split (V : Valuation τ sig (Elt F)) :
    after opsL4 V = after cC (after cB (after cA (after cT V))) := by
  rw [split, after_append cT, after_append cA, after_append cB]

abbrev cT_W : List (Ref sig .tc) := [main_call12_c, main_call12_v0, main_call12_v1, main_call12_c_0, main_call12_v2, main_call12_v3, main_call12_v4, main_call12_v5, main_call12_c_1, main_call12_c_2, main_call12_v6, main_call12_v7, main_call12_v8, main_call12_v9, main_call12_v10, main_call12_v11, main_call12_c_3, main_call12_v12, main_call12_v13, main_call12_v14, main_call12_cst, main_call12_v15, main_v204]

set_option maxRecDepth 8192 in
theorem cT_writes : (cT : List (HloOp τ sig (Elt F))).Forall fun op =>
    op.writes ⊆ (cT_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

theorem cT_keep (W : Valuation τ sig (Elt F)) (r : Ref sig .tc) (h : r ∉ cT_W) :
    after cT W (Proc.devRef .tc r) = W (Proc.devRef .tc r) :=
  after_of_writes_sub cT W cT_writes h

abbrev cA_W : List (Ref sig .tc) := [main_cst_11, main_v205, main_v206, main_v207, main_v208, main_v209, main_cst_12, main_v210, main_v211, main_v212, main_v213, main_v214, main_v215, main_v216, main_v217, main_v218, main_v219, main_v220, main_v221, main_call13_cst, main_call13_v0, main_v222]

set_option maxRecDepth 8192 in
theorem cA_writes : (cA : List (HloOp τ sig (Elt F))).Forall fun op =>
    op.writes ⊆ (cA_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

theorem cA_keep (W : Valuation τ sig (Elt F)) (r : Ref sig .tc) (h : r ∉ cA_W) :
    after cA W (Proc.devRef .tc r) = W (Proc.devRef .tc r) :=
  after_of_writes_sub cA W cA_writes h

abbrev cB_W : List (Ref sig .tc) := [main_v223, main_v224, main_v225, main_v226, main_v227, main_v228, main_v229, main_v230, main_v231, main_v232, main_v233, main_v234, main_v235, main_v236, main_v237, main_v238, main_v239, main_v240]

set_option maxRecDepth 8192 in
theorem cB_writes : (cB : List (HloOp τ sig (Elt F))).Forall fun op =>
    op.writes ⊆ (cB_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

theorem cB_keep (W : Valuation τ sig (Elt F)) (r : Ref sig .tc) (h : r ∉ cB_W) :
    after cB W (Proc.devRef .tc r) = W (Proc.devRef .tc r) :=
  after_of_writes_sub cB W cB_writes h

abbrev cC_W : List (Ref sig .tc) := [main_v241, main_v242, main_cst_13, main_v243, main_v244, main_v245, main_v246, main_v247, main_v248, main_v249, main_v250, main_v251, main_v252, main_v253, main_call14_cst, main_call14_v0, main_v254]

set_option maxRecDepth 8192 in
theorem cC_writes : (cC : List (HloOp τ sig (Elt F))).Forall fun op =>
    op.writes ⊆ (cC_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

theorem cC_keep (W : Valuation τ sig (Elt F)) (r : Ref sig .tc) (h : r ∉ cC_W) :
    after cC W (Proc.devRef .tc r) = W (Proc.devRef .tc r) :=
  after_of_writes_sub cC W cC_writes h

attribute [local irreducible] Host.reduce Host.gather Host.scatterAdd in
set_option maxRecDepth 16384 in
set_option maxHeartbeats 4000000 in
theorem cT_read (W : Valuation τ sig (Elt F)) :
    after cT W (main_v204 : DevRef τ sig)
      = takeOut (W (main_v203 : DevRef τ sig)) (W (main_arg1 : DevRef τ sig)) := by
  after_results_simp
  rfl

attribute [local irreducible] Host.reduce Host.gather Host.scatterAdd in
set_option maxRecDepth 16384 in
set_option maxHeartbeats 4000000 in
theorem cA_read (W : Valuation τ sig (Elt F)) :
    after cA W (main_v222 : DevRef τ sig)
      = maximumf (addf (Host.dotGeneral dot_S50000x128_S128x128_S50000x128_1_0_0_1_n_n none (addf (Host.scatterAdd scatter_S50000x128_S800000x1_S800000x128_1_0_0_1 (broadcastInDim S50000x128 ![] bcast_S_S50000x128 (constant (F := F) S_ .f32 0x00000000#32)) (broadcastInDim S800000x1 ![0] bcast_S800000_S800000x1_0 (W (main_arg2 : DevRef τ sig))) (W (main_v204 : DevRef τ sig))) (mulf (broadcastInDim S50000x128 ![] bcast_S_S50000x128 (addf (constant (F := F) S_ .f32 0x3F800000#32) (shapeCast S_ (extractStridedSlice S1 ![4] (W (main_arg3 : DevRef τ sig)) slices_S5_S1_4) shapeCasts_S1_S_))) (W (main_v203 : DevRef τ sig)))) (shapeCast S128x128 (extractStridedSlice S1x128x128 ![4, 0, 0] (W (main_arg4 : DevRef τ sig)) slices_S5x128x128_S1x128x128_4_0_0) shapeCasts_S1x128x128_S128x128)) (broadcastInDim S50000x128 ![0, 1] bcast_S1x128_S50000x128_0_1 (broadcastInDim S1x128 ![1] bcast_S128_S1x128_1 (shapeCast S128 (extractStridedSlice S1x128 ![4, 0] (W (main_arg5 : DevRef τ sig)) slices_S5x128_S1x128_4_0) shapeCasts_S1x128_S128)))) (broadcastInDim S50000x128 ![] bcast_S_S50000x128 (constant (F := F) S_ .f32 0x00000000#32)) := by
  after_results_simp
  rfl

attribute [local irreducible] Host.reduce Host.gather Host.scatterAdd in
set_option maxRecDepth 16384 in
set_option maxHeartbeats 4000000 in
theorem cB_read (W : Valuation τ sig (Elt F)) :
    after cB W (main_v240 : DevRef τ sig)
      = mulf (broadcastInDim S50000x128 ![0, 1] bcast_S1x128_S50000x128_0_1 (broadcastInDim S1x128 ![1] bcast_S128_S1x128_1 (shapeCast S128 (extractStridedSlice S1x128 ![4, 0] (W (main_arg8 : DevRef τ sig)) slices_S5x128_S1x128_4_0) shapeCasts_S1x128_S128))) (subf (addf (Host.dotGeneral dot_S50000x128_S128x128_S50000x128_1_0_0_1_n_n none (W (main_v222 : DevRef τ sig)) (shapeCast S128x128 (extractStridedSlice S1x128x128 ![4, 0, 0] (W (main_arg6 : DevRef τ sig)) slices_S5x128x128_S1x128x128_4_0_0) shapeCasts_S1x128x128_S128x128)) (broadcastInDim S50000x128 ![0, 1] bcast_S1x128_S50000x128_0_1 (broadcastInDim S1x128 ![1] bcast_S128_S1x128_1 (shapeCast S128 (extractStridedSlice S1x128 ![4, 0] (W (main_arg7 : DevRef τ sig)) slices_S5x128_S1x128_4_0) shapeCasts_S1x128_S128)))) (broadcastInDim S50000x128 ![0, 1] bcast_S1x128_S50000x128_0_1 (broadcastInDim S1x128 ![1] bcast_S128_S1x128_1 (shapeCast S128 (extractStridedSlice S1x128 ![4, 0] (W (main_arg10 : DevRef τ sig)) slices_S5x128_S1x128_4_0) shapeCasts_S1x128_S128)))) := by
  after_results_simp
  rfl

attribute [local irreducible] Host.reduce Host.gather Host.scatterAdd in
set_option maxRecDepth 16384 in
set_option maxHeartbeats 4000000 in
theorem cC_read (W : Valuation τ sig (Elt F)) :
    after cC W (main_v254 : DevRef τ sig)
      = maximumf (addf (mulf (W (main_v240 : DevRef τ sig)) (broadcastInDim S50000x128 ![0, 1] bcast_S1x128_S50000x128_0_1 (broadcastInDim S1x128 ![1] bcast_S128_S1x128_1 (Host.rsqrt (addf (shapeCast S128 (extractStridedSlice S1x128 ![4, 0] (W (main_arg11 : DevRef τ sig)) slices_S5x128_S1x128_4_0) shapeCasts_S1x128_S128) (broadcastInDim S128 ![] bcast_S_S128 (constant (F := F) S_ .f32 0x3A83126F#32))))))) (broadcastInDim S50000x128 ![0, 1] bcast_S1x128_S50000x128_0_1 (broadcastInDim S1x128 ![1] bcast_S128_S1x128_1 (shapeCast S128 (extractStridedSlice S1x128 ![4, 0] (W (main_arg9 : DevRef τ sig)) slices_S5x128_S1x128_4_0) shapeCasts_S1x128_S128)))) (broadcastInDim S50000x128 ![] bcast_S_S50000x128 (constant (F := F) S_ .f32 0x00000000#32)) := by
  after_results_simp
  rfl

end L4

open L4 in
set_option maxRecDepth 16384 in
/-- Layer 4's result buffer after its operations, from any contents. -/
theorem read_L4 (V : Valuation τ sig (Elt F)) :
    after opsL4 V (main_v254 : DevRef τ sig)
      = layerOut ![4] slices_S5_S1_4 ![4, 0, 0] slices_S5x128x128_S1x128x128_4_0_0 ![4, 0] slices_S5x128_S1x128_4_0 (V (main_v203 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [after_split, cC_read,
    cB_keep _ main_arg11 (by decide),
    cA_keep _ main_arg11 (by decide),
    cT_keep _ main_arg11 (by decide),
    cB_read,
    cB_keep _ main_arg9 (by decide),
    cA_keep _ main_arg9 (by decide),
    cT_keep _ main_arg9 (by decide),
    cA_keep _ main_arg6 (by decide),
    cT_keep _ main_arg6 (by decide),
    cA_read,
    cA_keep _ main_arg7 (by decide),
    cT_keep _ main_arg7 (by decide),
    cA_keep _ main_arg8 (by decide),
    cT_keep _ main_arg8 (by decide),
    cA_keep _ main_arg10 (by decide),
    cT_keep _ main_arg10 (by decide),
    cT_keep _ main_arg2 (by decide),
    cT_read,
    cT_keep _ main_arg3 (by decide),
    cT_keep _ main_v203 (by decide),
    cT_keep _ main_arg4 (by decide),
    cT_keep _ main_arg5 (by decide)]
  rfl

end Cert.ReferenceIdeal.HandRun

end
-- ==== Proof.RefReads.lean ====
import proofs.«177667_j37366215475921_1_alg».proof.Proof.Gen.ReferenceIdeal
import Idealize.ShloMosaic.Lib.StableHlo.Run
import proofs.«177667_j37366215475921_1_alg».proof.Proof.RefOps
import proofs.«177667_j37366215475921_1_alg».proof.Proof.RefDefs
import proofs.«177667_j37366215475921_1_alg».proof.Proof.RefWrites
import proofs.«177667_j37366215475921_1_alg».proof.Proof.RefReadL0
import proofs.«177667_j37366215475921_1_alg».proof.Proof.RefReadL1
import proofs.«177667_j37366215475921_1_alg».proof.Proof.RefReadL2
import proofs.«177667_j37366215475921_1_alg».proof.Proof.RefReadL3
import proofs.«177667_j37366215475921_1_alg».proof.Proof.RefReadL4

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! # The run's results

The five layers' results as functions of the twelve arguments: each layer applied to the previous result. Then what
the whole line leaves in the argument buffers (their contents) and in the five result buffers (these functions of the
arguments' contents), and the same said of every execution of the program. -/

/-- The result of layer 0 from the program's twelve arguments. -/
def R1 (a0 : (⟨S50000x128, .f32⟩ : BufTy).Contents (Elt F)) (a1 : (⟨S800000, .i32⟩ : BufTy).Contents (Elt F)) (a2 : (⟨S800000, .i32⟩ : BufTy).Contents (Elt F)) (a3 : (⟨S5, .f32⟩ : BufTy).Contents (Elt F)) (a4 : (⟨S5x128x128, .f32⟩ : BufTy).Contents (Elt F)) (a5 : (⟨S5x128, .f32⟩ : BufTy).Contents (Elt F)) (a6 : (⟨S5x128x128, .f32⟩ : BufTy).Contents (Elt F)) (a7 : (⟨S5x128, .f32⟩ : BufTy).Contents (Elt F)) (a8 : (⟨S5x128, .f32⟩ : BufTy).Contents (Elt F)) (a9 : (⟨S5x128, .f32⟩ : BufTy).Contents (Elt F)) (a10 : (⟨S5x128, .f32⟩ : BufTy).Contents (Elt F)) (a11 : (⟨S5x128, .f32⟩ : BufTy).Contents (Elt F)) : (⟨S50000x128, .f32⟩ : BufTy).Contents (Elt F) :=
  layerOut ![0] slices_S5_S1_0 ![0, 0, 0] slices_S5x128x128_S1x128x128_0_0_0 ![0, 0] slices_S5x128_S1x128_0_0 a0 a1 a2 a3 a4 a5 a6 a7 a8 a9 a10 a11

/-- The result of layer 1 from the program's twelve arguments. -/
def R2 (a0 : (⟨S50000x128, .f32⟩ : BufTy).Contents (Elt F)) (a1 : (⟨S800000, .i32⟩ : BufTy).Contents (Elt F)) (a2 : (⟨S800000, .i32⟩ : BufTy).Contents (Elt F)) (a3 : (⟨S5, .f32⟩ : BufTy).Contents (Elt F)) (a4 : (⟨S5x128x128, .f32⟩ : BufTy).Contents (Elt F)) (a5 : (⟨S5x128, .f32⟩ : BufTy).Contents (Elt F)) (a6 : (⟨S5x128x128, .f32⟩ : BufTy).Contents (Elt F)) (a7 : (⟨S5x128, .f32⟩ : BufTy).Contents (Elt F)) (a8 : (⟨S5x128, .f32⟩ : BufTy).Contents (Elt F)) (a9 : (⟨S5x128, .f32⟩ : BufTy).Contents (Elt F)) (a10 : (⟨S5x128, .f32⟩ : BufTy).Contents (Elt F)) (a11 : (⟨S5x128, .f32⟩ : BufTy).Contents (Elt F)) : (⟨S50000x128, .f32⟩ : BufTy).Contents (Elt F) :=
  layerOut ![1] slices_S5_S1_1 ![1, 0, 0] slices_S5x128x128_S1x128x128_1_0_0 ![1, 0] slices_S5x128_S1x128_1_0 (R1 a0 a1 a2 a3 a4 a5 a6 a7 a8 a9 a10 a11) a1 a2 a3 a4 a5 a6 a7 a8 a9 a10 a11

/-- The result of layer 2 from the program's twelve arguments. -/
def R3 (a0 : (⟨S50000x128, .f32⟩ : BufTy).Contents (Elt F)) (a1 : (⟨S800000, .i32⟩ : BufTy).Contents (Elt F)) (a2 : (⟨S800000, .i32⟩ : BufTy).Contents (Elt F)) (a3 : (⟨S5, .f32⟩ : BufTy).Contents (Elt F)) (a4 : (⟨S5x128x128, .f32⟩ : BufTy).Contents (Elt F)) (a5 : (⟨S5x128, .f32⟩ : BufTy).Contents (Elt F)) (a6 : (⟨S5x128x128, .f32⟩ : BufTy).Contents (Elt F)) (a7 : (⟨S5x128, .f32⟩ : BufTy).Contents (Elt F)) (a8 : (⟨S5x128, .f32⟩ : BufTy).Contents (Elt F)) (a9 : (⟨S5x128, .f32⟩ : BufTy).Contents (Elt F)) (a10 : (⟨S5x128, .f32⟩ : BufTy).Contents (Elt F)) (a11 : (⟨S5x128, .f32⟩ : BufTy).Contents (Elt F)) : (⟨S50000x128, .f32⟩ : BufTy).Contents (Elt F) :=
  layerOut ![2] slices_S5_S1_2 ![2, 0, 0] slices_S5x128x128_S1x128x128_2_0_0 ![2, 0] slices_S5x128_S1x128_2_0 (R2 a0 a1 a2 a3 a4 a5 a6 a7 a8 a9 a10 a11) a1 a2 a3 a4 a5 a6 a7 a8 a9 a10 a11

/-- The result of layer 3 from the program's twelve arguments. -/
def R4 (a0 : (⟨S50000x128, .f32⟩ : BufTy).Contents (Elt F)) (a1 : (⟨S800000, .i32⟩ : BufTy).Contents (Elt F)) (a2 : (⟨S800000, .i32⟩ : BufTy).Contents (Elt F)) (a3 : (⟨S5, .f32⟩ : BufTy).Contents (Elt F)) (a4 : (⟨S5x128x128, .f32⟩ : BufTy).Contents (Elt F)) (a5 : (⟨S5x128, .f32⟩ : BufTy).Contents (Elt F)) (a6 : (⟨S5x128x128, .f32⟩ : BufTy).Contents (Elt F)) (a7 : (⟨S5x128, .f32⟩ : BufTy).Contents (Elt F)) (a8 : (⟨S5x128, .f32⟩ : BufTy).Contents (Elt F)) (a9 : (⟨S5x128, .f32⟩ : BufTy).Contents (Elt F)) (a10 : (⟨S5x128, .f32⟩ : BufTy).Contents (Elt F)) (a11 : (⟨S5x128, .f32⟩ : BufTy).Contents (Elt F)) : (⟨S50000x128, .f32⟩ : BufTy).Contents (Elt F) :=
  layerOut ![3] slices_S5_S1_3 ![3, 0, 0] slices_S5x128x128_S1x128x128_3_0_0 ![3, 0] slices_S5x128_S1x128_3_0 (R3 a0 a1 a2 a3 a4 a5 a6 a7 a8 a9 a10 a11) a1 a2 a3 a4 a5 a6 a7 a8 a9 a10 a11

/-- The result of layer 4 from the program's twelve arguments. -/
def R5 (a0 : (⟨S50000x128, .f32⟩ : BufTy).Contents (Elt F)) (a1 : (⟨S800000, .i32⟩ : BufTy).Contents (Elt F)) (a2 : (⟨S800000, .i32⟩ : BufTy).Contents (Elt F)) (a3 : (⟨S5, .f32⟩ : BufTy).Contents (Elt F)) (a4 : (⟨S5x128x128, .f32⟩ : BufTy).Contents (Elt F)) (a5 : (⟨S5x128, .f32⟩ : BufTy).Contents (Elt F)) (a6 : (⟨S5x128x128, .f32⟩ : BufTy).Contents (Elt F)) (a7 : (⟨S5x128, .f32⟩ : BufTy).Contents (Elt F)) (a8 : (⟨S5x128, .f32⟩ : BufTy).Contents (Elt F)) (a9 : (⟨S5x128, .f32⟩ : BufTy).Contents (Elt F)) (a10 : (⟨S5x128, .f32⟩ : BufTy).Contents (Elt F)) (a11 : (⟨S5x128, .f32⟩ : BufTy).Contents (Elt F)) : (⟨S50000x128, .f32⟩ : BufTy).Contents (Elt F) :=
  layerOut ![4] slices_S5_S1_4 ![4, 0, 0] slices_S5x128x128_S1x128x128_4_0_0 ![4, 0] slices_S5x128_S1x128_4_0 (R4 a0 a1 a2 a3 a4 a5 a6 a7 a8 a9 a10 a11) a1 a2 a3 a4 a5 a6 a7 a8 a9 a10 a11

theorem after_ops (V : Valuation τ sig (Elt F)) :
    after ops V = after opsL4 (after opsL3 (after opsL2 (after opsL1 (after opsL0 V)))) :=
  (after_append _ opsL4 V).trans (congrArg (after opsL4) ((after_append _ opsL3 V).trans (congrArg (after opsL3)
    ((after_append _ opsL2 V).trans (congrArg (after opsL2) (after_append opsL0 opsL1 V))))))

/-- The arguments' buffers are untouched by the first 1 layer. -/
theorem args_1 (V : Valuation τ sig (Elt F)) :
    (after opsL0 V) (main_arg0 : DevRef τ sig) = V (main_arg0 : DevRef τ sig)
    ∧ (after opsL0 V) (main_arg1 : DevRef τ sig) = V (main_arg1 : DevRef τ sig)
    ∧ (after opsL0 V) (main_arg2 : DevRef τ sig) = V (main_arg2 : DevRef τ sig)
    ∧ (after opsL0 V) (main_arg3 : DevRef τ sig) = V (main_arg3 : DevRef τ sig)
    ∧ (after opsL0 V) (main_arg4 : DevRef τ sig) = V (main_arg4 : DevRef τ sig)
    ∧ (after opsL0 V) (main_arg5 : DevRef τ sig) = V (main_arg5 : DevRef τ sig)
    ∧ (after opsL0 V) (main_arg6 : DevRef τ sig) = V (main_arg6 : DevRef τ sig)
    ∧ (after opsL0 V) (main_arg7 : DevRef τ sig) = V (main_arg7 : DevRef τ sig)
    ∧ (after opsL0 V) (main_arg8 : DevRef τ sig) = V (main_arg8 : DevRef τ sig)
    ∧ (after opsL0 V) (main_arg9 : DevRef τ sig) = V (main_arg9 : DevRef τ sig)
    ∧ (after opsL0 V) (main_arg10 : DevRef τ sig) = V (main_arg10 : DevRef τ sig)
    ∧ (after opsL0 V) (main_arg11 : DevRef τ sig) = V (main_arg11 : DevRef τ sig) :=
  ⟨keep_L0 V main_arg0 (by decide),
    keep_L0 V main_arg1 (by decide),
    keep_L0 V main_arg2 (by decide),
    keep_L0 V main_arg3 (by decide),
    keep_L0 V main_arg4 (by decide),
    keep_L0 V main_arg5 (by decide),
    keep_L0 V main_arg6 (by decide),
    keep_L0 V main_arg7 (by decide),
    keep_L0 V main_arg8 (by decide),
    keep_L0 V main_arg9 (by decide),
    keep_L0 V main_arg10 (by decide),
    keep_L0 V main_arg11 (by decide)⟩

/-- The arguments' buffers are untouched by the first 2 layers. -/
theorem args_2 (V : Valuation τ sig (Elt F)) :
    (after opsL1 (after opsL0 V)) (main_arg0 : DevRef τ sig) = V (main_arg0 : DevRef τ sig)
    ∧ (after opsL1 (after opsL0 V)) (main_arg1 : DevRef τ sig) = V (main_arg1 : DevRef τ sig)
    ∧ (after opsL1 (after opsL0 V)) (main_arg2 : DevRef τ sig) = V (main_arg2 : DevRef τ sig)
    ∧ (after opsL1 (after opsL0 V)) (main_arg3 : DevRef τ sig) = V (main_arg3 : DevRef τ sig)
    ∧ (after opsL1 (after opsL0 V)) (main_arg4 : DevRef τ sig) = V (main_arg4 : DevRef τ sig)
    ∧ (after opsL1 (after opsL0 V)) (main_arg5 : DevRef τ sig) = V (main_arg5 : DevRef τ sig)
    ∧ (after opsL1 (after opsL0 V)) (main_arg6 : DevRef τ sig) = V (main_arg6 : DevRef τ sig)
    ∧ (after opsL1 (after opsL0 V)) (main_arg7 : DevRef τ sig) = V (main_arg7 : DevRef τ sig)
    ∧ (after opsL1 (after opsL0 V)) (main_arg8 : DevRef τ sig) = V (main_arg8 : DevRef τ sig)
    ∧ (after opsL1 (after opsL0 V)) (main_arg9 : DevRef τ sig) = V (main_arg9 : DevRef τ sig)
    ∧ (after opsL1 (after opsL0 V)) (main_arg10 : DevRef τ sig) = V (main_arg10 : DevRef τ sig)
    ∧ (after opsL1 (after opsL0 V)) (main_arg11 : DevRef τ sig) = V (main_arg11 : DevRef τ sig) :=
  ⟨(keep_L1 _ main_arg0 (by decide)).trans (args_1 V).1,
    (keep_L1 _ main_arg1 (by decide)).trans (args_1 V).2.1,
    (keep_L1 _ main_arg2 (by decide)).trans (args_1 V).2.2.1,
    (keep_L1 _ main_arg3 (by decide)).trans (args_1 V).2.2.2.1,
    (keep_L1 _ main_arg4 (by decide)).trans (args_1 V).2.2.2.2.1,
    (keep_L1 _ main_arg5 (by decide)).trans (args_1 V).2.2.2.2.2.1,
    (keep_L1 _ main_arg6 (by decide)).trans (args_1 V).2.2.2.2.2.2.1,
    (keep_L1 _ main_arg7 (by decide)).trans (args_1 V).2.2.2.2.2.2.2.1,
    (keep_L1 _ main_arg8 (by decide)).trans (args_1 V).2.2.2.2.2.2.2.2.1,
    (keep_L1 _ main_arg9 (by decide)).trans (args_1 V).2.2.2.2.2.2.2.2.2.1,
    (keep_L1 _ main_arg10 (by decide)).trans (args_1 V).2.2.2.2.2.2.2.2.2.2.1,
    (keep_L1 _ main_arg11 (by decide)).trans (args_1 V).2.2.2.2.2.2.2.2.2.2.2⟩

/-- The arguments' buffers are untouched by the first 3 layers. -/
theorem args_3 (V : Valuation τ sig (Elt F)) :
    (after opsL2 (after opsL1 (after opsL0 V))) (main_arg0 : DevRef τ sig) = V (main_arg0 : DevRef τ sig)
    ∧ (after opsL2 (after opsL1 (after opsL0 V))) (main_arg1 : DevRef τ sig) = V (main_arg1 : DevRef τ sig)
    ∧ (after opsL2 (after opsL1 (after opsL0 V))) (main_arg2 : DevRef τ sig) = V (main_arg2 : DevRef τ sig)
    ∧ (after opsL2 (after opsL1 (after opsL0 V))) (main_arg3 : DevRef τ sig) = V (main_arg3 : DevRef τ sig)
    ∧ (after opsL2 (after opsL1 (after opsL0 V))) (main_arg4 : DevRef τ sig) = V (main_arg4 : DevRef τ sig)
    ∧ (after opsL2 (after opsL1 (after opsL0 V))) (main_arg5 : DevRef τ sig) = V (main_arg5 : DevRef τ sig)
    ∧ (after opsL2 (after opsL1 (after opsL0 V))) (main_arg6 : DevRef τ sig) = V (main_arg6 : DevRef τ sig)
    ∧ (after opsL2 (after opsL1 (after opsL0 V))) (main_arg7 : DevRef τ sig) = V (main_arg7 : DevRef τ sig)
    ∧ (after opsL2 (after opsL1 (after opsL0 V))) (main_arg8 : DevRef τ sig) = V (main_arg8 : DevRef τ sig)
    ∧ (after opsL2 (after opsL1 (after opsL0 V))) (main_arg9 : DevRef τ sig) = V (main_arg9 : DevRef τ sig)
    ∧ (after opsL2 (after opsL1 (after opsL0 V))) (main_arg10 : DevRef τ sig) = V (main_arg10 : DevRef τ sig)
    ∧ (after opsL2 (after opsL1 (after opsL0 V))) (main_arg11 : DevRef τ sig) = V (main_arg11 : DevRef τ sig) :=
  ⟨(keep_L2 _ main_arg0 (by decide)).trans (args_2 V).1,
    (keep_L2 _ main_arg1 (by decide)).trans (args_2 V).2.1,
    (keep_L2 _ main_arg2 (by decide)).trans (args_2 V).2.2.1,
    (keep_L2 _ main_arg3 (by decide)).trans (args_2 V).2.2.2.1,
    (keep_L2 _ main_arg4 (by decide)).trans (args_2 V).2.2.2.2.1,
    (keep_L2 _ main_arg5 (by decide)).trans (args_2 V).2.2.2.2.2.1,
    (keep_L2 _ main_arg6 (by decide)).trans (args_2 V).2.2.2.2.2.2.1,
    (keep_L2 _ main_arg7 (by decide)).trans (args_2 V).2.2.2.2.2.2.2.1,
    (keep_L2 _ main_arg8 (by decide)).trans (args_2 V).2.2.2.2.2.2.2.2.1,
    (keep_L2 _ main_arg9 (by decide)).trans (args_2 V).2.2.2.2.2.2.2.2.2.1,
    (keep_L2 _ main_arg10 (by decide)).trans (args_2 V).2.2.2.2.2.2.2.2.2.2.1,
    (keep_L2 _ main_arg11 (by decide)).trans (args_2 V).2.2.2.2.2.2.2.2.2.2.2⟩

/-- The arguments' buffers are untouched by the first 4 layers. -/
theorem args_4 (V : Valuation τ sig (Elt F)) :
    (after opsL3 (after opsL2 (after opsL1 (after opsL0 V)))) (main_arg0 : DevRef τ sig) = V (main_arg0 : DevRef τ sig)
    ∧ (after opsL3 (after opsL2 (after opsL1 (after opsL0 V)))) (main_arg1 : DevRef τ sig) = V (main_arg1 : DevRef τ sig)
    ∧ (after opsL3 (after opsL2 (after opsL1 (after opsL0 V)))) (main_arg2 : DevRef τ sig) = V (main_arg2 : DevRef τ sig)
    ∧ (after opsL3 (after opsL2 (after opsL1 (after opsL0 V)))) (main_arg3 : DevRef τ sig) = V (main_arg3 : DevRef τ sig)
    ∧ (after opsL3 (after opsL2 (after opsL1 (after opsL0 V)))) (main_arg4 : DevRef τ sig) = V (main_arg4 : DevRef τ sig)
    ∧ (after opsL3 (after opsL2 (after opsL1 (after opsL0 V)))) (main_arg5 : DevRef τ sig) = V (main_arg5 : DevRef τ sig)
    ∧ (after opsL3 (after opsL2 (after opsL1 (after opsL0 V)))) (main_arg6 : DevRef τ sig) = V (main_arg6 : DevRef τ sig)
    ∧ (after opsL3 (after opsL2 (after opsL1 (after opsL0 V)))) (main_arg7 : DevRef τ sig) = V (main_arg7 : DevRef τ sig)
    ∧ (after opsL3 (after opsL2 (after opsL1 (after opsL0 V)))) (main_arg8 : DevRef τ sig) = V (main_arg8 : DevRef τ sig)
    ∧ (after opsL3 (after opsL2 (after opsL1 (after opsL0 V)))) (main_arg9 : DevRef τ sig) = V (main_arg9 : DevRef τ sig)
    ∧ (after opsL3 (after opsL2 (after opsL1 (after opsL0 V)))) (main_arg10 : DevRef τ sig) = V (main_arg10 : DevRef τ sig)
    ∧ (after opsL3 (after opsL2 (after opsL1 (after opsL0 V)))) (main_arg11 : DevRef τ sig) = V (main_arg11 : DevRef τ sig) :=
  ⟨(keep_L3 _ main_arg0 (by decide)).trans (args_3 V).1,
    (keep_L3 _ main_arg1 (by decide)).trans (args_3 V).2.1,
    (keep_L3 _ main_arg2 (by decide)).trans (args_3 V).2.2.1,
    (keep_L3 _ main_arg3 (by decide)).trans (args_3 V).2.2.2.1,
    (keep_L3 _ main_arg4 (by decide)).trans (args_3 V).2.2.2.2.1,
    (keep_L3 _ main_arg5 (by decide)).trans (args_3 V).2.2.2.2.2.1,
    (keep_L3 _ main_arg6 (by decide)).trans (args_3 V).2.2.2.2.2.2.1,
    (keep_L3 _ main_arg7 (by decide)).trans (args_3 V).2.2.2.2.2.2.2.1,
    (keep_L3 _ main_arg8 (by decide)).trans (args_3 V).2.2.2.2.2.2.2.2.1,
    (keep_L3 _ main_arg9 (by decide)).trans (args_3 V).2.2.2.2.2.2.2.2.2.1,
    (keep_L3 _ main_arg10 (by decide)).trans (args_3 V).2.2.2.2.2.2.2.2.2.2.1,
    (keep_L3 _ main_arg11 (by decide)).trans (args_3 V).2.2.2.2.2.2.2.2.2.2.2⟩

/-- The arguments' buffers are untouched by the first 5 layers. -/
theorem args_5 (V : Valuation τ sig (Elt F)) :
    (after opsL4 (after opsL3 (after opsL2 (after opsL1 (after opsL0 V))))) (main_arg0 : DevRef τ sig) = V (main_arg0 : DevRef τ sig)
    ∧ (after opsL4 (after opsL3 (after opsL2 (after opsL1 (after opsL0 V))))) (main_arg1 : DevRef τ sig) = V (main_arg1 : DevRef τ sig)
    ∧ (after opsL4 (after opsL3 (after opsL2 (after opsL1 (after opsL0 V))))) (main_arg2 : DevRef τ sig) = V (main_arg2 : DevRef τ sig)
    ∧ (after opsL4 (after opsL3 (after opsL2 (after opsL1 (after opsL0 V))))) (main_arg3 : DevRef τ sig) = V (main_arg3 : DevRef τ sig)
    ∧ (after opsL4 (after opsL3 (after opsL2 (after opsL1 (after opsL0 V))))) (main_arg4 : DevRef τ sig) = V (main_arg4 : DevRef τ sig)
    ∧ (after opsL4 (after opsL3 (after opsL2 (after opsL1 (after opsL0 V))))) (main_arg5 : DevRef τ sig) = V (main_arg5 : DevRef τ sig)
    ∧ (after opsL4 (after opsL3 (after opsL2 (after opsL1 (after opsL0 V))))) (main_arg6 : DevRef τ sig) = V (main_arg6 : DevRef τ sig)
    ∧ (after opsL4 (after opsL3 (after opsL2 (after opsL1 (after opsL0 V))))) (main_arg7 : DevRef τ sig) = V (main_arg7 : DevRef τ sig)
    ∧ (after opsL4 (after opsL3 (after opsL2 (after opsL1 (after opsL0 V))))) (main_arg8 : DevRef τ sig) = V (main_arg8 : DevRef τ sig)
    ∧ (after opsL4 (after opsL3 (after opsL2 (after opsL1 (after opsL0 V))))) (main_arg9 : DevRef τ sig) = V (main_arg9 : DevRef τ sig)
    ∧ (after opsL4 (after opsL3 (after opsL2 (after opsL1 (after opsL0 V))))) (main_arg10 : DevRef τ sig) = V (main_arg10 : DevRef τ sig)
    ∧ (after opsL4 (after opsL3 (after opsL2 (after opsL1 (after opsL0 V))))) (main_arg11 : DevRef τ sig) = V (main_arg11 : DevRef τ sig) :=
  ⟨(keep_L4 _ main_arg0 (by decide)).trans (args_4 V).1,
    (keep_L4 _ main_arg1 (by decide)).trans (args_4 V).2.1,
    (keep_L4 _ main_arg2 (by decide)).trans (args_4 V).2.2.1,
    (keep_L4 _ main_arg3 (by decide)).trans (args_4 V).2.2.2.1,
    (keep_L4 _ main_arg4 (by decide)).trans (args_4 V).2.2.2.2.1,
    (keep_L4 _ main_arg5 (by decide)).trans (args_4 V).2.2.2.2.2.1,
    (keep_L4 _ main_arg6 (by decide)).trans (args_4 V).2.2.2.2.2.2.1,
    (keep_L4 _ main_arg7 (by decide)).trans (args_4 V).2.2.2.2.2.2.2.1,
    (keep_L4 _ main_arg8 (by decide)).trans (args_4 V).2.2.2.2.2.2.2.2.1,
    (keep_L4 _ main_arg9 (by decide)).trans (args_4 V).2.2.2.2.2.2.2.2.2.1,
    (keep_L4 _ main_arg10 (by decide)).trans (args_4 V).2.2.2.2.2.2.2.2.2.2.1,
    (keep_L4 _ main_arg11 (by decide)).trans (args_4 V).2.2.2.2.2.2.2.2.2.2.2⟩

/-- Layer 0's result after the first 1 layer. -/
theorem res_0 (V : Valuation τ sig (Elt F)) :
    (after opsL0 V) (main_v50 : DevRef τ sig) = R1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [read_L0]
  rfl

/-- Layer 1's result after the first 2 layers. -/
theorem res_1 (V : Valuation τ sig (Elt F)) :
    (after opsL1 (after opsL0 V)) (main_v101 : DevRef τ sig) = R2 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [read_L1, res_0 V, (args_1 V).2.1, (args_1 V).2.2.1, (args_1 V).2.2.2.1, (args_1 V).2.2.2.2.1, (args_1 V).2.2.2.2.2.1, (args_1 V).2.2.2.2.2.2.1, (args_1 V).2.2.2.2.2.2.2.1, (args_1 V).2.2.2.2.2.2.2.2.1, (args_1 V).2.2.2.2.2.2.2.2.2.1, (args_1 V).2.2.2.2.2.2.2.2.2.2.1, (args_1 V).2.2.2.2.2.2.2.2.2.2.2]
  rfl

/-- Layer 2's result after the first 3 layers. -/
theorem res_2 (V : Valuation τ sig (Elt F)) :
    (after opsL2 (after opsL1 (after opsL0 V))) (main_v152 : DevRef τ sig) = R3 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [read_L2, res_1 V, (args_2 V).2.1, (args_2 V).2.2.1, (args_2 V).2.2.2.1, (args_2 V).2.2.2.2.1, (args_2 V).2.2.2.2.2.1, (args_2 V).2.2.2.2.2.2.1, (args_2 V).2.2.2.2.2.2.2.1, (args_2 V).2.2.2.2.2.2.2.2.1, (args_2 V).2.2.2.2.2.2.2.2.2.1, (args_2 V).2.2.2.2.2.2.2.2.2.2.1, (args_2 V).2.2.2.2.2.2.2.2.2.2.2]
  rfl

/-- Layer 3's result after the first 4 layers. -/
theorem res_3 (V : Valuation τ sig (Elt F)) :
    (after opsL3 (after opsL2 (after opsL1 (after opsL0 V)))) (main_v203 : DevRef τ sig) = R4 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [read_L3, res_2 V, (args_3 V).2.1, (args_3 V).2.2.1, (args_3 V).2.2.2.1, (args_3 V).2.2.2.2.1, (args_3 V).2.2.2.2.2.1, (args_3 V).2.2.2.2.2.2.1, (args_3 V).2.2.2.2.2.2.2.1, (args_3 V).2.2.2.2.2.2.2.2.1, (args_3 V).2.2.2.2.2.2.2.2.2.1, (args_3 V).2.2.2.2.2.2.2.2.2.2.1, (args_3 V).2.2.2.2.2.2.2.2.2.2.2]
  rfl

/-- Layer 4's result after the first 5 layers. -/
theorem res_4 (V : Valuation τ sig (Elt F)) :
    (after opsL4 (after opsL3 (after opsL2 (after opsL1 (after opsL0 V))))) (main_v254 : DevRef τ sig) = R5 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [read_L4, res_3 V, (args_4 V).2.1, (args_4 V).2.2.1, (args_4 V).2.2.2.1, (args_4 V).2.2.2.2.1, (args_4 V).2.2.2.2.2.1, (args_4 V).2.2.2.2.2.2.1, (args_4 V).2.2.2.2.2.2.2.1, (args_4 V).2.2.2.2.2.2.2.2.1, (args_4 V).2.2.2.2.2.2.2.2.2.1, (args_4 V).2.2.2.2.2.2.2.2.2.2.1, (args_4 V).2.2.2.2.2.2.2.2.2.2.2]
  rfl

/-- What the whole line leaves: the arguments, and each layer's result. -/
theorem results_eq (V : Valuation τ sig (Elt F)) :
    after ops V (main_arg0 : DevRef τ sig) = V (main_arg0 : DevRef τ sig)
    ∧ after ops V (main_v50 : DevRef τ sig) = R1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig))
    ∧ after ops V (main_v101 : DevRef τ sig) = R2 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig))
    ∧ after ops V (main_v152 : DevRef τ sig) = R3 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig))
    ∧ after ops V (main_v203 : DevRef τ sig) = R4 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig))
    ∧ after ops V (main_v254 : DevRef τ sig) = R5 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig))
    ∧ after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig)
    ∧ after ops V (main_arg6 : DevRef τ sig) = V (main_arg6 : DevRef τ sig)
    ∧ after ops V (main_arg7 : DevRef τ sig) = V (main_arg7 : DevRef τ sig)
    ∧ after ops V (main_arg8 : DevRef τ sig) = V (main_arg8 : DevRef τ sig)
    ∧ after ops V (main_arg9 : DevRef τ sig) = V (main_arg9 : DevRef τ sig)
    ∧ after ops V (main_arg10 : DevRef τ sig) = V (main_arg10 : DevRef τ sig)
    ∧ after ops V (main_arg11 : DevRef τ sig) = V (main_arg11 : DevRef τ sig) := by
  rw [after_ops]
  exact ⟨(args_5 V).1,
    ((keep_L4 _ main_v50 (by decide)).trans ((keep_L3 _ main_v50 (by decide)).trans ((keep_L2 _ main_v50 (by decide)).trans ((keep_L1 _ main_v50 (by decide)).trans (res_0 V))))),
    ((keep_L4 _ main_v101 (by decide)).trans ((keep_L3 _ main_v101 (by decide)).trans ((keep_L2 _ main_v101 (by decide)).trans (res_1 V)))),
    ((keep_L4 _ main_v152 (by decide)).trans ((keep_L3 _ main_v152 (by decide)).trans (res_2 V))),
    ((keep_L4 _ main_v203 (by decide)).trans (res_3 V)),
    res_4 V,
    args_5 V⟩

/-- On every device, for any float values, from any memory with zero counters: every weakly fair execution of the
    program terminates with each layer's result buffer at that layer's function of the arguments' launch contents,
    and the arguments unchanged. -/
theorem run_results (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_v50) = R1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v101) = R2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v152) = R3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v203) = R4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v254) = R5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => by
    have e := results_eq (launchContents m c)
    exact ⟨(h c main_arg0).trans e.1,
      (h c main_v50).trans e.2.1,
      (h c main_v101).trans e.2.2.1,
      (h c main_v152).trans e.2.2.2.1,
      (h c main_v203).trans e.2.2.2.2.1,
      (h c main_v254).trans e.2.2.2.2.2.1,
      (h c main_arg0).trans e.2.2.2.2.2.2.1,
      (h c main_arg1).trans e.2.2.2.2.2.2.2.1,
      (h c main_arg2).trans e.2.2.2.2.2.2.2.2.1,
      (h c main_arg3).trans e.2.2.2.2.2.2.2.2.2.1,
      (h c main_arg4).trans e.2.2.2.2.2.2.2.2.2.2.1,
      (h c main_arg5).trans e.2.2.2.2.2.2.2.2.2.2.2.1,
      (h c main_arg6).trans e.2.2.2.2.2.2.2.2.2.2.2.2.1,
      (h c main_arg7).trans e.2.2.2.2.2.2.2.2.2.2.2.2.2.1,
      (h c main_arg8).trans e.2.2.2.2.2.2.2.2.2.2.2.2.2.2.1,
      (h c main_arg9).trans e.2.2.2.2.2.2.2.2.2.2.2.2.2.2.2.1,
      (h c main_arg10).trans e.2.2.2.2.2.2.2.2.2.2.2.2.2.2.2.2.1,
      (h c main_arg11).trans e.2.2.2.2.2.2.2.2.2.2.2.2.2.2.2.2.2⟩)
    (run m ρ)

end Cert.ReferenceIdeal.HandRun

end
-- ==== Proof.LayerR.lean ====
/-
  The reference's layer is the chain's step. The reference spells a layer's result as one term of its host
  operations: the pooled rows plus the input scaled by one plus the layer's scalar, dot_general with the layer's
  first matrix, the bias vector broadcast into a row and down the rows, a maximum with a broadcast zero, the second
  product and bias, and the normalisation with the four vectors broadcast likewise. That is `Cert.Gin.layer` of the
  pooled rows, the input, the scalar, the two matrices and the six vectors read as rows (`Cert.Gin.host_layer`); the
  pooling is the same operations applied to the same operands as in the kernel's program, and the layer's scalar,
  matrices and vectors are the same slices and re-shapings of the stacked arguments. So the reference's layer l is
  the step the kernel program's region l is shown to compute, whatever the input.
-/
import proofs.«177667_j37366215475921_1_alg».proof.Proof.RefDefs
import proofs.«177667_j37366215475921_1_alg».proof.Proof.Steps

set_option maxRecDepth 16384

noncomputable section

namespace Cert.Proof.Bridge

open Idealize.ShloMosaic Idealize.ShloMosaic.ValueIdx Cert.KernelIdeal.Chain Cert.Gin

/-- The two programs gather the same rows. -/
theorem take_eq (x : (⟨Cert.ReferenceIdeal.S50000x128, .f32⟩ : BufTy).Contents (Elt Ideal)) (i : (⟨Cert.ReferenceIdeal.S800000, .i32⟩ : BufTy).Contents (Elt Ideal)) :
    Cert.ReferenceIdeal.HandRun.takeOut (F := Ideal) x i = Cert.KernelIdeal.ValRun.takeOut (F := Ideal) x i := rfl

/-- And add them up alike. -/
theorem pool_eq (x : (⟨Cert.ReferenceIdeal.S50000x128, .f32⟩ : BufTy).Contents (Elt Ideal)) (i d : (⟨Cert.ReferenceIdeal.S800000, .i32⟩ : BufTy).Contents (Elt Ideal)) :
    Cert.ReferenceIdeal.HandRun.poolOut (F := Ideal) x i d = Cert.KernelIdeal.ValRun.poolOut (F := Ideal) x i d := by
  unfold Cert.ReferenceIdeal.HandRun.poolOut Cert.KernelIdeal.ValRun.poolOut
  rw [take_eq]
  rfl

section
variable (x : (⟨Cert.ReferenceIdeal.S50000x128, .f32⟩ : BufTy).Contents (Elt Ideal)) (a1 a2 : (⟨Cert.ReferenceIdeal.S800000, .i32⟩ : BufTy).Contents (Elt Ideal)) (a3 : (⟨Cert.ReferenceIdeal.S5, .f32⟩ : BufTy).Contents (Elt Ideal))
  (a4 : (⟨Cert.ReferenceIdeal.S5x128x128, .f32⟩ : BufTy).Contents (Elt Ideal)) (a5 : (⟨Cert.ReferenceIdeal.S5x128, .f32⟩ : BufTy).Contents (Elt Ideal)) (a6 : (⟨Cert.ReferenceIdeal.S5x128x128, .f32⟩ : BufTy).Contents (Elt Ideal))
  (a7 a8 a9 a10 a11 : (⟨Cert.ReferenceIdeal.S5x128, .f32⟩ : BufTy).Contents (Elt Ideal))

/-- The reference's layer 0 is step 0 of the chain. -/
theorem ref_layer0 :
    Cert.ReferenceIdeal.HandRun.layerOut (F := Ideal) ![0] Cert.ReferenceIdeal.Gen.slices_S5_S1_0 ![0, 0, 0] Cert.ReferenceIdeal.Gen.slices_S5x128x128_S1x128x128_0_0_0
        ![0, 0] Cert.ReferenceIdeal.Gen.slices_S5x128_S1x128_0_0 x a1 a2 a3 a4 a5 a6 a7 a8 a9 a10 a11
      = step (scal0 a3) (mat0 a4) (vec0 a5) (mat0 a6) (vec0 a7) (vec0 a8) (vec0 a9) (vec0 a10) (vec0 a11) a1 a2 x := by
  unfold Cert.ReferenceIdeal.HandRun.layerOut
  refine (host_layer Cert.ReferenceIdeal.dot_S50000x128_S128x128_S50000x128_1_0_0_1_n_n rfl rfl rfl rfl rfl rfl _ x _ _ _ _ _ _ _ _ _ _ _ _ _).trans ?_
  unfold step scal0 mat0 vec0
  rw [pool_eq]

/-- The reference's layer 1 is step 1 of the chain. -/
theorem ref_layer1 :
    Cert.ReferenceIdeal.HandRun.layerOut (F := Ideal) ![1] Cert.ReferenceIdeal.Gen.slices_S5_S1_1 ![1, 0, 0] Cert.ReferenceIdeal.Gen.slices_S5x128x128_S1x128x128_1_0_0
        ![1, 0] Cert.ReferenceIdeal.Gen.slices_S5x128_S1x128_1_0 x a1 a2 a3 a4 a5 a6 a7 a8 a9 a10 a11
      = step (scal1 a3) (mat1 a4) (vec1 a5) (mat1 a6) (vec1 a7) (vec1 a8) (vec1 a9) (vec1 a10) (vec1 a11) a1 a2 x := by
  unfold Cert.ReferenceIdeal.HandRun.layerOut
  refine (host_layer Cert.ReferenceIdeal.dot_S50000x128_S128x128_S50000x128_1_0_0_1_n_n rfl rfl rfl rfl rfl rfl _ x _ _ _ _ _ _ _ _ _ _ _ _ _).trans ?_
  unfold step scal1 mat1 vec1
  rw [pool_eq]

/-- The reference's layer 2 is step 2 of the chain. -/
theorem ref_layer2 :
    Cert.ReferenceIdeal.HandRun.layerOut (F := Ideal) ![2] Cert.ReferenceIdeal.Gen.slices_S5_S1_2 ![2, 0, 0] Cert.ReferenceIdeal.Gen.slices_S5x128x128_S1x128x128_2_0_0
        ![2, 0] Cert.ReferenceIdeal.Gen.slices_S5x128_S1x128_2_0 x a1 a2 a3 a4 a5 a6 a7 a8 a9 a10 a11
      = step (scal2 a3) (mat2 a4) (vec2 a5) (mat2 a6) (vec2 a7) (vec2 a8) (vec2 a9) (vec2 a10) (vec2 a11) a1 a2 x := by
  unfold Cert.ReferenceIdeal.HandRun.layerOut
  refine (host_layer Cert.ReferenceIdeal.dot_S50000x128_S128x128_S50000x128_1_0_0_1_n_n rfl rfl rfl rfl rfl rfl _ x _ _ _ _ _ _ _ _ _ _ _ _ _).trans ?_
  unfold step scal2 mat2 vec2
  rw [pool_eq]

/-- The reference's layer 3 is step 3 of the chain. -/
theorem ref_layer3 :
    Cert.ReferenceIdeal.HandRun.layerOut (F := Ideal) ![3] Cert.ReferenceIdeal.Gen.slices_S5_S1_3 ![3, 0, 0] Cert.ReferenceIdeal.Gen.slices_S5x128x128_S1x128x128_3_0_0
        ![3, 0] Cert.ReferenceIdeal.Gen.slices_S5x128_S1x128_3_0 x a1 a2 a3 a4 a5 a6 a7 a8 a9 a10 a11
      = step (scal3 a3) (mat3 a4) (vec3 a5) (mat3 a6) (vec3 a7) (vec3 a8) (vec3 a9) (vec3 a10) (vec3 a11) a1 a2 x := by
  unfold Cert.ReferenceIdeal.HandRun.layerOut
  refine (host_layer Cert.ReferenceIdeal.dot_S50000x128_S128x128_S50000x128_1_0_0_1_n_n rfl rfl rfl rfl rfl rfl _ x _ _ _ _ _ _ _ _ _ _ _ _ _).trans ?_
  unfold step scal3 mat3 vec3
  rw [pool_eq]

/-- The reference's layer 4 is step 4 of the chain. -/
theorem ref_layer4 :
    Cert.ReferenceIdeal.HandRun.layerOut (F := Ideal) ![4] Cert.ReferenceIdeal.Gen.slices_S5_S1_4 ![4, 0, 0] Cert.ReferenceIdeal.Gen.slices_S5x128x128_S1x128x128_4_0_0
        ![4, 0] Cert.ReferenceIdeal.Gen.slices_S5x128_S1x128_4_0 x a1 a2 a3 a4 a5 a6 a7 a8 a9 a10 a11
      = step (scal4 a3) (mat4 a4) (vec4 a5) (mat4 a6) (vec4 a7) (vec4 a8) (vec4 a9) (vec4 a10) (vec4 a11) a1 a2 x := by
  unfold Cert.ReferenceIdeal.HandRun.layerOut
  refine (host_layer Cert.ReferenceIdeal.dot_S50000x128_S128x128_S50000x128_1_0_0_1_n_n rfl rfl rfl rfl rfl rfl _ x _ _ _ _ _ _ _ _ _ _ _ _ _).trans ?_
  unfold step scal4 mat4 vec4
  rw [pool_eq]

end

end Cert.Proof.Bridge

end
-- ==== Proof.lean ====
/-
  A five-layer graph isomorphism network: the kernel program against its plain reference, on the extended reals.

  Both programs return the node features x and the features after each of five layers. A layer gathers the rows of
  the current features H at the edges' sources, adds them up by destination into zeros (the pooling: the same host
  operations, in the same order, in both programs), and then computes, entry by entry,

      max (gamma · ((max ((P + (1 + eps) · H) · W1 + b1) 0) · W2 + b2 − mean) · rsqrt (var + 0.001) + beta) 0

  with P the pooled rows. The reference does this with host operations on whole arrays; the kernel program does
  it in a pallas_call per layer over ten blocks of 5000 rows, with every small operand staged whole. On the
  extended reals a change of float format is the identity and a matrix product into zeros is the plain sum, the two
  programs apply the same operations in the same order, and a row of a layer's result depends on the same row of P
  and of H only, so each block is the block of the layer of the whole arrays and the ten blocks tile the rows
  (Region0 … Region4 over Layer). The kernel program's run with the values of its result buffers is KerRun, with
  what each region finds at entry in KerReads0 … 4; the reference's run is RefOps with its results read in RefReads;
  LayerK0 … 4 and LayerR show both are the chain `out1 … out5` of Steps. Nothing is re-associated, distributed or
  cancelled, so the precondition (finite inputs) is not used. The ideal pass rewrote nothing, so `preserves` is trivial.
-/
import proofs.«177667_j37366215475921_1_alg».proof.Defs
import proofs.«177667_j37366215475921_1_alg».proof.Proof.Gen.Kernel
import proofs.«177667_j37366215475921_1_alg».proof.Proof.Gen.Kernel.Frame
import proofs.«177667_j37366215475921_1_alg».proof.Proof.Gen.KernelIdeal
import proofs.«177667_j37366215475921_1_alg».proof.Proof.Gen.KernelIdeal.Frame
import proofs.«177667_j37366215475921_1_alg».proof.Proof.Gen.ReferenceIdeal
import proofs.«177667_j37366215475921_1_alg».proof.Proof.Gen.Pre_finite_inputs
import proofs.«177667_j37366215475921_1_alg».proof.Proof.KerRun
import proofs.«177667_j37366215475921_1_alg».proof.Proof.LayerK4
import proofs.«177667_j37366215475921_1_alg».proof.Proof.RefReads
import proofs.«177667_j37366215475921_1_alg».proof.Proof.LayerR
import Idealize.ShloMosaic.Adequacy
import Idealize.ShloMosaic.Init

set_option maxRecDepth 16384

noncomputable section

namespace Cert.Proof

open Idealize.ShloMosaic Idealize.ShloMosaic.TcCoe Idealize.SL.Sem
open Cert.KernelIdeal.Chain Cert.Proof.Bridge

/-! ## The reference's five results are the chain -/

section
variable (a0 : (⟨Cert.ReferenceIdeal.S50000x128, .f32⟩ : BufTy).Contents (Elt Ideal)) (a1 a2 : (⟨Cert.ReferenceIdeal.S800000, .i32⟩ : BufTy).Contents (Elt Ideal))
  (a3 : (⟨Cert.ReferenceIdeal.S5, .f32⟩ : BufTy).Contents (Elt Ideal)) (a4 : (⟨Cert.ReferenceIdeal.S5x128x128, .f32⟩ : BufTy).Contents (Elt Ideal))
  (a5 : (⟨Cert.ReferenceIdeal.S5x128, .f32⟩ : BufTy).Contents (Elt Ideal)) (a6 : (⟨Cert.ReferenceIdeal.S5x128x128, .f32⟩ : BufTy).Contents (Elt Ideal))
  (a7 a8 a9 a10 a11 : (⟨Cert.ReferenceIdeal.S5x128, .f32⟩ : BufTy).Contents (Elt Ideal))

theorem ref_out1 : Cert.ReferenceIdeal.HandRun.R1 (F := Ideal) a0 a1 a2 a3 a4 a5 a6 a7 a8 a9 a10 a11 = out1 a0 a1 a2 a3 a4 a5 a6 a7 a8 a9 a10 a11 := by
  unfold Cert.ReferenceIdeal.HandRun.R1 out1
  exact ref_layer0 a0 a1 a2 a3 a4 a5 a6 a7 a8 a9 a10 a11

theorem ref_out2 : Cert.ReferenceIdeal.HandRun.R2 (F := Ideal) a0 a1 a2 a3 a4 a5 a6 a7 a8 a9 a10 a11 = out2 a0 a1 a2 a3 a4 a5 a6 a7 a8 a9 a10 a11 := by
  unfold Cert.ReferenceIdeal.HandRun.R2 out2
  rw [ref_out1]
  exact ref_layer1 _ a1 a2 a3 a4 a5 a6 a7 a8 a9 a10 a11

theorem ref_out3 : Cert.ReferenceIdeal.HandRun.R3 (F := Ideal) a0 a1 a2 a3 a4 a5 a6 a7 a8 a9 a10 a11 = out3 a0 a1 a2 a3 a4 a5 a6 a7 a8 a9 a10 a11 := by
  unfold Cert.ReferenceIdeal.HandRun.R3 out3
  rw [ref_out2]
  exact ref_layer2 _ a1 a2 a3 a4 a5 a6 a7 a8 a9 a10 a11

theorem ref_out4 : Cert.ReferenceIdeal.HandRun.R4 (F := Ideal) a0 a1 a2 a3 a4 a5 a6 a7 a8 a9 a10 a11 = out4 a0 a1 a2 a3 a4 a5 a6 a7 a8 a9 a10 a11 := by
  unfold Cert.ReferenceIdeal.HandRun.R4 out4
  rw [ref_out3]
  exact ref_layer3 _ a1 a2 a3 a4 a5 a6 a7 a8 a9 a10 a11

theorem ref_out5 : Cert.ReferenceIdeal.HandRun.R5 (F := Ideal) a0 a1 a2 a3 a4 a5 a6 a7 a8 a9 a10 a11 = out5 a0 a1 a2 a3 a4 a5 a6 a7 a8 a9 a10 a11 := by
  unfold Cert.ReferenceIdeal.HandRun.R5 out5
  rw [ref_out4]
  exact ref_layer4 _ a1 a2 a3 a4 a5 a6 a7 a8 a9 a10 a11

end

/-! ## The claims -/

theorem frame_k : Cert.frame_Kernel := fun m ρ _ => Cert.Kernel.Gen.frame m ρ

theorem frame_ki : Cert.frame_KernelIdeal := fun m ρ _ => Cert.KernelIdeal.Gen.frame m ρ

/-- The reference's run, its results dropped. -/
theorem frame_ri : Cert.frame_ReferenceIdeal := fun m ρ _ =>
  (θ_run Cert.ReferenceIdeal.defs _ _).mono (fun _ h c => (h c).2.2.2.2.2.2) (Cert.ReferenceIdeal.HandRun.run_results (F := Ideal) m ρ)

/-- Both programs end with x and the chain's five arrays of the launch arguments: the kernel program by its regions,
    the reference by its host operations, from memories that agree on the arguments. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0), fun c => Cert.KernelIdeal.Gen.W15 m ρ c (Proc.devRef .tc Cert.KernelIdeal.main_v29),
    fun c => Cert.KernelIdeal.Gen.W15 m ρ c (Proc.devRef .tc Cert.KernelIdeal.main_v59),
    fun c => Cert.KernelIdeal.Gen.W15 m ρ c (Proc.devRef .tc Cert.KernelIdeal.main_v89),
    fun c => Cert.KernelIdeal.Gen.W15 m ρ c (Proc.devRef .tc Cert.KernelIdeal.main_v119),
    fun c => Cert.KernelIdeal.Gen.W15 m ρ c (Proc.devRef .tc Cert.KernelIdeal.main_v149),
    Cert.KernelIdeal.ValRun.run_results (F := Ideal) m ρ, ?_⟩
  refine (θ_run Cert.ReferenceIdeal.defs _ _).mono (fun _ h c => ?_) (Cert.ReferenceIdeal.HandRun.run_results (F := Ideal) m' ρ')
  obtain ⟨g0, g1, g2, g3, g4, g5, g6, g7, g8, g9, g10, g11⟩ := hagree c
  obtain ⟨h0, h1, h2, h3, h4, h5, hargs⟩ := h c
  refine ⟨h0.trans g0, h1.trans ?_, h2.trans ?_, h3.trans ?_, h4.trans ?_, h5.trans ?_, hargs⟩
  · rw [g0, g1, g2, g3, g4, g5, g6, g7, g8, g9, g10, g11]
    exact (ref_out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).trans (kout1 m ρ c).symm
  · rw [g0, g1, g2, g3, g4, g5, g6, g7, g8, g9, g10, g11]
    exact (ref_out2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).trans (kout2 m ρ c).symm
  · rw [g0, g1, g2, g3, g4, g5, g6, g7, g8, g9, g10, g11]
    exact (ref_out3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).trans (kout3 m ρ c).symm
  · rw [g0, g1, g2, g3, g4, g5, g6, g7, g8, g9, g10, g11]
    exact (ref_out4 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).trans (kout4 m ρ c).symm
  · rw [g0, g1, g2, g3, g4, g5, g6, g7, g8, g9, g10, g11]
    exact (ref_out5 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).trans (kout5 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
